-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4096 : Shape := ⟨2, ![50000, 4096]⟩
abbrev S50000x64 : Shape := ⟨2, ![50000, 64]⟩
abbrev S2x1600000 : Shape := ⟨2, ![2, 1600000]⟩
abbrev S64 : Shape := ⟨1, ![64]⟩
abbrev S4096 : Shape := ⟨1, ![4096]⟩
abbrev S64x128 : Shape := ⟨2, ![64, 128]⟩
abbrev S128 : Shape := ⟨1, ![128]⟩
abbrev S4096x128 : Shape := ⟨2, ![4096, 128]⟩
abbrev S256x128 : Shape := ⟨2, ![256, 128]⟩
abbrev S128x10 : Shape := ⟨2, ![128, 10]⟩
abbrev S10 : Shape := ⟨1, ![10]⟩
abbrev S_ : Shape := ⟨0, ![]⟩

class Facts : Prop where
  bcast_S_S50000x4096 : S_.BroadcastsInDim S50000x4096 (![] : Fin 0 → Fin S50000x4096.rank)
  reducesTo_S50000x4096_S_d0_1 : S50000x4096.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64 : S_.BroadcastsInDim S64 (![] : Fin 0 → Fin S64.rank)
  reducesTo_S64_S_d0 : S64.ReducesTo [0] S_
  bcast_S_S4096 : S_.BroadcastsInDim S4096 (![] : Fin 0 → Fin S4096.rank)
  reducesTo_S4096_S_d0 : S4096.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S4096x128 : S_.BroadcastsInDim S4096x128 (![] : Fin 0 → Fin S4096x128.rank)
  reducesTo_S4096x128_S_d0_1 : S4096x128.ReducesTo [0, 1] S_
  bcast_S_S256x128 : S_.BroadcastsInDim S256x128 (![] : Fin 0 → Fin S256x128.rank)
  reducesTo_S256x128_S_d0_1 : S256x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg19 : FVec F S10 .f32) (main_v83 : IVec S_ 1) (main_v84 : FVec F S128x10 .f32) (main_cst_32 : FVec F S_ .f32) : IVec S_ 1 :=
  let main_v85 : FVec F S128x10 .f32 := broadcastInDim S128x10 ![] bcast_S_S128x10 main_cst_32
  let main_v86 : IVec S128x10 1 := cmpf .olt main_v84 main_v85
  let main_c_33 : IVec S_ 1 := constantI S_ 1 1#1
  let main_v87 : IVec S_ 1 := (fun x v => Host.reduce IntOp.andi x v reducesTo_S128x10_S_d0_1 h_S_) main_v86 main_c_33
  let main_v88 : IVec S_ 1 := andi main_v83 main_v87
  let main_v89 : FVec F S10 .f32 := Host.absf main_arg19
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  main_v93

def fn_part4 {F : FTy → Type} [FloatOps F] (main_arg15 : FVec F S128 .f32) (main_arg16 : FVec F S256x128 .f32) (main_arg17 : FVec F S128 .f32) (main_arg18 : FVec F S128x10 .f32) (main_arg19 : FVec F S10 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S256x128 .f32 := Host.absf main_arg16
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x10 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S4096x128 .f32) (main_arg13 : FVec F S128 .f32) (main_arg14 : FVec F S128 .f32) (main_arg15 : FVec F S128 .f32) (main_arg16 : FVec F S256x128 .f32) (main_arg17 : FVec F S128 .f32) (main_arg18 : FVec F S128x10 .f32) (main_arg19 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S4096x128 .f32 := Host.absf main_arg12
  let main_cst_20 : FVec F S_ .f32 := constant S_ .f32 0x7F800000#32
  let main_v55 : FVec F S4096x128 .f32 := broadcastInDim S4096x128 ![] bcast_S_S4096x128 main_cst_20
  let main_v56 : IVec S4096x128 1 := cmpf .olt main_v54 main_v55
  let main_c_21 : IVec S_ 1 := constantI S_ 1 1#1
  let main_v57 : IVec S_ 1 := (fun x v => Host.reduce IntOp.andi x v reducesTo_S4096x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_v63 main_v67

def fn_part2 {F : FTy → Type} [FloatOps F] (main_arg8 : FVec F S64x128 .f32) (main_arg9 : FVec F S128 .f32) (main_arg10 : FVec F S128 .f32) (main_arg11 : FVec F S128 .f32) (main_arg12 : FVec F S4096x128 .f32) (main_arg13 : FVec F S128 .f32) (main_arg14 : FVec F S128 .f32) (main_arg15 : FVec F S128 .f32) (main_arg16 : FVec F S256x128 .f32) (main_arg17 : FVec F S128 .f32) (main_arg18 : FVec F S128x10 .f32) (main_arg19 : FVec F S10 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S64 .f32) (main_arg6 : FVec F S4096 .f32) (main_arg7 : FVec F S4096 .f32) (main_arg8 : FVec F S64x128 .f32) (main_arg9 : FVec F S128 .f32) (main_arg10 : FVec F S128 .f32) (main_arg11 : FVec F S128 .f32) (main_arg12 : FVec F S4096x128 .f32) (main_arg13 : FVec F S128 .f32) (main_arg14 : FVec F S128 .f32) (main_arg15 : FVec F S128 .f32) (main_arg16 : FVec F S256x128 .f32) (main_arg17 : FVec F S128 .f32) (main_arg18 : FVec F S128x10 .f32) (main_arg19 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg7
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S50000x4096 .f32) (main_arg1 : FVec F S50000x64 .f32) (main_arg2 : FVec F S50000x4096 .f32) (main_arg3 : IVec S2x1600000 32) (main_arg4 : FVec F S64 .f32) (main_arg5 : FVec F S64 .f32) (main_arg6 : FVec F S4096 .f32) (main_arg7 : FVec F S4096 .f32) (main_arg8 : FVec F S64x128 .f32) (main_arg9 : FVec F S128 .f32) (main_arg10 : FVec F S128 .f32) (main_arg11 : FVec F S128 .f32) (main_arg12 : FVec F S4096x128 .f32) (main_arg13 : FVec F S128 .f32) (main_arg14 : FVec F S128 .f32) (main_arg15 : FVec F S128 .f32) (main_arg16 : FVec F S256x128 .f32) (main_arg17 : FVec F S128 .f32) (main_arg18 : FVec F S128x10 .f32) (main_arg19 : FVec F S10 .f32) : IVec S_ 1 :=
  let main_v0 : FVec F S50000x4096 .f32 := Host.absf main_arg0
  let main_cst : FVec F S_ .f32 := constant S_ .f32 0x7F800000#32
  let main_v1 : FVec F S50000x4096 .f32 := broadcastInDim S50000x4096 ![] bcast_S_S50000x4096 main_cst
  let main_v2 : IVec S50000x4096 1 := cmpf .olt main_v0 main_v1
  let main_c : IVec S_ 1 := constantI S_ 1 1#1
  let main_v3 : IVec S_ 1 := (fun x v => Host.reduce IntOp.andi x v reducesTo_S50000x4096_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x4096 .f32 := Host.absf main_arg2
  let main_cst_2 : FVec F S_ .f32 := constant S_ .f32 0x7F800000#32
  let main_v10 : FVec F S50000x4096 .f32 := broadcastInDim S50000x4096 ![] bcast_S_S50000x4096 main_cst_2
  let main_v11 : IVec S50000x4096 1 := cmpf .olt main_v9 main_v10
  let main_c_3 : IVec S_ 1 := constantI S_ 1 1#1
  let main_v12 : IVec S_ 1 := (fun x v => Host.reduce IntOp.andi x v reducesTo_S50000x4096_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S50000x4096 : Shape := ⟨2, ![50000, 4096]⟩
abbrev S50000x64 : Shape := ⟨2, ![50000, 64]⟩
abbrev S2x1600000 : Shape := ⟨2, ![2, 1600000]⟩
abbrev S64 : Shape := ⟨1, ![64]⟩
abbrev S4096 : Shape := ⟨1, ![4096]⟩
abbrev S64x128 : Shape := ⟨2, ![64, 128]⟩
abbrev S128 : Shape := ⟨1, ![128]⟩
abbrev S4096x128 : Shape := ⟨2, ![4096, 128]⟩
abbrev S256x128 : Shape := ⟨2, ![256, 128]⟩
abbrev S128x10 : Shape := ⟨2, ![128, 10]⟩
abbrev S10 : Shape := ⟨1, ![10]⟩
abbrev S1x64 : Shape := ⟨2, ![1, 64]⟩
abbrev S5000x64 : Shape := ⟨2, ![5000, 64]⟩
abbrev S_ : Shape := ⟨0, ![]⟩
abbrev S1x4096 : Shape := ⟨2, ![1, 4096]⟩
abbrev S1000x4096 : Shape := ⟨2, ![1000, 4096]⟩
abbrev S1x128 : Shape := ⟨2, ![1, 128]⟩
abbrev S50000x128 : Shape := ⟨2, ![50000, 128]⟩
abbrev S5000x128 : Shape := ⟨2, ![5000, 128]⟩
abbrev S1000x128 : Shape := ⟨2, ![1000, 128]⟩
abbrev S128x128 : Shape := ⟨2, ![128, 128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S1650000x1 : Shape := ⟨2, ![1650000, 1]⟩
abbrev S1650000x128 : Shape := ⟨2, ![1650000, 128]⟩
abbrev S1x10 : Shape := ⟨2, ![1, 10]⟩
abbrev S50000x10 : Shape := ⟨2, ![50000, 10]⟩
abbrev S5000x10 : Shape := ⟨2, ![5000, 10]⟩
abbrev S5000 : Shape := ⟨1, ![5000]⟩
abbrev S5000x1 : Shape := ⟨2, ![5000, 1]⟩

abbrev nBuf : Space → Nat
  | .hbm => 141
  | .vmem => 59
  | .smem => 0
  | _ => 0

abbrev hbmTy0_0 (i : Nat) : BufTy := match i % 128 with
  | 0 => ⟨S50000x4096, .f32⟩
  | 1 => ⟨S50000x64, .f32⟩
  | 2 => ⟨S50000x4096, .f32⟩
  | 3 => ⟨S2x1600000, .i32⟩
  | 4 => ⟨S64, .f32⟩
  | 5 => ⟨S64, .f32⟩
  | 6 => ⟨S4096, .f32⟩
  | 7 => ⟨S4096, .f32⟩
  | 8 => ⟨S64x128, .f32⟩
  | 9 => ⟨S128, .f32⟩
  | 10 => ⟨S128, .f32⟩
  | 11 => ⟨S128, .f32⟩
  | 12 => ⟨S4096x128, .f32⟩
  | 13 => ⟨S128, .f32⟩
  | 14 => ⟨S128, .f32⟩
  | 15 => ⟨S128, .f32⟩
  | 16 => ⟨S256x128, .f32⟩
  | 17 => ⟨S128, .f32⟩
  | 18 => ⟨S128x10, .f32⟩
  | 19 => ⟨S10, .f32⟩
  | 20 => ⟨S1x64, .f32⟩
  | 21 => ⟨S1x64, .f32⟩
  | 22 => ⟨S_, .f32⟩
  | 23 => ⟨S1x64, .f32⟩
  | 24 => ⟨S1x64, .f32⟩
  | 25 => ⟨S_, .f32⟩
  | 26 => ⟨S1x64, .f32⟩
  | 27 => ⟨S1x64, .f32⟩
  | 28 => ⟨S1x64, .f32⟩
  | 29 => ⟨S1x64, .f32⟩
  | 30 => ⟨S1x4096, .f32⟩
  | 31 => ⟨S1x4096, .f32⟩
  | 32 => ⟨S_, .f32⟩
  | 33 => ⟨S1x4096, .f32⟩
  | 34 => ⟨S1x4096, .f32⟩
  | 35 => ⟨S_, .f32⟩
  | 36 => ⟨S1x4096, .f32⟩
  | 37 => ⟨S1x4096, .f32⟩
  | 38 => ⟨S1x4096, .f32⟩
  | 39 => ⟨S1x4096, .f32⟩
  | 40 => ⟨S1x64, .f32⟩
  | 41 => ⟨S1x64, .f32⟩
  | 42 => ⟨S1x4096, .f32⟩
  | 43 => ⟨S1x4096, .f32⟩
  | 44 => ⟨S64x128, .bf16⟩
  | 45 => ⟨S4096x128, .bf16⟩
  | 46 => ⟨S1x128, .f32⟩
  | 47 => ⟨S1x128, .f32⟩
  | 48 => ⟨S50000x128, .f32⟩
  | 49 => ⟨S50000x128, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S_, .f32⟩
  | 56 => ⟨S1x128, .f32⟩
  | 57 => ⟨S1x128, .f32⟩
  | 58 => ⟨S1x128, .f32⟩
  | 59 => ⟨S1x128, .f32⟩
  | 60 => ⟨S1x128, .f32⟩
  | 61 => ⟨S1x128, .f32⟩
  | 62 => ⟨S_, .f32⟩
  | 63 => ⟨S1x128, .f32⟩
  | 64 => ⟨S1x128, .f32⟩
  | 65 => ⟨S_, .f32⟩
  | 66 => ⟨S1x128, .f32⟩
  | 67 => ⟨S1x128, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S256x128, .bf16⟩
  | 75 => ⟨S128x128, .bf16⟩
  | 76 => ⟨S128x128, .bf16⟩
  | 77 => ⟨S50000x128, .f32⟩
  | 78 => ⟨S50000, .i32⟩
  | 79 => ⟨S1x1600000, .i32⟩
  | 80 => ⟨S1600000, .i32⟩
  | 81 => ⟨S1650000, .i32⟩
  | 82 => ⟨S1x1600000, .i32⟩
  | 83 => ⟨S1600000, .i32⟩
  | 84 => ⟨S1650000, .i32⟩
  | 85 => ⟨S_, .f32⟩
  | 86 => ⟨S1650000, .f32⟩
  | 87 => ⟨S_, .f32⟩
  | 88 => ⟨S50000, .f32⟩
  | 89 => ⟨S1650000x1, .i32⟩
  | 90 => ⟨S50000, .f32⟩
  | 91 => ⟨S_, .f32⟩
  | 92 => ⟨S50000, .f32⟩
  | 93 => ⟨S50000, .i1⟩
  | 94 => ⟨S_, .f32⟩
  | 95 => ⟨S50000, .f32⟩
  | 96 => ⟨S50000, .f32⟩
  | 97 => ⟨S50000, .f32⟩
  | 98 => ⟨S_, .f32⟩
  | 99 => ⟨S_, .f32⟩
  | 100 => ⟨S50000, .f32⟩
  | 101 => ⟨S50000, .f32⟩
  | 102 => ⟨S_, .i32⟩
  | 103 => ⟨S1650000, .i32⟩
  | 104 => ⟨S1650000, .i1⟩
  | 105 => ⟨S_, .i32⟩
  | 106 => ⟨S1650000, .i32⟩
  | 107 => ⟨S1650000, .i32⟩
  | 108 => ⟨S1650000, .i32⟩
  | 109 => ⟨S1650000x1, .i32⟩
  | 110 => ⟨S1650000, .f32⟩
  | 111 => ⟨S_, .i32⟩
  | 112 => ⟨S1650000, .i32⟩
  | 113 => ⟨S1650000, .i1⟩
  | 114 => ⟨S_, .i32⟩
  | 115 => ⟨S1650000, .i32⟩
  | 116 => ⟨S1650000, .i32⟩
  | 117 => ⟨S1650000, .i32⟩
  | 118 => ⟨S1650000x1, .i32⟩
  | 119 => ⟨S1650000, .f32⟩
  | 120 => ⟨S1650000, .f32⟩
  | 121 => ⟨S_, .i32⟩
  | 122 => ⟨S1650000, .i32⟩
  | 123 => ⟨S1650000, .i1⟩
  | 124 => ⟨S_, .i32⟩
  | 125 => ⟨S1650000, .i32⟩
  | 126 => ⟨S1650000, .i32⟩
  | 127 => ⟨S1650000, .i32⟩
  | _ => ⟨S50000x4096, .f32⟩

abbrev hbmTy0_1 (i : Nat) : BufTy := match i % 128 with
  | 0 => ⟨S1650000x1, .i32⟩
  | 1 => ⟨S1650000x128, .f32⟩
  | 2 => ⟨S1650000x1, .f32⟩
  | 3 => ⟨S1650000x128, .f32⟩
  | 4 => ⟨S1650000x128, .f32⟩
  | 5 => ⟨S_, .f32⟩
  | 6 => ⟨S50000x128, .f32⟩
  | 7 => ⟨S1650000x1, .i32⟩
  | 8 => ⟨S50000x128, .f32⟩
  | 9 => ⟨S1x128, .f32⟩
  | 10 => ⟨S128x10, .bf16⟩
  | 11 => ⟨S1x10, .f32⟩
  | 12 => ⟨S50000x10, .f32⟩
  | _ => ⟨S50000x4096, .f32⟩

abbrev hbmTy (i : Nat) : BufTy := match i / 128 with
  | 0 => hbmTy0_0 i
  | 1 => hbmTy0_1 i
  | _ => ⟨S50000x4096, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S1x64, .f32⟩
  | .local _ .vmem, ⟨3, _⟩ => ⟨S1x64, .f32⟩
  | .local _ .vmem, ⟨4, _⟩ => ⟨S1000x4096, .f32⟩
  | .local _ .vmem, ⟨5, _⟩ => ⟨S1000x4096, .f32⟩
  | .local _ .vmem, ⟨6, _⟩ => ⟨S1x4096, .f32⟩
  | .local _ .vmem, ⟨7, _⟩ => ⟨S1x4096, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S64x128, .bf16⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1000x4096, .f32⟩
  | .local _ .vmem, ⟨19, _⟩ => ⟨S1000x4096, .f32⟩
  | .local _ .vmem, ⟨20, _⟩ => ⟨S1x4096, .f32⟩
  | .local _ .vmem, ⟨21, _⟩ => ⟨S1x4096, .f32⟩
  | .local _ .vmem, ⟨22, _⟩ => ⟨S1x4096, .f32⟩
  | .local _ .vmem, ⟨23, _⟩ => ⟨S1x4096, .f32⟩
  | .local _ .vmem, ⟨24, _⟩ => ⟨S4096x128, .bf16⟩
  | .local _ .vmem, ⟨25, _⟩ => ⟨S1x128, .f32⟩
  | .local _ .vmem, ⟨26, _⟩ => ⟨S1000x128, .f32⟩
  | .local _ .vmem, ⟨27, _⟩ => ⟨S1000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S128x128, .bf16⟩
  | .local _ .vmem, ⟨49, _⟩ => ⟨S128x128, .bf16⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S128x10, .bf16⟩
  | .local _ .vmem, ⟨56, _⟩ => ⟨S1x10, .f32⟩
  | .local _ .vmem, ⟨57, _⟩ => ⟨S5000x10, .f32⟩
  | .local _ .vmem, ⟨58, _⟩ => ⟨S5000x10, .f32⟩
  | _, _ => ⟨S50000x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_cst_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7_0 : Ref sig .tc := ⟨.hbm, 30, rfl⟩
abbrev main_v7_1 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24_0 : Ref sig .tc := ⟨.hbm, 50, rfl⟩
abbrev main_v24_1 : Ref sig .tc := ⟨.hbm, 51, rfl⟩
abbrev main_cst_3 : Ref sig .tc := ⟨.hbm, 52, rfl⟩
abbrev main_v25 : Ref sig .tc := ⟨.hbm, 53, rfl⟩
abbrev main_v26 : Ref sig .tc := ⟨.hbm, 54, rfl⟩
abbrev main_cst_4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31_0 : Ref sig .tc := ⟨.hbm, 60, rfl⟩
abbrev main_v31_1 : Ref sig .tc := ⟨.hbm, 61, rfl⟩
abbrev main_cst_5 : Ref sig .tc := ⟨.hbm, 62, rfl⟩
abbrev main_v32 : Ref sig .tc := ⟨.hbm, 63, rfl⟩
abbrev main_v33 : Ref sig .tc := ⟨.hbm, 64, rfl⟩
abbrev main_cst_6 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_7 : Ref sig .tc := ⟨.hbm, 85, rfl⟩
abbrev main_v53 : Ref sig .tc := ⟨.hbm, 86, rfl⟩
abbrev main_cst_8 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_9 : Ref sig .tc := ⟨.hbm, 91, rfl⟩
abbrev main_v57 : Ref sig .tc := ⟨.hbm, 92, rfl⟩
abbrev main_v58 : Ref sig .tc := ⟨.hbm, 93, rfl⟩
abbrev main_cst_10 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_11 : Ref sig .tc := ⟨.hbm, 98, rfl⟩
abbrev main_call0_v0 : Ref sig .tc := ⟨.hbm, 99, rfl⟩
abbrev main_call0_v1 : Ref sig .tc := ⟨.hbm, 100, rfl⟩
abbrev main_v62 : Ref sig .tc := ⟨.hbm, 101, rfl⟩
abbrev main_c : Ref sig .tc := ⟨.hbm, 102, rfl⟩
abbrev main_v63 : Ref sig .tc := ⟨.hbm, 103, rfl⟩
abbrev main_v64 : Ref sig .tc := ⟨.hbm, 104, rfl⟩
abbrev main_c_12 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_13 : Ref sig .tc := ⟨.hbm, 111, rfl⟩
abbrev main_v70 : Ref sig .tc := ⟨.hbm, 112, rfl⟩
abbrev main_v71 : Ref sig .tc := ⟨.hbm, 113, rfl⟩
abbrev main_c_14 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_15 : Ref sig .tc := ⟨.hbm, 121, rfl⟩
abbrev main_v78 : Ref sig .tc := ⟨.hbm, 122, rfl⟩
abbrev main_v79 : Ref sig .tc := ⟨.hbm, 123, rfl⟩
abbrev main_c_16 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_17 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg7_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg7_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg4_0 : Ref sig .tc := ⟨.vmem, 41, rfl⟩
abbrev cc6_stg5_0 : Ref sig .tc := ⟨.vmem, 42, rfl⟩
abbrev cc6_stg5_1 : Ref sig .tc := ⟨.vmem, 43, rfl⟩
abbrev cc6_stg6_0 : Ref sig .tc := ⟨.vmem, 44, rfl⟩
abbrev cc6_stg7_0 : Ref sig .tc := ⟨.vmem, 45, rfl⟩
abbrev cc6_stg8_0 : Ref sig .tc := ⟨.vmem, 46, rfl⟩
abbrev cc6_stg9_0 : Ref sig .tc := ⟨.vmem, 47, rfl⟩
abbrev cc6_stg10_0 : Ref sig .tc := ⟨.vmem, 48, rfl⟩
abbrev cc6_stg11_0 : Ref sig .tc := ⟨.vmem, 49, rfl⟩
abbrev cc6_stg12_0 : Ref sig .tc := ⟨.vmem, 50, rfl⟩
abbrev cc6_stg12_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg4_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem6_0 : DmaSem sig := 15
abbrev cc2_sem7_0 : DmaSem sig := 16
abbrev cc2_sem7_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem7_0 : DmaSem sig := 26
abbrev cc3_sem7_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem4_0 : DmaSem sig := 41
abbrev cc6_sem5_0 : DmaSem sig := 42
abbrev cc6_sem5_1 : DmaSem sig := 43
abbrev cc6_sem6_0 : DmaSem sig := 44
abbrev cc6_sem7_0 : DmaSem sig := 45
abbrev cc6_sem8_0 : DmaSem sig := 46
abbrev cc6_sem9_0 : DmaSem sig := 47
abbrev cc6_sem10_0 : DmaSem sig := 48
abbrev cc6_sem11_0 : DmaSem sig := 49
abbrev cc6_sem12_0 : DmaSem sig := 50
abbrev cc6_sem12_1 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem3_0 : DmaSem sig := 56
abbrev cc7_sem4_0 : DmaSem sig := 57
abbrev cc7_sem4_1 : DmaSem sig := 58

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4096 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x4096 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x4096 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S4096x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S128x128 .bf16 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S128x128 .bf16 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 2 → Memref sig .tc .vmem S5000x128 .f32 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128x10 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x10 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x10 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bcast_S_S1x64 : S_.BroadcastsInDim S1x64 (![] : Fin 0 → Fin S1x64.rank)
  inb_S1000x4096_S1000x4096_0_0 : ∀ a, (![0, 0] : Fin 2 → Nat) a + S1000x4096.size a ≤ S1000x4096.size a
  h_S1000x4096 : 0 < S1000x4096.numel
  reduces_S1000x4096_S4096 : S1000x4096.Reduces [0] S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  bcast_S_S1x4096 : S_.BroadcastsInDim S1x4096 (![] : Fin 0 → Fin S1x4096.rank)
  bitsLt_bf16_f32 : FTy.bits .bf16 < FTy.bits .f32
  shapeCasts_S128_S1x128 : S128.ShapeCasts S1x128
  broadcasts_S1x64_S5000x64 : S1x64.Broadcasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  broadcasts_S1x4096_S1000x4096 : S1x4096.Broadcasts S1000x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  shapeCasts_S5000x128_S5000x128 : S5000x128.ShapeCasts S5000x128
  reduces_S5000x128_S128 : S5000x128.Reduces [0] S128
  bcast_S_S1x128 : S_.BroadcastsInDim S1x128 (![] : Fin 0 → Fin S1x128.rank)
  slices_S256x128_S128x128_0_0 : S256x128.Slices ![0, 0] S128x128
  slices_S256x128_S128x128_128_0 : S256x128.Slices ![128, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S10_S1x10 : S10.ShapeCasts S1x10
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  dot_S5000x64_S64x128_S5000x128_1_0_0_1_n_n_wf : DotDims.WF S5000x64 S64x128 S5000x128 [1] [0] [0] [1] [] []
  dot_S1000x4096_S4096x128_S1000x128_1_0_0_1_n_n_wf : DotDims.WF S1000x4096 S4096x128 S1000x128 [1] [0] [0] [1] [] []
  dot_S5000x128_S128x128_S5000x128_1_0_0_1_n_n_wf : DotDims.WF S5000x128 S128x128 S5000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x10_S5000x10_1_0_0_1_n_n_wf : DotDims.WF S5000x128 S128x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x4096.size a ≤ S50000x4096.size a
  hwx1_0 : ∀ i : grid1.Coords, EltTy.bits .f32 = 32 ∨ (Rect.block (s := S50000x4096) S1000x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x128.size a ≤ S64x128.size a
  hwx2_5 : ∀ i : grid2.Coords, EltTy.bits .bf16 = 32 ∨ (Rect.block (s := S64x128) S64x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x4096.size a ≤ S50000x4096.size a
  hwx3_0 : ∀ i : grid3.Coords, EltTy.bits .f32 = 32 ∨ (Rect.block (s := S50000x4096) S1000x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x4096.size a ≤ S1x4096.size a
  hwx3_1 : ∀ i : grid3.Coords, EltTy.bits .f32 = 32 ∨ (Rect.block (s := S1x4096) S1x4096.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4096.size a ≤ S1x4096.size a
  hwx3_2 : ∀ i : grid3.Coords, EltTy.bits .f32 = 32 ∨ (Rect.block (s := S1x4096) S1x4096.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x4096.size a ≤ S1x4096.size a
  hwx3_3 : ∀ i : grid3.Coords, EltTy.bits .f32 = 32 ∨ (Rect.block (s := S1x4096) S1x4096.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x4096.size a ≤ S1x4096.size a
  hwx3_4 : ∀ i : grid3.Coords, EltTy.bits .f32 = 32 ∨ (Rect.block (s := S1x4096) S1x4096.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S4096x128.size a ≤ S4096x128.size a
  hwx3_5 : ∀ i : grid3.Coords, EltTy.bits .bf16 = 32 ∨ (Rect.block (s := S4096x128) S4096x128.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1000x128.size a ≤ S50000x128.size a
  hwx3_7 : ∀ i : grid3.Coords, EltTy.bits .f32 = 32 ∨ (Rect.block (s := S50000x128) S1000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x128.size a ≤ S1x128.size a
  hwx6_9 : ∀ i : grid6.Coords, EltTy.bits .f32 = 32 ∨ (Rect.block (s := S1x128) S1x128.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S128x128.size a ≤ S128x128.size a
  hwx6_10 : ∀ i : grid6.Coords, EltTy.bits .bf16 = 32 ∨ (Rect.block (s := S128x128) S128x128.size (cc6_transform_10 i) (hinb6_10 i)).WholeWords (EltTy.packing .bf16)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S128x128.size a ≤ S128x128.size a
  hwx6_11 : ∀ i : grid6.Coords, EltTy.bits .bf16 = 32 ∨ (Rect.block (s := S128x128) S128x128.size (cc6_transform_11 i) (hinb6_11 i)).WholeWords (EltTy.packing .bf16)
  hstage6_12 : ∀ j, (stage6_12 j).IsWhole
  nbuf6_12 : grid6.bufCount reads6_12 false = 2
  hreads6_12 : ∀ i i' : grid6.Coords, (∀ a, reads6_12 a = true → i a = i' a) → cc6_transform_12 i = cc6_transform_12 i'
  hinb6_12 : ∀ (i : grid6.Coords) a, (cc6_transform_12 i a + 1) * S5000x128.size a ≤ S50000x128.size a
  hwx6_12 : ∀ i : grid6.Coords, EltTy.bits .f32 = 32 ∨ (Rect.block (s := S50000x128) S5000x128.size (cc6_transform_12 i) (hinb6_12 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x10.size a ≤ S128x10.size a
  hwx7_2 : ∀ i : grid7.Coords, EltTy.bits .bf16 = 32 ∨ (Rect.block (s := S128x10) S128x10.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x10.size a ≤ S1x10.size a
  hwx7_3 : ∀ i : grid7.Coords, EltTy.bits .f32 = 32 ∨ (Rect.block (s := S1x10) S1x10.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x10.size a ≤ S50000x10.size a
  hwx7_4 : ∀ i : grid7.Coords, EltTy.bits .f32 = 32 ∨ (Rect.block (s := S50000x10) S5000x10.size (cc7_transform_4 i) (hinb7_4 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S1000x4096_S4096x128_S1000x128_1_0_0_1_n_n : DotDims S1000x4096 S4096x128 S1000x128 where
  lhsContracting := [1]
  rhsContracting := [0]
  lhsNonContracting := [0]
  rhsNonContracting := [1]
  lhsBatch := []
  rhsBatch := []
  wf := dot_S1000x4096_S4096x128_S1000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x64.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1000x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_0) S1x4096.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7_1) S1x4096.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S64x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v22) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg2) S1000x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S1x4096.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v13) S1x4096.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16) S1x4096.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v17) S1x4096.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v19) S4096x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v21) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v23) S1000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v22) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v24_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v23) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31_0) S1x128.size cc5_transform_1 reads5_1 true true 1 stage5_1 sem5_1
    hrank5 hreads5_1 hinb5_1 nbuf5_1 (Memref.isWhole_whole _) hwx5_1 hstage5_1

abbrev win5_2 : Pipeline.Window sig grid5 :=
  Pipeline.Window.ofSpec (Memref.whole main_v31_1) S1x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v23) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v33) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v37) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v40) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v41) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v22) S5000x128.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v26) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v30) S1x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v38) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v39) S1x128.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v43) S128x128.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v44) S128x128.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v45) S5000x128.size cc6_transform_12 reads6_12 true false 2 stage6_12 sem6_12
    hrank6 hreads6_12 hinb6_12 nbuf6_12 (Memref.isWhole_whole _) hwx6_12 hstage6_12

abbrev win6 : Fin 13 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | ⟨_ + 13, h⟩ => absurd h (Nat.not_lt.2 (Nat.le_add_left _ _))
abbrev spec6 : Fin 13 → Pipeline.WinSpec sig grid6.rank := fun w => (win6 w).toWinSpec

abbrev win7_0 : Pipeline.Window sig grid7 :=
  Pipeline.Window.ofSpec (Memref.whole main_v90) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v91) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v92) S128x10.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v93) S1x10.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v94) S5000x10.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S50000x4096 : Shape := ⟨2, ![50000, 4096]⟩
abbrev S50000x64 : Shape := ⟨2, ![50000, 64]⟩
abbrev S2x1600000 : Shape := ⟨2, ![2, 1600000]⟩
abbrev S64 : Shape := ⟨1, ![64]⟩
abbrev S4096 : Shape := ⟨1, ![4096]⟩
abbrev S64x128 : Shape := ⟨2, ![64, 128]⟩
abbrev S128 : Shape := ⟨1, ![128]⟩
abbrev S4096x128 : Shape := ⟨2, ![4096, 128]⟩
abbrev S256x128 : Shape := ⟨2, ![256, 128]⟩
abbrev S128x10 : Shape := ⟨2, ![128, 10]⟩
abbrev S10 : Shape := ⟨1, ![10]⟩
abbrev S_ : Shape := ⟨0, ![]⟩
abbrev S1x64 : Shape := ⟨2, ![1, 64]⟩
abbrev S50000x128 : Shape := ⟨2, ![50000, 128]⟩
abbrev S1x128 : Shape := ⟨2, ![1, 128]⟩
abbrev S1x4096 : Shape := ⟨2, ![1, 4096]⟩
abbrev S50000x256 : Shape := ⟨2, ![50000, 256]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S1650000x1 : Shape := ⟨2, ![1650000, 1]⟩
abbrev S1650000x128 : Shape := ⟨2, ![1650000, 128]⟩
abbrev S50000x10 : Shape := ⟨2, ![50000, 10]⟩
abbrev S1x10 : Shape := ⟨2, ![1, 10]⟩
abbrev S50000x1 : Shape := ⟨2, ![50000, 1]⟩

abbrev nBuf : Space → Nat
  | .hbm => 294
  | .vmem => 0
  | .smem => 0
  | _ => 0

abbrev hbmTy0_0 (i : Nat) : BufTy := match i % 128 with
  | 0 => ⟨S50000x4096, .f32⟩
  | 1 => ⟨S50000x64, .f32⟩
  | 2 => ⟨S50000x4096, .f32⟩
  | 3 => ⟨S2x1600000, .i32⟩
  | 4 => ⟨S64, .f32⟩
  | 5 => ⟨S64, .f32⟩
  | 6 => ⟨S4096, .f32⟩
  | 7 => ⟨S4096, .f32⟩
  | 8 => ⟨S64x128, .f32⟩
  | 9 => ⟨S128, .f32⟩
  | 10 => ⟨S128, .f32⟩
  | 11 => ⟨S128, .f32⟩
  | 12 => ⟨S4096x128, .f32⟩
  | 13 => ⟨S128, .f32⟩
  | 14 => ⟨S128, .f32⟩
  | 15 => ⟨S128, .f32⟩
  | 16 => ⟨S256x128, .f32⟩
  | 17 => ⟨S128, .f32⟩
  | 18 => ⟨S128x10, .f32⟩
  | 19 => ⟨S10, .f32⟩
  | 20 => ⟨S_, .f32⟩
  | 21 => ⟨S64, .f32⟩
  | 22 => ⟨S_, .f32⟩
  | 23 => ⟨S64, .f32⟩
  | 24 => ⟨S64, .f32⟩
  | 25 => ⟨S_, .i32⟩
  | 26 => ⟨S_, .f32⟩
  | 27 => ⟨S64, .f32⟩
  | 28 => ⟨S1x64, .f32⟩
  | 29 => ⟨S_, .f32⟩
  | 30 => ⟨S1x64, .f32⟩
  | 31 => ⟨S1x64, .f32⟩
  | 32 => ⟨S50000x64, .f32⟩
  | 33 => ⟨S50000x64, .f32⟩
  | 34 => ⟨S50000x64, .f32⟩
  | 35 => ⟨S_, .f32⟩
  | 36 => ⟨S_, .f32⟩
  | 37 => ⟨S_, .f32⟩
  | 38 => ⟨S_, .f32⟩
  | 39 => ⟨S64, .f32⟩
  | 40 => ⟨S64, .f32⟩
  | 41 => ⟨S64, .f32⟩
  | 42 => ⟨S_, .f32⟩
  | 43 => ⟨S_, .i1⟩
  | 44 => ⟨S_, .f32⟩
  | 45 => ⟨S_, .f32⟩
  | 46 => ⟨S64, .f32⟩
  | 47 => ⟨S64, .f32⟩
  | 48 => ⟨S1x64, .f32⟩
  | 49 => ⟨S50000x64, .f32⟩
  | 50 => ⟨S50000x64, .f32⟩
  | 51 => ⟨S_, .f32⟩
  | 52 => ⟨S64, .f32⟩
  | 53 => ⟨S64, .f32⟩
  | 54 => ⟨S64, .f32⟩
  | 55 => ⟨S1x64, .f32⟩
  | 56 => ⟨S50000x64, .f32⟩
  | 57 => ⟨S50000x64, .f32⟩
  | 58 => ⟨S1x64, .f32⟩
  | 59 => ⟨S50000x64, .f32⟩
  | 60 => ⟨S50000x64, .f32⟩
  | 61 => ⟨S1x64, .f32⟩
  | 62 => ⟨S50000x64, .f32⟩
  | 63 => ⟨S50000x64, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .f32⟩
  | 72 => ⟨S128, .f32⟩
  | 73 => ⟨S_, .f32⟩
  | 74 => ⟨S128, .f32⟩
  | 75 => ⟨S128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S50000x128, .f32⟩
  | 84 => ⟨S50000x128, .f32⟩
  | 85 => ⟨S50000x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S_, .f32⟩
  | 103 => ⟨S128, .f32⟩
  | 104 => ⟨S128, .f32⟩
  | 105 => ⟨S128, .f32⟩
  | 106 => ⟨S1x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S4096, .f32⟩
  | 117 => ⟨S_, .f32⟩
  | 118 => ⟨S4096, .f32⟩
  | 119 => ⟨S4096, .f32⟩
  | 120 => ⟨S_, .i32⟩
  | 121 => ⟨S_, .f32⟩
  | 122 => ⟨S4096, .f32⟩
  | 123 => ⟨S1x4096, .f32⟩
  | 124 => ⟨S_, .f32⟩
  | 125 => ⟨S1x4096, .f32⟩
  | 126 => ⟨S1x4096, .f32⟩
  | 127 => ⟨S50000x4096, .f32⟩
  | _ => ⟨S50000x4096, .f32⟩

abbrev hbmTy0_1 (i : Nat) : BufTy := match i % 128 with
  | 0 => ⟨S50000x4096, .f32⟩
  | 1 => ⟨S50000x4096, .f32⟩
  | 2 => ⟨S_, .f32⟩
  | 3 => ⟨S_, .f32⟩
  | 4 => ⟨S_, .f32⟩
  | 5 => ⟨S_, .f32⟩
  | 6 => ⟨S4096, .f32⟩
  | 7 => ⟨S4096, .f32⟩
  | 8 => ⟨S4096, .f32⟩
  | 9 => ⟨S_, .f32⟩
  | 10 => ⟨S_, .i1⟩
  | 11 => ⟨S_, .f32⟩
  | 12 => ⟨S_, .f32⟩
  | 13 => ⟨S4096, .f32⟩
  | 14 => ⟨S4096, .f32⟩
  | 15 => ⟨S1x4096, .f32⟩
  | 16 => ⟨S50000x4096, .f32⟩
  | 17 => ⟨S50000x4096, .f32⟩
  | 18 => ⟨S_, .f32⟩
  | 19 => ⟨S4096, .f32⟩
  | 20 => ⟨S4096, .f32⟩
  | 21 => ⟨S4096, .f32⟩
  | 22 => ⟨S1x4096, .f32⟩
  | 23 => ⟨S50000x4096, .f32⟩
  | 24 => ⟨S50000x4096, .f32⟩
  | 25 => ⟨S1x4096, .f32⟩
  | 26 => ⟨S50000x4096, .f32⟩
  | 27 => ⟨S50000x4096, .f32⟩
  | 28 => ⟨S1x4096, .f32⟩
  | 29 => ⟨S50000x4096, .f32⟩
  | 30 => ⟨S50000x4096, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S_, .f32⟩
  | 39 => ⟨S128, .f32⟩
  | 40 => ⟨S_, .f32⟩
  | 41 => ⟨S128, .f32⟩
  | 42 => ⟨S128, .f32⟩
  | 43 => ⟨S_, .i32⟩
  | 44 => ⟨S_, .f32⟩
  | 45 => ⟨S128, .f32⟩
  | 46 => ⟨S1x128, .f32⟩
  | 47 => ⟨S_, .f32⟩
  | 48 => ⟨S1x128, .f32⟩
  | 49 => ⟨S1x128, .f32⟩
  | 50 => ⟨S50000x128, .f32⟩
  | 51 => ⟨S50000x128, .f32⟩
  | 52 => ⟨S50000x128, .f32⟩
  | 53 => ⟨S_, .f32⟩
  | 54 => ⟨S_, .f32⟩
  | 55 => ⟨S_, .f32⟩
  | 56 => ⟨S_, .f32⟩
  | 57 => ⟨S128, .f32⟩
  | 58 => ⟨S128, .f32⟩
  | 59 => ⟨S128, .f32⟩
  | 60 => ⟨S_, .f32⟩
  | 61 => ⟨S_, .i1⟩
  | 62 => ⟨S_, .f32⟩
  | 63 => ⟨S_, .f32⟩
  | 64 => ⟨S128, .f32⟩
  | 65 => ⟨S128, .f32⟩
  | 66 => ⟨S1x128, .f32⟩
  | 67 => ⟨S50000x128, .f32⟩
  | 68 => ⟨S50000x128, .f32⟩
  | 69 => ⟨S_, .f32⟩
  | 70 => ⟨S128, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S50000x256, .f32⟩
  | 83 => ⟨S50000x128, .f32⟩
  | 84 => ⟨S50000, .i32⟩
  | 85 => ⟨S1x1600000, .i32⟩
  | 86 => ⟨S1600000, .i32⟩
  | 87 => ⟨S1650000, .i32⟩
  | 88 => ⟨S1x1600000, .i32⟩
  | 89 => ⟨S1600000, .i32⟩
  | 90 => ⟨S1650000, .i32⟩
  | 91 => ⟨S_, .f32⟩
  | 92 => ⟨S1650000, .f32⟩
  | 93 => ⟨S_, .f32⟩
  | 94 => ⟨S50000, .f32⟩
  | 95 => ⟨S1650000x1, .i32⟩
  | 96 => ⟨S50000, .f32⟩
  | 97 => ⟨S_, .f32⟩
  | 98 => ⟨S50000, .f32⟩
  | 99 => ⟨S50000, .i1⟩
  | 100 => ⟨S_, .f32⟩
  | 101 => ⟨S50000, .f32⟩
  | 102 => ⟨S50000, .f32⟩
  | 103 => ⟨S50000, .f32⟩
  | 104 => ⟨S_, .f32⟩
  | 105 => ⟨S_, .f32⟩
  | 106 => ⟨S50000, .f32⟩
  | 107 => ⟨S50000, .f32⟩
  | 108 => ⟨S_, .i32⟩
  | 109 => ⟨S1650000, .i32⟩
  | 110 => ⟨S1650000, .i1⟩
  | 111 => ⟨S_, .i32⟩
  | 112 => ⟨S1650000, .i32⟩
  | 113 => ⟨S1650000, .i32⟩
  | 114 => ⟨S1650000, .i32⟩
  | 115 => ⟨S1650000x1, .i32⟩
  | 116 => ⟨S1650000, .f32⟩
  | 117 => ⟨S_, .i32⟩
  | 118 => ⟨S1650000, .i32⟩
  | 119 => ⟨S1650000, .i1⟩
  | 120 => ⟨S_, .i32⟩
  | 121 => ⟨S1650000, .i32⟩
  | 122 => ⟨S1650000, .i32⟩
  | 123 => ⟨S1650000, .i32⟩
  | 124 => ⟨S1650000x1, .i32⟩
  | 125 => ⟨S1650000, .f32⟩
  | 126 => ⟨S1650000, .f32⟩
  | 127 => ⟨S_, .i32⟩
  | _ => ⟨S50000x4096, .f32⟩

abbrev hbmTy0_2 (i : Nat) : BufTy := match i % 128 with
  | 0 => ⟨S1650000, .i32⟩
  | 1 => ⟨S1650000, .i1⟩
  | 2 => ⟨S_, .i32⟩
  | 3 => ⟨S1650000, .i32⟩
  | 4 => ⟨S1650000, .i32⟩
  | 5 => ⟨S1650000, .i32⟩
  | 6 => ⟨S1650000x1, .i32⟩
  | 7 => ⟨S1650000x128, .f32⟩
  | 8 => ⟨S1650000x1, .f32⟩
  | 9 => ⟨S1650000x128, .f32⟩
  | 10 => ⟨S1650000x128, .f32⟩
  | 11 => ⟨S_, .f32⟩
  | 12 => ⟨S50000x128, .f32⟩
  | 13 => ⟨S1650000x1, .i32⟩
  | 14 => ⟨S50000x128, .f32⟩
  | 15 => ⟨S1x128, .f32⟩
  | 16 => ⟨S50000x128, .f32⟩
  | 17 => ⟨S50000x128, .f32⟩
  | 18 => ⟨S50000x128, .f32⟩
  | 19 => ⟨S50000x10, .f32⟩
  | 20 => ⟨S1x10, .f32⟩
  | 21 => ⟨S50000x10, .f32⟩
  | 22 => ⟨S50000x10, .f32⟩
  | 23 => ⟨S_, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S50000x10, .f32⟩
  | 30 => ⟨S50000x10, .f32⟩
  | 31 => ⟨S50000x10, .f32⟩
  | 32 => ⟨S_, .f32⟩
  | 33 => ⟨S50000, .f32⟩
  | 34 => ⟨S50000x1, .f32⟩
  | 35 => ⟨S50000x1, .f32⟩
  | 36 => ⟨S50000x10, .f32⟩
  | 37 => ⟨S50000x10, .f32⟩
  | _ => ⟨S50000x4096, .f32⟩

abbrev hbmTy (i : Nat) : BufTy := match i / 128 with
  | 0 => hbmTy0_0 i
  | 1 => hbmTy0_1 i
  | 2 => hbmTy0_2 i
  | _ => ⟨S50000x4096, .f32⟩

abbrev bufTy : (tb : Table) → Fin (tcTables nBuf tb) → BufTy
  | .hbm, ⟨i, _⟩ => hbmTy i
  | _, _ => ⟨S50000x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_cst_3 : Ref sig .tc := ⟨.hbm, 42, rfl⟩
abbrev main_call0_v12 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_cst_1 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_call1_cst : Ref sig .tc := ⟨.hbm, 68, rfl⟩
abbrev main_call1_v0 : Ref sig .tc := ⟨.hbm, 69, rfl⟩
abbrev main_v23 : Ref sig .tc := ⟨.hbm, 70, rfl⟩
abbrev main_cst_2 : Ref sig .tc := ⟨.hbm, 71, rfl⟩
abbrev main_v24 : Ref sig .tc := ⟨.hbm, 72, rfl⟩
abbrev main_cst_3 : Ref sig .tc := ⟨.hbm, 73, rfl⟩
abbrev main_v25 : Ref sig .tc := ⟨.hbm, 74, rfl⟩
abbrev main_v26 : Ref sig .tc := ⟨.hbm, 75, rfl⟩
abbrev main_c_4 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_cst_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_cst_1 : Ref sig .tc := ⟨.hbm, 87, rfl⟩
abbrev main_call2_v8 : Ref sig .tc := ⟨.hbm, 88, rfl⟩
abbrev main_call2_cst_2 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_cst_3 : Ref sig .tc := ⟨.hbm, 93, rfl⟩
abbrev main_call2_v12 : Ref sig .tc := ⟨.hbm, 94, rfl⟩
abbrev main_call2_cst_4 : Ref sig .tc := ⟨.hbm, 95, rfl⟩
abbrev main_call2_call0_v0 : Ref sig .tc := ⟨.hbm, 96, rfl⟩
abbrev main_call2_call0_v1 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_cst_5 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_cst_6 : Ref sig .tc := ⟨.hbm, 115, rfl⟩
abbrev main_v43 : Ref sig .tc := ⟨.hbm, 116, rfl⟩
abbrev main_cst_7 : Ref sig .tc := ⟨.hbm, 117, rfl⟩
abbrev main_v44 : Ref sig .tc := ⟨.hbm, 118, rfl⟩
abbrev main_v45 : Ref sig .tc := ⟨.hbm, 119, rfl⟩
abbrev main_c_8 : Ref sig .tc := ⟨.hbm, 120, rfl⟩
abbrev main_call3_cst : Ref sig .tc := ⟨.hbm, 121, rfl⟩
abbrev main_call3_v0 : Ref sig .tc := ⟨.hbm, 122, rfl⟩
abbrev main_call3_v1 : Ref sig .tc := ⟨.hbm, 123, rfl⟩
abbrev main_call3_cst_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_v6 : Ref sig .tc := ⟨.hbm, 129, rfl⟩
abbrev main_call3_v7 : Ref sig .tc := ⟨.hbm, 130, rfl⟩
abbrev main_call3_cst_1 : Ref sig .tc := ⟨.hbm, 131, rfl⟩
abbrev main_call3_v8 : Ref sig .tc := ⟨.hbm, 132, rfl⟩
abbrev main_call3_cst_2 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_cst_3 : Ref sig .tc := ⟨.hbm, 137, rfl⟩
abbrev main_call3_v12 : Ref sig .tc := ⟨.hbm, 138, rfl⟩
abbrev main_call3_cst_4 : Ref sig .tc := ⟨.hbm, 139, rfl⟩
abbrev main_call3_call0_v0 : Ref sig .tc := ⟨.hbm, 140, rfl⟩
abbrev main_call3_call0_v1 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_v49 : Ref sig .tc := ⟨.hbm, 145, rfl⟩
abbrev main_cst_9 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_call4_cst : Ref sig .tc := ⟨.hbm, 163, rfl⟩
abbrev main_call4_v0 : Ref sig .tc := ⟨.hbm, 164, rfl⟩
abbrev main_v66 : Ref sig .tc := ⟨.hbm, 165, rfl⟩
abbrev main_cst_10 : Ref sig .tc := ⟨.hbm, 166, rfl⟩
abbrev main_v67 : Ref sig .tc := ⟨.hbm, 167, rfl⟩
abbrev main_cst_11 : Ref sig .tc := ⟨.hbm, 168, rfl⟩
abbrev main_v68 : Ref sig .tc := ⟨.hbm, 169, rfl⟩
abbrev main_v69 : Ref sig .tc := ⟨.hbm, 170, rfl⟩
abbrev main_c_12 : Ref sig .tc := ⟨.hbm, 171, rfl⟩
abbrev main_call5_cst : Ref sig .tc := ⟨.hbm, 172, rfl⟩
abbrev main_call5_v0 : Ref sig .tc := ⟨.hbm, 173, rfl⟩
abbrev main_call5_v1 : Ref sig .tc := ⟨.hbm, 174, rfl⟩
abbrev main_call5_cst_0 : Ref sig .tc := ⟨.hbm, 175, rfl⟩
abbrev main_call5_v2 : Ref sig .tc := ⟨.hbm, 176, rfl⟩
abbrev main_call5_v3 : Ref sig .tc := ⟨.hbm, 177, rfl⟩
abbrev main_call5_v4 : Ref sig .tc := ⟨.hbm, 178, rfl⟩
abbrev main_call5_v5 : Ref sig .tc := ⟨.hbm, 179, rfl⟩
abbrev main_call5_v6 : Ref sig .tc := ⟨.hbm, 180, rfl⟩
abbrev main_call5_v7 : Ref sig .tc := ⟨.hbm, 181, rfl⟩
abbrev main_call5_cst_1 : Ref sig .tc := ⟨.hbm, 182, rfl⟩
abbrev main_call5_v8 : Ref sig .tc := ⟨.hbm, 183, rfl⟩
abbrev main_call5_cst_2 : Ref sig .tc := ⟨.hbm, 184, rfl⟩
abbrev main_call5_v9 : Ref sig .tc := ⟨.hbm, 185, rfl⟩
abbrev main_call5_v10 : Ref sig .tc := ⟨.hbm, 186, rfl⟩
abbrev main_call5_v11 : Ref sig .tc := ⟨.hbm, 187, rfl⟩
abbrev main_call5_cst_3 : Ref sig .tc := ⟨.hbm, 188, rfl⟩
abbrev main_call5_v12 : Ref sig .tc := ⟨.hbm, 189, rfl⟩
abbrev main_call5_cst_4 : Ref sig .tc := ⟨.hbm, 190, rfl⟩
abbrev main_call5_call0_v0 : Ref sig .tc := ⟨.hbm, 191, rfl⟩
abbrev main_call5_call0_v1 : Ref sig .tc := ⟨.hbm, 192, rfl⟩
abbrev main_v70 : Ref sig .tc := ⟨.hbm, 193, rfl⟩
abbrev main_v71 : Ref sig .tc := ⟨.hbm, 194, rfl⟩
abbrev main_v72 : Ref sig .tc := ⟨.hbm, 195, rfl⟩
abbrev main_v73 : Ref sig .tc := ⟨.hbm, 196, rfl⟩
abbrev main_cst_13 : Ref sig .tc := ⟨.hbm, 197, rfl⟩
abbrev main_v74 : Ref sig .tc := ⟨.hbm, 198, rfl⟩
abbrev main_v75 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_v81 : Ref sig .tc := ⟨.hbm, 205, rfl⟩
abbrev main_v82 : Ref sig .tc := ⟨.hbm, 206, rfl⟩
abbrev main_v83 : Ref sig .tc := ⟨.hbm, 207, rfl⟩
abbrev main_v84 : Ref sig .tc := ⟨.hbm, 208, rfl⟩
abbrev main_v85 : Ref sig .tc := ⟨.hbm, 209, rfl⟩
abbrev main_v86 : Ref sig .tc := ⟨.hbm, 210, rfl⟩
abbrev main_v87 : Ref sig .tc := ⟨.hbm, 211, rfl⟩
abbrev main_v88 : Ref sig .tc := ⟨.hbm, 212, rfl⟩
abbrev main_v89 : Ref sig .tc := ⟨.hbm, 213, rfl⟩
abbrev main_v90 : Ref sig .tc := ⟨.hbm, 214, rfl⟩
abbrev main_v91 : Ref sig .tc := ⟨.hbm, 215, rfl⟩
abbrev main_v92 : Ref sig .tc := ⟨.hbm, 216, rfl⟩
abbrev main_v93 : Ref sig .tc := ⟨.hbm, 217, rfl⟩
abbrev main_v94 : Ref sig .tc := ⟨.hbm, 218, rfl⟩
abbrev main_cst_14 : Ref sig .tc := ⟨.hbm, 219, rfl⟩
abbrev main_v95 : Ref sig .tc := ⟨.hbm, 220, rfl⟩
abbrev main_cst_15 : Ref sig .tc := ⟨.hbm, 221, rfl⟩
abbrev main_v96 : Ref sig .tc := ⟨.hbm, 222, rfl⟩
abbrev main_v97 : Ref sig .tc := ⟨.hbm, 223, rfl⟩
abbrev main_v98 : Ref sig .tc := ⟨.hbm, 224, rfl⟩
abbrev main_cst_16 : Ref sig .tc := ⟨.hbm, 225, rfl⟩
abbrev main_v99 : Ref sig .tc := ⟨.hbm, 226, rfl⟩
abbrev main_v100 : Ref sig .tc := ⟨.hbm, 227, rfl⟩
abbrev main_cst_17 : Ref sig .tc := ⟨.hbm, 228, rfl⟩
abbrev main_v101 : Ref sig .tc := ⟨.hbm, 229, rfl⟩
abbrev main_v102 : Ref sig .tc := ⟨.hbm, 230, rfl⟩
abbrev main_v103 : Ref sig .tc := ⟨.hbm, 231, rfl⟩
abbrev main_cst_18 : Ref sig .tc := ⟨.hbm, 232, rfl⟩
abbrev main_call6_v0 : Ref sig .tc := ⟨.hbm, 233, rfl⟩
abbrev main_call6_v1 : Ref sig .tc := ⟨.hbm, 234, rfl⟩
abbrev main_v104 : Ref sig .tc := ⟨.hbm, 235, rfl⟩
abbrev main_c_19 : Ref sig .tc := ⟨.hbm, 236, rfl⟩
abbrev main_v105 : Ref sig .tc := ⟨.hbm, 237, rfl⟩
abbrev main_v106 : Ref sig .tc := ⟨.hbm, 238, rfl⟩
abbrev main_c_20 : Ref sig .tc := ⟨.hbm, 239, rfl⟩
abbrev main_v107 : Ref sig .tc := ⟨.hbm, 240, rfl⟩
abbrev main_v108 : Ref sig .tc := ⟨.hbm, 241, rfl⟩
abbrev main_v109 : Ref sig .tc := ⟨.hbm, 242, rfl⟩
abbrev main_v110 : Ref sig .tc := ⟨.hbm, 243, rfl⟩
abbrev main_v111 : Ref sig .tc := ⟨.hbm, 244, rfl⟩
abbrev main_c_21 : Ref sig .tc := ⟨.hbm, 245, rfl⟩
abbrev main_v112 : Ref sig .tc := ⟨.hbm, 246, rfl⟩
abbrev main_v113 : Ref sig .tc := ⟨.hbm, 247, rfl⟩
abbrev main_c_22 : Ref sig .tc := ⟨.hbm, 248, rfl⟩
abbrev main_v114 : Ref sig .tc := ⟨.hbm, 249, rfl⟩
abbrev main_v115 : Ref sig .tc := ⟨.hbm, 250, rfl⟩
abbrev main_v116 : Ref sig .tc := ⟨.hbm, 251, rfl⟩
abbrev main_v117 : Ref sig .tc := ⟨.hbm, 252, rfl⟩
abbrev main_v118 : Ref sig .tc := ⟨.hbm, 253, rfl⟩
abbrev main_v119 : Ref sig .tc := ⟨.hbm, 254, rfl⟩
abbrev main_c_23 : Ref sig .tc := ⟨.hbm, 255, rfl⟩
abbrev main_v120 : Ref sig .tc := ⟨.hbm, 256, rfl⟩
abbrev main_v121 : Ref sig .tc := ⟨.hbm, 257, rfl⟩
abbrev main_c_24 : Ref sig .tc := ⟨.hbm, 258, rfl⟩
abbrev main_v122 : Ref sig .tc := ⟨.hbm, 259, rfl⟩
abbrev main_v123 : Ref sig .tc := ⟨.hbm, 260, rfl⟩
abbrev main_v124 : Ref sig .tc := ⟨.hbm, 261, rfl⟩
abbrev main_v125 : Ref sig .tc := ⟨.hbm, 262, rfl⟩
abbrev main_v126 : Ref sig .tc := ⟨.hbm, 263, rfl⟩
abbrev main_v127 : Ref sig .tc := ⟨.hbm, 264, rfl⟩
abbrev main_v128 : Ref sig .tc := ⟨.hbm, 265, rfl⟩
abbrev main_v129 : Ref sig .tc := ⟨.hbm, 266, rfl⟩
abbrev main_cst_25 : Ref sig .tc := ⟨.hbm, 267, rfl⟩
abbrev main_v130 : Ref sig .tc := ⟨.hbm, 268, rfl⟩
abbrev main_v131 : Ref sig .tc := ⟨.hbm, 269, rfl⟩
abbrev main_v132 : Ref sig .tc := ⟨.hbm, 270, rfl⟩
abbrev main_v133 : Ref sig .tc := ⟨.hbm, 271, rfl⟩
abbrev main_v134 : Ref sig .tc := ⟨.hbm, 272, rfl⟩
abbrev main_v135 : Ref sig .tc := ⟨.hbm, 273, rfl⟩
abbrev main_v136 : Ref sig .tc := ⟨.hbm, 274, rfl⟩
abbrev main_v137 : Ref sig .tc := ⟨.hbm, 275, rfl⟩
abbrev main_v138 : Ref sig .tc := ⟨.hbm, 276, rfl⟩
abbrev main_v139 : Ref sig .tc := ⟨.hbm, 277, rfl⟩
abbrev main_v140 : Ref sig .tc := ⟨.hbm, 278, rfl⟩
abbrev main_call7_cst : Ref sig .tc := ⟨.hbm, 279, rfl⟩
abbrev main_call7_v0 : Ref sig .tc := ⟨.hbm, 280, rfl⟩
abbrev main_call7_cst_0 : Ref sig .tc := ⟨.hbm, 281, rfl⟩
abbrev main_call7_v1 : Ref sig .tc := ⟨.hbm, 282, rfl⟩
abbrev main_call7_v2 : Ref sig .tc := ⟨.hbm, 283, rfl⟩
abbrev main_call7_v3 : Ref sig .tc := ⟨.hbm, 284, rfl⟩
abbrev main_call7_v4 : Ref sig .tc := ⟨.hbm, 285, rfl⟩
abbrev main_call7_v5 : Ref sig .tc := ⟨.hbm, 286, rfl⟩
abbrev main_call7_v6 : Ref sig .tc := ⟨.hbm, 287, rfl⟩
abbrev main_call7_cst_1 : Ref sig .tc := ⟨.hbm, 288, rfl⟩
abbrev main_call7_v7 : Ref sig .tc := ⟨.hbm, 289, rfl⟩
abbrev main_call7_v8 : Ref sig .tc := ⟨.hbm, 290, rfl⟩
abbrev main_call7_v9 : Ref sig .tc := ⟨.hbm, 291, rfl⟩
abbrev main_call7_v10 : Ref sig .tc := ⟨.hbm, 292, rfl⟩
abbrev main_v141 : Ref sig .tc := ⟨.hbm, 293, rfl⟩

abbrev nD : Nat := 1
abbrev τ : Topo := Topo.v7x

variable {F : FTy → Type} [FloatOps F]

class Facts₀ : Prop where
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  reducesTo_S50000x4096_S4096_d0 : S50000x4096.ReducesTo [0] S4096
  bcast_S_S4096 : S_.BroadcastsInDim S4096 (![] : Fin 0 → Fin S4096.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S50000x4096_0_1 : S1x4096.BroadcastsInDim S50000x4096 (![0, 1] : Fin 2 → Fin S50000x4096.rank)
  concatenates_S50000x128_S50000x128_S50000x256_d1 : Shape.Concatenates [S50000x128, S50000x128] S50000x256 1
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  bcast_S50000_S50000x1_0 : S50000.BroadcastsInDim S50000x1 (![0] : Fin 1 → Fin S50000x1.rank)
  bcast_S50000x1_S50000x10_0_1 : S50000x1.BroadcastsInDim S50000x10 (![0, 1] : Fin 2 → Fin S50000x10.rank)
  dot_S50000x64_S64x128_S50000x128_1_0_0_1_n_n_wf : DotDims.WF S50000x64 S64x128 S50000x128 [1] [0] [0] [1] [] []
  dot_S50000x4096_S4096x128_S50000x128_1_0_0_1_n_n_wf : DotDims.WF S50000x4096 S4096x128 S50000x128 [1] [0] [0] [1] [] []
  dot_S50000x256_S256x128_S50000x128_1_0_0_1_n_n_wf : DotDims.WF S50000x256 S256x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x10_S50000x10_1_0_0_1_n_n_wf : DotDims.WF S50000x128 S128x10 S50000x10 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x4096_S4096x128_S50000x128_1_0_0_1_n_n : DotDims S50000x4096 S4096x128 S50000x128 where
  lhsContracting := [1]
  rhsContracting := [0]
  lhsNonContracting := [0]
  rhsNonContracting := [1]
  lhsBatch := []
  rhsBatch := []
  wf := dot_S50000x4096_S4096x128_S50000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf

class Facts : Prop extends Facts₀ where

variable [Facts]
-- ==== Proof.KernelRun.lean ====
/-
  The idealized kernel's run, read at EVERY buffer.

  @main is eight pipelined regions separated by stretches of host operations.  Walking the segments in order
  gives, for each core, the contents of all its buffers at each boundary: a stretch of host operations replaces
  the buffers it writes by the operations' results, and a region replaces each of its output arrays by what its
  write-backs leave.  The contents at the last boundary are `Gen.W15`.  This module states that every weakly
  fair execution terminates without a fault in a state whose every unscoped buffer holds exactly those final
  contents; the value of the result array and the preservation of the arguments are then two readings of the
  same statement.
-/
import proofs.«160607_j85856396247988_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in the final state every unscoped
    buffer of every core holds the contents the last boundary assigns it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

/-- The result array is unscoped. -/
theorem mem_result : Proc.devRef .tc main_v94 ∈ Pipeline.ucRefs τ sig := mem_uc main_v94 (by decide)

end Cert.KernelIdeal.Whole

end
-- ==== Proof.RefLine.lean ====
/-
  The idealized reference as a straight line of host operations.

  The reference's @main is printed in three consecutive windows, and the functions jax outlined (the variance, the
  relu, the guarded selects, the log-softmax) are called from them.  Substituting each callee's operations at its
  call site, over the buffers of that call, turns every window into a plain list of host operations, and @main into
  the concatenation of the lists.  The lists are cut at the stages of the computation, so that what a stage leaves in
  a buffer can be read off that stage alone.
-/
import proofs.«160607_j85856396247988_1_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The low branch up to its relu: statistics, normalization, linear layer. -/
abbrev opsA0 : List (HloOp τ sig (Elt F)) :=
  [ nullary main_cst (constant S_ .f32 0x00000000#32),
    binary main_arg1 main_cst main_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_0 (constant S_ .f32 0x47435000#32),
    unary main_cst_0 main_v1 (broadcastInDim S64 ![] bcast_S_S64 : (⟨S_, .f32⟩ : BufTy).Contents (Elt F) → (⟨S64, .f32⟩ : BufTy).Contents (Elt F)),
    binary main_v0 main_v1 main_v2 (Host.divf : (⟨S64, .f32⟩ : BufTy).Contents (Elt F) → (⟨S64, .f32⟩ : BufTy).Contents (Elt F) → (⟨S64, .f32⟩ : BufTy).Contents (Elt F)),
    nullary main_c (constantI S_ 32 0#32),
    TRef.nullary main_call0.cst (constant S_ .f32 0x00000000#32),
    TRef.binary ((.of main_arg1 : TRef sig ⟨S50000x64, .f32⟩)) main_call0.cst main_call0.v0 (fun x v => Host.reduceAdd x v reducesTo_S50000x64_S64_d0 h_S_),
    TRef.unary main_call0.v0 main_call0.v1 (broadcastInDim S1x64 ![1] bcast_S64_S1x64_1),
    TRef.nullary main_call0.cst_0 (constant S_ .f32 0x47435000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S50000x64 ![0, 1] bcast_S1x64_S50000x64_0_1),
    TRef.binary ((.of main_arg1 : TRef sig ⟨S50000x64, .f32⟩)) main_call0.v4 main_call0.v5 subf,
    TRef.binary main_call0.v5 main_call0.v5 main_call0.v6 mulf,
    TRef.unary ((.of main_c : TRef sig ⟨S_, .i32⟩)) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v2 main_v4 (broadcastInDim S1x64 ![1] bcast_S64_S1x64_1 : (⟨S64, .f32⟩ : BufTy).Contents (Elt F) → (⟨S1x64, .f32⟩ : BufTy).Contents (Elt F)),
    unary main_v4 main_v5 (broadcastInDim S50000x64 ![0, 1] bcast_S1x64_S50000x64_0_1 : (⟨S1x64, .f32⟩ : BufTy).Contents (Elt F) → (⟨S50000x64, .f32⟩ : BufTy).Contents (Elt F)),
    binary main_arg1 main_v5 main_v6 (subf : (⟨S50000x64, .f32⟩ : BufTy).Contents (Elt F) → (⟨S50000x64, .f32⟩ : BufTy).Contents (Elt F) → (⟨S50000x64, .f32⟩ : BufTy).Contents (Elt F)),
    nullary main_cst_1 (constant S_ .f32 0x3727C5AC#32),
    unary main_cst_1 main_v7 (broadcastInDim S64 ![] bcast_S_S64 : (⟨S_, .f32⟩ : BufTy).Contents (Elt F) → (⟨S64, .f32⟩ : BufTy).Contents (Elt F)),
    binary main_v3 main_v7 main_v8 (addf : (⟨S64, .f32⟩ : BufTy).Contents (Elt F) → (⟨S64, .f32⟩ : BufTy).Contents (Elt F) → (⟨S64, .f32⟩ : BufTy).Contents (Elt F)),
    unary main_v8 main_v9 (Host.rsqrt : (⟨S64, .f32⟩ : BufTy).Contents (Elt F) → (⟨S64, .f32⟩ : BufTy).Contents (Elt F)),
    unary main_v9 main_v10 (broadcastInDim S1x64 ![1] bcast_S64_S1x64_1 : (⟨S64, .f32⟩ : BufTy).Contents (Elt F) → (⟨S1x64, .f32⟩ : BufTy).Contents (Elt F)),
    unary main_v10 main_v11 (broadcastInDim S50000x64 ![0, 1] bcast_S1x64_S50000x64_0_1 : (⟨S1x64, .f32⟩ : BufTy).Contents (Elt F) → (⟨S50000x64, .f32⟩ : BufTy).Contents (Elt F)),
    binary main_v6 main_v11 main_v12 (mulf : (⟨S50000x64, .f32⟩ : BufTy).Contents (Elt F) → (⟨S50000x64, .f32⟩ : BufTy).Contents (Elt F) → (⟨S50000x64, .f32⟩ : BufTy).Contents (Elt F)),
    unary main_arg4 main_v13 (broadcastInDim S1x64 ![1] bcast_S64_S1x64_1 : (⟨S64, .f32⟩ : BufTy).Contents (Elt F) → (⟨S1x64, .f32⟩ : BufTy).Contents (Elt F)),
    unary main_v13 main_v14 (broadcastInDim S50000x64 ![0, 1] bcast_S1x64_S50000x64_0_1 : (⟨S1x64, .f32⟩ : BufTy).Contents (Elt F) → (⟨S50000x64, .f32⟩ : BufTy).Contents (Elt F)),
    binary main_v12 main_v14 main_v15 (mulf : (⟨S50000x64, .f32⟩ : BufTy).Contents (Elt F) → (⟨S50000x64, .f32⟩ : BufTy).Contents (Elt F) → (⟨S50000x64, .f32⟩ : BufTy).Contents (Elt F)),
    unary main_arg5 main_v16 (broadcastInDim S1x64 ![1] bcast_S64_S1x64_1 : (⟨S64, .f32⟩ : BufTy).Contents (Elt F) → (⟨S1x64, .f32⟩ : BufTy).Contents (Elt F)),
    unary main_v16 main_v17 (broadcastInDim S50000x64 ![0, 1] bcast_S1x64_S50000x64_0_1 : (⟨S1x64, .f32⟩ : BufTy).Contents (Elt F) → (⟨S50000x64, .f32⟩ : BufTy).Contents (Elt F)),
    binary main_v15 main_v17 main_v18 (addf : (⟨S50000x64, .f32⟩ : BufTy).Contents (Elt F) → (⟨S50000x64, .f32⟩ : BufTy).Contents (Elt F) → (⟨S50000x64, .f32⟩ : BufTy).Contents (Elt F)),
    binary main_v18 main_arg8 main_v19 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_arg9 main_v20 (broadcastInDim S1x128 ![1] bcast_S128_S1x128_1 : (⟨S128, .f32⟩ : BufTy).Contents (Elt F) → (⟨S1x128, .f32⟩ : BufTy).Contents (Elt F)),
    unary main_v20 main_v21 (broadcastInDim S50000x128 ![0, 1] bcast_S1x128_S50000x128_0_1 : (⟨S1x128, .f32⟩ : BufTy).Contents (Elt F) → (⟨S50000x128, .f32⟩ : BufTy).Contents (Elt F)),
    binary main_v19 main_v21 main_v22 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary ((.of main_v22 : TRef sig ⟨S50000x128, .f32⟩)) main_call1.v0 main_call1.v1 maximumf ]

/-- The low branch's second normalization. -/
abbrev opsA1 : List (HloOp τ sig (Elt F)) :=
  [ nullary main_cst_2 (constant S_ .f32 0x00000000#32),
    binary main_v23 main_cst_2 main_v24 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_3 (constant S_ .f32 0x47435000#32),
    unary main_cst_3 main_v25 (broadcastInDim S128 ![] bcast_S_S128 : (⟨S_, .f32⟩ : BufTy).Contents (Elt F) → (⟨S128, .f32⟩ : BufTy).Contents (Elt F)),
    binary main_v24 main_v25 main_v26 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    TRef.nullary main_call2.cst (constant S_ .f32 0x00000000#32),
    TRef.binary ((.of main_v23 : TRef sig ⟨S50000x128, .f32⟩)) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary ((.of main_v23 : TRef sig ⟨S50000x128, .f32⟩)) main_call2.v4 main_call2.v5 subf,
    TRef.binary main_call2.v5 main_call2.v5 main_call2.v6 mulf,
    TRef.unary ((.of main_c_4 : TRef sig ⟨S_, .i32⟩)) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v26 main_v28 (broadcastInDim S1x128 ![1] bcast_S128_S1x128_1 : (⟨S128, .f32⟩ : BufTy).Contents (Elt F) → (⟨S1x128, .f32⟩ : BufTy).Contents (Elt F)),
    unary main_v28 main_v29 (broadcastInDim S50000x128 ![0, 1] bcast_S1x128_S50000x128_0_1 : (⟨S1x128, .f32⟩ : BufTy).Contents (Elt F) → (⟨S50000x128, .f32⟩ : BufTy).Contents (Elt F)),
    binary main_v23 main_v29 main_v30 (subf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3727C5AC#32),
    unary main_cst_5 main_v31 (broadcastInDim S128 ![] bcast_S_S128 : (⟨S_, .f32⟩ : BufTy).Contents (Elt F) → (⟨S128, .f32⟩ : BufTy).Contents (Elt F)),
    binary main_v27 main_v31 main_v32 (addf : (⟨S128, .f32⟩ : BufTy).Contents (Elt F) → (⟨S128, .f32⟩ : BufTy).Contents (Elt F) → (⟨S128, .f32⟩ : BufTy).Contents (Elt F)),
    unary main_v32 main_v33 (Host.rsqrt : (⟨S128, .f32⟩ : BufTy).Contents (Elt F) → (⟨S128, .f32⟩ : BufTy).Contents (Elt F)),
    unary main_v33 main_v34 (broadcastInDim S1x128 ![1] bcast_S128_S1x128_1 : (⟨S128, .f32⟩ : BufTy).Contents (Elt F) → (⟨S1x128, .f32⟩ : BufTy).Contents (Elt F)),
    unary main_v34 main_v35 (broadcastInDim S50000x128 ![0, 1] bcast_S1x128_S50000x128_0_1 : (⟨S1x128, .f32⟩ : BufTy).Contents (Elt F) → (⟨S50000x128, .f32⟩ : BufTy).Contents (Elt F)),
    binary main_v30 main_v35 main_v36 (mulf : (⟨S50000x128, .f32⟩ : BufTy).Contents (Elt F) → (⟨S50000x128, .f32⟩ : BufTy).Contents (Elt F) → (⟨S50000x128, .f32⟩ : BufTy).Contents (Elt F)),
    unary main_arg10 main_v37 (broadcastInDim S1x128 ![1] bcast_S128_S1x128_1 : (⟨S128, .f32⟩ : BufTy).Contents (Elt F) → (⟨S1x128, .f32⟩ : BufTy).Contents (Elt F)),
    unary main_v37 main_v38 (broadcastInDim S50000x128 ![0, 1] bcast_S1x128_S50000x128_0_1 : (⟨S1x128, .f32⟩ : BufTy).Contents (Elt F) → (⟨S50000x128, .f32⟩ : BufTy).Contents (Elt F)),
    binary main_v36 main_v38 main_v39 (mulf : (⟨S50000x128, .f32⟩ : BufTy).Contents (Elt F) → (⟨S50000x128, .f32⟩ : BufTy).Contents (Elt F) → (⟨S50000x128, .f32⟩ : BufTy).Contents (Elt F)),
    unary main_arg11 main_v40 (broadcastInDim S1x128 ![1] bcast_S128_S1x128_1 : (⟨S128, .f32⟩ : BufTy).Contents (Elt F) → (⟨S1x128, .f32⟩ : BufTy).Contents (Elt F)),
    unary main_v40 main_v41 (broadcastInDim S50000x128 ![0, 1] bcast_S1x128_S50000x128_0_1 : (⟨S1x128, .f32⟩ : BufTy).Contents (Elt F) → (⟨S50000x128, .f32⟩ : BufTy).Contents (Elt F)),
    binary main_v39 main_v41 main_v42 (addf : (⟨S50000x128, .f32⟩ : BufTy).Contents (Elt F) → (⟨S50000x128, .f32⟩ : BufTy).Contents (Elt F) → (⟨S50000x128, .f32⟩ : BufTy).Contents (Elt F)) ]

/-- The high branch's statistics. -/
abbrev opsA2 : List (HloOp τ sig (Elt F)) :=
  [ nullary main_cst_6 (constant S_ .f32 0x00000000#32),
    binary main_arg2 main_cst_6 main_v43 ((fun x v => Host.reduceAdd x v reducesTo_S50000x4096_S4096_d0 h_S_) : (⟨S50000x4096, .f32⟩ : BufTy).Contents (Elt F) → (⟨S_, .f32⟩ : BufTy).Contents (Elt F) → (⟨S4096, .f32⟩ : BufTy).Contents (Elt F)),
    nullary main_cst_7 (constant S_ .f32 0x47435000#32),
    unary main_cst_7 main_v44 (broadcastInDim S4096 ![] bcast_S_S4096 : (⟨S_, .f32⟩ : BufTy).Contents (Elt F) → (⟨S4096, .f32⟩ : BufTy).Contents (Elt F)),
    binary main_v43 main_v44 main_v45 (Host.divf : (⟨S4096, .f32⟩ : BufTy).Contents (Elt F) → (⟨S4096, .f32⟩ : BufTy).Contents (Elt F) → (⟨S4096, .f32⟩ : BufTy).Contents (Elt F)),
    nullary main_c_8 (constantI S_ 32 0#32),
    TRef.nullary main_call3.cst (constant S_ .f32 0x00000000#32),
    TRef.binary ((.of main_arg2 : TRef sig ⟨S50000x4096, .f32⟩)) main_call3.cst main_call3.v0 (fun x v => Host.reduceAdd x v reducesTo_S50000x4096_S4096_d0 h_S_),
    TRef.unary main_call3.v0 main_call3.v1 (broadcastInDim S1x4096 ![1] bcast_S4096_S1x4096_1),
    TRef.nullary main_call3.cst_0 (constant S_ .f32 0x47435000#32),
    TRef.unary main_call3.cst_0 main_call3.v2 (broadcastInDim S1x4096 ![] bcast_S_S1x4096),
    TRef.binary main_call3.v1 main_call3.v2 main_call3.v3 Host.divf,
    TRef.unary main_call3.v3 main_call3.v4 (broadcastInDim S50000x4096 ![0, 1] bcast_S1x4096_S50000x4096_0_1),
    TRef.binary ((.of main_arg2 : TRef sig ⟨S50000x4096, .f32⟩)) main_call3.v4 main_call3.v5 subf,
    TRef.binary main_call3.v5 main_call3.v5 main_call3.v6 mulf,
    TRef.unary ((.of main_c_8 : TRef sig ⟨S_, .i32⟩)) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x4096_S4096_d0 h_S_),
    TRef.unary main_call3.v8 main_call3.v10 (broadcastInDim S4096 ![] bcast_S_S4096),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S4096 ![] bcast_S_S4096),
    TRef.ternary main_call3.v12 main_call3.v11 main_call3.call0.v1 main_call3.call0.v2 (fun p a b => select (broadcastInDim S4096 ![] bcast_S_S4096 p) a b),
    unary main_v45 main_v47 (broadcastInDim S1x4096 ![1] bcast_S4096_S1x4096_1 : (⟨S4096, .f32⟩ : BufTy).Contents (Elt F) → (⟨S1x4096, .f32⟩ : BufTy).Contents (Elt F)),
    unary main_v47 main_v48 (broadcastInDim S50000x4096 ![0, 1] bcast_S1x4096_S50000x4096_0_1 : (⟨S1x4096, .f32⟩ : BufTy).Contents (Elt F) → (⟨S50000x4096, .f32⟩ : BufTy).Contents (Elt F)) ]

/-- The high branch's normalization and linear layer, up to its relu. -/
abbrev opsB0 : List (HloOp τ sig (Elt F)) :=
  [ binary main_arg2 main_v48 main_v49 (subf : (⟨S50000x4096, .f32⟩ : BufTy).Contents (Elt F) → (⟨S50000x4096, .f32⟩ : BufTy).Contents (Elt F) → (⟨S50000x4096, .f32⟩ : BufTy).Contents (Elt F)),
    nullary main_cst_9 (constant S_ .f32 0x3727C5AC#32),
    unary main_cst_9 main_v50 (broadcastInDim S4096 ![] bcast_S_S4096 : (⟨S_, .f32⟩ : BufTy).Contents (Elt F) → (⟨S4096, .f32⟩ : BufTy).Contents (Elt F)),
    binary main_v46 main_v50 main_v51 (addf : (⟨S4096, .f32⟩ : BufTy).Contents (Elt F) → (⟨S4096, .f32⟩ : BufTy).Contents (Elt F) → (⟨S4096, .f32⟩ : BufTy).Contents (Elt F)),
    unary main_v51 main_v52 (Host.rsqrt : (⟨S4096, .f32⟩ : BufTy).Contents (Elt F) → (⟨S4096, .f32⟩ : BufTy).Contents (Elt F)),
    unary main_v52 main_v53 (broadcastInDim S1x4096 ![1] bcast_S4096_S1x4096_1 : (⟨S4096, .f32⟩ : BufTy).Contents (Elt F) → (⟨S1x4096, .f32⟩ : BufTy).Contents (Elt F)),
    unary main_v53 main_v54 (broadcastInDim S50000x4096 ![0, 1] bcast_S1x4096_S50000x4096_0_1 : (⟨S1x4096, .f32⟩ : BufTy).Contents (Elt F) → (⟨S50000x4096, .f32⟩ : BufTy).Contents (Elt F)),
    binary main_v49 main_v54 main_v55 (mulf : (⟨S50000x4096, .f32⟩ : BufTy).Contents (Elt F) → (⟨S50000x4096, .f32⟩ : BufTy).Contents (Elt F) → (⟨S50000x4096, .f32⟩ : BufTy).Contents (Elt F)),
    unary main_arg6 main_v56 (broadcastInDim S1x4096 ![1] bcast_S4096_S1x4096_1 : (⟨S4096, .f32⟩ : BufTy).Contents (Elt F) → (⟨S1x4096, .f32⟩ : BufTy).Contents (Elt F)),
    unary main_v56 main_v57 (broadcastInDim S50000x4096 ![0, 1] bcast_S1x4096_S50000x4096_0_1 : (⟨S1x4096, .f32⟩ : BufTy).Contents (Elt F) → (⟨S50000x4096, .f32⟩ : BufTy).Contents (Elt F)),
    binary main_v55 main_v57 main_v58 (mulf : (⟨S50000x4096, .f32⟩ : BufTy).Contents (Elt F) → (⟨S50000x4096, .f32⟩ : BufTy).Contents (Elt F) → (⟨S50000x4096, .f32⟩ : BufTy).Contents (Elt F)),
    unary main_arg7 main_v59 (broadcastInDim S1x4096 ![1] bcast_S4096_S1x4096_1 : (⟨S4096, .f32⟩ : BufTy).Contents (Elt F) → (⟨S1x4096, .f32⟩ : BufTy).Contents (Elt F)),
    unary main_v59 main_v60 (broadcastInDim S50000x4096 ![0, 1] bcast_S1x4096_S50000x4096_0_1 : (⟨S1x4096, .f32⟩ : BufTy).Contents (Elt F) → (⟨S50000x4096, .f32⟩ : BufTy).Contents (Elt F)),
    binary main_v58 main_v60 main_v61 (addf : (⟨S50000x4096, .f32⟩ : BufTy).Contents (Elt F) → (⟨S50000x4096, .f32⟩ : BufTy).Contents (Elt F) → (⟨S50000x4096, .f32⟩ : BufTy).Contents (Elt F)),
    binary main_v61 main_arg12 main_v62 ((fun l r => Host.dotGeneral dot_S50000x4096_S4096x128_S50000x128_1_0_0_1_n_n none l r) : (⟨S50000x4096, .f32⟩ : BufTy).Contents (Elt F) → (⟨S4096x128, .f32⟩ : BufTy).Contents (Elt F) → (⟨S50000x128, .f32⟩ : BufTy).Contents (Elt F)),
    unary main_arg13 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v62 main_v64 main_v65 (addf : (⟨S50000x128, .f32⟩ : BufTy).Contents (Elt F) → (⟨S50000x128, .f32⟩ : BufTy).Contents (Elt F) → (⟨S50000x128, .f32⟩ : BufTy).Contents (Elt F)),
    TRef.nullary main_call4.cst (constant S_ .f32 0x00000000#32),
    TRef.unary main_call4.cst main_call4.v0 (broadcastInDim S50000x128 ![] bcast_S_S50000x128),
    TRef.binary ((.of main_v65 : TRef sig ⟨S50000x128, .f32⟩)) main_call4.v0 main_call4.v1 maximumf ]

/-- The high branch's second normalization. -/
abbrev opsB1 : List (HloOp τ sig (Elt F)) :=
  [ nullary main_cst_10 (constant S_ .f32 0x00000000#32),
    binary main_v66 main_cst_10 main_v67 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_11 (constant S_ .f32 0x47435000#32),
    unary main_cst_11 main_v68 (broadcastInDim S128 ![] bcast_S_S128 : (⟨S_, .f32⟩ : BufTy).Contents (Elt F) → (⟨S128, .f32⟩ : BufTy).Contents (Elt F)),
    binary main_v67 main_v68 main_v69 (Host.divf : (⟨S128, .f32⟩ : BufTy).Contents (Elt F) → (⟨S128, .f32⟩ : BufTy).Contents (Elt F) → (⟨S128, .f32⟩ : BufTy).Contents (Elt F)),
    nullary main_c_12 (constantI S_ 32 0#32),
    TRef.nullary main_call5.cst (constant S_ .f32 0x00000000#32),
    TRef.binary ((.of main_v66 : TRef sig ⟨S50000x128, .f32⟩)) main_call5.cst main_call5.v0 (fun x v => Host.reduceAdd x v reducesTo_S50000x128_S128_d0 h_S_),
    TRef.unary main_call5.v0 main_call5.v1 (broadcastInDim S1x128 ![1] bcast_S128_S1x128_1),
    TRef.nullary main_call5.cst_0 (constant S_ .f32 0x47435000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S50000x128 ![0, 1] bcast_S1x128_S50000x128_0_1),
    TRef.binary ((.of main_v66 : TRef sig ⟨S50000x128, .f32⟩)) main_call5.v4 main_call5.v5 subf,
    TRef.binary main_call5.v5 main_call5.v5 main_call5.v6 mulf,
    TRef.unary ((.of main_c_12 : TRef sig ⟨S_, .i32⟩)) main_call5.v7 (sitofp .f32),
    TRef.nullary main_call5.cst_1 (constant S_ .f32 0x47435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] bcast_S_S128),
    TRef.ternary main_call5.v12 main_call5.v11 main_call5.call0.v1 main_call5.call0.v2 (fun p a b => select (broadcastInDim S128 ![] bcast_S_S128 p) a b),
    unary main_v69 main_v71 (broadcastInDim S1x128 ![1] bcast_S128_S1x128_1 : (⟨S128, .f32⟩ : BufTy).Contents (Elt F) → (⟨S1x128, .f32⟩ : BufTy).Contents (Elt F)),
    unary main_v71 main_v72 (broadcastInDim S50000x128 ![0, 1] bcast_S1x128_S50000x128_0_1 : (⟨S1x128, .f32⟩ : BufTy).Contents (Elt F) → (⟨S50000x128, .f32⟩ : BufTy).Contents (Elt F)),
    binary main_v66 main_v72 main_v73 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v74 (broadcastInDim S128 ![] bcast_S_S128 : (⟨S_, .f32⟩ : BufTy).Contents (Elt F) → (⟨S128, .f32⟩ : BufTy).Contents (Elt F)),
    binary main_v70 main_v74 main_v75 (addf : (⟨S128, .f32⟩ : BufTy).Contents (Elt F) → (⟨S128, .f32⟩ : BufTy).Contents (Elt F) → (⟨S128, .f32⟩ : BufTy).Contents (Elt F)),
    unary main_v75 main_v76 (Host.rsqrt : (⟨S128, .f32⟩ : BufTy).Contents (Elt F) → (⟨S128, .f32⟩ : BufTy).Contents (Elt F)),
    unary main_v76 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v73 main_v78 main_v79 (mulf : (⟨S50000x128, .f32⟩ : BufTy).Contents (Elt F) → (⟨S50000x128, .f32⟩ : BufTy).Contents (Elt F) → (⟨S50000x128, .f32⟩ : BufTy).Contents (Elt F)),
    unary main_arg14 main_v80 (broadcastInDim S1x128 ![1] bcast_S128_S1x128_1 : (⟨S128, .f32⟩ : BufTy).Contents (Elt F) → (⟨S1x128, .f32⟩ : BufTy).Contents (Elt F)),
    unary main_v80 main_v81 (broadcastInDim S50000x128 ![0, 1] bcast_S1x128_S50000x128_0_1 : (⟨S1x128, .f32⟩ : BufTy).Contents (Elt F) → (⟨S50000x128, .f32⟩ : BufTy).Contents (Elt F)),
    binary main_v79 main_v81 main_v82 (mulf : (⟨S50000x128, .f32⟩ : BufTy).Contents (Elt F) → (⟨S50000x128, .f32⟩ : BufTy).Contents (Elt F) → (⟨S50000x128, .f32⟩ : BufTy).Contents (Elt F)),
    unary main_arg15 main_v83 (broadcastInDim S1x128 ![1] bcast_S128_S1x128_1 : (⟨S128, .f32⟩ : BufTy).Contents (Elt F) → (⟨S1x128, .f32⟩ : BufTy).Contents (Elt F)),
    unary main_v83 main_v84 (broadcastInDim S50000x128 ![0, 1] bcast_S1x128_S50000x128_0_1 : (⟨S1x128, .f32⟩ : BufTy).Contents (Elt F) → (⟨S50000x128, .f32⟩ : BufTy).Contents (Elt F)),
    binary main_v82 main_v84 main_v85 (addf : (⟨S50000x128, .f32⟩ : BufTy).Contents (Elt F) → (⟨S50000x128, .f32⟩ : BufTy).Contents (Elt F) → (⟨S50000x128, .f32⟩ : BufTy).Contents (Elt F)) ]

/-- The concatenation, its product with the convolution weights, the edge lists with self loops, the degree count. -/
abbrev opsB2 : List (HloOp τ sig (Elt F)) :=
  [ binary main_v85 main_v42 main_v86 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v86 main_arg16 main_v87 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_v88 (iotaInDim S50000 32 0),
    unary main_arg3 main_v89 ((extractStridedSlice S1x1600000 ![0, 0] · slices_S2x1600000_S1x1600000_0_0) : (⟨S2x1600000, .i32⟩ : BufTy).Contents (Elt F) → (⟨S1x1600000, .i32⟩ : BufTy).Contents (Elt F)),
    reshape main_v89 main_v90 rfl shapeCasts_S1x1600000_S1600000,
    binary main_v90 main_v88 main_v91 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg3 main_v92 ((extractStridedSlice S1x1600000 ![1, 0] · slices_S2x1600000_S1x1600000_1_0) : (⟨S2x1600000, .i32⟩ : BufTy).Contents (Elt F) → (⟨S1x1600000, .i32⟩ : BufTy).Contents (Elt F)),
    reshape main_v92 main_v93 rfl shapeCasts_S1x1600000_S1600000,
    binary main_v93 main_v88 main_v94 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst_14 (constant S_ .f32 0x3F800000#32),
    unary main_cst_14 main_v95 (broadcastInDim S1650000 ![] bcast_S_S1650000 : (⟨S_, .f32⟩ : BufTy).Contents (Elt F) → (⟨S1650000, .f32⟩ : BufTy).Contents (Elt F)),
    nullary main_cst_15 (constant S_ .f32 0x00000000#32),
    unary main_cst_15 main_v96 (broadcastInDim S50000 ![] bcast_S_S50000 : (⟨S_, .f32⟩ : BufTy).Contents (Elt F) → (⟨S50000, .f32⟩ : BufTy).Contents (Elt F)),
    unary main_v94 main_v97 (broadcastInDim S1650000x1 ![0] bcast_S1650000_S1650000x1_0 : (⟨S1650000, .i32⟩ : BufTy).Contents (Elt F) → (⟨S1650000x1, .i32⟩ : BufTy).Contents (Elt F)),
    ternary main_v96 main_v97 main_v95 main_v98 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_16 (constant S_ .f32 0x00000000#32),
    unary main_cst_16 main_v99 (broadcastInDim S50000 ![] bcast_S_S50000 : (⟨S_, .f32⟩ : BufTy).Contents (Elt F) → (⟨S50000, .f32⟩ : BufTy).Contents (Elt F)),
    binary main_v98 main_v99 main_v100 (cmpf .ogt : (⟨S50000, .f32⟩ : BufTy).Contents (Elt F) → (⟨S50000, .f32⟩ : BufTy).Contents (Elt F) → (⟨S50000, .i1⟩ : BufTy).Contents (Elt F)) ]

/-- The symmetric normalization and the gather, scale and scatter-add of the messages. -/
abbrev opsC0 : List (HloOp τ sig (Elt F)) :=
  [ nullary main_cst_17 (constant S_ .f32 0x3F800000#32),
    unary main_cst_17 main_v101 (broadcastInDim S50000 ![] bcast_S_S50000 : (⟨S_, .f32⟩ : BufTy).Contents (Elt F) → (⟨S50000, .f32⟩ : BufTy).Contents (Elt F)),
    binary main_v98 main_v101 main_v102 (maximumf : (⟨S50000, .f32⟩ : BufTy).Contents (Elt F) → (⟨S50000, .f32⟩ : BufTy).Contents (Elt F) → (⟨S50000, .f32⟩ : BufTy).Contents (Elt F)),
    unary main_v102 main_v103 (Host.rsqrt : (⟨S50000, .f32⟩ : BufTy).Contents (Elt F) → (⟨S50000, .f32⟩ : BufTy).Contents (Elt F)),
    nullary main_cst_18 (constant S_ .f32 0x00000000#32),
    TRef.unary ((.of main_cst_18 : TRef sig ⟨S_, .f32⟩)) main_call6.v0 id,
    TRef.unary main_call6.v0 main_call6.v1 (broadcastInDim S50000 ![] bcast_S_S50000),
    TRef.ternary ((.of main_v100 : TRef sig ⟨S50000, .i1⟩)) ((.of main_v103 : TRef sig ⟨S50000, .f32⟩)) main_call6.v1 main_call6.v2 select,
    nullary main_c_19 (constantI S_ 32 0#32),
    unary main_c_19 main_v105 (broadcastInDim S1650000 ![] bcast_S_S1650000 : (⟨S_, .i32⟩ : BufTy).Contents (Elt F) → (⟨S1650000, .i32⟩ : BufTy).Contents (Elt F)),
    binary main_v91 main_v105 main_v106 (cmpi .slt : (⟨S1650000, .i32⟩ : BufTy).Contents (Elt F) → (⟨S1650000, .i32⟩ : BufTy).Contents (Elt F) → (⟨S1650000, .i1⟩ : BufTy).Contents (Elt F)),
    nullary main_c_20 (constantI S_ 32 50000#32),
    unary main_c_20 main_v107 (broadcastInDim S1650000 ![] bcast_S_S1650000 : (⟨S_, .i32⟩ : BufTy).Contents (Elt F) → (⟨S1650000, .i32⟩ : BufTy).Contents (Elt F)),
    binary main_v91 main_v107 main_v108 (addi : (⟨S1650000, .i32⟩ : BufTy).Contents (Elt F) → (⟨S1650000, .i32⟩ : BufTy).Contents (Elt F) → (⟨S1650000, .i32⟩ : BufTy).Contents (Elt F)),
    ternary main_v106 main_v108 main_v91 main_v109 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v109 main_v110 (broadcastInDim S1650000x1 ![0] bcast_S1650000_S1650000x1_0 : (⟨S1650000, .i32⟩ : BufTy).Contents (Elt F) → (⟨S1650000x1, .i32⟩ : BufTy).Contents (Elt F)),
    binary main_v104 main_v110 main_v111 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_21 (constantI S_ 32 0#32),
    unary main_c_21 main_v112 (broadcastInDim S1650000 ![] bcast_S_S1650000 : (⟨S_, .i32⟩ : BufTy).Contents (Elt F) → (⟨S1650000, .i32⟩ : BufTy).Contents (Elt F)),
    binary main_v94 main_v112 main_v113 (cmpi .slt : (⟨S1650000, .i32⟩ : BufTy).Contents (Elt F) → (⟨S1650000, .i32⟩ : BufTy).Contents (Elt F) → (⟨S1650000, .i1⟩ : BufTy).Contents (Elt F)),
    nullary main_c_22 (constantI S_ 32 50000#32),
    unary main_c_22 main_v114 (broadcastInDim S1650000 ![] bcast_S_S1650000 : (⟨S_, .i32⟩ : BufTy).Contents (Elt F) → (⟨S1650000, .i32⟩ : BufTy).Contents (Elt F)),
    binary main_v94 main_v114 main_v115 (addi : (⟨S1650000, .i32⟩ : BufTy).Contents (Elt F) → (⟨S1650000, .i32⟩ : BufTy).Contents (Elt F) → (⟨S1650000, .i32⟩ : BufTy).Contents (Elt F)),
    ternary main_v113 main_v115 main_v94 main_v116 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v116 main_v117 (broadcastInDim S1650000x1 ![0] bcast_S1650000_S1650000x1_0 : (⟨S1650000, .i32⟩ : BufTy).Contents (Elt F) → (⟨S1650000x1, .i32⟩ : BufTy).Contents (Elt F)),
    binary main_v104 main_v117 main_v118 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v111 main_v118 main_v119 (mulf : (⟨S1650000, .f32⟩ : BufTy).Contents (Elt F) → (⟨S1650000, .f32⟩ : BufTy).Contents (Elt F) → (⟨S1650000, .f32⟩ : BufTy).Contents (Elt F)),
    nullary main_c_23 (constantI S_ 32 0#32),
    unary main_c_23 main_v120 (broadcastInDim S1650000 ![] bcast_S_S1650000 : (⟨S_, .i32⟩ : BufTy).Contents (Elt F) → (⟨S1650000, .i32⟩ : BufTy).Contents (Elt F)),
    binary main_v91 main_v120 main_v121 (cmpi .slt : (⟨S1650000, .i32⟩ : BufTy).Contents (Elt F) → (⟨S1650000, .i32⟩ : BufTy).Contents (Elt F) → (⟨S1650000, .i1⟩ : BufTy).Contents (Elt F)),
    nullary main_c_24 (constantI S_ 32 50000#32),
    unary main_c_24 main_v122 (broadcastInDim S1650000 ![] bcast_S_S1650000 : (⟨S_, .i32⟩ : BufTy).Contents (Elt F) → (⟨S1650000, .i32⟩ : BufTy).Contents (Elt F)),
    binary main_v91 main_v122 main_v123 (addi : (⟨S1650000, .i32⟩ : BufTy).Contents (Elt F) → (⟨S1650000, .i32⟩ : BufTy).Contents (Elt F) → (⟨S1650000, .i32⟩ : BufTy).Contents (Elt F)),
    ternary main_v121 main_v123 main_v91 main_v124 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v124 main_v125 (broadcastInDim S1650000x1 ![0] bcast_S1650000_S1650000x1_0 : (⟨S1650000, .i32⟩ : BufTy).Contents (Elt F) → (⟨S1650000x1, .i32⟩ : BufTy).Contents (Elt F)),
    binary main_v87 main_v125 main_v126 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v119 main_v127 (broadcastInDim S1650000x1 ![0] bcast_S1650000_S1650000x1_0 : (⟨S1650000, .f32⟩ : BufTy).Contents (Elt F) → (⟨S1650000x1, .f32⟩ : BufTy).Contents (Elt F)),
    unary main_v127 main_v128 (broadcastInDim S1650000x128 ![0, 1] bcast_S1650000x1_S1650000x128_0_1 : (⟨S1650000x1, .f32⟩ : BufTy).Contents (Elt F) → (⟨S1650000x128, .f32⟩ : BufTy).Contents (Elt F)),
    binary main_v126 main_v128 main_v129 (mulf : (⟨S1650000x128, .f32⟩ : BufTy).Contents (Elt F) → (⟨S1650000x128, .f32⟩ : BufTy).Contents (Elt F) → (⟨S1650000x128, .f32⟩ : BufTy).Contents (Elt F)),
    nullary main_cst_25 (constant S_ .f32 0x00000000#32),
    unary main_cst_25 main_v130 (broadcastInDim S50000x128 ![] bcast_S_S50000x128 : (⟨S_, .f32⟩ : BufTy).Contents (Elt F) → (⟨S50000x128, .f32⟩ : BufTy).Contents (Elt F)),
    unary main_v94 main_v131 (broadcastInDim S1650000x1 ![0] bcast_S1650000_S1650000x1_0 : (⟨S1650000, .i32⟩ : BufTy).Contents (Elt F) → (⟨S1650000x1, .i32⟩ : BufTy).Contents (Elt F)),
    ternary main_v130 main_v131 main_v129 main_v132 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)) ]

/-- The bias, tanh, the classifier and the log-softmax. -/
abbrev opsC1 : List (HloOp τ sig (Elt F)) :=
  [ unary main_arg17 main_v133 (broadcastInDim S1x128 ![1] bcast_S128_S1x128_1 : (⟨S128, .f32⟩ : BufTy).Contents (Elt F) → (⟨S1x128, .f32⟩ : BufTy).Contents (Elt F)),
    unary main_v133 main_v134 (broadcastInDim S50000x128 ![0, 1] bcast_S1x128_S50000x128_0_1 : (⟨S1x128, .f32⟩ : BufTy).Contents (Elt F) → (⟨S50000x128, .f32⟩ : BufTy).Contents (Elt F)),
    binary main_v132 main_v134 main_v135 (addf : (⟨S50000x128, .f32⟩ : BufTy).Contents (Elt F) → (⟨S50000x128, .f32⟩ : BufTy).Contents (Elt F) → (⟨S50000x128, .f32⟩ : BufTy).Contents (Elt F)),
    unary main_v135 main_v136 (Host.tanh : (⟨S50000x128, .f32⟩ : BufTy).Contents (Elt F) → (⟨S50000x128, .f32⟩ : BufTy).Contents (Elt F)),
    binary main_v136 main_arg18 main_v137 ((fun l r => Host.dotGeneral dot_S50000x128_S128x10_S50000x10_1_0_0_1_n_n none l r) : (⟨S50000x128, .f32⟩ : BufTy).Contents (Elt F) → (⟨S128x10, .f32⟩ : BufTy).Contents (Elt F) → (⟨S50000x10, .f32⟩ : BufTy).Contents (Elt F)),
    unary main_arg19 main_v138 (broadcastInDim S1x10 ![1] bcast_S10_S1x10_1 : (⟨S10, .f32⟩ : BufTy).Contents (Elt F) → (⟨S1x10, .f32⟩ : BufTy).Contents (Elt F)),
    unary main_v138 main_v139 (broadcastInDim S50000x10 ![0, 1] bcast_S1x10_S50000x10_0_1 : (⟨S1x10, .f32⟩ : BufTy).Contents (Elt F) → (⟨S50000x10, .f32⟩ : BufTy).Contents (Elt F)),
    binary main_v137 main_v139 main_v140 (addf : (⟨S50000x10, .f32⟩ : BufTy).Contents (Elt F) → (⟨S50000x10, .f32⟩ : BufTy).Contents (Elt F) → (⟨S50000x10, .f32⟩ : BufTy).Contents (Elt F)),
    TRef.nullary main_call7.cst (constant S_ .f32 0xFF800000#32),
    TRef.binary ((.of main_v140 : TRef sig ⟨S50000x10, .f32⟩)) main_call7.cst main_call7.v0 (fun x v => Host.reduce FloatOps.maximumf x v reducesTo_S50000x10_S50000_d1 h_S_),
    TRef.nullary main_call7.cst_0 (constant S_ .f32 0xFF800000#32),
    TRef.unary main_call7.cst_0 main_call7.v1 (broadcastInDim S50000 ![] bcast_S_S50000),
    TRef.binary main_call7.v1 main_call7.v0 main_call7.v2 maximumf,
    TRef.unary main_call7.v2 main_call7.v3 (broadcastInDim S50000x1 ![0] bcast_S50000_S50000x1_0),
    TRef.unary main_call7.v3 main_call7.v4 (broadcastInDim S50000x10 ![0, 1] bcast_S50000x1_S50000x10_0_1),
    TRef.binary ((.of main_v140 : TRef sig ⟨S50000x10, .f32⟩)) main_call7.v4 main_call7.v5 subf,
    TRef.unary main_call7.v5 main_call7.v6 Host.exp,
    TRef.nullary main_call7.cst_1 (constant S_ .f32 0x00000000#32),
    TRef.binary main_call7.v6 main_call7.cst_1 main_call7.v7 (fun x v => Host.reduceAdd x v reducesTo_S50000x10_S50000_d1 h_S_),
    TRef.unary main_call7.v7 main_call7.v8 (broadcastInDim S50000x1 ![0] bcast_S50000_S50000x1_0),
    TRef.unary main_call7.v8 main_call7.v9 Host.log,
    TRef.unary main_call7.v9 main_call7.v10 (broadcastInDim S50000x10 ![0, 1] bcast_S50000x1_S50000x10_0_1),
    TRef.binary main_call7.v5 main_call7.v10 main_call7.v11 subf ]

/-- The three printed windows. -/
abbrev ops0 : List (HloOp τ sig (Elt F)) := opsA0 ++ (opsA1 ++ (opsA2))
abbrev ops1 : List (HloOp τ sig (Elt F)) := opsB0 ++ (opsB1 ++ (opsB2))
abbrev ops2 : List (HloOp τ sig (Elt F)) := opsC0 ++ (opsC1)

/-- All of @main's operations, in order, stage after stage. -/
abbrev ops : List (HloOp τ sig (Elt F)) := opsA0 ++ (opsA1 ++ (opsA2 ++ (opsB0 ++ (opsB1 ++ (opsB2 ++ (opsC0 ++ (opsC1)))))))

theorem ops_eq : (ops : List (HloOp τ sig (Elt F))) = ops0 ++ (ops1 ++ ops2) := by
  simp only [List.append_assoc]

set_option maxRecDepth 8192 in
/-- The first window followed by anything is its list of operations followed by the same. -/
theorem part0_eq (c : Dev nD) (k : Prog (TpuEff nD τ sig (Elt F) (Pipeline.Sig Λ₀ (Fin 0) fun p => (pcfgs (F := F) p).Adm) .tc) PUnit) :
    (main_part0 (F := F) c >>= fun _ => k) = (seq ops0 >>= fun _ => k) := by
  simp only [main_part0, fn_where.body, fn_var.body, fn_relu.body, fn_where_1.body, fn_var_0.body, fn_where_3.body, fn_var_2.body, fn_where_4.body, fn_log_softmax.body, seq, seq_append, bind_assoc, pure_bind]

set_option maxRecDepth 8192 in
/-- The second window followed by anything is its list of operations followed by the same. -/
theorem part1_eq (c : Dev nD) (k : Prog (TpuEff nD τ sig (Elt F) (Pipeline.Sig Λ₀ (Fin 0) fun p => (pcfgs (F := F) p).Adm) .tc) PUnit) :
    (main_part1 (F := F) c >>= fun _ => k) = (seq ops1 >>= fun _ => k) := by
  simp only [main_part1, fn_where.body, fn_var.body, fn_relu.body, fn_where_1.body, fn_var_0.body, fn_where_3.body, fn_var_2.body, fn_where_4.body, fn_log_softmax.body, seq, seq_append, bind_assoc, pure_bind]

set_option maxRecDepth 8192 in
/-- The last window is its list of operations. -/
theorem part2_eq (c : Dev nD) : main_part2 (F := F) c = seq ops2 := by
  simp only [main_part2, fn_where.body, fn_var.body, fn_relu.body, fn_where_1.body, fn_var_0.body, fn_where_3.body, fn_var_2.body, fn_where_4.body, fn_log_softmax.body, seq, seq_append, bind_assoc, pure_bind]

/-- @main is the straight line of all its operations. -/
theorem main_eq (c : Dev nD) : main (F := F) c = seq ops := by
  have h : (seq (ops0 ++ (ops1 ++ ops2)) : Prog (TpuEff nD τ sig (Elt F) (Pipeline.Sig Λ₀ (Fin 0) fun p => (pcfgs (F := F) p).Adm) .tc) PUnit)
      = (seq ops0 >>= fun _ => (seq ops1 >>= fun _ => seq ops2)) := by
    rw [seq_append ops0 (ops1 ++ ops2), seq_append ops1 ops2]
  rw [ops_eq, h, ← part2_eq c, ← part1_eq c, ← part0_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA0_sub : (opsA0 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub ..⟩
theorem opsA1_sub : (opsA1 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub ..⟩
theorem opsA2_sub : (opsA2 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..⟩
theorem opsB0_sub : (opsB0 : List (HloOp τ sig (Elt F))).Forall fun op => op.bufs ⊆ tcRefs τ sig :=
  ⟨binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub ..⟩
theorem opsB1_sub : (opsB1 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub ..⟩
theorem opsB2_sub : (opsB2 : List (HloOp τ sig (Elt F))).Forall fun op => op.bufs ⊆ tcRefs τ sig :=
  ⟨binary_bufs_sub .., binary_bufs_sub .., nullary_bufs_sub .., unary_bufs_sub .., reshape_bufs_sub .., binary_bufs_sub ..,
    unary_bufs_sub .., reshape_bufs_sub .., binary_bufs_sub .., nullary_bufs_sub .., unary_bufs_sub .., nullary_bufs_sub ..,
    unary_bufs_sub .., unary_bufs_sub .., ternary_bufs_sub .., nullary_bufs_sub .., unary_bufs_sub .., binary_bufs_sub ..⟩
theorem opsC0_sub : (opsC0 : List (HloOp τ sig (Elt F))).Forall fun op => op.bufs ⊆ tcRefs τ sig :=
  ⟨nullary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub ..⟩
theorem opsC1_sub : (opsC1 : List (HloOp τ sig (Elt F))).Forall fun op => op.bufs ⊆ tcRefs τ sig :=
  ⟨unary_bufs_sub .., unary_bufs_sub .., binary_bufs_sub .., unary_bufs_sub .., binary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., unary_bufs_sub .., binary_bufs_sub ..⟩

/-- A property of every operation of every stage holds of every operation of @main. -/
theorem forall_ops {P : HloOp τ sig (Elt F) → Prop}
    (hA0 : (opsA0 : List (HloOp τ sig (Elt F))).Forall P) (hA1 : (opsA1 : List (HloOp τ sig (Elt F))).Forall P) (hA2 : (opsA2 : List (HloOp τ sig (Elt F))).Forall P) (hB0 : (opsB0 : List (HloOp τ sig (Elt F))).Forall P) (hB1 : (opsB1 : List (HloOp τ sig (Elt F))).Forall P) (hB2 : (opsB2 : List (HloOp τ sig (Elt F))).Forall P) (hC0 : (opsC0 : List (HloOp τ sig (Elt F))).Forall P) (hC1 : (opsC1 : List (HloOp τ sig (Elt F))).Forall P) :
    ∀ op ∈ (ops : List (HloOp τ sig (Elt F))), P op := fun op h => by
  simp only [List.mem_append] at h
  rcases h with h | h | h | h | h | h | h | h
  · exact List.forall_iff_forall_mem.mp hA0 op h
  · exact List.forall_iff_forall_mem.mp hA1 op h
  · exact List.forall_iff_forall_mem.mp hA2 op h
  · exact List.forall_iff_forall_mem.mp hB0 op h
  · exact List.forall_iff_forall_mem.mp hB1 op h
  · exact List.forall_iff_forall_mem.mp hB2 op h
  · exact List.forall_iff_forall_mem.mp hC0 op h
  · exact List.forall_iff_forall_mem.mp hC1 op h

theorem ops_sub : (ops : List (HloOp τ sig (Elt F))).Forall fun op => op.bufs ⊆ tcRefs τ sig :=
  List.forall_iff_forall_mem.mpr (forall_ops opsA0_sub opsA1_sub opsA2_sub opsB0_sub opsB1_sub opsB2_sub opsC0_sub opsC1_sub)

end Cert.ReferenceIdeal.Straight

end
-- ==== Proof.RefRun.lean ====
/-
  The run of the idealized reference, and what each stage touches.

  Every weakly fair execution of the straight line terminates without a fault and leaves each buffer at the fold of
  the operations' results over the launch contents.  Each operation writes exactly one buffer, and the buffers
  written are the constants, the intermediate values and the callees' values: never an argument.  So the fold at an
  argument is its launch contents, and the fold at an intermediate value is what the stage that writes it left.
-/
import proofs.«160607_j85856396247988_1_alg».proof.Proof.RefLine

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

theorem opsA0_fresh : (opsA0 : List (HloOp τ sig (Elt F))).Forall fun op => op.fresh = ∅ := by
  simp only [List.Forall]; repeat' constructor
theorem opsA1_fresh : (opsA1 : List (HloOp τ sig (Elt F))).Forall fun op => op.fresh = ∅ := by
  simp only [List.Forall]; repeat' constructor
theorem opsA2_fresh : (opsA2 : List (HloOp τ sig (Elt F))).Forall fun op => op.fresh = ∅ := by
  simp only [List.Forall]; repeat' constructor
theorem opsB0_fresh : (opsB0 : List (HloOp τ sig (Elt F))).Forall fun op => op.fresh = ∅ := by
  simp only [List.Forall]; repeat' constructor
theorem opsB1_fresh : (opsB1 : List (HloOp τ sig (Elt F))).Forall fun op => op.fresh = ∅ := by
  simp only [List.Forall]; repeat' constructor
theorem opsB2_fresh : (opsB2 : List (HloOp τ sig (Elt F))).Forall fun op => op.fresh = ∅ := by
  simp only [List.Forall]; repeat' constructor
theorem opsC0_fresh : (opsC0 : List (HloOp τ sig (Elt F))).Forall fun op => op.fresh = ∅ := by
  simp only [List.Forall]; repeat' constructor
theorem opsC1_fresh : (opsC1 : List (HloOp τ sig (Elt F))).Forall fun op => op.fresh = ∅ := by
  simp only [List.Forall]; repeat' constructor

/-- No operation of @main allocates a buffer. -/
theorem ops_fresh : ∀ op ∈ (ops : List (HloOp τ sig (Elt F))), op.fresh = ∅ :=
  forall_ops opsA0_fresh opsA1_fresh opsA2_fresh opsB0_fresh opsB1_fresh opsB2_fresh opsC0_fresh opsC1_fresh

/-- Every weakly fair execution of @main terminates, nothing faulting, with each buffer at the fold of the
    operations' results over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- Running two lines one after the other folds the second over the first's fold. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The buffers stage A0 writes, in order. -/
abbrev writtenA0 : List (Ref sig .tc) :=
  [ main_cst, main_v0, main_cst_0, main_v1, main_v2, main_c, main_call0.cst.ref, main_call0.v0.ref,
    main_call0.v1.ref, main_call0.cst_0.ref, main_call0.v2.ref, main_call0.v3.ref, main_call0.v4.ref, main_call0.v5.ref, main_call0.v6.ref, main_call0.v7.ref,
    main_call0.cst_1.ref, main_call0.v8.ref, main_call0.cst_2.ref, main_call0.v9.ref, main_call0.v10.ref, main_call0.v11.ref, main_call0.cst_3.ref, main_call0.v12.ref,
    main_call0.cst_4.ref, main_call0.call0.v0.ref, main_call0.call0.v1.ref, main_call0.call0.v2.ref, main_v4, main_v5, main_v6, main_cst_1,
    main_v7, main_v8, main_v9, main_v10, main_v11, main_v12, main_v13, main_v14,
    main_v15, main_v16, main_v17, main_v18, main_v19, main_v20, main_v21, main_v22,
    main_call1.cst.ref, main_call1.v0.ref, main_call1.v1.ref ]
/-- The buffers stage A1 writes, in order. -/
abbrev writtenA1 : List (Ref sig .tc) :=
  [ main_cst_2, main_v24, main_cst_3, main_v25, main_v26, main_c_4, main_call2.cst.ref, main_call2.v0.ref,
    main_call2.v1.ref, main_call2.cst_0.ref, main_call2.v2.ref, main_call2.v3.ref, main_call2.v4.ref, main_call2.v5.ref, main_call2.v6.ref, main_call2.v7.ref,
    main_call2.cst_1.ref, main_call2.v8.ref, main_call2.cst_2.ref, main_call2.v9.ref, main_call2.v10.ref, main_call2.v11.ref, main_call2.cst_3.ref, main_call2.v12.ref,
    main_call2.cst_4.ref, main_call2.call0.v0.ref, main_call2.call0.v1.ref, main_call2.call0.v2.ref, main_v28, main_v29, main_v30, main_cst_5,
    main_v31, main_v32, main_v33, main_v34, main_v35, main_v36, main_v37, main_v38,
    main_v39, main_v40, main_v41, main_v42 ]
/-- The buffers stage A2 writes, in order. -/
abbrev writtenA2 : List (Ref sig .tc) :=
  [ main_cst_6, main_v43, main_cst_7, main_v44, main_v45, main_c_8, main_call3.cst.ref, main_call3.v0.ref,
    main_call3.v1.ref, main_call3.cst_0.ref, main_call3.v2.ref, main_call3.v3.ref, main_call3.v4.ref, main_call3.v5.ref, main_call3.v6.ref, main_call3.v7.ref,
    main_call3.cst_1.ref, main_call3.v8.ref, main_call3.cst_2.ref, main_call3.v9.ref, main_call3.v10.ref, main_call3.v11.ref, main_call3.cst_3.ref, main_call3.v12.ref,
    main_call3.cst_4.ref, main_call3.call0.v0.ref, main_call3.call0.v1.ref, main_call3.call0.v2.ref, main_v47, main_v48 ]
/-- The buffers stage B0 writes, in order. -/
abbrev writtenB0 : List (Ref sig .tc) :=
  [ main_v49, main_cst_9, main_v50, main_v51, main_v52, main_v53, main_v54, main_v55,
    main_v56, main_v57, main_v58, main_v59, main_v60, main_v61, main_v62, main_v63,
    main_v64, main_v65, main_call4.cst.ref, main_call4.v0.ref, main_call4.v1.ref ]
/-- The buffers stage B1 writes, in order. -/
abbrev writtenB1 : List (Ref sig .tc) :=
  [ main_cst_10, main_v67, main_cst_11, main_v68, main_v69, main_c_12, main_call5.cst.ref, main_call5.v0.ref,
    main_call5.v1.ref, main_call5.cst_0.ref, main_call5.v2.ref, main_call5.v3.ref, main_call5.v4.ref, main_call5.v5.ref, main_call5.v6.ref, main_call5.v7.ref,
    main_call5.cst_1.ref, main_call5.v8.ref, main_call5.cst_2.ref, main_call5.v9.ref, main_call5.v10.ref, main_call5.v11.ref, main_call5.cst_3.ref, main_call5.v12.ref,
    main_call5.cst_4.ref, main_call5.call0.v0.ref, main_call5.call0.v1.ref, main_call5.call0.v2.ref, main_v71, main_v72, main_v73, main_cst_13,
    main_v74, main_v75, main_v76, main_v77, main_v78, main_v79, main_v80, main_v81,
    main_v82, main_v83, main_v84, main_v85 ]
/-- The buffers stage B2 writes, in order. -/
abbrev writtenB2 : List (Ref sig .tc) :=
  [ main_v86, main_v87, main_v88, main_v89, main_v90, main_v91, main_v92, main_v93,
    main_v94, main_cst_14, main_v95, main_cst_15, main_v96, main_v97, main_v98, main_cst_16,
    main_v99, main_v100 ]
/-- The buffers stage C0 writes, in order. -/
abbrev writtenC0 : List (Ref sig .tc) :=
  [ main_cst_17, main_v101, main_v102, main_v103, main_cst_18, main_call6.v0.ref, main_call6.v1.ref, main_call6.v2.ref,
    main_c_19, main_v105, main_v106, main_c_20, main_v107, main_v108, main_v109, main_v110,
    main_v111, main_c_21, main_v112, main_v113, main_c_22, main_v114, main_v115, main_v116,
    main_v117, main_v118, main_v119, main_c_23, main_v120, main_v121, main_c_24, main_v122,
    main_v123, main_v124, main_v125, main_v126, main_v127, main_v128, main_v129, main_cst_25,
    main_v130, main_v131, main_v132 ]
/-- The buffers stage C1 writes, in order. -/
abbrev writtenC1 : List (Ref sig .tc) :=
  [ main_v133, main_v134, main_v135, main_v136, main_v137, main_v138, main_v139, main_v140,
    main_call7.cst.ref, main_call7.v0.ref, main_call7.cst_0.ref, main_call7.v1.ref, main_call7.v2.ref, main_call7.v3.ref, main_call7.v4.ref, main_call7.v5.ref,
    main_call7.v6.ref, main_call7.cst_1.ref, main_call7.v7.ref, main_call7.v8.ref, main_call7.v9.ref, main_call7.v10.ref, main_call7.v11.ref ]

theorem single_sub_of_mem {W : List (Ref sig .tc)} {y : Ref sig .tc} (h : y ∈ W) :
    ({Proc.devRef (τ := τ) .tc y} : Finset (DevRef τ sig)) ⊆ (W.map (Proc.devRef (τ := τ) .tc)).toFinset := by
  intro b hb
  rw [Finset.mem_singleton] at hb
  subst hb
  exact List.mem_toFinset.mpr (List.mem_map.mpr ⟨y, h, rfl⟩)

theorem opsA0_writes : (opsA0 : List (HloOp τ sig (Elt F))).Forall fun op => op.writes ⊆ (writtenA0.map (Proc.devRef (τ := τ) .tc)).toFinset := by
  simp only [List.Forall, nullary_writes, unary_writes, binary_writes, ternary_writes, reshape_writes]
  repeat' apply And.intro
  all_goals exact single_sub_of_mem (by decide)
theorem opsA1_writes : (opsA1 : List (HloOp τ sig (Elt F))).Forall fun op => op.writes ⊆ (writtenA1.map (Proc.devRef (τ := τ) .tc)).toFinset := by
  simp only [List.Forall, nullary_writes, unary_writes, binary_writes, ternary_writes, reshape_writes]
  repeat' apply And.intro
  all_goals exact single_sub_of_mem (by decide)
theorem opsA2_writes : (opsA2 : List (HloOp τ sig (Elt F))).Forall fun op => op.writes ⊆ (writtenA2.map (Proc.devRef (τ := τ) .tc)).toFinset := by
  simp only [List.Forall, nullary_writes, unary_writes, binary_writes, ternary_writes, reshape_writes]
  repeat' apply And.intro
  all_goals exact single_sub_of_mem (by decide)
theorem opsB0_writes : (opsB0 : List (HloOp τ sig (Elt F))).Forall fun op => op.writes ⊆ (writtenB0.map (Proc.devRef (τ := τ) .tc)).toFinset := by
  simp only [List.Forall, nullary_writes, unary_writes, binary_writes, ternary_writes, reshape_writes]
  repeat' apply And.intro
  all_goals exact single_sub_of_mem (by decide)
theorem opsB1_writes : (opsB1 : List (HloOp τ sig (Elt F))).Forall fun op => op.writes ⊆ (writtenB1.map (Proc.devRef (τ := τ) .tc)).toFinset := by
  simp only [List.Forall, nullary_writes, unary_writes, binary_writes, ternary_writes, reshape_writes]
  repeat' apply And.intro
  all_goals exact single_sub_of_mem (by decide)
theorem opsB2_writes : (opsB2 : List (HloOp τ sig (Elt F))).Forall fun op => op.writes ⊆ (writtenB2.map (Proc.devRef (τ := τ) .tc)).toFinset := by
  simp only [List.Forall, nullary_writes, unary_writes, binary_writes, ternary_writes, reshape_writes]
  repeat' apply And.intro
  all_goals exact single_sub_of_mem (by decide)
theorem opsC0_writes : (opsC0 : List (HloOp τ sig (Elt F))).Forall fun op => op.writes ⊆ (writtenC0.map (Proc.devRef (τ := τ) .tc)).toFinset := by
  simp only [List.Forall, nullary_writes, unary_writes, binary_writes, ternary_writes, reshape_writes]
  repeat' apply And.intro
  all_goals exact single_sub_of_mem (by decide)
theorem opsC1_writes : (opsC1 : List (HloOp τ sig (Elt F))).Forall fun op => op.writes ⊆ (writtenC1.map (Proc.devRef (τ := τ) .tc)).toFinset := by
  simp only [List.Forall, nullary_writes, unary_writes, binary_writes, ternary_writes, reshape_writes]
  repeat' apply And.intro
  all_goals exact single_sub_of_mem (by decide)

/-- A buffer no stage after A0 writes holds, after @main, what stage A0 left in it. -/
theorem read_A0 (r : Ref sig .tc) (hA1 : r ∉ writtenA1) (hA2 : r ∉ writtenA2) (hB0 : r ∉ writtenB0) (hB1 : r ∉ writtenB1) (hB2 : r ∉ writtenB2) (hC0 : r ∉ writtenC0) (hC1 : r ∉ writtenC1) (V : Valuation τ sig (Elt F)) :
    after ops V (Proc.devRef .tc r) = after opsA0 (V) (Proc.devRef .tc r) := by
  show after (opsA0 ++ (opsA1 ++ (opsA2 ++ (opsB0 ++ (opsB1 ++ (opsB2 ++ (opsC0 ++ (opsC1)))))))) V _ = _
  simp only [after_append]
  rw [after_of_writes_sub opsC1 _ opsC1_writes hC1,
    after_of_writes_sub opsC0 _ opsC0_writes hC0,
    after_of_writes_sub opsB2 _ opsB2_writes hB2,
    after_of_writes_sub opsB1 _ opsB1_writes hB1,
    after_of_writes_sub opsB0 _ opsB0_writes hB0,
    after_of_writes_sub opsA2 _ opsA2_writes hA2,
    after_of_writes_sub opsA1 _ opsA1_writes hA1]

/-- A buffer no stage after A1 writes holds, after @main, what stage A1 left in it. -/
theorem read_A1 (r : Ref sig .tc) (hA2 : r ∉ writtenA2) (hB0 : r ∉ writtenB0) (hB1 : r ∉ writtenB1) (hB2 : r ∉ writtenB2) (hC0 : r ∉ writtenC0) (hC1 : r ∉ writtenC1) (V : Valuation τ sig (Elt F)) :
    after ops V (Proc.devRef .tc r) = after opsA1 (after opsA0 (V)) (Proc.devRef .tc r) := by
  show after (opsA0 ++ (opsA1 ++ (opsA2 ++ (opsB0 ++ (opsB1 ++ (opsB2 ++ (opsC0 ++ (opsC1)))))))) V _ = _
  simp only [after_append]
  rw [after_of_writes_sub opsC1 _ opsC1_writes hC1,
    after_of_writes_sub opsC0 _ opsC0_writes hC0,
    after_of_writes_sub opsB2 _ opsB2_writes hB2,
    after_of_writes_sub opsB1 _ opsB1_writes hB1,
    after_of_writes_sub opsB0 _ opsB0_writes hB0,
    after_of_writes_sub opsA2 _ opsA2_writes hA2]

/-- A buffer no stage after A2 writes holds, after @main, what stage A2 left in it. -/
theorem read_A2 (r : Ref sig .tc) (hB0 : r ∉ writtenB0) (hB1 : r ∉ writtenB1) (hB2 : r ∉ writtenB2) (hC0 : r ∉ writtenC0) (hC1 : r ∉ writtenC1) (V : Valuation τ sig (Elt F)) :
    after ops V (Proc.devRef .tc r) = after opsA2 (after opsA1 (after opsA0 (V))) (Proc.devRef .tc r) := by
  show after (opsA0 ++ (opsA1 ++ (opsA2 ++ (opsB0 ++ (opsB1 ++ (opsB2 ++ (opsC0 ++ (opsC1)))))))) V _ = _
  simp only [after_append]
  rw [after_of_writes_sub opsC1 _ opsC1_writes hC1,
    after_of_writes_sub opsC0 _ opsC0_writes hC0,
    after_of_writes_sub opsB2 _ opsB2_writes hB2,
    after_of_writes_sub opsB1 _ opsB1_writes hB1,
    after_of_writes_sub opsB0 _ opsB0_writes hB0]

/-- A buffer no stage after B0 writes holds, after @main, what stage B0 left in it. -/
theorem read_B0 (r : Ref sig .tc) (hB1 : r ∉ writtenB1) (hB2 : r ∉ writtenB2) (hC0 : r ∉ writtenC0) (hC1 : r ∉ writtenC1) (V : Valuation τ sig (Elt F)) :
    after ops V (Proc.devRef .tc r) = after opsB0 (after opsA2 (after opsA1 (after opsA0 (V)))) (Proc.devRef .tc r) := by
  show after (opsA0 ++ (opsA1 ++ (opsA2 ++ (opsB0 ++ (opsB1 ++ (opsB2 ++ (opsC0 ++ (opsC1)))))))) V _ = _
  simp only [after_append]
  rw [after_of_writes_sub opsC1 _ opsC1_writes hC1,
    after_of_writes_sub opsC0 _ opsC0_writes hC0,
    after_of_writes_sub opsB2 _ opsB2_writes hB2,
    after_of_writes_sub opsB1 _ opsB1_writes hB1]

/-- A buffer no stage after B1 writes holds, after @main, what stage B1 left in it. -/
theorem read_B1 (r : Ref sig .tc) (hB2 : r ∉ writtenB2) (hC0 : r ∉ writtenC0) (hC1 : r ∉ writtenC1) (V : Valuation τ sig (Elt F)) :
    after ops V (Proc.devRef .tc r) = after opsB1 (after opsB0 (after opsA2 (after opsA1 (after opsA0 (V))))) (Proc.devRef .tc r) := by
  show after (opsA0 ++ (opsA1 ++ (opsA2 ++ (opsB0 ++ (opsB1 ++ (opsB2 ++ (opsC0 ++ (opsC1)))))))) V _ = _
  simp only [after_append]
  rw [after_of_writes_sub opsC1 _ opsC1_writes hC1,
    after_of_writes_sub opsC0 _ opsC0_writes hC0,
    after_of_writes_sub opsB2 _ opsB2_writes hB2]

/-- A buffer no stage after B2 writes holds, after @main, what stage B2 left in it. -/
theorem read_B2 (r : Ref sig .tc) (hC0 : r ∉ writtenC0) (hC1 : r ∉ writtenC1) (V : Valuation τ sig (Elt F)) :
    after ops V (Proc.devRef .tc r) = after opsB2 (after opsB1 (after opsB0 (after opsA2 (after opsA1 (after opsA0 (V)))))) (Proc.devRef .tc r) := by
  show after (opsA0 ++ (opsA1 ++ (opsA2 ++ (opsB0 ++ (opsB1 ++ (opsB2 ++ (opsC0 ++ (opsC1)))))))) V _ = _
  simp only [after_append]
  rw [after_of_writes_sub opsC1 _ opsC1_writes hC1,
    after_of_writes_sub opsC0 _ opsC0_writes hC0]

/-- A buffer no stage after C0 writes holds, after @main, what stage C0 left in it. -/
theorem read_C0 (r : Ref sig .tc) (hC1 : r ∉ writtenC1) (V : Valuation τ sig (Elt F)) :
    after ops V (Proc.devRef .tc r) = after opsC0 (after opsB2 (after opsB1 (after opsB0 (after opsA2 (after opsA1 (after opsA0 (V))))))) (Proc.devRef .tc r) := by
  show after (opsA0 ++ (opsA1 ++ (opsA2 ++ (opsB0 ++ (opsB1 ++ (opsB2 ++ (opsC0 ++ (opsC1)))))))) V _ = _
  simp only [after_append]
  rw [after_of_writes_sub opsC1 _ opsC1_writes hC1]

/-- A buffer no stage after C1 writes holds, after @main, what stage C1 left in it. -/
theorem read_C1 (r : Ref sig .tc)  (V : Valuation τ sig (Elt F)) :
    after ops V (Proc.devRef .tc r) = after opsC1 (after opsC0 (after opsB2 (after opsB1 (after opsB0 (after opsA2 (after opsA1 (after opsA0 (V)))))))) (Proc.devRef .tc r) := by
  show after (opsA0 ++ (opsA1 ++ (opsA2 ++ (opsB0 ++ (opsB1 ++ (opsB2 ++ (opsC0 ++ (opsC1)))))))) V _ = _
  simp only [after_append]

/-- A buffer no stage writes holds, after @main, what it held before. -/
theorem kept (r : Ref sig .tc) (hA0 : r ∉ writtenA0) (hA1 : r ∉ writtenA1) (hA2 : r ∉ writtenA2) (hB0 : r ∉ writtenB0) (hB1 : r ∉ writtenB1) (hB2 : r ∉ writtenB2) (hC0 : r ∉ writtenC0) (hC1 : r ∉ writtenC1) (V : Valuation τ sig (Elt F)) :
    after ops V (Proc.devRef .tc r) = V (Proc.devRef .tc r) := by
  rw [read_A0 r hA1 hA2 hB0 hB1 hB2 hC0 hC1, after_of_writes_sub opsA0 _ opsA0_writes hA0]

/-- The frame: @main runs and every argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
    ⟨(h c main_arg0).trans (kept main_arg0 (by decide) (by decide) (by decide) (by decide) (by decide) (by decide) (by decide) (by decide) _),
     (h c main_arg1).trans (kept main_arg1 (by decide) (by decide) (by decide) (by decide) (by decide) (by decide) (by decide) (by decide) _),
     (h c main_arg2).trans (kept main_arg2 (by decide) (by decide) (by decide) (by decide) (by decide) (by decide) (by decide) (by decide) _),
     (h c main_arg3).trans (kept main_arg3 (by decide) (by decide) (by decide) (by decide) (by decide) (by decide) (by decide) (by decide) _),
     (h c main_arg4).trans (kept main_arg4 (by decide) (by decide) (by decide) (by decide) (by decide) (by decide) (by decide) (by decide) _),
     (h c main_arg5).trans (kept main_arg5 (by decide) (by decide) (by decide) (by decide) (by decide) (by decide) (by decide) (by decide) _),
     (h c main_arg6).trans (kept main_arg6 (by decide) (by decide) (by decide) (by decide) (by decide) (by decide) (by decide) (by decide) _),
     (h c main_arg7).trans (kept main_arg7 (by decide) (by decide) (by decide) (by decide) (by decide) (by decide) (by decide) (by decide) _),
     (h c main_arg8).trans (kept main_arg8 (by decide) (by decide) (by decide) (by decide) (by decide) (by decide) (by decide) (by decide) _),
     (h c main_arg9).trans (kept main_arg9 (by decide) (by decide) (by decide) (by decide) (by decide) (by decide) (by decide) (by decide) _),
     (h c main_arg10).trans (kept main_arg10 (by decide) (by decide) (by decide) (by decide) (by decide) (by decide) (by decide) (by decide) _),
     (h c main_arg11).trans (kept main_arg11 (by decide) (by decide) (by decide) (by decide) (by decide) (by decide) (by decide) (by decide) _),
     (h c main_arg12).trans (kept main_arg12 (by decide) (by decide) (by decide) (by decide) (by decide) (by decide) (by decide) (by decide) _),
     (h c main_arg13).trans (kept main_arg13 (by decide) (by decide) (by decide) (by decide) (by decide) (by decide) (by decide) (by decide) _),
     (h c main_arg14).trans (kept main_arg14 (by decide) (by decide) (by decide) (by decide) (by decide) (by decide) (by decide) (by decide) _),
     (h c main_arg15).trans (kept main_arg15 (by decide) (by decide) (by decide) (by decide) (by decide) (by decide) (by decide) (by decide) _),
     (h c main_arg16).trans (kept main_arg16 (by decide) (by decide) (by decide) (by decide) (by decide) (by decide) (by decide) (by decide) _),
     (h c main_arg17).trans (kept main_arg17 (by decide) (by decide) (by decide) (by decide) (by decide) (by decide) (by decide) (by decide) _),
     (h c main_arg18).trans (kept main_arg18 (by decide) (by decide) (by decide) (by decide) (by decide) (by decide) (by decide) (by decide) _),
     (h c main_arg19).trans (kept main_arg19 (by decide) (by decide) (by decide) (by decide) (by decide) (by decide) (by decide) (by decide) _)⟩)
    (run_fold m ρ)

end Cert.ReferenceIdeal.Straight

end
-- ==== Proof.Fin7.lean ====
/-
  The last region's body, entry by entry.

  The region adds the convolution's bias to its [5000, 128] block of aggregated messages, takes tanh, multiplies by the
  [128, 10] classifier weights into a zero accumulator and adds the classifier's bias: ten logits per row.  Then the
  log-softmax of each row, as the kernel spells it: subtract the row's maximum (the maximum folded from −∞ over the
  ten logits), and subtract the logarithm of the sum of the exponentials of the shifted logits.
-/
import proofs.«160607_j85856396247988_1_alg».proof.Proof.Gen.KernelIdeal.Frame
import Idealize.ShloMosaic.Lib.Pipeline.Value
import Idealize.ShloMosaic.PureOps.Ideal.Laws
import Idealize.ShloMosaic.Lib.ValueIdx
import Idealize.ShloMosaic.Lib.ValueLayout

set_option maxRecDepth 16384

noncomputable section

namespace Cert.KernelIdeal.Fin7

open Cert.KernelIdeal Cert.KernelIdeal.Gen
open Idealize.ShloMosaic Idealize.ShloMosaic.TcCoe Idealize.SL.Sem Idealize.ShloMosaic.Tactic
open Idealize.ShloMosaic.ValueIdx

/-- The pattern of −∞, from which the row maximum is folded. -/
abbrev negInf : EReal := Ideal.ofBits .f32 0xFF800000#32

/-- A row's maximum: `max` folded from −∞ over the ten logits. -/
def rowMax (lg : Fin 10 → EReal) : EReal := Finset.univ.fold max negInf lg

/-- The log-softmax of a row of ten logits at position `q`, as the kernel spells it. -/
def lsm (lg : Fin 10 → EReal) (q : Fin 10) : EReal :=
  (lg q - rowMax lg) - FloatOps.log (F := Ideal) (φ := .f32) (∑ q' : Fin 10, FloatOps.exp (F := Ideal) (φ := .f32) (lg q' - rowMax lg))

/-- One logit from a row of aggregated messages. -/
def logit (xrow : Fin 128 → EReal) (cbias : S1x128.Idx → EReal) (W : S128x10.Idx → EReal) (lbias : S1x10.Idx → EReal) (q : Fin 10) : EReal :=
  (∑ k : Fin 128, FloatOps.tanh (F := Ideal) (φ := .f32) (xrow k + cbias (ix2 (0 : Fin 1) k)) * W (ix2 k q)) + lbias (ix2 (0 : Fin 1) q)

/-- The block's product with the classifier weights into a zero accumulator, at (a, b). -/
theorem mm_apply (A : FVec Ideal S5000x128 .bf16) (B : FVec Ideal S128x10 .bf16) (a : Fin 5000) (b : Fin 10) :
    matmul dot_S5000x128_S128x10_S5000x10_1_0_0_1_n_n none A B (constant (F := Ideal) S5000x10 .f32 0x00000000#32) (ix2 a b)
      = ∑ k : Fin 128, A (ix2 a k) * B (ix2 k b) := by
  show FloatOps.matmul dot_S5000x128_S128x10_S5000x10_1_0_0_1_n_n none A B _ (ix2 a b) = _
  rw [Ideal.matmul_constant_zero_apply, ← Equiv.sum_comp (contrEquiv1 dot_S5000x128_S128x10_S5000x10_1_0_0_1_n_n 128 rfl rfl).symm]
  refine Finset.sum_congr rfl fun k _ => ?_
  have c2 := contrEquiv1_symm_val dot_S5000x128_S128x10_S5000x10_1_0_0_1_n_n 128 rfl rfl k
  have l2 : (dot_S5000x128_S128x10_S5000x10_1_0_0_1_n_n).lhsIdx (ix2 a b) ((contrEquiv1 _ 128 rfl rfl).symm k) = ix2 a k := by
    funext ax; apply Fin.ext
    match ax with
    | ⟨0, _⟩ => simp [DotDims.lhsIdx, dot_S5000x128_S128x10_S5000x10_1_0_0_1_n_n]; rfl
    | ⟨1, _⟩ => simp [DotDims.lhsIdx, dot_S5000x128_S128x10_S5000x10_1_0_0_1_n_n]; exact c2
  have r2 : (dot_S5000x128_S128x10_S5000x10_1_0_0_1_n_n).rhsIdx (ix2 a b) ((contrEquiv1 _ 128 rfl rfl).symm k) = ix2 k b := by
    funext ax; apply Fin.ext
    match ax with
    | ⟨0, _⟩ => simp [DotDims.rhsIdx, dot_S5000x128_S128x10_S5000x10_1_0_0_1_n_n]; exact c2
    | ⟨1, _⟩ => simp [DotDims.rhsIdx, dot_S5000x128_S128x10_S5000x10_1_0_0_1_n_n]; rfl
  rw [l2, r2]

/-- A [5000] vector viewed as a [5000, 1] column reads, at (r, 0), the vector at r. -/
theorem col_apply (v : FVec Ideal S5000 .f32) (r : Fin 5000) :
    shapeCast S5000x1 v shapeCasts_S5000_S5000x1 (ix2 r (0 : Fin 1)) = v (ix1 r) :=
  shapeCast_apply v _ _ _ (by
    rw [Shape.rowMajor_val_two, Shape.rowMajor_val_one]
    show r.val = r.val * 1 + 0
    omega)

/-- A [5000, 1] column broadcast across ten columns reads, at (r, q), the column at (r, 0). -/
theorem across_apply (w : FVec Ideal S5000x1 .f32) (r : Fin 5000) (q : Fin 10) :
    broadcastTo S5000x10 w broadcasts_S5000x1_S5000x10 (ix2 r q) = w (ix2 r (0 : Fin 1)) := by
  refine broadcastTo_apply w _ (ix2 r q) (ix2 r (0 : Fin 1)) fun ax => ?_
  match ax with
  | ⟨0, _⟩ => rfl
  | ⟨1, _⟩ => rfl

theorem lift_ix (r : Fin 5000) (q : Fin 10) : reduces_S5000x10_S5000.lift (ix1 r) q = ix2 r q :=
  funext fun a => match a with | ⟨0, _⟩ => rfl | ⟨1, _⟩ => rfl

/-- The lane maximum over a row. -/
theorem maxred_apply (L : FVec Ideal S5000x10 .f32) (hφ : FKind.Formats .f32)
    (hacc : (0xFF800000#32 : BitVec 32) = FKind.maximumf.neutral .f32 hφ) (r : Fin 5000) :
    multiReduction .maximumf [1] S5000 L 0xFF800000#32 reduces_S5000x10_S5000 hφ hacc (ix1 r) = rowMax (fun q => L (ix2 r q)) := by
  refine (Ideal.multiReduction_maximumf_single L 0xFF800000#32 reduces_S5000x10_S5000 hφ hacc (ix1 r)).trans ?_
  unfold rowMax
  exact congrArg (fun f => Finset.univ.fold max negInf f) (funext fun q => congrArg L (lift_ix r q))

/-- The lane sum over a row. -/
theorem addred_apply (E : FVec Ideal S5000x10 .f32) (hφ : FKind.Formats .f32)
    (hacc : (0x00000000#32 : BitVec 32) = FKind.add.neutral .f32 hφ) (r : Fin 5000) :
    multiReduction .add [1] S5000 E 0x00000000#32 reduces_S5000x10_S5000 hφ hacc (ix1 r) = ∑ q : Fin 10, E (ix2 r q) := by
  refine (Ideal.multiReduction_add_single E 0x00000000#32 reduces_S5000x10_S5000 hφ hacc (ix1 r)).trans ?_
  exact Finset.sum_congr rfl fun q _ => congrArg E (lift_ix r q)

/-- The logits of the block at (r, q). -/
theorem logit_apply (v0 : FVec Ideal S5000x128 .f32) (v2 : FVec Ideal S1x128 .f32) (v8 : FVec Ideal S128x10 .bf16)
    (v11 : FVec Ideal S1x10 .f32) (r : Fin 5000) (q : Fin 10) :
    addf (matmul dot_S5000x128_S128x10_S5000x10_1_0_0_1_n_n none (truncf .bf16 (tanh (addf v0 (broadcastTo S5000x128 v2 broadcasts_S1x128_S5000x128))) bitsLt_bf16_f32) v8
        (constant (F := Ideal) S5000x10 .f32 0x00000000#32)) (broadcastTo S5000x10 v11 broadcasts_S1x10_S5000x10) (ix2 r q)
      = logit (fun k => v0 (ix2 r k)) v2 v8 v11 q := by
  refine (addf_apply _ _ _).trans ?_
  unfold logit
  refine congrArg₂ (· + ·) ?_ (broadcastTo_1b_ab_apply v11 _ r q)
  refine (mm_apply _ _ r q).trans ?_
  refine Finset.sum_congr rfl fun k _ => congrArg (· * v8 (ix2 k q)) ?_
  show FloatOps.tanh (F := Ideal) (φ := .f32) (addf v0 (broadcastTo S5000x128 v2 broadcasts_S1x128_S5000x128) (ix2 r k)) = _
  exact congrArg _ ((addf_apply _ _ _).trans (congrArg (v0 (ix2 r k) + ·) (broadcastTo_1b_ab_apply v2 _ r k)))

/-- The kernel's log-softmax of a [5000, 10] block of logits at (r, q). -/
theorem lsm_apply (L : FVec Ideal S5000x10 .f32) (hφ : FKind.Formats .f32)
    (hm : (0xFF800000#32 : BitVec 32) = FKind.maximumf.neutral .f32 hφ) (ha : (0x00000000#32 : BitVec 32) = FKind.add.neutral .f32 hφ)
    (r : Fin 5000) (q : Fin 10) :
    subf (subf L (broadcastTo S5000x10 (shapeCast S5000x1 (multiReduction .maximumf [1] S5000 L 0xFF800000#32 reduces_S5000x10_S5000 hφ hm) shapeCasts_S5000_S5000x1) broadcasts_S5000x1_S5000x10))
      (broadcastTo S5000x10 (log (shapeCast S5000x1 (multiReduction .add [1] S5000
        (exp (subf L (broadcastTo S5000x10 (shapeCast S5000x1 (multiReduction .maximumf [1] S5000 L 0xFF800000#32 reduces_S5000x10_S5000 hφ hm) shapeCasts_S5000_S5000x1) broadcasts_S5000x1_S5000x10)))
        0x00000000#32 reduces_S5000x10_S5000 hφ ha) shapeCasts_S5000_S5000x1)) broadcasts_S5000x1_S5000x10) (ix2 r q)
      = lsm (fun q' => L (ix2 r q')) q := by
  have hshift : ∀ q' : Fin 10, subf L (broadcastTo S5000x10 (shapeCast S5000x1 (multiReduction .maximumf [1] S5000 L 0xFF800000#32 reduces_S5000x10_S5000 hφ hm) shapeCasts_S5000_S5000x1) broadcasts_S5000x1_S5000x10) (ix2 r q')
      = L (ix2 r q') - rowMax (fun q' => L (ix2 r q')) := fun q' =>
    (subf_apply _ _ _).trans (congrArg (L (ix2 r q') - ·) ((across_apply _ r q').trans ((col_apply _ r).trans (maxred_apply L hφ hm r))))
  refine (subf_apply _ _ _).trans ?_
  unfold lsm
  refine congrArg₂ (· - ·) (hshift q) ?_
  refine (across_apply _ r q).trans ?_
  show FloatOps.log (F := Ideal) (φ := .f32) (shapeCast S5000x1 _ shapeCasts_S5000_S5000x1 (ix2 r (0 : Fin 1))) = _
  refine congrArg _ ((col_apply _ r).trans ((addred_apply _ hφ ha r).trans ?_))
  refine Finset.sum_congr rfl fun q' _ => ?_
  show FloatOps.exp (F := Ideal) (φ := .f32) (subf L _ (ix2 r q')) = _
  exact congrArg _ (hshift q')

/-- The body's payload at (r, q). -/
theorem pay_apply (v0 : Vec Ideal S5000x128 .f32) (v2 : Vec Ideal S1x128 .f32) (v8 : Vec Ideal S128x10 .bf16)
    (v11 : Vec Ideal S1x10 .f32) (r : Fin 5000) (q : Fin 10) :
    k7_pay1 (F := Ideal) v0 v2 v8 v11 (ix2 r q) = lsm (fun q' => logit (fun k => v0 (ix2 r k)) v2 v8 v11 q') q := by
  unfold k7_pay1
  try dsimp only
  simp only [shapeCast_self]
  refine (lsm_apply _ _ _ _ r q).trans ?_
  exact congrArg (fun f => lsm f q) (funext fun q' => logit_apply v0 v2 v8 v11 r q')

end Cert.KernelIdeal.Fin7

end
-- ==== Proof.Fin7Array.lean ====
/-
  The last region's result array: the program's result.

  Every point writes its [5000, 10] result block back, the ten blocks tile the [50000, 10] array, and block t's row r is
  computed from row 5000·t + r of the aggregated messages, so the array ends holding, row by row, the log-softmax of
  the row's ten logits.
-/
import proofs.«160607_j85856396247988_1_alg».proof.Proof.Fin7

set_option maxRecDepth 16384

noncomputable section

namespace Cert.KernelIdeal.Fin7

open Cert.KernelIdeal Cert.KernelIdeal.Gen
open Idealize.ShloMosaic Idealize.ShloMosaic.TcCoe Idealize.SL.Sem Idealize.ShloMosaic.Tactic
open Idealize.ShloMosaic.ValueIdx
open Idealize.ShloMosaic.Pipeline (Dat)

variable (V : (c : Dev nD) → (b : Ref sig .tc) → Buf (Elt Ideal) ((c : Thread nD τ).loc b))

/-- The arrays as the region finds them: the aggregated messages, the convolution's bias as one row, the classifier's
    weights and its bias as one row. -/
abbrev Agg (c : Dev nD) : S50000x128.Idx → EReal := V c main_v90
abbrev cbias (c : Dev nD) : S1x128.Idx → EReal := V c main_v91
abbrev Wc (c : Dev nD) : S128x10.Idx → EReal := V c main_v92
abbrev lbias (c : Dev nD) : S1x10.Idx → EReal := V c main_v93

/-- The program's result array, row by row. -/
def G (c : Dev nD) : S50000x10.Idx → EReal := fun i =>
  lsm (fun q' => logit (fun k => Agg V c (ix2 (i 0 : Fin 50000) k)) (cbias V c) (Wc V c) (lbias V c) q') (i 1 : Fin 10)

theorem hz : (![0, 0] : Fin 2 → Nat) = fun _ => 0 := funext fun a => by fin_cases a <;> rfl

/-- The printed index maps, decided over the grid. -/
theorem idx_facts : ∀ t : Fin cfg7.N, win7_0.index t (0 : Fin 2) = t.val
    ∧ win7_0.index t (1 : Fin 2) = 0
    ∧ win7_4.index t (0 : Fin 2) = t.val
    ∧ win7_4.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0 :=
  (by decide +kernel : ∀ t : Fin grid7.N, _)

/-- Window 1 never moves: its block is the whole array. -/
theorem full1 (c : Dev nD) (t : Fin cfg7.N) : (iblk7 V c 1 t : S1x128.Idx → EReal) = cbias V c := by
  obtain ⟨e00, e01, eo0, eo1, f1_0, f1_1, f2_0, f2_1, f3_0, f3_1⟩ := idx_facts t
  funext y
  unfold iblk7
  rw [View.read_apply]
  show V c main_v91 _ = V c main_v91 _
  congr 1
  funext a
  apply Fin.ext
  match a with
  | ⟨0, _⟩ => show win7_1.index t 0 * 1 + 1 * (y 0).val = (y 0).val; rw [f1_0]; omega
  | ⟨1, _⟩ => show win7_1.index t 1 * 128 + 1 * (y 1).val = (y 1).val; rw [f1_1]; omega

/-- Window 2 never moves: its block is the whole array. -/
theorem full2 (c : Dev nD) (t : Fin cfg7.N) : (iblk7 V c 2 t : S128x10.Idx → EReal) = Wc V c := by
  obtain ⟨e00, e01, eo0, eo1, f1_0, f1_1, f2_0, f2_1, f3_0, f3_1⟩ := idx_facts t
  funext y
  unfold iblk7
  rw [View.read_apply]
  show V c main_v92 _ = V c main_v92 _
  congr 1
  funext a
  apply Fin.ext
  match a with
  | ⟨0, _⟩ => show win7_2.index t 0 * 128 + 1 * (y 0).val = (y 0).val; rw [f2_0]; omega
  | ⟨1, _⟩ => show win7_2.index t 1 * 10 + 1 * (y 1).val = (y 1).val; rw [f2_1]; omega

/-- Window 3 never moves: its block is the whole array. -/
theorem full3 (c : Dev nD) (t : Fin cfg7.N) : (iblk7 V c 3 t : S1x10.Idx → EReal) = lbias V c := by
  obtain ⟨e00, e01, eo0, eo1, f1_0, f1_1, f2_0, f2_1, f3_0, f3_1⟩ := idx_facts t
  funext y
  unfold iblk7
  rw [View.read_apply]
  show V c main_v93 _ = V c main_v93 _
  congr 1
  funext a
  apply Fin.ext
  match a with
  | ⟨0, _⟩ => show win7_3.index t 0 * 1 + 1 * (y 0).val = (y 0).val; rw [f3_0]; omega
  | ⟨1, _⟩ => show win7_3.index t 1 * 10 + 1 * (y 1).val = (y 1).val; rw [f3_1]; omega

/-- Row `r` of block `t` of the aggregated messages is row 5000·t + r of the array. -/
theorem row0 (c : Dev nD) (t : Fin cfg7.N) (r : Fin 5000) (k : Fin 128) (i : Fin 50000) (hi : i.val = 5000 * t.val + r.val) :
    (iblk7 V c 0 t : S5000x128.Idx → EReal) (ix2 r k) = Agg V c (ix2 i k) := by
  obtain ⟨e00, e01, eo0, eo1, f1_0, f1_1, f2_0, f2_1, f3_0, f3_1⟩ := idx_facts t
  unfold iblk7
  rw [View.read_apply]
  show V c main_v90 _ = V c main_v90 _
  congr 1
  funext a
  apply Fin.ext
  match a with
  | ⟨0, _⟩ => show win7_0.index t 0 * 5000 + 1 * r.val = i.val; rw [e00, hi]; omega
  | ⟨1, _⟩ => show win7_0.index t 1 * 128 + 1 * k.val = k.val; rw [e01]; omega

/-- WHAT POINT `t` WRITES BACK is block `t` of the result array. -/
theorem flushed_eq (c : Dev nD) (t : Fin cfg7.N) :
    (dat7 V c).flushed 4 t = ((cfg7.win 4).blk t).view.read (Elt Ideal) (G V c) := by
  show (cfg7.win 4).cut (grid7.coords t) ((dat7 V c).after 4 t) = _
  rw [after7_4]
  unfold out7_4
  rw [View.canon_unit_zero hz]
  simp only [View.ld_unit_zero (S := S5000x128) hz, View.ld_unit_zero (S := S1x128) hz, View.ld_unit_zero (S := S128x10) hz,
    View.ld_unit_zero (S := S1x10) hz]
  obtain ⟨e00, e01, eo0, eo1, f1_0, f1_1, f2_0, f2_1, f3_0, f3_1⟩ := idx_facts t
  funext y
  obtain ⟨r, q, rfl⟩ : ∃ (r : Fin 5000) (q : Fin 10), y = ix2 r q := ⟨y 0, y 1, eq_ix2 y⟩
  rw [View.read_apply]
  refine (pay_apply _ _ _ _ r q).trans ?_
  unfold G
  have h0 : ((((cfg7.win 4).blk t).view.emb (ix2 r q)) 0 : Fin 50000).val = 5000 * t.val + r.val := by
    show win7_4.index t 0 * 5000 + 1 * r.val = _; rw [eo0]; omega
  have h1 : ((((cfg7.win 4).blk t).view.emb (ix2 r q)) 1 : Fin 10) = q := by
    apply Fin.ext; show win7_4.index t 1 * 10 + 1 * q.val = _; rw [eo1]; omega
  rw [h1, full1 V c t, full2 V c t, full3 V c t]
  have eA : (fun k => (iblk7 V c 0 t : S5000x128.Idx → EReal) (ix2 r k)) = fun k => Agg V c (ix2 ((((cfg7.win 4).blk t).view.emb (ix2 r q)) 0 : Fin 50000) k) :=
    funext fun k => row0 V c t r k _ h0
  exact congrArg (fun f => lsm (fun q' => logit f (cbias V c) (Wc V c) (lbias V c) q') q) eA

/-- An index of the array is in point `t`'s block iff each coordinate is in the block's range on its axis. -/
theorem mem_blk (t : Fin cfg7.N) (i : S50000x10.Idx) :
    i ∈ ((cfg7.win 4).blk t).view.set ↔ ∀ a : Fin 2, win7_4.index t a * S5000x10.size a ≤ (i a).val ∧ (i a).val < win7_4.index t a * S5000x10.size a + S5000x10.size a := by
  show i ∈ ((View.whole main_v94).slice (win7_4.rect t)).set ↔ _
  rw [View.set_slice_whole, Rect.mem_set_unit]
  exact Iff.rfl

/-- THE PROGRAM'S RESULT ARRAY. -/
theorem final (c : Dev nD) : (dat7 V c).arrAt 4 cfg7.N = G V c :=
  (dat7 V c).arrAt_eq_of_cover 4 (G V c) (fun t _ => flushed_eq V c t) fun i => by
    have hN : cfg7.N = 10 := N_7
    have hi0 : (i 0).val < 50000 := (i 0).isLt
    have hi1 : (i 1).val < 10 := (i 1).isLt
    let t : Fin cfg7.N := ⟨(i 0).val / 5000, by omega⟩
    obtain ⟨e00, e01, eo0, eo1, f1_0, f1_1, f2_0, f2_1, f3_0, f3_1⟩ := idx_facts t
    refine ⟨t, flush7_4 t, ?_⟩
    rw [mem_blk]
    intro a
    match a with
    | ⟨0, _⟩ => show win7_4.index t 0 * 5000 ≤ (i 0).val ∧ (i 0).val < win7_4.index t 0 * 5000 + 5000
                rw [eo0]; show (i 0).val / 5000 * 5000 ≤ (i 0).val ∧ (i 0).val < (i 0).val / 5000 * 5000 + 5000; omega
    | ⟨1, _⟩ => show win7_4.index t 1 * 10 ≤ (i 1).val ∧ (i 1).val < win7_4.index t 1 * 10 + 10
                rw [eo1]; omega

end Cert.KernelIdeal.Fin7

end
-- ==== Proof.FinalIn.lean ====
/-
  What the last region finds in its windows, and what it leaves.

  The convolution's bias and the classifier's bias are the arguments reshaped to one row, the classifier's weights the
  argument under a format change; the program's result array is the region's result array.
-/
import proofs.«160607_j85856396247988_1_alg».proof.Proof.Fin7Array
import Idealize.ShloMosaic.Lib.StableHlo.Run

set_option maxRecDepth 16384

noncomputable section

namespace Cert.KernelIdeal.FinalIn

open Cert.KernelIdeal Cert.KernelIdeal.Gen
open Idealize.ShloMosaic Idealize.ShloMosaic.TcCoe Idealize.SL.Sem Idealize.ShloMosaic.Tactic Idealize.ShloMosaic.StableHlo
open Idealize.ShloMosaic.ValueIdx

/-- A buffer no operation of a host stretch writes keeps its contents across the stretch. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg)

/-- The program's result array at the last boundary is the last region's row-by-row function of what it found. -/
theorem result_eq (c : Dev nD) : W15 m ρ c (Proc.devRef .tc main_v94) = Fin7.G (V14 m ρ) c :=
  (W15_arr m ρ c 4).trans (Fin7.final (V14 m ρ) c)

/-- Argument 17 is as launched when the last host stretch begins: nothing before or after writes it. -/
theorem arg17_at13 (c : Dev nD) : W13 m ρ c (Proc.devRef .tc main_arg17) = m ((c : Thread nD τ).loc main_arg17) :=
  have h : W14 m ρ c (Proc.devRef .tc main_arg17) = W13 m ρ c (Proc.devRef .tc main_arg17) := by host_keeps hostOps7_2
  h.symm.trans ((W15_of_ne m ρ c main_arg17 (by decide)).symm.trans (W15_main_arg17 m ρ c))

/-- Argument 18 is as launched when the last host stretch begins: nothing before or after writes it. -/
theorem arg18_at13 (c : Dev nD) : W13 m ρ c (Proc.devRef .tc main_arg18) = m ((c : Thread nD τ).loc main_arg18) :=
  have h : W14 m ρ c (Proc.devRef .tc main_arg18) = W13 m ρ c (Proc.devRef .tc main_arg18) := by host_keeps hostOps7_2
  h.symm.trans ((W15_of_ne m ρ c main_arg18 (by decide)).symm.trans (W15_main_arg18 m ρ c))

/-- Argument 19 is as launched when the last host stretch begins: nothing before or after writes it. -/
theorem arg19_at13 (c : Dev nD) : W13 m ρ c (Proc.devRef .tc main_arg19) = m ((c : Thread nD τ).loc main_arg19) :=
  have h : W14 m ρ c (Proc.devRef .tc main_arg19) = W13 m ρ c (Proc.devRef .tc main_arg19) := by host_keeps hostOps7_2
  h.symm.trans ((W15_of_ne m ρ c main_arg19 (by decide)).symm.trans (W15_main_arg19 m ρ c))

/-- Argument 17 is as launched when the graph-convolution stretches begin: nothing before or after writes it. -/
theorem arg17_at11 (c : Dev nD) : W11 m ρ c (Proc.devRef .tc main_arg17) = m ((c : Thread nD τ).loc main_arg17) :=
  have h2 : W13 m ρ c (Proc.devRef .tc main_arg17) = W12 m ρ c (Proc.devRef .tc main_arg17) := by host_keeps hostOps7_1
  have h3 : W12 m ρ c (Proc.devRef .tc main_arg17) = W11 m ρ c (Proc.devRef .tc main_arg17) := by host_keeps hostOps7
  h3.symm.trans (h2.symm.trans (arg17_at13 m ρ c))

/-- Argument 18 is as launched when the graph-convolution stretches begin: nothing before or after writes it. -/
theorem arg18_at11 (c : Dev nD) : W11 m ρ c (Proc.devRef .tc main_arg18) = m ((c : Thread nD τ).loc main_arg18) :=
  have h2 : W13 m ρ c (Proc.devRef .tc main_arg18) = W12 m ρ c (Proc.devRef .tc main_arg18) := by host_keeps hostOps7_1
  have h3 : W12 m ρ c (Proc.devRef .tc main_arg18) = W11 m ρ c (Proc.devRef .tc main_arg18) := by host_keeps hostOps7
  h3.symm.trans (h2.symm.trans (arg18_at13 m ρ c))

/-- Argument 19 is as launched when the graph-convolution stretches begin: nothing before or after writes it. -/
theorem arg19_at11 (c : Dev nD) : W11 m ρ c (Proc.devRef .tc main_arg19) = m ((c : Thread nD τ).loc main_arg19) :=
  have h2 : W13 m ρ c (Proc.devRef .tc main_arg19) = W12 m ρ c (Proc.devRef .tc main_arg19) := by host_keeps hostOps7_1
  have h3 : W12 m ρ c (Proc.devRef .tc main_arg19) = W11 m ρ c (Proc.devRef .tc main_arg19) := by host_keeps hostOps7
  h3.symm.trans (h2.symm.trans (arg19_at13 m ρ c))

/-- The convolution's bias: argument 17 as one row. -/
theorem cbias_eq (c : Dev nD) : V14 m ρ c main_v91 = shapeCast S1x128 (m ((c : Thread nD τ).loc main_arg17)) shapeCasts_S128_S1x128 := by
  show StableHlo.after hostOps7_2 (W13 m ρ c) (Proc.devRef .tc main_v91) = _
  after_results
  rw [arg17_at11]
  rfl
/-- The classifier's weights: argument 18 under the format change. -/
theorem weights_eq (c : Dev nD) :
    V14 m ρ c main_v92 = (truncf .bf16 (m ((c : Thread nD τ).loc main_arg18) : FVec Ideal S128x10 .f32) bitsLt_bf16_f32 : FVec Ideal S128x10 .bf16) := by
  show StableHlo.after hostOps7_2 (W13 m ρ c) (Proc.devRef .tc main_v92) = _
  after_results
  rw [arg18_at11]
  try rfl
/-- The classifier's bias: argument 19 as one row. -/
theorem lbias_eq (c : Dev nD) : V14 m ρ c main_v93 = shapeCast S1x10 (m ((c : Thread nD τ).loc main_arg19)) shapeCasts_S10_S1x10 := by
  show StableHlo.after hostOps7_2 (W13 m ρ c) (Proc.devRef .tc main_v93) = _
  after_results
  rw [arg19_at11]
  rfl

end Cert.KernelIdeal.FinalIn

end
-- ==== Proof.RefEntry.lean ====
/-
  What a stage of the reference finds in a buffer no earlier stage wrote: its launch contents.
-/
import proofs.«160607_j85856396247988_1_alg».proof.Proof.RefRun

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- A buffer no stage before A1 writes holds, when stage A1 begins, what it held at launch. -/
theorem entry_A1 (r : Ref sig .tc) (hA0 : r ∉ writtenA0) (V : Valuation τ sig (Elt F)) :
    (after opsA0 (V)) (Proc.devRef .tc r) = V (Proc.devRef .tc r) := by
  rw [after_of_writes_sub opsA0 _ opsA0_writes hA0]

/-- A buffer no stage before A2 writes holds, when stage A2 begins, what it held at launch. -/
theorem entry_A2 (r : Ref sig .tc) (hA0 : r ∉ writtenA0) (hA1 : r ∉ writtenA1) (V : Valuation τ sig (Elt F)) :
    (after opsA1 (after opsA0 (V))) (Proc.devRef .tc r) = V (Proc.devRef .tc r) := by
  rw [after_of_writes_sub opsA1 _ opsA1_writes hA1,
    after_of_writes_sub opsA0 _ opsA0_writes hA0]

/-- A buffer no stage before B0 writes holds, when stage B0 begins, what it held at launch. -/
theorem entry_B0 (r : Ref sig .tc) (hA0 : r ∉ writtenA0) (hA1 : r ∉ writtenA1) (hA2 : r ∉ writtenA2) (V : Valuation τ sig (Elt F)) :
    (after opsA2 (after opsA1 (after opsA0 (V)))) (Proc.devRef .tc r) = V (Proc.devRef .tc r) := by
  rw [after_of_writes_sub opsA2 _ opsA2_writes hA2,
    after_of_writes_sub opsA1 _ opsA1_writes hA1,
    after_of_writes_sub opsA0 _ opsA0_writes hA0]

/-- A buffer no stage before B1 writes holds, when stage B1 begins, what it held at launch. -/
theorem entry_B1 (r : Ref sig .tc) (hA0 : r ∉ writtenA0) (hA1 : r ∉ writtenA1) (hA2 : r ∉ writtenA2) (hB0 : r ∉ writtenB0) (V : Valuation τ sig (Elt F)) :
    (after opsB0 (after opsA2 (after opsA1 (after opsA0 (V))))) (Proc.devRef .tc r) = V (Proc.devRef .tc r) := by
  rw [after_of_writes_sub opsB0 _ opsB0_writes hB0,
    after_of_writes_sub opsA2 _ opsA2_writes hA2,
    after_of_writes_sub opsA1 _ opsA1_writes hA1,
    after_of_writes_sub opsA0 _ opsA0_writes hA0]

/-- A buffer no stage before B2 writes holds, when stage B2 begins, what it held at launch. -/
theorem entry_B2 (r : Ref sig .tc) (hA0 : r ∉ writtenA0) (hA1 : r ∉ writtenA1) (hA2 : r ∉ writtenA2) (hB0 : r ∉ writtenB0) (hB1 : r ∉ writtenB1) (V : Valuation τ sig (Elt F)) :
    (after opsB1 (after opsB0 (after opsA2 (after opsA1 (after opsA0 (V)))))) (Proc.devRef .tc r) = V (Proc.devRef .tc r) := by
  rw [after_of_writes_sub opsB1 _ opsB1_writes hB1,
    after_of_writes_sub opsB0 _ opsB0_writes hB0,
    after_of_writes_sub opsA2 _ opsA2_writes hA2,
    after_of_writes_sub opsA1 _ opsA1_writes hA1,
    after_of_writes_sub opsA0 _ opsA0_writes hA0]

/-- A buffer no stage before C0 writes holds, when stage C0 begins, what it held at launch. -/
theorem entry_C0 (r : Ref sig .tc) (hA0 : r ∉ writtenA0) (hA1 : r ∉ writtenA1) (hA2 : r ∉ writtenA2) (hB0 : r ∉ writtenB0) (hB1 : r ∉ writtenB1) (hB2 : r ∉ writtenB2) (V : Valuation τ sig (Elt F)) :
    (after opsB2 (after opsB1 (after opsB0 (after opsA2 (after opsA1 (after opsA0 (V))))))) (Proc.devRef .tc r) = V (Proc.devRef .tc r) := by
  rw [after_of_writes_sub opsB2 _ opsB2_writes hB2,
    after_of_writes_sub opsB1 _ opsB1_writes hB1,
    after_of_writes_sub opsB0 _ opsB0_writes hB0,
    after_of_writes_sub opsA2 _ opsA2_writes hA2,
    after_of_writes_sub opsA1 _ opsA1_writes hA1,
    after_of_writes_sub opsA0 _ opsA0_writes hA0]

/-- A buffer no stage before C1 writes holds, when stage C1 begins, what it held at launch. -/
theorem entry_C1 (r : Ref sig .tc) (hA0 : r ∉ writtenA0) (hA1 : r ∉ writtenA1) (hA2 : r ∉ writtenA2) (hB0 : r ∉ writtenB0) (hB1 : r ∉ writtenB1) (hB2 : r ∉ writtenB2) (hC0 : r ∉ writtenC0) (V : Valuation τ sig (Elt F)) :
    (after opsC0 (after opsB2 (after opsB1 (after opsB0 (after opsA2 (after opsA1 (after opsA0 (V)))))))) (Proc.devRef .tc r) = V (Proc.devRef .tc r) := by
  rw [after_of_writes_sub opsC0 _ opsC0_writes hC0,
    after_of_writes_sub opsB2 _ opsB2_writes hB2,
    after_of_writes_sub opsB1 _ opsB1_writes hB1,
    after_of_writes_sub opsB0 _ opsB0_writes hB0,
    after_of_writes_sub opsA2 _ opsA2_writes hA2,
    after_of_writes_sub opsA1 _ opsA1_writes hA1,
    after_of_writes_sub opsA0 _ opsA0_writes hA0]

end Cert.ReferenceIdeal.Straight

end
-- ==== Proof.RefFinal.lean ====
/-
  The reference's last stage: bias, tanh, classifier, log-softmax.

  The reference adds the convolution's bias, broadcast down the rows, to the aggregated messages, takes tanh, multiplies
  by the [128, 10] classifier weights and adds the classifier's bias.  jax's log-softmax then takes each row's maximum
  (reduced from −∞, and once more compared with −∞), subtracts it, and subtracts the logarithm of the row's sum of
  exponentials.
-/
import proofs.«160607_j85856396247988_1_alg».proof.Proof.RefEntry
import Idealize.ShloMosaic.Lib.IdealHost

set_option maxRecDepth 16384

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

/-- The logits: the classifier applied to tanh of the messages plus the convolution's bias. -/
def refLogits (agg : FVec Ideal S50000x128 .f32) (cb : FVec Ideal S128 .f32) (W : FVec Ideal S128x10 .f32) (lb : FVec Ideal S10 .f32) :
    FVec Ideal S50000x10 .f32 :=
  addf (Host.dotGeneral (F := Ideal) dot_S50000x128_S128x10_S50000x10_1_0_0_1_n_n none
      (Host.tanh (F := Ideal) (addf agg (broadcastInDim S50000x128 ![0, 1] bcast_S1x128_S50000x128_0_1 (broadcastInDim S1x128 ![1] bcast_S128_S1x128_1 cb)))) W)
    (broadcastInDim S50000x10 ![0, 1] bcast_S1x10_S50000x10_0_1 (broadcastInDim S1x10 ![1] bcast_S10_S1x10_1 lb))

/-- The row maxima, as jax's log-softmax takes them. -/
def refRowMax (x : FVec Ideal S50000x10 .f32) : FVec Ideal S50000 .f32 :=
  maximumf (broadcastInDim S50000 ![] bcast_S_S50000 (constant (F := Ideal) S_ .f32 0xFF800000#32))
    (Host.reduce FloatOps.maximumf x (constant (F := Ideal) S_ .f32 0xFF800000#32) reducesTo_S50000x10_S50000_d1 h_S_)

/-- The logits shifted by their row maxima. -/
def refShift (x : FVec Ideal S50000x10 .f32) : FVec Ideal S50000x10 .f32 :=
  subf x (broadcastInDim S50000x10 ![0, 1] bcast_S50000x1_S50000x10_0_1 (broadcastInDim S50000x1 ![0] bcast_S50000_S50000x1_0 (refRowMax x)))

/-- jax's log-softmax along the rows. -/
def refLogSoftmax (x : FVec Ideal S50000x10 .f32) : FVec Ideal S50000x10 .f32 :=
  subf (refShift x) (broadcastInDim S50000x10 ![0, 1] bcast_S50000x1_S50000x10_0_1
    (Host.log (F := Ideal) (broadcastInDim S50000x1 ![0] bcast_S50000_S50000x1_0
      (Host.reduceAdd (F := Ideal) (Host.exp (F := Ideal) (refShift x)) (constant (F := Ideal) S_ .f32 0x00000000#32) reducesTo_S50000x10_S50000_d1 h_S_))))

attribute [local irreducible] Host.reduceAdd Host.reduce in
set_option maxHeartbeats 3200000 in
/-- After the last stage the result buffer holds the log-softmax of the logits of what the stage found. -/
theorem final_buf (V : Valuation τ sig (Elt Ideal)) :
    after (opsC1 (F := Ideal)) V (Proc.devRef .tc main_v141)
      = refLogSoftmax (refLogits (V (Proc.devRef .tc main_v132)) (V (Proc.devRef .tc main_arg17)) (V (Proc.devRef .tc main_arg18))
          (V (Proc.devRef .tc main_arg19))) := by
  after_results
  rfl

end Cert.ReferenceIdeal.Straight

end
-- ==== Proof.RefFinalIdeal.lean ====
/-
  The reference's last stage, entry by entry.

  Entry (i, q) of the result is the log-softmax, at position q, of row i's ten logits; logit q' of row i is the
  classifier's bias at q' plus the sum over the 128 message columns k of tanh(message (i, k) + bias k) times the
  classifier's weight (k, q').  jax's extra comparison of the row maximum with −∞ changes nothing, −∞ being the bottom
  of the extended reals, and the host's sum of exponentials starts from a zero that adds nothing.
-/
import proofs.«160607_j85856396247988_1_alg».proof.Proof.RefFinal
import proofs.«160607_j85856396247988_1_alg».proof.Proof.Fin7
import Idealize.ShloMosaic.Lib.Pipeline.Value

set_option maxRecDepth 131072

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx
open Cert.KernelIdeal.Fin7 (lsm rowMax negInf)

/-- The pattern of −∞ denotes the bottom of the extended reals. -/
theorem negInf_bot : Ideal.ofBits .f32 0xFF800000#32 = ⊥ := by simp [Ideal.ofBits, Ideal.ieee]

theorem reduces_cols : S50000x10.Reduces [1] S50000 := by decide

theorem lift_col (i : Fin 50000) (q : Fin 10) : reduces_cols.lift (ix1 i) q = ix2 i q :=
  funext fun a => match a with | ⟨0, _⟩ => rfl | ⟨1, _⟩ => rfl

/-- The host's product with the classifier weights at (a, b). -/
theorem dotF_apply (A : FVec Ideal S50000x128 .f32) (B : FVec Ideal S128x10 .f32) (a : Fin 50000) (b : Fin 10) :
    Host.dotGeneral (F := Ideal) dot_S50000x128_S128x10_S50000x10_1_0_0_1_n_n none A B (ix2 a b) = ∑ k : Fin 128, A (ix2 a k) * B (ix2 k b) := by
  show FloatOps.dotGeneral dot_S50000x128_S128x10_S50000x10_1_0_0_1_n_n none _ A B (ix2 a b) = _
  rw [Ideal.dotGeneral_apply, ← Equiv.sum_comp (contrEquiv1 dot_S50000x128_S128x10_S50000x10_1_0_0_1_n_n 128 rfl rfl).symm]
  refine Finset.sum_congr rfl fun k _ => ?_
  have c2 := contrEquiv1_symm_val dot_S50000x128_S128x10_S50000x10_1_0_0_1_n_n 128 rfl rfl k
  have l2 : (dot_S50000x128_S128x10_S50000x10_1_0_0_1_n_n).lhsIdx (ix2 a b) ((contrEquiv1 _ 128 rfl rfl).symm k) = ix2 a k := by
    funext ax; apply Fin.ext
    match ax with
    | ⟨0, _⟩ => simp [DotDims.lhsIdx, dot_S50000x128_S128x10_S50000x10_1_0_0_1_n_n]; rfl
    | ⟨1, _⟩ => simp [DotDims.lhsIdx, dot_S50000x128_S128x10_S50000x10_1_0_0_1_n_n]; exact c2
  have r2 : (dot_S50000x128_S128x10_S50000x10_1_0_0_1_n_n).rhsIdx (ix2 a b) ((contrEquiv1 _ 128 rfl rfl).symm k) = ix2 k b := by
    funext ax; apply Fin.ext
    match ax with
    | ⟨0, _⟩ => simp [DotDims.rhsIdx, dot_S50000x128_S128x10_S50000x10_1_0_0_1_n_n]; exact c2
    | ⟨1, _⟩ => simp [DotDims.rhsIdx, dot_S50000x128_S128x10_S50000x10_1_0_0_1_n_n]; rfl
  rw [l2, r2]

/-- A vector over the columns broadcast down the rows reads, at (i, k), the vector at k. -/
theorem down128_apply (v : FVec Ideal S128 .f32) (i : Fin 50000) (k : Fin 128) :
    (broadcastInDim S50000x128 ![0, 1] bcast_S1x128_S50000x128_0_1 (broadcastInDim S1x128 ![1] bcast_S128_S1x128_1 v)) (ix2 i k) = v (ix1 k) := by
  refine (broadcastInDim_apply _ _ _ (ix2 i k) (ix2 (0 : Fin 1) k) (fun a => ?_)).trans ?_
  · match a with
    | ⟨0, _⟩ => rfl
    | ⟨1, _⟩ => rfl
  refine broadcastInDim_apply _ _ _ (ix2 (0 : Fin 1) k) (ix1 k) (fun a => ?_)
  match a with
  | ⟨0, _⟩ => rfl
theorem down10_apply (v : FVec Ideal S10 .f32) (i : Fin 50000) (q : Fin 10) :
    (broadcastInDim S50000x10 ![0, 1] bcast_S1x10_S50000x10_0_1 (broadcastInDim S1x10 ![1] bcast_S10_S1x10_1 v)) (ix2 i q) = v (ix1 q) := by
  refine (broadcastInDim_apply _ _ _ (ix2 i q) (ix2 (0 : Fin 1) q) (fun a => ?_)).trans ?_
  · match a with
    | ⟨0, _⟩ => rfl
    | ⟨1, _⟩ => rfl
  refine broadcastInDim_apply _ _ _ (ix2 (0 : Fin 1) q) (ix1 q) (fun a => ?_)
  match a with
  | ⟨0, _⟩ => rfl
/-- A vector over the rows broadcast across the ten columns reads, at (i, q), the vector at i. -/
theorem across_apply (v : FVec Ideal S50000 .f32) (i : Fin 50000) (q : Fin 10) :
    (broadcastInDim S50000x10 ![0, 1] bcast_S50000x1_S50000x10_0_1 (broadcastInDim S50000x1 ![0] bcast_S50000_S50000x1_0 v)) (ix2 i q) = v (ix1 i) := by
  refine (broadcastInDim_apply _ _ _ (ix2 i q) (ix2 i (0 : Fin 1)) (fun a => ?_)).trans ?_
  · match a with
    | ⟨0, _⟩ => rfl
    | ⟨1, _⟩ => rfl
  refine broadcastInDim_apply _ _ _ (ix2 i (0 : Fin 1)) (ix1 i) (fun a => ?_)
  match a with
  | ⟨0, _⟩ => rfl

/-- A logit. -/
theorem refLogits_apply (agg : FVec Ideal S50000x128 .f32) (cb : FVec Ideal S128 .f32) (W : FVec Ideal S128x10 .f32)
    (lb : FVec Ideal S10 .f32) (i : Fin 50000) (q : Fin 10) :
    refLogits agg cb W lb (ix2 i q)
      = (∑ k : Fin 128, FloatOps.tanh (F := Ideal) (φ := .f32) (agg (ix2 i k) + cb (ix1 k)) * W (ix2 k q)) + lb (ix1 q) := by
  unfold refLogits
  refine (addf_apply _ _ _).trans ?_
  refine congrArg₂ (· + ·) ?_ (down10_apply lb i q)
  refine (dotF_apply _ _ i q).trans ?_
  refine Finset.sum_congr rfl fun k _ => congrArg (· * W (ix2 k q)) ?_
  show FloatOps.tanh (F := Ideal) (φ := .f32) (addf agg _ (ix2 i k)) = _
  exact congrArg _ ((addf_apply _ _ _).trans (congrArg (agg (ix2 i k) + ·) (down128_apply cb i k)))

/-- The row maximum as jax takes it is the maximum folded from −∞. -/
theorem refRowMax_apply (x : FVec Ideal S50000x10 .f32) (i : Fin 50000) :
    refRowMax x (ix1 i) = rowMax (fun q => x (ix2 i q)) := by
  unfold refRowMax
  refine (maximumf_apply _ _ _).trans ?_
  have h1 : (broadcastInDim S50000 ![] bcast_S_S50000 (constant (F := Ideal) S_ .f32 0xFF800000#32)) (ix1 i) = (⊥ : EReal) :=
    (broadcastInDim_scalar_apply _ _ _).trans negInf_bot
  have h2 : Host.reduce (FloatOps.maximumf (F := Ideal) (φ := .f32)) x (constant (F := Ideal) S_ .f32 0xFF800000#32) reducesTo_S50000x10_S50000_d1 h_S_ (ix1 i)
      = rowMax (fun q => x (ix2 i q)) :=
    (Host.reduce_eq_fold_single (FloatOps.maximumf (F := Ideal) (φ := .f32)) x _ reducesTo_S50000x10_S50000_d1 reduces_cols h_S_ (ix1 i)).trans
      (congrArg (fun f => Finset.univ.fold max negInf f) (funext fun q => congrArg x (lift_col i q)))
  rw [h1, h2]
  exact max_eq_right bot_le

/-- A shifted logit. -/
theorem refShift_apply (x : FVec Ideal S50000x10 .f32) (i : Fin 50000) (q : Fin 10) :
    refShift x (ix2 i q) = x (ix2 i q) - rowMax (fun q' => x (ix2 i q')) := by
  unfold refShift
  refine (subf_apply _ _ _).trans ?_
  exact congrArg (x (ix2 i q) - ·) ((across_apply _ i q).trans (refRowMax_apply x i))

/-- jax's log-softmax at (i, q) is the kernel's spelling of it on row i. -/
theorem refLogSoftmax_apply (x : FVec Ideal S50000x10 .f32) (i : Fin 50000) (q : Fin 10) :
    refLogSoftmax x (ix2 i q) = lsm (fun q' => x (ix2 i q')) q := by
  unfold refLogSoftmax
  refine (subf_apply _ _ _).trans ?_
  unfold lsm
  refine congrArg₂ (· - ·) (refShift_apply x i q) ?_
  refine (broadcastInDim_apply _ _ _ (ix2 i q) (ix2 i (0 : Fin 1)) (fun a => ?_)).trans ?_
  · match a with
    | ⟨0, _⟩ => rfl
    | ⟨1, _⟩ => rfl
  change Ideal.log _ = Ideal.log _
  refine congrArg Ideal.log ?_
  refine (broadcastInDim_apply _ _ _ (ix2 i (0 : Fin 1)) (ix1 i) (fun a => ?_)).trans ?_
  · match a with
    | ⟨0, _⟩ => rfl
  refine (hostReduceAdd_apply _ _ _ _ _).trans ?_
  refine (Ideal.hostReduceAdd_single reducesTo_S50000x10_S50000_d1 reduces_cols _ _ (ix1 i)).trans ?_
  rw [show (constant (F := Ideal) S_ .f32 0x00000000#32) (Shape.Idx.first h_S_) = 0 from Ideal.ofBits_zero_f32, zero_add]
  refine Finset.sum_congr rfl fun q' _ => ?_
  exact (congrArg (Host.exp (F := Ideal) (refShift x)) (lift_col i q')).trans
    (show Host.exp (F := Ideal) (refShift x) (ix2 i q') = _ from congrArg Ideal.exp (refShift_apply x i q'))

end Cert.ReferenceIdeal.Straight

end
-- ==== Proof.FinalBridge.lean ====
/-
  The last stage agrees, given the aggregated messages.

  If the array of aggregated messages the kernel's last region finds is the one the reference's last stage finds, and
  the memories agree on the convolution's bias and the classifier's weights and bias, then the kernel's result array
  is what the reference leaves in its result buffer: the same logits row by row (the reshaped biases read the
  arguments, the format change of the weights is the identity, the two products are the same sums), and the two
  spellings of the log-softmax are one function.
-/
import proofs.«160607_j85856396247988_1_alg».proof.Proof.FinalIn
import proofs.«160607_j85856396247988_1_alg».proof.Proof.RefFinalIdeal
import Idealize.ShloMosaic.Lib.ValueLayout

set_option maxRecDepth 16384

noncomputable section

namespace Cert.Bridge.Final

open Idealize.ShloMosaic Idealize.ShloMosaic.TcCoe Idealize.SL.Sem Idealize.ShloMosaic.StableHlo
open Idealize.ShloMosaic.ValueIdx

/-- The reference's buffers when its last stage begins. -/
abbrev atLast (V : Valuation Cert.ReferenceIdeal.τ Cert.ReferenceIdeal.sig (Elt Ideal)) : Valuation Cert.ReferenceIdeal.τ Cert.ReferenceIdeal.sig (Elt Ideal) :=
  after Cert.ReferenceIdeal.Straight.opsC0 (after Cert.ReferenceIdeal.Straight.opsB2 (after Cert.ReferenceIdeal.Straight.opsB1 (after Cert.ReferenceIdeal.Straight.opsB0 (after Cert.ReferenceIdeal.Straight.opsA2 (after Cert.ReferenceIdeal.Straight.opsA1 (after Cert.ReferenceIdeal.Straight.opsA0 (V)))))))

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

theorem final_agree (c : Dev Cert.KernelIdeal.nD)
    (hagg : atLast (launchContents m' c) (Proc.devRef .tc Cert.ReferenceIdeal.main_v132) = Cert.KernelIdeal.Gen.V14 m ρ c Cert.KernelIdeal.main_v90)
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    after (Cert.ReferenceIdeal.Straight.ops (F := Ideal)) (launchContents m' c) (Proc.devRef .tc Cert.ReferenceIdeal.main_v141)
      = Cert.KernelIdeal.Gen.W15 m ρ c (Proc.devRef .tc Cert.KernelIdeal.main_v94) := by
  have e17 : atLast (launchContents m' c) (Proc.devRef .tc Cert.ReferenceIdeal.main_arg17) = m ((c.tc : Thread Cert.KernelIdeal.nD Cert.KernelIdeal.τ).loc Cert.KernelIdeal.main_arg17) :=
    (Cert.ReferenceIdeal.Straight.entry_C1 Cert.ReferenceIdeal.main_arg17 (by decide) (by decide) (by decide) (by decide) (by decide) (by decide) (by decide) _).trans h17
  have e18 : atLast (launchContents m' c) (Proc.devRef .tc Cert.ReferenceIdeal.main_arg18) = m ((c.tc : Thread Cert.KernelIdeal.nD Cert.KernelIdeal.τ).loc Cert.KernelIdeal.main_arg18) :=
    (Cert.ReferenceIdeal.Straight.entry_C1 Cert.ReferenceIdeal.main_arg18 (by decide) (by decide) (by decide) (by decide) (by decide) (by decide) (by decide) _).trans h18
  have e19 : atLast (launchContents m' c) (Proc.devRef .tc Cert.ReferenceIdeal.main_arg19) = m ((c.tc : Thread Cert.KernelIdeal.nD Cert.KernelIdeal.τ).loc Cert.KernelIdeal.main_arg19) :=
    (Cert.ReferenceIdeal.Straight.entry_C1 Cert.ReferenceIdeal.main_arg19 (by decide) (by decide) (by decide) (by decide) (by decide) (by decide) (by decide) _).trans h19
  dsimp only [atLast] at hagg e17 e18 e19
  rw [Cert.ReferenceIdeal.Straight.read_C1 Cert.ReferenceIdeal.main_v141, Cert.ReferenceIdeal.Straight.final_buf, hagg, e17, e18, e19, Cert.KernelIdeal.FinalIn.result_eq]
  funext y
  obtain ⟨i, q, rfl⟩ : ∃ (i : Fin 50000) (q : Fin 10), y = ix2 i q := ⟨y 0, y 1, eq_ix2 y⟩
  rw [Cert.ReferenceIdeal.Straight.refLogSoftmax_apply]
  show _ = Cert.KernelIdeal.Fin7.lsm (fun q' => Cert.KernelIdeal.Fin7.logit (fun k => Cert.KernelIdeal.Fin7.Agg (Cert.KernelIdeal.Gen.V14 m ρ) c (ix2 i k)) (Cert.KernelIdeal.Fin7.cbias (Cert.KernelIdeal.Gen.V14 m ρ) c)
    (Cert.KernelIdeal.Fin7.Wc (Cert.KernelIdeal.Gen.V14 m ρ) c) (Cert.KernelIdeal.Fin7.lbias (Cert.KernelIdeal.Gen.V14 m ρ) c) q') q
  refine congrArg (fun f => Cert.KernelIdeal.Fin7.lsm f q) (funext fun q' => ?_)
  rw [Cert.ReferenceIdeal.Straight.refLogits_apply]
  unfold Cert.KernelIdeal.Fin7.logit
  have c1 : ∀ k : Fin 128, Cert.KernelIdeal.Fin7.cbias (Cert.KernelIdeal.Gen.V14 m ρ) c (ix2 (0 : Fin 1) k) = m ((c.tc : Thread Cert.KernelIdeal.nD Cert.KernelIdeal.τ).loc Cert.KernelIdeal.main_arg17) (ix1 k) := fun k =>
    (congrFun (Cert.KernelIdeal.FinalIn.cbias_eq m ρ c) (ix2 (0 : Fin 1) k)).trans (shapeCast_a_1a_apply _ _ (0 : Fin 1) k)
  have c2 : ∀ k : Fin 128, Cert.KernelIdeal.Fin7.Wc (Cert.KernelIdeal.Gen.V14 m ρ) c (ix2 k q') = m ((c.tc : Thread Cert.KernelIdeal.nD Cert.KernelIdeal.τ).loc Cert.KernelIdeal.main_arg18) (ix2 k q') := fun k =>
    congrFun (Cert.KernelIdeal.FinalIn.weights_eq m ρ c) (ix2 k q')
  have c3 : Cert.KernelIdeal.Fin7.lbias (Cert.KernelIdeal.Gen.V14 m ρ) c (ix2 (0 : Fin 1) q') = m ((c.tc : Thread Cert.KernelIdeal.nD Cert.KernelIdeal.τ).loc Cert.KernelIdeal.main_arg19) (ix1 q') :=
    (congrFun (Cert.KernelIdeal.FinalIn.lbias_eq m ρ c) (ix2 (0 : Fin 1) q')).trans (shapeCast_a_1a_apply _ _ (0 : Fin 1) q')
  simp only [c1, c2, c3]

end Cert.Bridge.Final

end
-- ==== Proof.GcnKernel.lean ====
/-
  The graph convolution's aggregation, as the kernel's host stretches compute it, stretch by stretch.

  Between the seventh region and the last, three stretches of host operations build the edge lists with their self
  loops, count the degrees and take their reciprocal square roots (first stretch), guard them where the degree is zero
  (second), and gather the product's rows along the sources, scale them and scatter-add them at the destinations
  (third).  Each stretch is read over the buffers it finds.
-/
import proofs.«160607_j85856396247988_1_alg».proof.Proof.Gen.KernelIdeal.Frame
import Idealize.ShloMosaic.Lib.StableHlo.Run
import Idealize.ShloMosaic.PureOps.Ideal

set_option maxRecDepth 65536

noncomputable section

namespace Cert.KernelIdeal.Gcn

open Cert.KernelIdeal Cert.KernelIdeal.Gen
open Idealize.ShloMosaic Idealize.ShloMosaic.TcCoe Idealize.SL.Sem Idealize.ShloMosaic.StableHlo

/-- The edge list's row selected by `off` followed by the self loops 0 … 49999. -/
def endpoints (ei : IVec S2x1600000 32) (off : Fin 2 → Nat) (h : S2x1600000.Slices off S1x1600000) : IVec S1650000 32 :=
  concatenate S1650000 0
    [⟨S1600000, shapeCast S1600000 (extractStridedSlice S1x1600000 off ei h) shapeCasts_S1x1600000_S1600000⟩,
     ⟨S50000, iotaInDim S50000 32 0⟩] concatenates_S1600000_S50000_S1650000_d0

/-- A node index wrapped the way a gather takes it (a negative index counts from the end), as a column. -/
def wrapped (idx : IVec S1650000 32) : IVec S1650000x1 32 :=
  broadcastInDim S1650000x1 ![0] bcast_S1650000_S1650000x1_0
    (select (cmpi .slt idx (broadcastInDim S1650000 ![] bcast_S_S1650000 (constantI S_ 32 0#32)))
      (addi idx (broadcastInDim S1650000 ![] bcast_S_S1650000 (constantI S_ 32 50000#32))) idx)

/-- The degree of each node: one per edge end and self loop, scatter-added at the destinations. -/
def degree (dst : IVec S1650000 32) : FVec Ideal S50000 .f32 :=
  Host.scatterAdd (F := Ideal) scatter_S50000_S1650000x1_S1650000_n_0_0_1
    (broadcastInDim S50000 ![] bcast_S_S50000 (constant (F := Ideal) S_ .f32 0x00000000#32))
    (broadcastInDim S1650000x1 ![0] bcast_S1650000_S1650000x1_0 dst)
    (broadcastInDim S1650000 ![] bcast_S_S1650000 (constant (F := Ideal) S_ .f32 0x3F800000#32))

/-- Where the degree is positive. -/
def positive (deg : FVec Ideal S50000 .f32) : IVec S50000 1 :=
  cmpf .ogt deg (broadcastInDim S50000 ![] bcast_S_S50000 (constant (F := Ideal) S_ .f32 0x00000000#32))

/-- The reciprocal square root of the degree taken at least one. -/
def invSqrt (deg : FVec Ideal S50000 .f32) : FVec Ideal S50000 .f32 :=
  Host.rsqrt (F := Ideal) (maximumf deg (broadcastInDim S50000 ![] bcast_S_S50000 (constant (F := Ideal) S_ .f32 0x3F800000#32)))

/-- The guarded choice: the value where the guard holds, the broadcast scalar elsewhere. -/
def guarded (p : IVec S50000 1) (v : FVec Ideal S50000 .f32) (z : FVec Ideal S_ .f32) : FVec Ideal S50000 .f32 :=
  select p v (broadcastInDim S50000 ![] bcast_S_S50000 (id z))

/-- The messages: every edge (and self loop) carries its source's row of the product, scaled by the two ends' factors,
    to its destination, where the messages are added. -/
def messages (xw : FVec Ideal S50000x128 .f32) (src dst : IVec S1650000 32) (dinv : FVec Ideal S50000 .f32) : FVec Ideal S50000x128 .f32 :=
  Host.scatterAdd (F := Ideal) scatter_S50000x128_S1650000x1_S1650000x128_1_0_0_1
    (broadcastInDim S50000x128 ![] bcast_S_S50000x128 (constant (F := Ideal) S_ .f32 0x00000000#32))
    (broadcastInDim S1650000x1 ![0] bcast_S1650000_S1650000x1_0 dst)
    (mulf (Host.gather gather_S50000x128_S1650000x1_S1650000x128_1_0_n_n_0_1_1128 xw (wrapped src))
      (broadcastInDim S1650000x128 ![0, 1] bcast_S1650000x1_S1650000x128_0_1
        (broadcastInDim S1650000x1 ![0] bcast_S1650000_S1650000x1_0
          (mulf (Host.gather gather_S50000_S1650000x1_S1650000_n_0_n_n_0_1_1 dinv (wrapped src))
            (Host.gather gather_S50000_S1650000x1_S1650000_n_0_n_n_0_1_1 dinv (wrapped dst))))))

attribute [local irreducible] Host.scatterAdd Host.gather in
set_option maxHeartbeats 3200000 in
/-- The third stretch: the messages of what it finds. -/
theorem third (W : Valuation τ sig (Elt Ideal)) :
    after (hostOps7_2 (F := Ideal)) W (Proc.devRef .tc main_v90)
      = messages (W (Proc.devRef .tc main_v45)) (W (Proc.devRef .tc main_v49)) (W (Proc.devRef .tc main_v52)) (W (Proc.devRef .tc main_v62)) := by
  after_results
  rfl

/-- The second stretch: the guarded choice of what it finds. -/
theorem second (W : Valuation τ sig (Elt Ideal)) :
    after (hostOps7_1 (F := Ideal)) W (Proc.devRef .tc main_v62)
      = guarded (W (Proc.devRef .tc main_v58)) (W (Proc.devRef .tc main_v61)) (W (Proc.devRef .tc main_cst_11)) := by
  after_results
  rfl

attribute [local irreducible] Host.scatterAdd in
set_option maxHeartbeats 3200000 in
/-- The first stretch: the two endpoint lists, the positivity of the degree, its reciprocal square root, the zero. -/
theorem first_src (W : Valuation τ sig (Elt Ideal)) :
    after (hostOps7 (F := Ideal)) W (Proc.devRef .tc main_v49) = endpoints (W (Proc.devRef .tc main_arg3)) ![0, 0] slices_S2x1600000_S1x1600000_0_0 := by
  after_results
  rfl
attribute [local irreducible] Host.scatterAdd in
set_option maxHeartbeats 3200000 in
theorem first_dst (W : Valuation τ sig (Elt Ideal)) :
    after (hostOps7 (F := Ideal)) W (Proc.devRef .tc main_v52) = endpoints (W (Proc.devRef .tc main_arg3)) ![1, 0] slices_S2x1600000_S1x1600000_1_0 := by
  after_results
  rfl
attribute [local irreducible] Host.scatterAdd in
set_option maxHeartbeats 3200000 in
theorem first_pos (W : Valuation τ sig (Elt Ideal)) :
    after (hostOps7 (F := Ideal)) W (Proc.devRef .tc main_v58)
      = positive (degree (endpoints (W (Proc.devRef .tc main_arg3)) ![1, 0] slices_S2x1600000_S1x1600000_1_0)) := by
  after_results
  rfl
attribute [local irreducible] Host.scatterAdd in
set_option maxHeartbeats 3200000 in
theorem first_inv (W : Valuation τ sig (Elt Ideal)) :
    after (hostOps7 (F := Ideal)) W (Proc.devRef .tc main_v61)
      = invSqrt (degree (endpoints (W (Proc.devRef .tc main_arg3)) ![1, 0] slices_S2x1600000_S1x1600000_1_0)) := by
  after_results
  rfl
theorem first_zero (W : Valuation τ sig (Elt Ideal)) :
    after (hostOps7 (F := Ideal)) W (Proc.devRef .tc main_cst_11) = constant (F := Ideal) S_ .f32 0x00000000#32 := by
  after_results

end Cert.KernelIdeal.Gcn

end
-- ==== Proof.GcnKernelAll.lean ====
/-
  The kernel's three graph-convolution stretches together.

  What the last region's first window stages is the messages of the product as the stretches find it, along the edge
  list's endpoints with their self loops, scaled by the guarded reciprocal square roots of the degrees.
-/
import proofs.«160607_j85856396247988_1_alg».proof.Proof.GcnKernel

set_option maxRecDepth 65536

noncomputable section

namespace Cert.KernelIdeal.Gcn

open Cert.KernelIdeal Cert.KernelIdeal.Gen
open Idealize.ShloMosaic Idealize.ShloMosaic.TcCoe Idealize.SL.Sem Idealize.ShloMosaic.StableHlo

/-- A buffer no operation of a host stretch writes keeps its contents across the stretch. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The factors: the reciprocal square roots of the degrees, zero where the degree is not positive. -/
def factors (ei : IVec S2x1600000 32) : FVec Ideal S50000 .f32 :=
  guarded (positive (degree (endpoints ei ![1, 0] slices_S2x1600000_S1x1600000_1_0)))
    (invSqrt (degree (endpoints ei ![1, 0] slices_S2x1600000_S1x1600000_1_0))) (constant (F := Ideal) S_ .f32 0x00000000#32)

theorem agg (W : Valuation τ sig (Elt Ideal)) :
    after (hostOps7_2 (F := Ideal)) (after (hostOps7_1 (F := Ideal)) (after (hostOps7 (F := Ideal)) W)) (Proc.devRef .tc main_v90)
      = messages (W (Proc.devRef .tc main_v45))
          (endpoints (W (Proc.devRef .tc main_arg3)) ![0, 0] slices_S2x1600000_S1x1600000_0_0)
          (endpoints (W (Proc.devRef .tc main_arg3)) ![1, 0] slices_S2x1600000_S1x1600000_1_0)
          (factors (W (Proc.devRef .tc main_arg3))) := by
  have k45 : after (hostOps7_1 (F := Ideal)) (after (hostOps7 (F := Ideal)) W) (Proc.devRef .tc main_v45) = W (Proc.devRef .tc main_v45) :=
    (by host_keeps hostOps7_1 : _ = after (hostOps7 (F := Ideal)) W (Proc.devRef .tc main_v45)).trans (by host_keeps hostOps7)
  have k49 : after (hostOps7_1 (F := Ideal)) (after (hostOps7 (F := Ideal)) W) (Proc.devRef .tc main_v49) = _ :=
    (by host_keeps hostOps7_1 : _ = after (hostOps7 (F := Ideal)) W (Proc.devRef .tc main_v49)).trans (first_src W)
  have k52 : after (hostOps7_1 (F := Ideal)) (after (hostOps7 (F := Ideal)) W) (Proc.devRef .tc main_v52) = _ :=
    (by host_keeps hostOps7_1 : _ = after (hostOps7 (F := Ideal)) W (Proc.devRef .tc main_v52)).trans (first_dst W)
  have k62 : after (hostOps7_1 (F := Ideal)) (after (hostOps7 (F := Ideal)) W) (Proc.devRef .tc main_v62) = factors (W (Proc.devRef .tc main_arg3)) := by
    rw [second, first_pos, first_inv, first_zero]
    rfl
  rw [third, k45, k49, k52, k62]

end Cert.KernelIdeal.Gcn

end
-- ==== Proof.GcnRef.lean ====
/-
  The graph convolution's aggregation, as the reference computes it, stage by stage.

  One stage concatenates the two normalized branches, multiplies by the convolution weights, builds the edge lists with
  their self loops and counts the degrees; the next takes the reciprocal square roots, guards them where the degree is
  zero, and gathers, scales and scatter-adds the messages.  Each stage is read over the buffers it finds.
-/
import proofs.«160607_j85856396247988_1_alg».proof.Proof.RefEntry
import Idealize.ShloMosaic.PureOps.Ideal

set_option maxRecDepth 65536

noncomputable section

namespace Cert.ReferenceIdeal.Gcn

open Cert.ReferenceIdeal Cert.ReferenceIdeal.Gen Cert.ReferenceIdeal.Straight
open Idealize.ShloMosaic Idealize.ShloMosaic.TcCoe Idealize.SL.Sem Idealize.ShloMosaic.StableHlo

/-- The edge list's row selected by `off` followed by the self loops 0 … 49999. -/
def endpoints (ei : IVec S2x1600000 32) (off : Fin 2 → Nat) (h : S2x1600000.Slices off S1x1600000) : IVec S1650000 32 :=
  concatenate S1650000 0
    [⟨S1600000, shapeCast S1600000 (extractStridedSlice S1x1600000 off ei h) shapeCasts_S1x1600000_S1600000⟩,
     ⟨S50000, iotaInDim S50000 32 0⟩] concatenates_S1600000_S50000_S1650000_d0

/-- A node index wrapped the way a gather takes it (a negative index counts from the end), as a column. -/
def wrapped (idx : IVec S1650000 32) : IVec S1650000x1 32 :=
  broadcastInDim S1650000x1 ![0] bcast_S1650000_S1650000x1_0
    (select (cmpi .slt idx (broadcastInDim S1650000 ![] bcast_S_S1650000 (constantI S_ 32 0#32)))
      (addi idx (broadcastInDim S1650000 ![] bcast_S_S1650000 (constantI S_ 32 50000#32))) idx)

/-- The degree of each node: one per edge end and self loop, scatter-added at the destinations. -/
def degree (dst : IVec S1650000 32) : FVec Ideal S50000 .f32 :=
  Host.scatterAdd (F := Ideal) scatter_S50000_S1650000x1_S1650000_n_0_0_1
    (broadcastInDim S50000 ![] bcast_S_S50000 (constant (F := Ideal) S_ .f32 0x00000000#32))
    (broadcastInDim S1650000x1 ![0] bcast_S1650000_S1650000x1_0 dst)
    (broadcastInDim S1650000 ![] bcast_S_S1650000 (constant (F := Ideal) S_ .f32 0x3F800000#32))

/-- Where the degree is positive. -/
def positive (deg : FVec Ideal S50000 .f32) : IVec S50000 1 :=
  cmpf .ogt deg (broadcastInDim S50000 ![] bcast_S_S50000 (constant (F := Ideal) S_ .f32 0x00000000#32))

/-- The reciprocal square root of the degree taken at least one. -/
def invSqrt (deg : FVec Ideal S50000 .f32) : FVec Ideal S50000 .f32 :=
  Host.rsqrt (F := Ideal) (maximumf deg (broadcastInDim S50000 ![] bcast_S_S50000 (constant (F := Ideal) S_ .f32 0x3F800000#32)))

/-- The guarded choice: the value where the guard holds, the broadcast scalar elsewhere. -/
def guarded (p : IVec S50000 1) (v : FVec Ideal S50000 .f32) (z : FVec Ideal S_ .f32) : FVec Ideal S50000 .f32 :=
  select p v (broadcastInDim S50000 ![] bcast_S_S50000 (id z))

/-- The messages: every edge (and self loop) carries its source's row of the product, scaled by the two ends' factors,
    to its destination, where the messages are added. -/
def messages (xw : FVec Ideal S50000x128 .f32) (src dst : IVec S1650000 32) (dinv : FVec Ideal S50000 .f32) : FVec Ideal S50000x128 .f32 :=
  Host.scatterAdd (F := Ideal) scatter_S50000x128_S1650000x1_S1650000x128_1_0_0_1
    (broadcastInDim S50000x128 ![] bcast_S_S50000x128 (constant (F := Ideal) S_ .f32 0x00000000#32))
    (broadcastInDim S1650000x1 ![0] bcast_S1650000_S1650000x1_0 dst)
    (mulf (Host.gather gather_S50000x128_S1650000x1_S1650000x128_1_0_n_n_0_1_1128 xw (wrapped src))
      (broadcastInDim S1650000x128 ![0, 1] bcast_S1650000x1_S1650000x128_0_1
        (broadcastInDim S1650000x1 ![0] bcast_S1650000_S1650000x1_0
          (mulf (Host.gather gather_S50000_S1650000x1_S1650000_n_0_n_n_0_1_1 dinv (wrapped src))
            (Host.gather gather_S50000_S1650000x1_S1650000_n_0_n_n_0_1_1 dinv (wrapped dst))))))

/-- The product of the concatenated branches with the convolution weights. -/
def product (hi lo : FVec Ideal S50000x128 .f32) (w : FVec Ideal S256x128 .f32) : FVec Ideal S50000x128 .f32 :=
  Host.dotGeneral (F := Ideal) dot_S50000x256_S256x128_S50000x128_1_0_0_1_n_n none
    (concatenate S50000x256 1 [⟨S50000x128, hi⟩, ⟨S50000x128, lo⟩] concatenates_S50000x128_S50000x128_S50000x256_d1) w

attribute [local irreducible] Host.scatterAdd Host.gather in
set_option maxHeartbeats 3200000 in
/-- The later stage: the messages of what it finds, the factors guarded where the degree is not positive. -/
theorem later (V : Valuation τ sig (Elt Ideal)) :
    after (opsC0 (F := Ideal)) V (Proc.devRef .tc main_v132)
      = messages (V (Proc.devRef .tc main_v87)) (V (Proc.devRef .tc main_v91)) (V (Proc.devRef .tc main_v94))
          (guarded (V (Proc.devRef .tc main_v100)) (invSqrt (V (Proc.devRef .tc main_v98))) (constant (F := Ideal) S_ .f32 0x00000000#32)) := by
  after_results
  rfl

set_option maxHeartbeats 3200000 in
/-- The earlier stage: the product, the two endpoint lists, the degree and its positivity. -/
theorem earlier_product (V : Valuation τ sig (Elt Ideal)) :
    after (opsB2 (F := Ideal)) V (Proc.devRef .tc main_v87)
      = product (V (Proc.devRef .tc main_v85)) (V (Proc.devRef .tc main_v42)) (V (Proc.devRef .tc main_arg16)) := by
  after_results
  rfl
set_option maxHeartbeats 3200000 in
theorem earlier_src (V : Valuation τ sig (Elt Ideal)) :
    after (opsB2 (F := Ideal)) V (Proc.devRef .tc main_v91) = endpoints (V (Proc.devRef .tc main_arg3)) ![0, 0] slices_S2x1600000_S1x1600000_0_0 := by
  after_results
  rfl
set_option maxHeartbeats 3200000 in
theorem earlier_dst (V : Valuation τ sig (Elt Ideal)) :
    after (opsB2 (F := Ideal)) V (Proc.devRef .tc main_v94) = endpoints (V (Proc.devRef .tc main_arg3)) ![1, 0] slices_S2x1600000_S1x1600000_1_0 := by
  after_results
  rfl
attribute [local irreducible] Host.scatterAdd in
set_option maxHeartbeats 3200000 in
theorem earlier_deg (V : Valuation τ sig (Elt Ideal)) :
    after (opsB2 (F := Ideal)) V (Proc.devRef .tc main_v98)
      = degree (endpoints (V (Proc.devRef .tc main_arg3)) ![1, 0] slices_S2x1600000_S1x1600000_1_0) := by
  after_results
  rfl
attribute [local irreducible] Host.scatterAdd in
set_option maxHeartbeats 3200000 in
theorem earlier_pos (V : Valuation τ sig (Elt Ideal)) :
    after (opsB2 (F := Ideal)) V (Proc.devRef .tc main_v100)
      = positive (degree (endpoints (V (Proc.devRef .tc main_arg3)) ![1, 0] slices_S2x1600000_S1x1600000_1_0)) := by
  after_results
  rfl

end Cert.ReferenceIdeal.Gcn

end
-- ==== Proof.GcnRefAll.lean ====
/-
  The reference's two graph-convolution stages together.
-/
import proofs.«160607_j85856396247988_1_alg».proof.Proof.GcnRef

set_option maxRecDepth 65536

noncomputable section

namespace Cert.ReferenceIdeal.Gcn

open Cert.ReferenceIdeal Cert.ReferenceIdeal.Gen Cert.ReferenceIdeal.Straight
open Idealize.ShloMosaic Idealize.ShloMosaic.TcCoe Idealize.SL.Sem Idealize.ShloMosaic.StableHlo

/-- The factors: the reciprocal square roots of the degrees, zero where the degree is not positive. -/
def factors (ei : IVec S2x1600000 32) : FVec Ideal S50000 .f32 :=
  guarded (positive (degree (endpoints ei ![1, 0] slices_S2x1600000_S1x1600000_1_0)))
    (invSqrt (degree (endpoints ei ![1, 0] slices_S2x1600000_S1x1600000_1_0))) (constant (F := Ideal) S_ .f32 0x00000000#32)

theorem agg (V : Valuation τ sig (Elt Ideal)) :
    after (opsC0 (F := Ideal)) (after (opsB2 (F := Ideal)) V) (Proc.devRef .tc main_v132)
      = messages (product (V (Proc.devRef .tc main_v85)) (V (Proc.devRef .tc main_v42)) (V (Proc.devRef .tc main_arg16)))
          (endpoints (V (Proc.devRef .tc main_arg3)) ![0, 0] slices_S2x1600000_S1x1600000_0_0)
          (endpoints (V (Proc.devRef .tc main_arg3)) ![1, 0] slices_S2x1600000_S1x1600000_1_0)
          (factors (V (Proc.devRef .tc main_arg3))) := by
  rw [later, earlier_product, earlier_src, earlier_dst, earlier_deg, earlier_pos]
  rfl

end Cert.ReferenceIdeal.Gcn

end
-- ==== Proof.GcnBridge.lean ====
/-
  The aggregated messages agree, given the convolution's product.

  The two programs run the same host operations on the edge list and on the product of the normalized branches with
  the convolution weights.  So if the product the reference forms is the array the kernel's seventh region left, and
  the memories agree on the edge list, the two arrays of aggregated messages are equal.
-/
import proofs.«160607_j85856396247988_1_alg».proof.Proof.GcnKernelAll
import proofs.«160607_j85856396247988_1_alg».proof.Proof.GcnRefAll
import proofs.«160607_j85856396247988_1_alg».proof.Proof.FinalBridge

set_option maxRecDepth 65536

noncomputable section

namespace Cert.Bridge.Gcn

open Idealize.ShloMosaic Idealize.ShloMosaic.TcCoe Idealize.SL.Sem Idealize.ShloMosaic.StableHlo

/-- A buffer no operation of a host stretch writes keeps its contents across the stretch. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The reference's buffers when its concatenation stage begins. -/
abbrev atConcat (V : Valuation Cert.ReferenceIdeal.τ Cert.ReferenceIdeal.sig (Elt Ideal)) : Valuation Cert.ReferenceIdeal.τ Cert.ReferenceIdeal.sig (Elt Ideal) :=
  after Cert.ReferenceIdeal.Straight.opsB1 (after Cert.ReferenceIdeal.Straight.opsB0 (after Cert.ReferenceIdeal.Straight.opsA2 (after Cert.ReferenceIdeal.Straight.opsA1 (after Cert.ReferenceIdeal.Straight.opsA0 (V)))))

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The edge list is as launched when the kernel's graph-convolution stretches begin. -/
theorem edges_at11 (c : Dev Cert.KernelIdeal.nD) :
    Cert.KernelIdeal.Gen.W11 m ρ c (Proc.devRef .tc Cert.KernelIdeal.main_arg3) = m ((c.tc : Thread Cert.KernelIdeal.nD Cert.KernelIdeal.τ).loc Cert.KernelIdeal.main_arg3) :=
  have h1 : Cert.KernelIdeal.Gen.W14 m ρ c (Proc.devRef .tc Cert.KernelIdeal.main_arg3) = Cert.KernelIdeal.Gen.W13 m ρ c (Proc.devRef .tc Cert.KernelIdeal.main_arg3) := by host_keeps Cert.KernelIdeal.Gen.hostOps7_2
  have h2 : Cert.KernelIdeal.Gen.W13 m ρ c (Proc.devRef .tc Cert.KernelIdeal.main_arg3) = Cert.KernelIdeal.Gen.W12 m ρ c (Proc.devRef .tc Cert.KernelIdeal.main_arg3) := by host_keeps Cert.KernelIdeal.Gen.hostOps7_1
  have h3 : Cert.KernelIdeal.Gen.W12 m ρ c (Proc.devRef .tc Cert.KernelIdeal.main_arg3) = Cert.KernelIdeal.Gen.W11 m ρ c (Proc.devRef .tc Cert.KernelIdeal.main_arg3) := by host_keeps Cert.KernelIdeal.Gen.hostOps7
  h3.symm.trans (h2.symm.trans (h1.symm.trans ((Cert.KernelIdeal.Gen.W15_of_ne m ρ c Cert.KernelIdeal.main_arg3 (by decide)).symm.trans (Cert.KernelIdeal.Gen.W15_main_arg3 m ρ c))))

theorem agg_of_product (c : Dev Cert.KernelIdeal.nD)
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (hprod : Cert.ReferenceIdeal.Gcn.product (atConcat (launchContents m' c) (Proc.devRef .tc Cert.ReferenceIdeal.main_v85))
        (atConcat (launchContents m' c) (Proc.devRef .tc Cert.ReferenceIdeal.main_v42)) (atConcat (launchContents m' c) (Proc.devRef .tc Cert.ReferenceIdeal.main_arg16))
      = Cert.KernelIdeal.Gen.V11 m ρ c Cert.KernelIdeal.main_v45) :
    Cert.Bridge.Final.atLast (launchContents m' c) (Proc.devRef .tc Cert.ReferenceIdeal.main_v132) = Cert.KernelIdeal.Gen.V14 m ρ c Cert.KernelIdeal.main_v90 := by
  have e3 : atConcat (launchContents m' c) (Proc.devRef .tc Cert.ReferenceIdeal.main_arg3) = Cert.KernelIdeal.Gen.W11 m ρ c (Proc.devRef .tc Cert.KernelIdeal.main_arg3) :=
    ((Cert.ReferenceIdeal.Straight.entry_B2 Cert.ReferenceIdeal.main_arg3 (by decide) (by decide) (by decide) (by decide) (by decide) _).trans h3).trans (edges_at11 m ρ c).symm
  show after (Cert.ReferenceIdeal.Straight.opsC0 (F := Ideal)) (after (Cert.ReferenceIdeal.Straight.opsB2 (F := Ideal)) (atConcat (launchContents m' c))) (Proc.devRef .tc Cert.ReferenceIdeal.main_v132)
    = after (Cert.KernelIdeal.Gen.hostOps7_2 (F := Ideal)) (after (Cert.KernelIdeal.Gen.hostOps7_1 (F := Ideal)) (after (Cert.KernelIdeal.Gen.hostOps7 (F := Ideal)) (Cert.KernelIdeal.Gen.W11 m ρ c))) (Proc.devRef .tc Cert.KernelIdeal.main_v90)
  have e3' := e3
  dsimp only [atConcat] at hprod e3'
  rw [Cert.ReferenceIdeal.Gcn.agg, Cert.KernelIdeal.Gcn.agg, hprod]
  first
    | rw [e3]
    | rw [e3']
  rfl

end Cert.Bridge.Gcn

end
-- ==== Proof.Lin2.lean ====
/-
  The low-dimensional branch's linear layer, as the third region computes it.

  The region walks the ten [5000, 64] row blocks of the low-dimensional features; the column means and variances, the
  normalization's scale and shift, the [64, 128] weights and the bias are whole-array windows that never move.  At
  each point the body normalizes the block (subtract the mean, multiply by the reciprocal square root of the variance
  plus epsilon, scale, shift), multiplies it by the weights into a zero accumulator, adds the bias and clamps at zero,
  and stores the [5000, 128] result block, which is written back at every point.  Row r of block t is row 5000·t + r,
  and a row of the result depends only on the same row of the features, so the result array is one function of the
  arrays, row by row.
-/
import proofs.«160607_j85856396247988_1_alg».proof.Proof.Gen.KernelIdeal.Frame
import Idealize.ShloMosaic.Lib.Pipeline.Value
import Idealize.ShloMosaic.PureOps.Ideal.Laws
import Idealize.ShloMosaic.Lib.ValueIdx
import Idealize.ShloMosaic.Lib.ValueLayout

set_option maxRecDepth 16384

noncomputable section

namespace Cert.KernelIdeal.Lin2

open Cert.KernelIdeal Cert.KernelIdeal.Gen
open Idealize.ShloMosaic Idealize.ShloMosaic.TcCoe Idealize.SL.Sem Idealize.ShloMosaic.Tactic
open Idealize.ShloMosaic.ValueIdx
open Idealize.ShloMosaic.Pipeline (Dat)

/-- The normalization's epsilon, as both programs spell it. -/
abbrev eps : EReal := Ideal.ofBits .f32 0x3727C5AC#32

/-- The block's matrix product into a zero accumulator, at (a, b): the sum over the 64 contracted coordinates. -/
theorem mm_apply (A : FVec Ideal S5000x64 .bf16) (B : FVec Ideal S64x128 .bf16) (a : Fin 5000) (b : Fin 128) :
    matmul dot_S5000x64_S64x128_S5000x128_1_0_0_1_n_n none A B (constant (F := Ideal) S5000x128 .f32 0x00000000#32) (ix2 a b)
      = ∑ k : Fin 64, A (ix2 a k) * B (ix2 k b) := by
  show FloatOps.matmul dot_S5000x64_S64x128_S5000x128_1_0_0_1_n_n none A B _ (ix2 a b) = _
  rw [Ideal.matmul_constant_zero_apply, ← Equiv.sum_comp (contrEquiv1 dot_S5000x64_S64x128_S5000x128_1_0_0_1_n_n 64 rfl rfl).symm]
  refine Finset.sum_congr rfl fun k _ => ?_
  have c2 := contrEquiv1_symm_val dot_S5000x64_S64x128_S5000x128_1_0_0_1_n_n 64 rfl rfl k
  have l2 : (dot_S5000x64_S64x128_S5000x128_1_0_0_1_n_n).lhsIdx (ix2 a b) ((contrEquiv1 _ 64 rfl rfl).symm k) = ix2 a k := by
    funext ax; apply Fin.ext
    match ax with
    | ⟨0, _⟩ => simp [DotDims.lhsIdx, dot_S5000x64_S64x128_S5000x128_1_0_0_1_n_n]; rfl
    | ⟨1, _⟩ => simp [DotDims.lhsIdx, dot_S5000x64_S64x128_S5000x128_1_0_0_1_n_n]; exact c2
  have r2 : (dot_S5000x64_S64x128_S5000x128_1_0_0_1_n_n).rhsIdx (ix2 a b) ((contrEquiv1 _ 64 rfl rfl).symm k) = ix2 k b := by
    funext ax; apply Fin.ext
    match ax with
    | ⟨0, _⟩ => simp [DotDims.rhsIdx, dot_S5000x64_S64x128_S5000x128_1_0_0_1_n_n]; exact c2
    | ⟨1, _⟩ => simp [DotDims.rhsIdx, dot_S5000x64_S64x128_S5000x128_1_0_0_1_n_n]; rfl
  rw [l2, r2]

/-- One normalized entry: (x − mean) · rsqrt(variance + epsilon) · scale + shift. -/
def normed (x mu sg gm bt : EReal) : EReal := (x - mu) * Ideal.rsqrt (sg + eps) * gm + bt

/-- One entry of the layer's output from a row of features: the clamped affine image of the normalized row. -/
def rowOut (xrow : Fin 64 → EReal) (mu sg gm bt : S1x64.Idx → EReal) (Wt : S64x128.Idx → EReal) (lb : S1x128.Idx → EReal)
    (n : Fin 128) : EReal :=
  max ((∑ k : Fin 64, normed (xrow k) (mu (ix2 (0 : Fin 1) k)) (sg (ix2 (0 : Fin 1) k)) (gm (ix2 (0 : Fin 1) k)) (bt (ix2 (0 : Fin 1) k))
      * Wt (ix2 k n)) + lb (ix2 (0 : Fin 1) n)) 0

/-- The body's payload at (r, n). -/
theorem pay_apply (v0 : Vec Ideal S5000x64 .f32) (v1 v5 v12 v16 : Vec Ideal S1x64 .f32) (v21 : Vec Ideal S64x128 .bf16)
    (v24 : Vec Ideal S1x128 .f32) (r : Fin 5000) (n : Fin 128) :
    k2_pay1 (F := Ideal) v0 v1 v5 v12 v16 v21 v24 (ix2 r n) = rowOut (fun k => v0 (ix2 r k)) v1 v5 v12 v16 v21 v24 n := by
  unfold k2_pay1
  try dsimp only
  simp only [shapeCast_self]
  refine (maximumf_apply _ _ _).trans ?_
  unfold rowOut
  refine congrArg₂ max ?_ Ideal.ofBits_zero_f32
  refine (addf_apply _ _ _).trans ?_
  refine congrArg₂ (· + ·) ?_ (broadcastTo_1b_ab_apply v24 _ r n)
  refine (mm_apply _ _ r n).trans ?_
  refine Finset.sum_congr rfl fun k _ => ?_
  refine congrArg (· * v21 (ix2 k n)) ?_
  unfold normed
  refine (addf_apply _ _ _).trans ?_
  refine congrArg₂ (· + ·) ?_ (broadcastTo_1b_ab_apply v16 _ r k)
  refine (mulf_apply _ _ _).trans ?_
  refine congrArg₂ (· * ·) ?_ (broadcastTo_1b_ab_apply v12 _ r k)
  refine (mulf_apply _ _ _).trans ?_
  refine congrArg₂ (· * ·) ?_ ?_
  · refine (subf_apply _ _ _).trans ?_
    exact congrArg (v0 (ix2 r k) - ·) (broadcastTo_1b_ab_apply v1 _ r k)
  · exact (broadcastTo_1b_ab_apply _ _ r k).trans rfl

section Array

variable (V : (c : Dev nD) → (b : Ref sig .tc) → Buf (Elt Ideal) ((c : Thread nD τ).loc b))

/-- The arrays as the region finds them. -/
abbrev X (c : Dev nD) : S50000x64.Idx → EReal := V c main_arg1
abbrev mu (c : Dev nD) : S1x64.Idx → EReal := V c main_v2
abbrev sg (c : Dev nD) : S1x64.Idx → EReal := V c main_v6
abbrev gm (c : Dev nD) : S1x64.Idx → EReal := V c main_v14
abbrev bt (c : Dev nD) : S1x64.Idx → EReal := V c main_v15
abbrev Wt (c : Dev nD) : S64x128.Idx → EReal := V c main_v18
abbrev lb (c : Dev nD) : S1x128.Idx → EReal := V c main_v20

/-- The layer's output array: row by row, the clamped affine image of the normalized row. -/
def G (c : Dev nD) : S50000x128.Idx → EReal := fun i =>
  rowOut (fun k => X V c (ix2 (i 0 : Fin 50000) k)) (mu V c) (sg V c) (gm V c) (bt V c) (Wt V c) (lb V c) (i 1 : Fin 128)

theorem hz : (![0, 0] : Fin 2 → Nat) = fun _ => 0 := funext fun a => by fin_cases a <;> rfl

/-- The printed index maps, decided over the grid: the feature and result windows walk the row blocks, the others stay. -/
theorem idx_facts : ∀ t : Fin cfg2.N, win2_0.index t (0 : Fin 2) = t.val ∧ win2_0.index t (1 : Fin 2) = 0
    ∧ win2_7.index t (0 : Fin 2) = t.val ∧ win2_7.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

end Array

end Cert.KernelIdeal.Lin2

end
-- ==== Proof.Mix6.lean ====
/-
  The second normalizations and the convolution's product, as the seventh region computes them.

  The region walks the ten [5000, 128] row blocks of the two branches' linear-layer outputs side by side.  It normalizes
  each with its own column statistics, scale and shift, multiplies the high branch's normalized block by the upper
  [128, 128] half of the convolution weights and the low branch's by the lower half, each into a zero accumulator, and
  adds the two products: the product of the row-wise concatenation with the whole [256, 128] weights, never forming
  the concatenation.
-/
import proofs.«160607_j85856396247988_1_alg».proof.Proof.Lin2

set_option maxRecDepth 16384

noncomputable section

namespace Cert.KernelIdeal.Mix6

open Cert.KernelIdeal Cert.KernelIdeal.Gen
open Idealize.ShloMosaic Idealize.ShloMosaic.TcCoe Idealize.SL.Sem Idealize.ShloMosaic.Tactic
open Idealize.ShloMosaic.ValueIdx
open Idealize.ShloMosaic.Pipeline (Dat)
open Cert.KernelIdeal.Lin2 (normed eps)

/-- A block's product with a [128, 128] half of the weights into a zero accumulator, at (a, b). -/
theorem mm_apply (A : FVec Ideal S5000x128 .bf16) (B : FVec Ideal S128x128 .bf16) (a : Fin 5000) (b : Fin 128) :
    matmul dot_S5000x128_S128x128_S5000x128_1_0_0_1_n_n none A B (constant (F := Ideal) S5000x128 .f32 0x00000000#32) (ix2 a b)
      = ∑ k : Fin 128, A (ix2 a k) * B (ix2 k b) := by
  show FloatOps.matmul dot_S5000x128_S128x128_S5000x128_1_0_0_1_n_n none A B _ (ix2 a b) = _
  rw [Ideal.matmul_constant_zero_apply, ← Equiv.sum_comp (contrEquiv1 dot_S5000x128_S128x128_S5000x128_1_0_0_1_n_n 128 rfl rfl).symm]
  refine Finset.sum_congr rfl fun k _ => ?_
  have c2 := contrEquiv1_symm_val dot_S5000x128_S128x128_S5000x128_1_0_0_1_n_n 128 rfl rfl k
  have l2 : (dot_S5000x128_S128x128_S5000x128_1_0_0_1_n_n).lhsIdx (ix2 a b) ((contrEquiv1 _ 128 rfl rfl).symm k) = ix2 a k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : (dot_S5000x128_S128x128_S5000x128_1_0_0_1_n_n).rhsIdx (ix2 a b) ((contrEquiv1 _ 128 rfl rfl).symm k) = ix2 k b := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

/-- The high branch's normalized block at (r, k). -/
theorem highn_apply (v0 : Vec Ideal S5000x128 .f32) (v2 v6 v13 v17 : Vec Ideal S1x128 .f32) (r : Fin 5000) (k : Fin 128) :
    k6_pay2 (F := Ideal) v0 v2 v6 v13 v17 (ix2 r k)
      = normed (v0 (ix2 r k)) (v2 (ix2 (0 : Fin 1) k)) (v6 (ix2 (0 : Fin 1) k)) (v13 (ix2 (0 : Fin 1) k)) (v17 (ix2 (0 : Fin 1) k)) := by
  unfold k6_pay2
  try dsimp only
  simp only [shapeCast_self]
  unfold normed
  refine (addf_apply _ _ _).trans ?_
  refine congrArg₂ (· + ·) ?_ (broadcastTo_1b_ab_apply v17 _ r k)
  refine (mulf_apply _ _ _).trans ?_
  refine congrArg₂ (· * ·) ?_ (broadcastTo_1b_ab_apply v13 _ r k)
  refine (mulf_apply _ _ _).trans ?_
  refine congrArg₂ (· * ·) ?_ ?_
  · refine (subf_apply _ _ _).trans ?_
    exact congrArg (v0 (ix2 r k) - ·) (broadcastTo_1b_ab_apply v2 _ r k)
  · exact (broadcastTo_1b_ab_apply _ _ r k).trans rfl

/-- The low branch's block normalized and scaled, before its shift, at (r, k). -/
theorem lown_apply (v21 : Vec Ideal S5000x128 .f32) (v23 v27 v34 : Vec Ideal S1x128 .f32) (r : Fin 5000) (k : Fin 128) :
    k6_pay3 (F := Ideal) v21 v23 v27 v34 (ix2 r k)
      = (v21 (ix2 r k) - v23 (ix2 (0 : Fin 1) k)) * Ideal.rsqrt (v27 (ix2 (0 : Fin 1) k) + eps) * v34 (ix2 (0 : Fin 1) k) := by
  unfold k6_pay3
  try dsimp only
  simp only [shapeCast_self]
  refine (mulf_apply _ _ _).trans ?_
  refine congrArg₂ (· * ·) ?_ (broadcastTo_1b_ab_apply v34 _ r k)
  refine (mulf_apply _ _ _).trans ?_
  refine congrArg₂ (· * ·) ?_ ?_
  · refine (subf_apply _ _ _).trans ?_
    exact congrArg (v21 (ix2 r k) - ·) (broadcastTo_1b_ab_apply v23 _ r k)
  · exact (broadcastTo_1b_ab_apply _ _ r k).trans rfl

/-- The two products and their sum at (r, n). -/
theorem sum_apply (v20 v37 : FVec Ideal S5000x128 .f32) (v38 : Vec Ideal S1x128 .f32) (v44 v46 : Vec Ideal S128x128 .bf16)
    (r : Fin 5000) (n : Fin 128) :
    k6_pay1 (F := Ideal) v20 v37 v38 v44 v46 (ix2 r n)
      = (∑ k : Fin 128, v20 (ix2 r k) * v44 (ix2 k n)) + ∑ k : Fin 128, (v37 (ix2 r k) + v38 (ix2 (0 : Fin 1) k)) * v46 (ix2 k n) := by
  unfold k6_pay1
  try dsimp only
  simp only [shapeCast_self]
  refine (addf_apply _ _ _).trans ?_
  refine congrArg₂ (· + ·) (mm_apply _ _ r n) ?_
  refine (mm_apply _ _ r n).trans ?_
  refine Finset.sum_congr rfl fun k _ => ?_
  refine congrArg (· * v46 (ix2 k n)) ?_
  refine (addf_apply _ _ _).trans ?_
  exact congrArg (v37 (ix2 r k) + ·) (broadcastTo_1b_ab_apply v38 _ r k)

/-- One entry of the region's output from a row of each branch. -/
def rowOut (hrow lrow : Fin 128 → EReal) (hm hv hg hb lm lv lg lb : S1x128.Idx → EReal) (wh wl : S128x128.Idx → EReal) (n : Fin 128) : EReal :=
  (∑ k : Fin 128, normed (hrow k) (hm (ix2 (0 : Fin 1) k)) (hv (ix2 (0 : Fin 1) k)) (hg (ix2 (0 : Fin 1) k)) (hb (ix2 (0 : Fin 1) k)) * wh (ix2 k n))
    + ∑ k : Fin 128, normed (lrow k) (lm (ix2 (0 : Fin 1) k)) (lv (ix2 (0 : Fin 1) k)) (lg (ix2 (0 : Fin 1) k)) (lb (ix2 (0 : Fin 1) k)) * wl (ix2 k n)

/-- The body's payload at (r, n). -/
theorem pay_apply (x0 x5 : Vec Ideal S5000x128 .f32) (x1 x2 x3 x4 x6 x7 x8 x9 : Vec Ideal S1x128 .f32)
    (x10 x11 : Vec Ideal S128x128 .bf16) (r : Fin 5000) (n : Fin 128) :
    k6_pay1 (F := Ideal) (k6_pay2 x0 x1 x2 x3 x4) (k6_pay3 x5 x6 x7 x8) x9 x10 x11 (ix2 r n)
      = rowOut (fun k => x0 (ix2 r k)) (fun k => x5 (ix2 r k)) x1 x2 x3 x4 x6 x7 x8 x9 x10 x11 n := by
  rw [sum_apply]
  unfold rowOut
  refine congrArg₂ (· + ·) ?_ ?_
  · exact Finset.sum_congr rfl fun k _ => congrArg (· * x10 (ix2 k n)) (highn_apply x0 x1 x2 x3 x4 r k)
  · refine Finset.sum_congr rfl fun k _ => congrArg (· * x11 (ix2 k n)) ?_
    rw [lown_apply]
    rfl

end Cert.KernelIdeal.Mix6

end
-- ==== Proof.Mix6Array.lean ====
/-
  The seventh region's result array.

  Every point writes its [5000, 128] result block back, the ten blocks tile the [50000, 128] array, and block t's row r
  is computed from row 5000·t + r of each branch's array, so the array ends holding the region's row-by-row function.
-/
import proofs.«160607_j85856396247988_1_alg».proof.Proof.Mix6

set_option maxRecDepth 16384

noncomputable section

namespace Cert.KernelIdeal.Mix6

open Cert.KernelIdeal Cert.KernelIdeal.Gen
open Idealize.ShloMosaic Idealize.ShloMosaic.TcCoe Idealize.SL.Sem Idealize.ShloMosaic.Tactic
open Idealize.ShloMosaic.ValueIdx
open Idealize.ShloMosaic.Pipeline (Dat)

variable (V : (c : Dev nD) → (b : Ref sig .tc) → Buf (Elt Ideal) ((c : Thread nD τ).loc b))

/-- The arrays as the region finds them: the two branches' layer outputs, their statistics, scales and shifts, and the
    two halves of the weights. -/
abbrev Hi (c : Dev nD) : S50000x128.Idx → EReal := V c main_v23
abbrev Lo (c : Dev nD) : S50000x128.Idx → EReal := V c main_v22
abbrev hm (c : Dev nD) : S1x128.Idx → EReal := V c main_v33
abbrev hv (c : Dev nD) : S1x128.Idx → EReal := V c main_v37
abbrev hg (c : Dev nD) : S1x128.Idx → EReal := V c main_v40
abbrev hb (c : Dev nD) : S1x128.Idx → EReal := V c main_v41
abbrev lm (c : Dev nD) : S1x128.Idx → EReal := V c main_v26
abbrev lv (c : Dev nD) : S1x128.Idx → EReal := V c main_v30
abbrev lg (c : Dev nD) : S1x128.Idx → EReal := V c main_v38
abbrev lb (c : Dev nD) : S1x128.Idx → EReal := V c main_v39
abbrev wh (c : Dev nD) : S128x128.Idx → EReal := V c main_v43
abbrev wl (c : Dev nD) : S128x128.Idx → EReal := V c main_v44

/-- The region's output array, row by row. -/
def G (c : Dev nD) : S50000x128.Idx → EReal := fun i =>
  rowOut (fun k => Hi V c (ix2 (i 0 : Fin 50000) k)) (fun k => Lo V c (ix2 (i 0 : Fin 50000) k))
    (hm V c) (hv V c) (hg V c) (hb V c) (lm V c) (lv V c) (lg V c) (lb V c) (wh V c) (wl V c) (i 1 : Fin 128)

theorem hz : (![0, 0] : Fin 2 → Nat) = fun _ => 0 := funext fun a => by fin_cases a <;> rfl

/-- The printed index maps, decided over the grid: the two layer-output windows and the result window walk the row
    blocks, the others stay. -/
theorem idx_facts : ∀ t : Fin cfg6.N, win6_0.index t (0 : Fin 2) = t.val
    ∧ win6_0.index t (1 : Fin 2) = 0
    ∧ win6_5.index t (0 : Fin 2) = t.val
    ∧ win6_5.index t (1 : Fin 2) = 0
    ∧ win6_12.index t (0 : Fin 2) = t.val
    ∧ win6_12.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_6.index t (0 : Fin 2) = 0
    ∧ win6_6.index t (1 : Fin 2) = 0
    ∧ win6_7.index t (0 : Fin 2) = 0
    ∧ win6_7.index t (1 : Fin 2) = 0
    ∧ win6_8.index t (0 : Fin 2) = 0
    ∧ win6_8.index t (1 : Fin 2) = 0
    ∧ win6_9.index t (0 : Fin 2) = 0
    ∧ win6_9.index t (1 : Fin 2) = 0
    ∧ win6_10.index t (0 : Fin 2) = 0
    ∧ win6_10.index t (1 : Fin 2) = 0
    ∧ win6_11.index t (0 : Fin 2) = 0
    ∧ win6_11.index t (1 : Fin 2) = 0 :=
  (by decide +kernel : ∀ t : Fin grid6.N, _)

/-- Window 1 never moves: its block is the whole array. -/
theorem full1 (c : Dev nD) (t : Fin cfg6.N) : (iblk6 V c 1 t : S1x128.Idx → EReal) = hm V c := by
  obtain ⟨e00, e01, e50, e51, eo0, eo1, f1_0, f1_1, f2_0, f2_1, f3_0, f3_1, f4_0, f4_1, f6_0, f6_1, f7_0, f7_1, f8_0, f8_1, f9_0, f9_1, f10_0, f10_1, f11_0, f11_1⟩ := idx_facts t
  funext y
  unfold iblk6
  rw [View.read_apply]
  show V c main_v33 _ = V c main_v33 _
  congr 1
  funext a
  apply Fin.ext
  match a with
  | ⟨0, _⟩ => show win6_1.index t 0 * 1 + 1 * (y 0).val = (y 0).val; rw [f1_0]; omega
  | ⟨1, _⟩ => show win6_1.index t 1 * 128 + 1 * (y 1).val = (y 1).val; rw [f1_1]; omega

/-- Window 2 never moves: its block is the whole array. -/
theorem full2 (c : Dev nD) (t : Fin cfg6.N) : (iblk6 V c 2 t : S1x128.Idx → EReal) = hv V c := by
  obtain ⟨e00, e01, e50, e51, eo0, eo1, f1_0, f1_1, f2_0, f2_1, f3_0, f3_1, f4_0, f4_1, f6_0, f6_1, f7_0, f7_1, f8_0, f8_1, f9_0, f9_1, f10_0, f10_1, f11_0, f11_1⟩ := idx_facts t
  funext y
  unfold iblk6
  rw [View.read_apply]
  show V c main_v37 _ = V c main_v37 _
  congr 1
  funext a
  apply Fin.ext
  match a with
  | ⟨0, _⟩ => show win6_2.index t 0 * 1 + 1 * (y 0).val = (y 0).val; rw [f2_0]; omega
  | ⟨1, _⟩ => show win6_2.index t 1 * 128 + 1 * (y 1).val = (y 1).val; rw [f2_1]; omega

/-- Window 3 never moves: its block is the whole array. -/
theorem full3 (c : Dev nD) (t : Fin cfg6.N) : (iblk6 V c 3 t : S1x128.Idx → EReal) = hg V c := by
  obtain ⟨e00, e01, e50, e51, eo0, eo1, f1_0, f1_1, f2_0, f2_1, f3_0, f3_1, f4_0, f4_1, f6_0, f6_1, f7_0, f7_1, f8_0, f8_1, f9_0, f9_1, f10_0, f10_1, f11_0, f11_1⟩ := idx_facts t
  funext y
  unfold iblk6
  rw [View.read_apply]
  show V c main_v40 _ = V c main_v40 _
  congr 1
  funext a
  apply Fin.ext
  match a with
  | ⟨0, _⟩ => show win6_3.index t 0 * 1 + 1 * (y 0).val = (y 0).val; rw [f3_0]; omega
  | ⟨1, _⟩ => show win6_3.index t 1 * 128 + 1 * (y 1).val = (y 1).val; rw [f3_1]; omega

/-- Window 4 never moves: its block is the whole array. -/
theorem full4 (c : Dev nD) (t : Fin cfg6.N) : (iblk6 V c 4 t : S1x128.Idx → EReal) = hb V c := by
  obtain ⟨e00, e01, e50, e51, eo0, eo1, f1_0, f1_1, f2_0, f2_1, f3_0, f3_1, f4_0, f4_1, f6_0, f6_1, f7_0, f7_1, f8_0, f8_1, f9_0, f9_1, f10_0, f10_1, f11_0, f11_1⟩ := idx_facts t
  funext y
  unfold iblk6
  rw [View.read_apply]
  show V c main_v41 _ = V c main_v41 _
  congr 1
  funext a
  apply Fin.ext
  match a with
  | ⟨0, _⟩ => show win6_4.index t 0 * 1 + 1 * (y 0).val = (y 0).val; rw [f4_0]; omega
  | ⟨1, _⟩ => show win6_4.index t 1 * 128 + 1 * (y 1).val = (y 1).val; rw [f4_1]; omega

/-- Window 6 never moves: its block is the whole array. -/
theorem full6 (c : Dev nD) (t : Fin cfg6.N) : (iblk6 V c 6 t : S1x128.Idx → EReal) = lm V c := by
  obtain ⟨e00, e01, e50, e51, eo0, eo1, f1_0, f1_1, f2_0, f2_1, f3_0, f3_1, f4_0, f4_1, f6_0, f6_1, f7_0, f7_1, f8_0, f8_1, f9_0, f9_1, f10_0, f10_1, f11_0, f11_1⟩ := idx_facts t
  funext y
  unfold iblk6
  rw [View.read_apply]
  show V c main_v26 _ = V c main_v26 _
  congr 1
  funext a
  apply Fin.ext
  match a with
  | ⟨0, _⟩ => show win6_6.index t 0 * 1 + 1 * (y 0).val = (y 0).val; rw [f6_0]; omega
  | ⟨1, _⟩ => show win6_6.index t 1 * 128 + 1 * (y 1).val = (y 1).val; rw [f6_1]; omega

/-- Window 7 never moves: its block is the whole array. -/
theorem full7 (c : Dev nD) (t : Fin cfg6.N) : (iblk6 V c 7 t : S1x128.Idx → EReal) = lv V c := by
  obtain ⟨e00, e01, e50, e51, eo0, eo1, f1_0, f1_1, f2_0, f2_1, f3_0, f3_1, f4_0, f4_1, f6_0, f6_1, f7_0, f7_1, f8_0, f8_1, f9_0, f9_1, f10_0, f10_1, f11_0, f11_1⟩ := idx_facts t
  funext y
  unfold iblk6
  rw [View.read_apply]
  show V c main_v30 _ = V c main_v30 _
  congr 1
  funext a
  apply Fin.ext
  match a with
  | ⟨0, _⟩ => show win6_7.index t 0 * 1 + 1 * (y 0).val = (y 0).val; rw [f7_0]; omega
  | ⟨1, _⟩ => show win6_7.index t 1 * 128 + 1 * (y 1).val = (y 1).val; rw [f7_1]; omega

/-- Window 8 never moves: its block is the whole array. -/
theorem full8 (c : Dev nD) (t : Fin cfg6.N) : (iblk6 V c 8 t : S1x128.Idx → EReal) = lg V c := by
  obtain ⟨e00, e01, e50, e51, eo0, eo1, f1_0, f1_1, f2_0, f2_1, f3_0, f3_1, f4_0, f4_1, f6_0, f6_1, f7_0, f7_1, f8_0, f8_1, f9_0, f9_1, f10_0, f10_1, f11_0, f11_1⟩ := idx_facts t
  funext y
  unfold iblk6
  rw [View.read_apply]
  show V c main_v38 _ = V c main_v38 _
  congr 1
  funext a
  apply Fin.ext
  match a with
  | ⟨0, _⟩ => show win6_8.index t 0 * 1 + 1 * (y 0).val = (y 0).val; rw [f8_0]; omega
  | ⟨1, _⟩ => show win6_8.index t 1 * 128 + 1 * (y 1).val = (y 1).val; rw [f8_1]; omega

/-- Window 9 never moves: its block is the whole array. -/
theorem full9 (c : Dev nD) (t : Fin cfg6.N) : (iblk6 V c 9 t : S1x128.Idx → EReal) = lb V c := by
  obtain ⟨e00, e01, e50, e51, eo0, eo1, f1_0, f1_1, f2_0, f2_1, f3_0, f3_1, f4_0, f4_1, f6_0, f6_1, f7_0, f7_1, f8_0, f8_1, f9_0, f9_1, f10_0, f10_1, f11_0, f11_1⟩ := idx_facts t
  funext y
  unfold iblk6
  rw [View.read_apply]
  show V c main_v39 _ = V c main_v39 _
  congr 1
  funext a
  apply Fin.ext
  match a with
  | ⟨0, _⟩ => show win6_9.index t 0 * 1 + 1 * (y 0).val = (y 0).val; rw [f9_0]; omega
  | ⟨1, _⟩ => show win6_9.index t 1 * 128 + 1 * (y 1).val = (y 1).val; rw [f9_1]; omega

/-- Window 10 never moves: its block is the whole array. -/
theorem full10 (c : Dev nD) (t : Fin cfg6.N) : (iblk6 V c 10 t : S128x128.Idx → EReal) = wh V c := by
  obtain ⟨e00, e01, e50, e51, eo0, eo1, f1_0, f1_1, f2_0, f2_1, f3_0, f3_1, f4_0, f4_1, f6_0, f6_1, f7_0, f7_1, f8_0, f8_1, f9_0, f9_1, f10_0, f10_1, f11_0, f11_1⟩ := idx_facts t
  funext y
  unfold iblk6
  rw [View.read_apply]
  show V c main_v43 _ = V c main_v43 _
  congr 1
  funext a
  apply Fin.ext
  match a with
  | ⟨0, _⟩ => show win6_10.index t 0 * 128 + 1 * (y 0).val = (y 0).val; rw [f10_0]; omega
  | ⟨1, _⟩ => show win6_10.index t 1 * 128 + 1 * (y 1).val = (y 1).val; rw [f10_1]; omega

/-- Window 11 never moves: its block is the whole array. -/
theorem full11 (c : Dev nD) (t : Fin cfg6.N) : (iblk6 V c 11 t : S128x128.Idx → EReal) = wl V c := by
  obtain ⟨e00, e01, e50, e51, eo0, eo1, f1_0, f1_1, f2_0, f2_1, f3_0, f3_1, f4_0, f4_1, f6_0, f6_1, f7_0, f7_1, f8_0, f8_1, f9_0, f9_1, f10_0, f10_1, f11_0, f11_1⟩ := idx_facts t
  funext y
  unfold iblk6
  rw [View.read_apply]
  show V c main_v44 _ = V c main_v44 _
  congr 1
  funext a
  apply Fin.ext
  match a with
  | ⟨0, _⟩ => show win6_11.index t 0 * 128 + 1 * (y 0).val = (y 0).val; rw [f11_0]; omega
  | ⟨1, _⟩ => show win6_11.index t 1 * 128 + 1 * (y 1).val = (y 1).val; rw [f11_1]; omega

/-- Row `r` of block `t` of window 0 is row 5000·t + r of its array. -/
theorem row0 (c : Dev nD) (t : Fin cfg6.N) (r : Fin 5000) (k : Fin 128) (i : Fin 50000) (hi : i.val = 5000 * t.val + r.val) :
    (iblk6 V c 0 t : S5000x128.Idx → EReal) (ix2 r k) = Hi V c (ix2 i k) := by
  obtain ⟨e00, e01, e50, e51, eo0, eo1, f1_0, f1_1, f2_0, f2_1, f3_0, f3_1, f4_0, f4_1, f6_0, f6_1, f7_0, f7_1, f8_0, f8_1, f9_0, f9_1, f10_0, f10_1, f11_0, f11_1⟩ := idx_facts t
  unfold iblk6
  rw [View.read_apply]
  show V c main_v23 _ = V c main_v23 _
  congr 1
  funext a
  apply Fin.ext
  match a with
  | ⟨0, _⟩ => show win6_0.index t 0 * 5000 + 1 * r.val = i.val; rw [e00, hi]; omega
  | ⟨1, _⟩ => show win6_0.index t 1 * 128 + 1 * k.val = k.val; rw [e01]; omega

/-- Row `r` of block `t` of window 5 is row 5000·t + r of its array. -/
theorem row5 (c : Dev nD) (t : Fin cfg6.N) (r : Fin 5000) (k : Fin 128) (i : Fin 50000) (hi : i.val = 5000 * t.val + r.val) :
    (iblk6 V c 5 t : S5000x128.Idx → EReal) (ix2 r k) = Lo V c (ix2 i k) := by
  obtain ⟨e00, e01, e50, e51, eo0, eo1, f1_0, f1_1, f2_0, f2_1, f3_0, f3_1, f4_0, f4_1, f6_0, f6_1, f7_0, f7_1, f8_0, f8_1, f9_0, f9_1, f10_0, f10_1, f11_0, f11_1⟩ := idx_facts t
  unfold iblk6
  rw [View.read_apply]
  show V c main_v22 _ = V c main_v22 _
  congr 1
  funext a
  apply Fin.ext
  match a with
  | ⟨0, _⟩ => show win6_5.index t 0 * 5000 + 1 * r.val = i.val; rw [e50, hi]; omega
  | ⟨1, _⟩ => show win6_5.index t 1 * 128 + 1 * k.val = k.val; rw [e51]; omega

/-- WHAT POINT `t` WRITES BACK is block `t` of the region's output array. -/
theorem flushed_eq (c : Dev nD) (t : Fin cfg6.N) :
    (dat6 V c).flushed 12 t = ((cfg6.win 12).blk t).view.read (Elt Ideal) (G V c) := by
  show (cfg6.win 12).cut (grid6.coords t) ((dat6 V c).after 12 t) = _
  rw [after6_12]
  unfold out6_12
  rw [View.canon_unit_zero hz]
  simp only [View.ld_unit_zero (S := S5000x128) hz, View.ld_unit_zero (S := S1x128) hz, View.ld_unit_zero (S := S128x128) hz]
  obtain ⟨e00, e01, e50, e51, eo0, eo1, f1_0, f1_1, f2_0, f2_1, f3_0, f3_1, f4_0, f4_1, f6_0, f6_1, f7_0, f7_1, f8_0, f8_1, f9_0, f9_1, f10_0, f10_1, f11_0, f11_1⟩ := idx_facts t
  funext y
  obtain ⟨r, n, rfl⟩ : ∃ (r : Fin 5000) (n : Fin 128), y = ix2 r n := ⟨y 0, y 1, eq_ix2 y⟩
  rw [View.read_apply]
  refine (pay_apply _ _ _ _ _ _ _ _ _ _ _ _ r n).trans ?_
  unfold G
  have h0 : ((((cfg6.win 12).blk t).view.emb (ix2 r n)) 0 : Fin 50000).val = 5000 * t.val + r.val := by
    show win6_12.index t 0 * 5000 + 1 * r.val = _; rw [eo0]; omega
  have h1 : ((((cfg6.win 12).blk t).view.emb (ix2 r n)) 1 : Fin 128) = n := by
    apply Fin.ext; show win6_12.index t 1 * 128 + 1 * n.val = _; rw [eo1]; omega
  rw [h1, full1 V c t, full2 V c t, full3 V c t, full4 V c t, full6 V c t, full7 V c t, full8 V c t, full9 V c t, full10 V c t, full11 V c t]
  have eH : (fun k => (iblk6 V c 0 t : S5000x128.Idx → EReal) (ix2 r k)) = fun k => Hi V c (ix2 ((((cfg6.win 12).blk t).view.emb (ix2 r n)) 0 : Fin 50000) k) :=
    funext fun k => row0 V c t r k _ h0
  have eL : (fun k => (iblk6 V c 5 t : S5000x128.Idx → EReal) (ix2 r k)) = fun k => Lo V c (ix2 ((((cfg6.win 12).blk t).view.emb (ix2 r n)) 0 : Fin 50000) k) :=
    funext fun k => row5 V c t r k _ h0
  exact congrArg₂ (fun f g => rowOut f g (hm V c) (hv V c) (hg V c) (hb V c) (lm V c) (lv V c) (lg V c) (lb V c) (wh V c) (wl V c) n) eH eL

/-- An index of the array is in point `t`'s block iff each coordinate is in the block's range on its axis. -/
theorem mem_blk (t : Fin cfg6.N) (i : S50000x128.Idx) :
    i ∈ ((cfg6.win 12).blk t).view.set ↔ ∀ a : Fin 2, win6_12.index t a * S5000x128.size a ≤ (i a).val ∧ (i a).val < win6_12.index t a * S5000x128.size a + S5000x128.size a := by
  show i ∈ ((View.whole main_v45).slice (win6_12.rect t)).set ↔ _
  rw [View.set_slice_whole, Rect.mem_set_unit]
  exact Iff.rfl

/-- THE RESULT ARRAY of the region. -/
theorem final (c : Dev nD) : (dat6 V c).arrAt 12 cfg6.N = G V c :=
  (dat6 V c).arrAt_eq_of_cover 12 (G V c) (fun t _ => flushed_eq V c t) fun i => by
    have hN : cfg6.N = 10 := N_6
    have hi0 : (i 0).val < 50000 := (i 0).isLt
    have hi1 : (i 1).val < 128 := (i 1).isLt
    let t : Fin cfg6.N := ⟨(i 0).val / 5000, by omega⟩
    obtain ⟨e00, e01, e50, e51, eo0, eo1, f1_0, f1_1, f2_0, f2_1, f3_0, f3_1, f4_0, f4_1, f6_0, f6_1, f7_0, f7_1, f8_0, f8_1, f9_0, f9_1, f10_0, f10_1, f11_0, f11_1⟩ := idx_facts t
    refine ⟨t, flush6_12 t, ?_⟩
    rw [mem_blk]
    intro a
    match a with
    | ⟨0, _⟩ => show win6_12.index t 0 * 5000 ≤ (i 0).val ∧ (i 0).val < win6_12.index t 0 * 5000 + 5000
                rw [eo0]; show (i 0).val / 5000 * 5000 ≤ (i 0).val ∧ (i 0).val < (i 0).val / 5000 * 5000 + 5000; omega
    | ⟨1, _⟩ => show win6_12.index t 1 * 128 ≤ (i 1).val ∧ (i 1).val < win6_12.index t 1 * 128 + 128
                rw [eo1]; omega

end Cert.KernelIdeal.Mix6

end
-- ==== Proof.Mix6In.lean ====
/-
  What the seventh region finds in its windows.

  The two branches' linear-layer outputs are as the third and fourth regions left them (the statistics regions only
  read them); the low branch's second statistics are what the third host stretch left, the high branch's what the
  fourth left; the scales and shifts are the arguments reshaped to one row; the two halves of the weights are the two
  slices of the argument under a format change.
-/
import proofs.«160607_j85856396247988_1_alg».proof.Proof.Mix6Array
import Idealize.ShloMosaic.Lib.StableHlo.Run

set_option maxRecDepth 16384

noncomputable section

namespace Cert.KernelIdeal.Mix6In

open Cert.KernelIdeal Cert.KernelIdeal.Gen
open Idealize.ShloMosaic Idealize.ShloMosaic.TcCoe Idealize.SL.Sem Idealize.ShloMosaic.Tactic Idealize.ShloMosaic.StableHlo
open Idealize.ShloMosaic.ValueIdx

/-- A buffer no operation of a host stretch writes keeps its contents across the stretch. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg)

/-- The high branch's layer output is as the fourth region left it. -/
theorem hi_eq (c : Dev nD) : V10 m ρ c main_v23 = V6 m ρ c main_v23 :=
  calc W10 m ρ c (Proc.devRef .tc main_v23)
    _ = W9 m ρ c (Proc.devRef .tc main_v23) := by host_keeps hostOps6
    _ = W8 m ρ c (Proc.devRef .tc main_v23) := (W9_arr m ρ c 0).trans (((dat5 (V8 m ρ) c).arrAt_in 0 rfl _).trans (A_eq5 (V8 m ρ) c 0))
    _ = W7 m ρ c (Proc.devRef .tc main_v23) := by host_keeps hostOps5
    _ = W6 m ρ c (Proc.devRef .tc main_v23) := W7_of_ne m ρ c main_v23 (by decide)

/-- The low branch's layer output is as the third region left it. -/
theorem lo_eq (c : Dev nD) : V10 m ρ c main_v22 = V5 m ρ c main_v22 :=
  calc W10 m ρ c (Proc.devRef .tc main_v22)
    _ = W9 m ρ c (Proc.devRef .tc main_v22) := by host_keeps hostOps6
    _ = W8 m ρ c (Proc.devRef .tc main_v22) := W9_of_ne m ρ c main_v22 (by decide)
    _ = W7 m ρ c (Proc.devRef .tc main_v22) := by host_keeps hostOps5
    _ = W6 m ρ c (Proc.devRef .tc main_v22) := (W7_arr m ρ c 0).trans (((dat4 (V6 m ρ) c).arrAt_in 0 rfl _).trans (A_eq4 (V6 m ρ) c 0))
    _ = W5 m ρ c (Proc.devRef .tc main_v22) := W6_of_ne m ρ c main_v22 (by decide)

/-- The low branch's second mean and variance are what the third host stretch left. -/
theorem lm_eq (c : Dev nD) : V10 m ρ c main_v26 = V8 m ρ c main_v26 :=
  calc W10 m ρ c (Proc.devRef .tc main_v26)
    _ = W9 m ρ c (Proc.devRef .tc main_v26) := by host_keeps hostOps6
    _ = W8 m ρ c (Proc.devRef .tc main_v26) := W9_of_ne m ρ c main_v26 (by decide)
theorem lv_eq (c : Dev nD) : V10 m ρ c main_v30 = V8 m ρ c main_v30 :=
  calc W10 m ρ c (Proc.devRef .tc main_v30)
    _ = W9 m ρ c (Proc.devRef .tc main_v30) := by host_keeps hostOps6
    _ = W8 m ρ c (Proc.devRef .tc main_v30) := W9_of_ne m ρ c main_v30 (by decide)

/-- Argument 10 is as launched when the fourth host stretch begins: nothing before or after writes it. -/
theorem arg10_at9 (c : Dev nD) : W9 m ρ c (Proc.devRef .tc main_arg10) = m ((c : Thread nD τ).loc main_arg10) :=
  have h0 : W10 m ρ c (Proc.devRef .tc main_arg10) = W9 m ρ c (Proc.devRef .tc main_arg10) := by host_keeps hostOps6
  have h1 : W14 m ρ c (Proc.devRef .tc main_arg10) = W13 m ρ c (Proc.devRef .tc main_arg10) := by host_keeps hostOps7_2
  have h2 : W13 m ρ c (Proc.devRef .tc main_arg10) = W12 m ρ c (Proc.devRef .tc main_arg10) := by host_keeps hostOps7_1
  have h3 : W12 m ρ c (Proc.devRef .tc main_arg10) = W11 m ρ c (Proc.devRef .tc main_arg10) := by host_keeps hostOps7
  h0.symm.trans ((W11_of_ne m ρ c main_arg10 (by decide)).symm.trans (h3.symm.trans (h2.symm.trans (h1.symm.trans
    ((W15_of_ne m ρ c main_arg10 (by decide)).symm.trans (W15_main_arg10 m ρ c))))))

/-- Argument 11 is as launched when the fourth host stretch begins: nothing before or after writes it. -/
theorem arg11_at9 (c : Dev nD) : W9 m ρ c (Proc.devRef .tc main_arg11) = m ((c : Thread nD τ).loc main_arg11) :=
  have h0 : W10 m ρ c (Proc.devRef .tc main_arg11) = W9 m ρ c (Proc.devRef .tc main_arg11) := by host_keeps hostOps6
  have h1 : W14 m ρ c (Proc.devRef .tc main_arg11) = W13 m ρ c (Proc.devRef .tc main_arg11) := by host_keeps hostOps7_2
  have h2 : W13 m ρ c (Proc.devRef .tc main_arg11) = W12 m ρ c (Proc.devRef .tc main_arg11) := by host_keeps hostOps7_1
  have h3 : W12 m ρ c (Proc.devRef .tc main_arg11) = W11 m ρ c (Proc.devRef .tc main_arg11) := by host_keeps hostOps7
  h0.symm.trans ((W11_of_ne m ρ c main_arg11 (by decide)).symm.trans (h3.symm.trans (h2.symm.trans (h1.symm.trans
    ((W15_of_ne m ρ c main_arg11 (by decide)).symm.trans (W15_main_arg11 m ρ c))))))

/-- Argument 14 is as launched when the fourth host stretch begins: nothing before or after writes it. -/
theorem arg14_at9 (c : Dev nD) : W9 m ρ c (Proc.devRef .tc main_arg14) = m ((c : Thread nD τ).loc main_arg14) :=
  have h0 : W10 m ρ c (Proc.devRef .tc main_arg14) = W9 m ρ c (Proc.devRef .tc main_arg14) := by host_keeps hostOps6
  have h1 : W14 m ρ c (Proc.devRef .tc main_arg14) = W13 m ρ c (Proc.devRef .tc main_arg14) := by host_keeps hostOps7_2
  have h2 : W13 m ρ c (Proc.devRef .tc main_arg14) = W12 m ρ c (Proc.devRef .tc main_arg14) := by host_keeps hostOps7_1
  have h3 : W12 m ρ c (Proc.devRef .tc main_arg14) = W11 m ρ c (Proc.devRef .tc main_arg14) := by host_keeps hostOps7
  h0.symm.trans ((W11_of_ne m ρ c main_arg14 (by decide)).symm.trans (h3.symm.trans (h2.symm.trans (h1.symm.trans
    ((W15_of_ne m ρ c main_arg14 (by decide)).symm.trans (W15_main_arg14 m ρ c))))))

/-- Argument 15 is as launched when the fourth host stretch begins: nothing before or after writes it. -/
theorem arg15_at9 (c : Dev nD) : W9 m ρ c (Proc.devRef .tc main_arg15) = m ((c : Thread nD τ).loc main_arg15) :=
  have h0 : W10 m ρ c (Proc.devRef .tc main_arg15) = W9 m ρ c (Proc.devRef .tc main_arg15) := by host_keeps hostOps6
  have h1 : W14 m ρ c (Proc.devRef .tc main_arg15) = W13 m ρ c (Proc.devRef .tc main_arg15) := by host_keeps hostOps7_2
  have h2 : W13 m ρ c (Proc.devRef .tc main_arg15) = W12 m ρ c (Proc.devRef .tc main_arg15) := by host_keeps hostOps7_1
  have h3 : W12 m ρ c (Proc.devRef .tc main_arg15) = W11 m ρ c (Proc.devRef .tc main_arg15) := by host_keeps hostOps7
  h0.symm.trans ((W11_of_ne m ρ c main_arg15 (by decide)).symm.trans (h3.symm.trans (h2.symm.trans (h1.symm.trans
    ((W15_of_ne m ρ c main_arg15 (by decide)).symm.trans (W15_main_arg15 m ρ c))))))

/-- Argument 16 is as launched when the fourth host stretch begins: nothing before or after writes it. -/
theorem arg16_at9 (c : Dev nD) : W9 m ρ c (Proc.devRef .tc main_arg16) = m ((c : Thread nD τ).loc main_arg16) :=
  have h0 : W10 m ρ c (Proc.devRef .tc main_arg16) = W9 m ρ c (Proc.devRef .tc main_arg16) := by host_keeps hostOps6
  have h1 : W14 m ρ c (Proc.devRef .tc main_arg16) = W13 m ρ c (Proc.devRef .tc main_arg16) := by host_keeps hostOps7_2
  have h2 : W13 m ρ c (Proc.devRef .tc main_arg16) = W12 m ρ c (Proc.devRef .tc main_arg16) := by host_keeps hostOps7_1
  have h3 : W12 m ρ c (Proc.devRef .tc main_arg16) = W11 m ρ c (Proc.devRef .tc main_arg16) := by host_keeps hostOps7
  h0.symm.trans ((W11_of_ne m ρ c main_arg16 (by decide)).symm.trans (h3.symm.trans (h2.symm.trans (h1.symm.trans
    ((W15_of_ne m ρ c main_arg16 (by decide)).symm.trans (W15_main_arg16 m ρ c))))))

/-- The low branch's second scale: argument 10 as one row. -/
theorem lg_eq (c : Dev nD) : V10 m ρ c main_v38 = shapeCast S1x128 (m ((c : Thread nD τ).loc main_arg10)) shapeCasts_S128_S1x128 := by
  show StableHlo.after hostOps6 (W9 m ρ c) (Proc.devRef .tc main_v38) = _
  after_results
  rw [arg10_at9]
  rfl
/-- The low branch's second shift: argument 11 as one row. -/
theorem lb_eq (c : Dev nD) : V10 m ρ c main_v39 = shapeCast S1x128 (m ((c : Thread nD τ).loc main_arg11)) shapeCasts_S128_S1x128 := by
  show StableHlo.after hostOps6 (W9 m ρ c) (Proc.devRef .tc main_v39) = _
  after_results
  rw [arg11_at9]
  rfl
/-- The high branch's second scale: argument 14 as one row. -/
theorem hg_eq (c : Dev nD) : V10 m ρ c main_v40 = shapeCast S1x128 (m ((c : Thread nD τ).loc main_arg14)) shapeCasts_S128_S1x128 := by
  show StableHlo.after hostOps6 (W9 m ρ c) (Proc.devRef .tc main_v40) = _
  after_results
  rw [arg14_at9]
  rfl
/-- The high branch's second shift: argument 15 as one row. -/
theorem hb_eq (c : Dev nD) : V10 m ρ c main_v41 = shapeCast S1x128 (m ((c : Thread nD τ).loc main_arg15)) shapeCasts_S128_S1x128 := by
  show StableHlo.after hostOps6 (W9 m ρ c) (Proc.devRef .tc main_v41) = _
  after_results
  rw [arg15_at9]
  rfl

/-- The upper half of the convolution weights: rows 0 … 127 of argument 16 under the format change. -/
theorem wh_eq (c : Dev nD) :
    V10 m ρ c main_v43 = (extractStridedSlice S128x128 ![0, 0]
      (truncf .bf16 (m ((c : Thread nD τ).loc main_arg16) : FVec Ideal S256x128 .f32) bitsLt_bf16_f32 : FVec Ideal S256x128 .bf16)
      slices_S256x128_S128x128_0_0 : FVec Ideal S128x128 .bf16) := by
  show StableHlo.after hostOps6 (W9 m ρ c) (Proc.devRef .tc main_v43) = _
  after_results
  rw [arg16_at9]
  try rfl
/-- The lower half: rows 128 … 255. -/
theorem wl_eq (c : Dev nD) :
    V10 m ρ c main_v44 = (extractStridedSlice S128x128 ![128, 0]
      (truncf .bf16 (m ((c : Thread nD τ).loc main_arg16) : FVec Ideal S256x128 .f32) bitsLt_bf16_f32 : FVec Ideal S256x128 .bf16)
      slices_S256x128_S128x128_128_0 : FVec Ideal S128x128 .bf16) := by
  show StableHlo.after hostOps6 (W9 m ρ c) (Proc.devRef .tc main_v44) = _
  after_results
  rw [arg16_at9]
  try rfl

end Cert.KernelIdeal.Mix6In

end
-- ==== Proof.Lin2Array.lean ====
/-
  The low-dimensional branch's linear layer: the result array.

  Every point writes its [5000, 128] result block back, the ten blocks tile the [50000, 128] array, and block t's row r
  is computed from row 5000·t + r of the features, so the array ends holding the layer's row-by-row function.
-/
import proofs.«160607_j85856396247988_1_alg».proof.Proof.Lin2

set_option maxRecDepth 16384

noncomputable section

namespace Cert.KernelIdeal.Lin2

open Cert.KernelIdeal Cert.KernelIdeal.Gen
open Idealize.ShloMosaic Idealize.ShloMosaic.TcCoe Idealize.SL.Sem Idealize.ShloMosaic.Tactic
open Idealize.ShloMosaic.ValueIdx
open Idealize.ShloMosaic.Pipeline (Dat)

variable (V : (c : Dev nD) → (b : Ref sig .tc) → Buf (Elt Ideal) ((c : Thread nD τ).loc b))

/-- Window 1 never moves: its block is the whole array. -/
theorem full1 (c : Dev nD) (t : Fin cfg2.N) : (iblk2 V c 1 t : S1x64.Idx → EReal) = mu V c := by
  obtain ⟨-, -, -, -, e10, e11, e20, e21, e30, e31, e40, e41, e50, e51, e60, e61⟩ := idx_facts t
  funext y
  unfold iblk2
  rw [View.read_apply]
  show V c main_v2 _ = V c main_v2 _
  congr 1
  funext a
  apply Fin.ext
  match a with
  | ⟨0, _⟩ => show win2_1.index t 0 * 1 + 1 * (y 0).val = (y 0).val; rw [e10]; omega
  | ⟨1, _⟩ => show win2_1.index t 1 * 64 + 1 * (y 1).val = (y 1).val; rw [e11]; omega

/-- Window 2 never moves: its block is the whole array. -/
theorem full2 (c : Dev nD) (t : Fin cfg2.N) : (iblk2 V c 2 t : S1x64.Idx → EReal) = sg V c := by
  obtain ⟨-, -, -, -, e10, e11, e20, e21, e30, e31, e40, e41, e50, e51, e60, e61⟩ := idx_facts t
  funext y
  unfold iblk2
  rw [View.read_apply]
  show V c main_v6 _ = V c main_v6 _
  congr 1
  funext a
  apply Fin.ext
  match a with
  | ⟨0, _⟩ => show win2_2.index t 0 * 1 + 1 * (y 0).val = (y 0).val; rw [e20]; omega
  | ⟨1, _⟩ => show win2_2.index t 1 * 64 + 1 * (y 1).val = (y 1).val; rw [e21]; omega

/-- Window 3 never moves: its block is the whole array. -/
theorem full3 (c : Dev nD) (t : Fin cfg2.N) : (iblk2 V c 3 t : S1x64.Idx → EReal) = gm V c := by
  obtain ⟨-, -, -, -, e10, e11, e20, e21, e30, e31, e40, e41, e50, e51, e60, e61⟩ := idx_facts t
  funext y
  unfold iblk2
  rw [View.read_apply]
  show V c main_v14 _ = V c main_v14 _
  congr 1
  funext a
  apply Fin.ext
  match a with
  | ⟨0, _⟩ => show win2_3.index t 0 * 1 + 1 * (y 0).val = (y 0).val; rw [e30]; omega
  | ⟨1, _⟩ => show win2_3.index t 1 * 64 + 1 * (y 1).val = (y 1).val; rw [e31]; omega

/-- Window 4 never moves: its block is the whole array. -/
theorem full4 (c : Dev nD) (t : Fin cfg2.N) : (iblk2 V c 4 t : S1x64.Idx → EReal) = bt V c := by
  obtain ⟨-, -, -, -, e10, e11, e20, e21, e30, e31, e40, e41, e50, e51, e60, e61⟩ := idx_facts t
  funext y
  unfold iblk2
  rw [View.read_apply]
  show V c main_v15 _ = V c main_v15 _
  congr 1
  funext a
  apply Fin.ext
  match a with
  | ⟨0, _⟩ => show win2_4.index t 0 * 1 + 1 * (y 0).val = (y 0).val; rw [e40]; omega
  | ⟨1, _⟩ => show win2_4.index t 1 * 64 + 1 * (y 1).val = (y 1).val; rw [e41]; omega

/-- Window 5 never moves: its block is the whole array. -/
theorem full5 (c : Dev nD) (t : Fin cfg2.N) : (iblk2 V c 5 t : S64x128.Idx → EReal) = Wt V c := by
  obtain ⟨-, -, -, -, e10, e11, e20, e21, e30, e31, e40, e41, e50, e51, e60, e61⟩ := idx_facts t
  funext y
  unfold iblk2
  rw [View.read_apply]
  show V c main_v18 _ = V c main_v18 _
  congr 1
  funext a
  apply Fin.ext
  match a with
  | ⟨0, _⟩ => show win2_5.index t 0 * 64 + 1 * (y 0).val = (y 0).val; rw [e50]; omega
  | ⟨1, _⟩ => show win2_5.index t 1 * 128 + 1 * (y 1).val = (y 1).val; rw [e51]; omega

/-- Window 6 never moves: its block is the whole array. -/
theorem full6 (c : Dev nD) (t : Fin cfg2.N) : (iblk2 V c 6 t : S1x128.Idx → EReal) = lb V c := by
  obtain ⟨-, -, -, -, e10, e11, e20, e21, e30, e31, e40, e41, e50, e51, e60, e61⟩ := idx_facts t
  funext y
  unfold iblk2
  rw [View.read_apply]
  show V c main_v20 _ = V c main_v20 _
  congr 1
  funext a
  apply Fin.ext
  match a with
  | ⟨0, _⟩ => show win2_6.index t 0 * 1 + 1 * (y 0).val = (y 0).val; rw [e60]; omega
  | ⟨1, _⟩ => show win2_6.index t 1 * 128 + 1 * (y 1).val = (y 1).val; rw [e61]; omega

/-- Row `r` of feature block `t` is row 5000·t + r of the features. -/
theorem feat_row (c : Dev nD) (t : Fin cfg2.N) (r : Fin 5000) (k : Fin 64) (i : Fin 50000) (hi : i.val = 5000 * t.val + r.val) :
    (iblk2 V c 0 t : S5000x64.Idx → EReal) (ix2 r k) = X V c (ix2 i k) := by
  obtain ⟨e00, e01, -⟩ := idx_facts t
  unfold iblk2
  rw [View.read_apply]
  show V c main_arg1 _ = V c main_arg1 _
  congr 1
  funext a
  apply Fin.ext
  match a with
  | ⟨0, _⟩ => show win2_0.index t 0 * 5000 + 1 * r.val = i.val; rw [e00, hi]; omega
  | ⟨1, _⟩ => show win2_0.index t 1 * 64 + 1 * k.val = k.val; rw [e01]; omega

/-- WHAT POINT `t` WRITES BACK is block `t` of the layer's output array. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S5000x64) hz, View.ld_unit_zero (S := S1x64) hz, View.ld_unit_zero (S := S64x128) hz,
    View.ld_unit_zero (S := S1x128) hz]
  obtain ⟨-, -, e70, e71, -⟩ := idx_facts t
  funext y
  obtain ⟨r, n, rfl⟩ : ∃ (r : Fin 5000) (n : Fin 128), y = ix2 r n := ⟨y 0, y 1, eq_ix2 y⟩
  rw [View.read_apply]
  refine (pay_apply _ _ _ _ _ _ _ r n).trans ?_
  unfold G
  have h0 : ((((cfg2.win 7).blk t).view.emb (ix2 r n)) 0 : Fin 50000).val = 5000 * t.val + r.val := by
    show win2_7.index t 0 * 5000 + 1 * r.val = _; rw [e70]; omega
  have h1 : ((((cfg2.win 7).blk t).view.emb (ix2 r n)) 1 : Fin 128) = n := by
    apply Fin.ext; show win2_7.index t 1 * 128 + 1 * n.val = _; rw [e71]; omega
  rw [h1, full1 V c t, full2 V c t, full3 V c t, full4 V c t, full5 V c t, full6 V c t]
  exact congrArg (fun f => rowOut f (mu V c) (sg V c) (gm V c) (bt V c) (Wt V c) (lb V c) n)
    (funext fun k => feat_row V c t r k _ h0)

/-- An index of the array is in point `t`'s block iff each coordinate is in the block's range on its axis. -/
theorem mem_blk (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v22).slice (win2_7.rect t)).set ↔ _
  rw [View.set_slice_whole, Rect.mem_set_unit]
  exact Iff.rfl

/-- THE RESULT ARRAY of the region: the layer's output, row by row. -/
theorem final (c : Dev nD) : (dat2 V c).arrAt 7 cfg2.N = G V c :=
  (dat2 V c).arrAt_eq_of_cover 7 (G V c) (fun t _ => flushed_eq V c t) fun i => by
    have hN : cfg2.N = 10 := N_2
    have hi0 : (i 0).val < 50000 := (i 0).isLt
    have hi1 : (i 1).val < 128 := (i 1).isLt
    let t : Fin cfg2.N := ⟨(i 0).val / 5000, by omega⟩
    obtain ⟨-, -, e70, e71, -⟩ := idx_facts t
    refine ⟨t, flush2_7 t, ?_⟩
    rw [mem_blk]
    intro a
    match a with
    | ⟨0, _⟩ => show win2_7.index t 0 * 5000 ≤ (i 0).val ∧ (i 0).val < win2_7.index t 0 * 5000 + 5000
                rw [e70]; show (i 0).val / 5000 * 5000 ≤ (i 0).val ∧ (i 0).val < (i 0).val / 5000 * 5000 + 5000; omega
    | ⟨1, _⟩ => show win2_7.index t 1 * 128 ≤ (i 1).val ∧ (i 1).val < win2_7.index t 1 * 128 + 128
                rw [e71]; omega

end Cert.KernelIdeal.Lin2

end
-- ==== Proof.Lin3.lean ====
/-
  The high-dimensional branch's linear layer, as the fourth region computes it.

  The region walks the fifty [1000, 4096] row blocks of the flattened covariance features; the column means and variances, the
  normalization's scale and shift, the [4096, 128] weights and the bias are whole-array windows that never move.  At
  each point the body normalizes the block (subtract the mean, multiply by the reciprocal square root of the variance
  plus epsilon, scale, shift), multiplies it by the weights into a zero accumulator, adds the bias and clamps at zero,
  and stores the [1000, 128] result block, which is written back at every point.  Row r of block t is row 1000·t + r,
  and a row of the result depends only on the same row of the features, so the result array is one function of the
  arrays, row by row.
-/
import proofs.«160607_j85856396247988_1_alg».proof.Proof.Gen.KernelIdeal.Frame
import Idealize.ShloMosaic.Lib.Pipeline.Value
import Idealize.ShloMosaic.PureOps.Ideal.Laws
import Idealize.ShloMosaic.Lib.ValueIdx
import Idealize.ShloMosaic.Lib.ValueLayout

set_option maxRecDepth 16384

noncomputable section

namespace Cert.KernelIdeal.Lin3

open Cert.KernelIdeal Cert.KernelIdeal.Gen
open Idealize.ShloMosaic Idealize.ShloMosaic.TcCoe Idealize.SL.Sem Idealize.ShloMosaic.Tactic
open Idealize.ShloMosaic.ValueIdx
open Idealize.ShloMosaic.Pipeline (Dat)

/-- The normalization's epsilon, as both programs spell it. -/
abbrev eps : EReal := Ideal.ofBits .f32 0x3727C5AC#32

/-- The block's matrix product into a zero accumulator, at (a, b): the sum over the 4096 contracted coordinates. -/
theorem mm_apply (A : FVec Ideal S1000x4096 .bf16) (B : FVec Ideal S4096x128 .bf16) (a : Fin 1000) (b : Fin 128) :
    matmul dot_S1000x4096_S4096x128_S1000x128_1_0_0_1_n_n none A B (constant (F := Ideal) S1000x128 .f32 0x00000000#32) (ix2 a b)
      = ∑ k : Fin 4096, A (ix2 a k) * B (ix2 k b) := by
  show FloatOps.matmul dot_S1000x4096_S4096x128_S1000x128_1_0_0_1_n_n none A B _ (ix2 a b) = _
  rw [Ideal.matmul_constant_zero_apply, ← Equiv.sum_comp (contrEquiv1 dot_S1000x4096_S4096x128_S1000x128_1_0_0_1_n_n 4096 rfl rfl).symm]
  refine Finset.sum_congr rfl fun k _ => ?_
  have c2 := contrEquiv1_symm_val dot_S1000x4096_S4096x128_S1000x128_1_0_0_1_n_n 4096 rfl rfl k
  have l2 : (dot_S1000x4096_S4096x128_S1000x128_1_0_0_1_n_n).lhsIdx (ix2 a b) ((contrEquiv1 _ 4096 rfl rfl).symm k) = ix2 a k := by
    funext ax; apply Fin.ext
    match ax with
    | ⟨0, _⟩ => simp [DotDims.lhsIdx, dot_S1000x4096_S4096x128_S1000x128_1_0_0_1_n_n]; rfl
    | ⟨1, _⟩ => simp [DotDims.lhsIdx, dot_S1000x4096_S4096x128_S1000x128_1_0_0_1_n_n]; exact c2
  have r2 : (dot_S1000x4096_S4096x128_S1000x128_1_0_0_1_n_n).rhsIdx (ix2 a b) ((contrEquiv1 _ 4096 rfl rfl).symm k) = ix2 k b := by
    funext ax; apply Fin.ext
    match ax with
    | ⟨0, _⟩ => simp [DotDims.rhsIdx, dot_S1000x4096_S4096x128_S1000x128_1_0_0_1_n_n]; exact c2
    | ⟨1, _⟩ => simp [DotDims.rhsIdx, dot_S1000x4096_S4096x128_S1000x128_1_0_0_1_n_n]; rfl
  rw [l2, r2]

/-- One normalized entry: (x − mean) · rsqrt(variance + epsilon) · scale + shift. -/
def normed (x mu sg gm bt : EReal) : EReal := (x - mu) * Ideal.rsqrt (sg + eps) * gm + bt

/-- One entry of the layer's output from a row of features: the clamped affine image of the normalized row. -/
def rowOut (xrow : Fin 4096 → EReal) (mu sg gm bt : S1x4096.Idx → EReal) (Wt : S4096x128.Idx → EReal) (lb : S1x128.Idx → EReal)
    (n : Fin 128) : EReal :=
  max ((∑ k : Fin 4096, normed (xrow k) (mu (ix2 (0 : Fin 1) k)) (sg (ix2 (0 : Fin 1) k)) (gm (ix2 (0 : Fin 1) k)) (bt (ix2 (0 : Fin 1) k))
      * Wt (ix2 k n)) + lb (ix2 (0 : Fin 1) n)) 0

/-- The body's payload at (r, n). -/
theorem pay_apply (v0 : Vec Ideal S1000x4096 .f32) (v1 v5 v12 v16 : Vec Ideal S1x4096 .f32) (v21 : Vec Ideal S4096x128 .bf16)
    (v24 : Vec Ideal S1x128 .f32) (r : Fin 1000) (n : Fin 128) :
    k3_pay1 (F := Ideal) v0 v1 v5 v12 v16 v21 v24 (ix2 r n) = rowOut (fun k => v0 (ix2 r k)) v1 v5 v12 v16 v21 v24 n := by
  unfold k3_pay1
  try dsimp only
  simp only [shapeCast_self]
  refine (maximumf_apply _ _ _).trans ?_
  unfold rowOut
  refine congrArg₂ max ?_ Ideal.ofBits_zero_f32
  refine (addf_apply _ _ _).trans ?_
  refine congrArg₂ (· + ·) ?_ (broadcastTo_1b_ab_apply v24 _ r n)
  refine (mm_apply _ _ r n).trans ?_
  refine Finset.sum_congr rfl fun k _ => ?_
  refine congrArg (· * v21 (ix2 k n)) ?_
  unfold normed
  refine (addf_apply _ _ _).trans ?_
  refine congrArg₂ (· + ·) ?_ (broadcastTo_1b_ab_apply v16 _ r k)
  refine (mulf_apply _ _ _).trans ?_
  refine congrArg₂ (· * ·) ?_ (broadcastTo_1b_ab_apply v12 _ r k)
  refine (mulf_apply _ _ _).trans ?_
  refine congrArg₂ (· * ·) ?_ ?_
  · refine (subf_apply _ _ _).trans ?_
    exact congrArg (v0 (ix2 r k) - ·) (broadcastTo_1b_ab_apply v1 _ r k)
  · exact (broadcastTo_1b_ab_apply _ _ r k).trans rfl

section Array

variable (V : (c : Dev nD) → (b : Ref sig .tc) → Buf (Elt Ideal) ((c : Thread nD τ).loc b))

/-- The arrays as the region finds them. -/
abbrev X (c : Dev nD) : S50000x4096.Idx → EReal := V c main_arg2
abbrev mu (c : Dev nD) : S1x4096.Idx → EReal := V c main_v9
abbrev sg (c : Dev nD) : S1x4096.Idx → EReal := V c main_v13
abbrev gm (c : Dev nD) : S1x4096.Idx → EReal := V c main_v16
abbrev bt (c : Dev nD) : S1x4096.Idx → EReal := V c main_v17
abbrev Wt (c : Dev nD) : S4096x128.Idx → EReal := V c main_v19
abbrev lb (c : Dev nD) : S1x128.Idx → EReal := V c main_v21

/-- The layer's output array: row by row, the clamped affine image of the normalized row. -/
def G (c : Dev nD) : S50000x128.Idx → EReal := fun i =>
  rowOut (fun k => X V c (ix2 (i 0 : Fin 50000) k)) (mu V c) (sg V c) (gm V c) (bt V c) (Wt V c) (lb V c) (i 1 : Fin 128)

theorem hz : (![0, 0] : Fin 2 → Nat) = fun _ => 0 := funext fun a => by fin_cases a <;> rfl

/-- The printed index maps, decided over the grid: the feature and result windows walk the row blocks, the others stay. -/
theorem idx_facts : ∀ t : Fin cfg3.N, win3_0.index t (0 : Fin 2) = t.val ∧ win3_0.index t (1 : Fin 2) = 0
    ∧ win3_7.index t (0 : Fin 2) = t.val ∧ win3_7.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

end Array

end Cert.KernelIdeal.Lin3

end
-- ==== Proof.Lin3Array.lean ====
/-
  The high-dimensional branch's linear layer: the result array.

  Every point writes its [1000, 128] result block back, the fifty blocks tile the [50000, 128] array, and block t's row r
  is computed from row 1000·t + r of the features, so the array ends holding the layer's row-by-row function.
-/
import proofs.«160607_j85856396247988_1_alg».proof.Proof.Lin3

set_option maxRecDepth 16384

noncomputable section

namespace Cert.KernelIdeal.Lin3

open Cert.KernelIdeal Cert.KernelIdeal.Gen
open Idealize.ShloMosaic Idealize.ShloMosaic.TcCoe Idealize.SL.Sem Idealize.ShloMosaic.Tactic
open Idealize.ShloMosaic.ValueIdx
open Idealize.ShloMosaic.Pipeline (Dat)

variable (V : (c : Dev nD) → (b : Ref sig .tc) → Buf (Elt Ideal) ((c : Thread nD τ).loc b))

/-- Window 1 never moves: its block is the whole array. -/
theorem full1 (c : Dev nD) (t : Fin cfg3.N) : (iblk3 V c 1 t : S1x4096.Idx → EReal) = mu V c := by
  obtain ⟨-, -, -, -, e10, e11, e20, e21, e30, e31, e40, e41, e50, e51, e60, e61⟩ := idx_facts t
  funext y
  unfold iblk3
  rw [View.read_apply]
  show V c main_v9 _ = V c main_v9 _
  congr 1
  funext a
  apply Fin.ext
  match a with
  | ⟨0, _⟩ => show win3_1.index t 0 * 1 + 1 * (y 0).val = (y 0).val; rw [e10]; omega
  | ⟨1, _⟩ => show win3_1.index t 1 * 4096 + 1 * (y 1).val = (y 1).val; rw [e11]; omega

/-- Window 2 never moves: its block is the whole array. -/
theorem full2 (c : Dev nD) (t : Fin cfg3.N) : (iblk3 V c 2 t : S1x4096.Idx → EReal) = sg V c := by
  obtain ⟨-, -, -, -, e10, e11, e20, e21, e30, e31, e40, e41, e50, e51, e60, e61⟩ := idx_facts t
  funext y
  unfold iblk3
  rw [View.read_apply]
  show V c main_v13 _ = V c main_v13 _
  congr 1
  funext a
  apply Fin.ext
  match a with
  | ⟨0, _⟩ => show win3_2.index t 0 * 1 + 1 * (y 0).val = (y 0).val; rw [e20]; omega
  | ⟨1, _⟩ => show win3_2.index t 1 * 4096 + 1 * (y 1).val = (y 1).val; rw [e21]; omega

/-- Window 3 never moves: its block is the whole array. -/
theorem full3 (c : Dev nD) (t : Fin cfg3.N) : (iblk3 V c 3 t : S1x4096.Idx → EReal) = gm V c := by
  obtain ⟨-, -, -, -, e10, e11, e20, e21, e30, e31, e40, e41, e50, e51, e60, e61⟩ := idx_facts t
  funext y
  unfold iblk3
  rw [View.read_apply]
  show V c main_v16 _ = V c main_v16 _
  congr 1
  funext a
  apply Fin.ext
  match a with
  | ⟨0, _⟩ => show win3_3.index t 0 * 1 + 1 * (y 0).val = (y 0).val; rw [e30]; omega
  | ⟨1, _⟩ => show win3_3.index t 1 * 4096 + 1 * (y 1).val = (y 1).val; rw [e31]; omega

/-- Window 4 never moves: its block is the whole array. -/
theorem full4 (c : Dev nD) (t : Fin cfg3.N) : (iblk3 V c 4 t : S1x4096.Idx → EReal) = bt V c := by
  obtain ⟨-, -, -, -, e10, e11, e20, e21, e30, e31, e40, e41, e50, e51, e60, e61⟩ := idx_facts t
  funext y
  unfold iblk3
  rw [View.read_apply]
  show V c main_v17 _ = V c main_v17 _
  congr 1
  funext a
  apply Fin.ext
  match a with
  | ⟨0, _⟩ => show win3_4.index t 0 * 1 + 1 * (y 0).val = (y 0).val; rw [e40]; omega
  | ⟨1, _⟩ => show win3_4.index t 1 * 4096 + 1 * (y 1).val = (y 1).val; rw [e41]; omega

/-- Window 5 never moves: its block is the whole array. -/
theorem full5 (c : Dev nD) (t : Fin cfg3.N) : (iblk3 V c 5 t : S4096x128.Idx → EReal) = Wt V c := by
  obtain ⟨-, -, -, -, e10, e11, e20, e21, e30, e31, e40, e41, e50, e51, e60, e61⟩ := idx_facts t
  funext y
  unfold iblk3
  rw [View.read_apply]
  show V c main_v19 _ = V c main_v19 _
  congr 1
  funext a
  apply Fin.ext
  match a with
  | ⟨0, _⟩ => show win3_5.index t 0 * 4096 + 1 * (y 0).val = (y 0).val; rw [e50]; omega
  | ⟨1, _⟩ => show win3_5.index t 1 * 128 + 1 * (y 1).val = (y 1).val; rw [e51]; omega

/-- Window 6 never moves: its block is the whole array. -/
theorem full6 (c : Dev nD) (t : Fin cfg3.N) : (iblk3 V c 6 t : S1x128.Idx → EReal) = lb V c := by
  obtain ⟨-, -, -, -, e10, e11, e20, e21, e30, e31, e40, e41, e50, e51, e60, e61⟩ := idx_facts t
  funext y
  unfold iblk3
  rw [View.read_apply]
  show V c main_v21 _ = V c main_v21 _
  congr 1
  funext a
  apply Fin.ext
  match a with
  | ⟨0, _⟩ => show win3_6.index t 0 * 1 + 1 * (y 0).val = (y 0).val; rw [e60]; omega
  | ⟨1, _⟩ => show win3_6.index t 1 * 128 + 1 * (y 1).val = (y 1).val; rw [e61]; omega

/-- Row `r` of feature block `t` is row 1000·t + r of the features. -/
theorem feat_row (c : Dev nD) (t : Fin cfg3.N) (r : Fin 1000) (k : Fin 4096) (i : Fin 50000) (hi : i.val = 1000 * t.val + r.val) :
    (iblk3 V c 0 t : S1000x4096.Idx → EReal) (ix2 r k) = X V c (ix2 i k) := by
  obtain ⟨e00, e01, -⟩ := idx_facts t
  unfold iblk3
  rw [View.read_apply]
  show V c main_arg2 _ = V c main_arg2 _
  congr 1
  funext a
  apply Fin.ext
  match a with
  | ⟨0, _⟩ => show win3_0.index t 0 * 1000 + 1 * r.val = i.val; rw [e00, hi]; omega
  | ⟨1, _⟩ => show win3_0.index t 1 * 4096 + 1 * k.val = k.val; rw [e01]; omega

/-- WHAT POINT `t` WRITES BACK is block `t` of the layer's output array. -/
theorem flushed_eq (c : Dev nD) (t : Fin cfg3.N) :
    (dat3 V c).flushed 7 t = ((cfg3.win 7).blk t).view.read (Elt Ideal) (G V c) := by
  show (cfg3.win 7).cut (grid3.coords t) ((dat3 V c).after 7 t) = _
  rw [after3_7]
  unfold out3_7
  rw [View.canon_unit_zero hz]
  simp only [View.ld_unit_zero (S := S1000x4096) hz, View.ld_unit_zero (S := S1x4096) hz, View.ld_unit_zero (S := S4096x128) hz,
    View.ld_unit_zero (S := S1x128) hz]
  obtain ⟨-, -, e70, e71, -⟩ := idx_facts t
  funext y
  obtain ⟨r, n, rfl⟩ : ∃ (r : Fin 1000) (n : Fin 128), y = ix2 r n := ⟨y 0, y 1, eq_ix2 y⟩
  rw [View.read_apply]
  refine (pay_apply _ _ _ _ _ _ _ r n).trans ?_
  unfold G
  have h0 : ((((cfg3.win 7).blk t).view.emb (ix2 r n)) 0 : Fin 50000).val = 1000 * t.val + r.val := by
    show win3_7.index t 0 * 1000 + 1 * r.val = _; rw [e70]; omega
  have h1 : ((((cfg3.win 7).blk t).view.emb (ix2 r n)) 1 : Fin 128) = n := by
    apply Fin.ext; show win3_7.index t 1 * 128 + 1 * n.val = _; rw [e71]; omega
  rw [h1, full1 V c t, full2 V c t, full3 V c t, full4 V c t, full5 V c t, full6 V c t]
  exact congrArg (fun f => rowOut f (mu V c) (sg V c) (gm V c) (bt V c) (Wt V c) (lb V c) n)
    (funext fun k => feat_row V c t r k _ h0)

/-- An index of the array is in point `t`'s block iff each coordinate is in the block's range on its axis. -/
theorem mem_blk (t : Fin cfg3.N) (i : S50000x128.Idx) :
    i ∈ ((cfg3.win 7).blk t).view.set ↔ ∀ a : Fin 2, win3_7.index t a * S1000x128.size a ≤ (i a).val ∧ (i a).val < win3_7.index t a * S1000x128.size a + S1000x128.size a := by
  show i ∈ ((View.whole main_v23).slice (win3_7.rect t)).set ↔ _
  rw [View.set_slice_whole, Rect.mem_set_unit]
  exact Iff.rfl

/-- THE RESULT ARRAY of the region: the layer's output, row by row. -/
theorem final (c : Dev nD) : (dat3 V c).arrAt 7 cfg3.N = G V c :=
  (dat3 V c).arrAt_eq_of_cover 7 (G V c) (fun t _ => flushed_eq V c t) fun i => by
    have hN : cfg3.N = 50 := N_3
    have hi0 : (i 0).val < 50000 := (i 0).isLt
    have hi1 : (i 1).val < 128 := (i 1).isLt
    let t : Fin cfg3.N := ⟨(i 0).val / 1000, by omega⟩
    obtain ⟨-, -, e70, e71, -⟩ := idx_facts t
    refine ⟨t, flush3_7 t, ?_⟩
    rw [mem_blk]
    intro a
    match a with
    | ⟨0, _⟩ => show win3_7.index t 0 * 1000 ≤ (i 0).val ∧ (i 0).val < win3_7.index t 0 * 1000 + 1000
                rw [e70]; show (i 0).val / 1000 * 1000 ≤ (i 0).val ∧ (i 0).val < (i 0).val / 1000 * 1000 + 1000; omega
    | ⟨1, _⟩ => show win3_7.index t 1 * 128 ≤ (i 1).val ∧ (i 1).val < win3_7.index t 1 * 128 + 128
                rw [e71]; omega

end Cert.KernelIdeal.Lin3

end
-- ==== Proof.KernelChain.lean ====
/-
  The kernel's intermediate arrays at the boundaries, as the regions' row-by-row functions.

  Each pipelined region's result array, read at the boundary after the region, is the region's whole-array function
  of what the region found when it was entered.
-/
import proofs.«160607_j85856396247988_1_alg».proof.Proof.Lin2Array
import proofs.«160607_j85856396247988_1_alg».proof.Proof.Lin3Array
import proofs.«160607_j85856396247988_1_alg».proof.Proof.Mix6Array
import proofs.«160607_j85856396247988_1_alg».proof.Proof.FinalIn

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the third region: the low branch's linear-layer output. -/
theorem low_layer (c : Dev nD) : V5 m ρ c main_v22 = Lin2.G (V4 m ρ) c := (hF2 m ρ c 7).symm.trans (Lin2.final (V4 m ρ) c)
/-- After the fourth region: the high branch's linear-layer output. -/
theorem high_layer (c : Dev nD) : V6 m ρ c main_v23 = Lin3.G (V5 m ρ) c := (hF3 m ρ c 7).symm.trans (Lin3.final (V5 m ρ) c)
/-- After the seventh region: the product of the two normalized branches with the convolution weights. -/
theorem product (c : Dev nD) : V11 m ρ c main_v45 = Mix6.G (V10 m ρ) c := (hF6 m ρ c 12).symm.trans (Mix6.final (V10 m ρ) c)
/-- After the last region: the program's result. -/
theorem result (c : Dev nD) : W15 m ρ c (Proc.devRef .tc main_v94) = Fin7.G (V14 m ρ) c := FinalIn.result_eq m ρ c

end Cert.KernelIdeal.Chain

end
-- ==== Proof.Stats0.lean ====
/-
  The first statistics region, read as values.

  The region walks the ten row blocks of the [50000, 64] array of low-dimensional features.  Its two outputs are
  single [1, 64] blocks whose index never moves, so each stays in its staging buffer across the grid and is
  written back once, after the last point.  At the first point the body stores a zero row, reads it back, and adds
  the block's column sums (for the second output: the column sums of the squared block); at every later point it
  adds the block's column sums to what the point before left.  So after point n the two buffers hold the running
  sums of the column sums (of the squares) of blocks 0 … n, and the two result arrays end holding the running sums
  after the last point.
-/
import proofs.«160607_j85856396247988_1_alg».proof.Proof.Gen.KernelIdeal.Frame
import Idealize.ShloMosaic.Lib.Pipeline.Value
import Idealize.ShloMosaic.Lib.Tactic

set_option maxRecDepth 16384

noncomputable section

namespace Cert.KernelIdeal.Stats0

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]

theorem hz : (![0, 0] : Fin 2 → Nat) = fun _ => 0 := funext fun a => by fin_cases a <;> rfl

/-- A later point leaves, in the first output's buffer holding `xo1`, `xo1` plus the block's column sums. -/
theorem laterSum (c : Dev nD) (i : grid0.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond0_0 i) (x : Vec F S5000x64 .f32) (xo1 xo2 : Vec F S1x64 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  rw [View.canon_unit_zero hz]
  simp only [View.readAt_eq_ld, h1.read_unread, h2.read_unread, h3.read_unread, View.ld_unit_zero (S := S5000x64) hz,
    View.ld_unit_zero (S := S1x64) hz]

/-- A later point leaves, in the second output's buffer holding `xo2`, `xo2` plus the column sums of the squared block. -/
theorem laterSq (c : Dev nD) (i : grid0.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond0_0 i) (x : Vec F S5000x64 .f32) (xo1 xo2 : Vec F S1x64 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  rw [View.canon_unit_zero hz]
  simp only [View.readAt_eq_ld, h1.read_unread, h2.read_unread, h3.read_unread, View.ld_unit_zero (S := S5000x64) hz,
    View.ld_unit_zero (S := S1x64) hz]

/-- The first point stores the zero row, reads it back, and leaves it plus the block's column sums. -/
theorem firstSum (c : Dev nD) (i : grid0.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond0_0 i) (x : Vec F S5000x64 .f32) :
    out0_A_1 c i a1 h1 a2 h2 a3 h3 hc x = k0_pay3 x k0_pay1 := by
  unfold out0_A_1
  rw [View.read_writes_eq_canon _ _ _ (cover0_A_1 c i a1 h1 a2 h2 a3 h3 hc x)]
  unfold kernelRun0_A
  dsimp only
  sl_unfold_words
  rw [View.canon_cons_unit_zero (S := S1x64) hz, View.readCov_unit_zero (S := S1x64) _ hz]
  simp only [View.readAt_eq_ld, h1.read_unread, View.ld_unit_zero (S := S5000x64) hz, View.ld_unit_zero (S := S1x64) hz]

/-- The first point leaves, in the second output's buffer, the zero row plus the column sums of the squared block. -/
theorem firstSq (c : Dev nD) (i : grid0.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond0_0 i) (x : Vec F S5000x64 .f32) :
    out0_A_2 c i a1 h1 a2 h2 a3 h3 hc x = k0_pay4 x k0_pay2 := by
  unfold out0_A_2
  rw [View.read_writes_eq_canon _ _ _ (cover0_A_2 c i a1 h1 a2 h2 a3 h3 hc x)]
  unfold kernelRun0_A
  dsimp only
  sl_unfold_words
  rw [View.canon_cons_unit_zero (S := S1x64) hz, View.readCov_unit_zero (S := S1x64) _ hz]
  simp only [View.readAt_eq_ld, h1.read_unread, View.ld_unit_zero (S := S5000x64) hz, View.ld_unit_zero (S := S1x64) hz]

section Running

variable (V : (c : Dev nD) → (b : Ref sig .tc) → Buf (Elt F) ((c : Thread nD τ).loc b))

/-- The running pair after point `n`: (sum of the blocks' column sums, sum of the squared blocks' column sums). -/
def running (c : Dev nD) : (n : ℕ) → n < cfg0.N → Vec F S1x64 .f32 × Vec F S1x64 .f32
  | 0, h => (k0_pay3 (iblk0 V c 0 ⟨0, h⟩) k0_pay1, k0_pay4 (iblk0 V c 0 ⟨0, h⟩) k0_pay2)
  | n + 1, h => (k0_pay3 (iblk0 V c 0 ⟨n + 1, h⟩) (running c n (Nat.lt_of_succ_lt h)).1,
      k0_pay4 (iblk0 V c 0 ⟨n + 1, h⟩) (running c n (Nat.lt_of_succ_lt h)).2)

/-- What the two staging buffers hold after point `n` is the running pair: by induction on the point. -/
theorem outsAt_eq (c : Dev nD) : ∀ (n : ℕ) (h : n < cfg0.N), outsAt0 V c n h = running V c n h
  | 0, h => by
    rw [outsAt0_A V c ⟨0, h⟩ rfl, firstSum, firstSq]
    rfl
  | n + 1, h => by
    have hN : cfg0.N = 10 := N_0
    have hB : ¬(⟨n + 1, h⟩ : Fin cfg0.N).val % 10 = 0 := by dsimp only; omega
    rw [outsAt0_B V c ⟨n + 1, h⟩ hB, laterSum, laterSq]
    show (k0_pay3 _ (outsAt0 V c n _).1, k0_pay4 _ (outsAt0 V c n _).2) = _
    rw [outsAt_eq c n]
    rfl

end Running

end Cert.KernelIdeal.Stats0

end
-- ==== Proof.Stats0Final.lean ====
/-
  The first statistics region: its two result arrays.

  Each output of the region is one [1, 64] block, written back once, after the last of the ten points.  That block is
  the whole array, so each result array ends holding what its staging buffer held after the last point: the running
  sum of the blocks' column sums, and the running sum of the squared blocks' column sums.
-/
import proofs.«160607_j85856396247988_1_alg».proof.Proof.Stats0

set_option maxRecDepth 16384

noncomputable section

namespace Cert.KernelIdeal.Stats0

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]
variable (V : (c : Dev nD) → (b : Ref sig .tc) → Buf (Elt F) ((c : Thread nD τ).loc b))

theorem lt9 : 9 < cfg0.N := by rw [show cfg0.N = 10 from N_0]; decide

/-- The last grid point. -/
abbrev last : Fin cfg0.N := ⟨9, lt9⟩

/-- The running sum of column sums after the last point, as contents of the first result array. -/
abbrev res1 (c : Dev nD) : Buf (Elt F) ((c : Thread nD τ).loc main_v0_0) := (running V c 9 lt9).1
/-- The running sum of the squares' column sums after the last point, as contents of the second result array. -/
abbrev res2 (c : Dev nD) : Buf (Elt F) ((c : Thread nD τ).loc main_v0_1) := (running V c 9 lt9).2

/-- The one write-back of output 1, after the last point, writes the running sum: block (0, 0) of the [1, 64] array is the array. -/
theorem flushed1 (c : Dev nD) (t : Fin cfg0.N) (hf : (cfg0.win 1).flush t = true) :
    (dat0 V c).flushed 1 t = ((cfg0.win 1).blk t).view.read (Elt F) (res1 V c) := by
  have hN : cfg0.N = 10 := N_0
  have h9 : t.val = 9 := by have := (flush0_1 t).mp hf; have := t.isLt; omega
  obtain rfl : t = last := Fin.ext h9
  show (cfg0.win 1).cut (grid0.coords last) ((dat0 V c).after 1 last) = _
  rw [after0_1, Stats0.outsAt_eq]
  have hz' : (fun a => win0_1.index last a * main_v0_0.ty.shape.size a) = fun _ => 0 := funext fun a => by fin_cases a <;> decide
  exact (Memref.read_access_unit_zero (Elt F) main_v0_0 hz' (fun a => by rw [congrFun hz' a]; simp) (res1 V c)).symm

/-- So result array 1 ends holding the running sum after the last point. -/
theorem final1 (c : Dev nD) : (dat0 V c).arrAt 1 cfg0.N = res1 V c :=
  (dat0 V c).arrAt_eq_of_cover 1 (res1 V c) (flushed1 V c) fun i =>
    ⟨last, (flush0_1 last).mpr rfl, by
      show i ∈ ((View.whole main_v0_0).slice (win0_1.rect last)).set
      rw [View.set_slice_whole, Rect.mem_set_unit]
      intro a
      have h0 : (i 0 : Nat) < 1 := (i 0).isLt
      have h1 : (i 1 : Nat) < 64 := (i 1).isLt
      match a with
      | ⟨0, _⟩ => show win0_1.index last 0 * win0_1.size 0 ≤ (i 0 : Nat) ∧ (i 0 : Nat) < win0_1.index last 0 * win0_1.size 0 + win0_1.xsize (grid0.coords last) 0
                  rw [show win0_1.index last 0 * win0_1.size 0 = 0 from by decide +kernel, show win0_1.xsize (grid0.coords last) 0 = 1 from by decide +kernel]; omega
      | ⟨1, _⟩ => show win0_1.index last 1 * win0_1.size 1 ≤ (i 1 : Nat) ∧ (i 1 : Nat) < win0_1.index last 1 * win0_1.size 1 + win0_1.xsize (grid0.coords last) 1
                  rw [show win0_1.index last 1 * win0_1.size 1 = 0 from by decide +kernel, show win0_1.xsize (grid0.coords last) 1 = 64 from by decide +kernel]; omega⟩

/-- The one write-back of output 2, after the last point, writes the running sum of squares: block (0, 0) of the [1, 64] array is the array. -/
theorem flushed2 (c : Dev nD) (t : Fin cfg0.N) (hf : (cfg0.win 2).flush t = true) :
    (dat0 V c).flushed 2 t = ((cfg0.win 2).blk t).view.read (Elt F) (res2 V c) := by
  have hN : cfg0.N = 10 := N_0
  have h9 : t.val = 9 := by have := (flush0_2 t).mp hf; have := t.isLt; omega
  obtain rfl : t = last := Fin.ext h9
  show (cfg0.win 2).cut (grid0.coords last) ((dat0 V c).after 2 last) = _
  rw [after0_2, Stats0.outsAt_eq]
  have hz' : (fun a => win0_2.index last a * main_v0_1.ty.shape.size a) = fun _ => 0 := funext fun a => by fin_cases a <;> decide
  exact (Memref.read_access_unit_zero (Elt F) main_v0_1 hz' (fun a => by rw [congrFun hz' a]; simp) (res2 V c)).symm

/-- So result array 2 ends holding the running sum of squares after the last point. -/
theorem final2 (c : Dev nD) : (dat0 V c).arrAt 2 cfg0.N = res2 V c :=
  (dat0 V c).arrAt_eq_of_cover 2 (res2 V c) (flushed2 V c) fun i =>
    ⟨last, (flush0_2 last).mpr rfl, by
      show i ∈ ((View.whole main_v0_1).slice (win0_2.rect last)).set
      rw [View.set_slice_whole, Rect.mem_set_unit]
      intro a
      have h0 : (i 0 : Nat) < 1 := (i 0).isLt
      have h1 : (i 1 : Nat) < 64 := (i 1).isLt
      match a with
      | ⟨0, _⟩ => show win0_2.index last 0 * win0_2.size 0 ≤ (i 0 : Nat) ∧ (i 0 : Nat) < win0_2.index last 0 * win0_2.size 0 + win0_2.xsize (grid0.coords last) 0
                  rw [show win0_2.index last 0 * win0_2.size 0 = 0 from by decide +kernel, show win0_2.xsize (grid0.coords last) 0 = 1 from by decide +kernel]; omega
      | ⟨1, _⟩ => show win0_2.index last 1 * win0_2.size 1 ≤ (i 1 : Nat) ∧ (i 1 : Nat) < win0_2.index last 1 * win0_2.size 1 + win0_2.xsize (grid0.coords last) 1
                  rw [show win0_2.index last 1 * win0_2.size 1 = 0 from by decide +kernel, show win0_2.xsize (grid0.coords last) 1 = 64 from by decide +kernel]; omega⟩

end Cert.KernelIdeal.Stats0

end
-- ==== Proof.Stats0Ideal.lean ====
/-
  The first statistics region over the extended reals: its result arrays are the column sums.

  Over the extended reals a lane sum over the rows of a block is the plain sum of the block's entries in a column, and
  the body adds it to what the buffer held.  Row r of block t is row 5000·t + r of the array, so after point n the
  first buffer holds, in column j, the sum of the array's entries in rows 0 … 5000·(n+1) − 1 of that column, and the
  second the sum of their squares; after the last point that is the whole column.  Addition on the extended reals is
  associative and commutative with neutral element zero, so the order in which the blocks were added does not matter,
  and nothing here needs the entries to be finite.
-/
import proofs.«160607_j85856396247988_1_alg».proof.Proof.Stats0Final
import Idealize.ShloMosaic.PureOps.Ideal.Laws
import Idealize.ShloMosaic.Lib.ValueIdx

set_option maxRecDepth 16384

noncomputable section

namespace Cert.KernelIdeal.Stats0

open Cert.KernelIdeal Cert.KernelIdeal.Gen
open Idealize.ShloMosaic Idealize.ShloMosaic.TcCoe Idealize.SL.Sem Idealize.ShloMosaic.Tactic
open Idealize.ShloMosaic.ValueIdx

/-- A lane sum over the 5000 rows of a block, in column `j`, is the sum of the column's entries. -/
theorem rowsum_apply (x : FVec Ideal S5000x64 .f32) (hφ : FKind.Formats .f32)
    (hacc : (0x00000000#32 : BitVec 32) = FKind.add.neutral .f32 hφ) (j : Fin 64) :
    multiReduction .add [0] S64 x 0x00000000#32 reduces_S5000x64_S64 hφ hacc (ix1 j) = ∑ r : Fin 5000, x (ix2 r j) := by
  refine (Ideal.multiReduction_add_single x 0x00000000#32 reduces_S5000x64_S64 hφ hacc (ix1 j)).trans ?_
  refine Finset.sum_congr rfl fun r _ => congrArg x (funext fun a => ?_)
  match a with
  | ⟨0, _⟩ => rfl
  | ⟨1, _⟩ => rfl

theorem tail_ix (j : Fin 64) : (fun a : Fin 1 => (ix2 (0 : Fin 1) j) a.succ) = ix1 j :=
  funext fun a => match a with | ⟨0, _⟩ => rfl

/-- The sum payload in column `j`: what the buffer held plus the block's column sum. -/
theorem sumPay_apply (x : Vec Ideal S5000x64 .f32) (acc : Vec Ideal S1x64 .f32) (j : Fin 64) :
    k0_pay3 (F := Ideal) x acc (ix2 (0 : Fin 1) j) = acc (ix2 0 j) + ∑ r : Fin 5000, x (ix2 r j) := by
  unfold k0_pay3
  dsimp only
  refine (addf_apply _ _ _).trans ?_
  refine congrArg₂ (· + ·) (congrFun (shapeCast_self acc _) _) ?_
  refine (shapeCast_addUnit_apply ![64] _ _ (ix2 (0 : Fin 1) j)).trans ?_
  rw [tail_ix]
  exact rowsum_apply x _ _ j

/-- The square payload in column `j`: what the buffer held plus the sum of the squares of the block's column. -/
theorem sqPay_apply (x : Vec Ideal S5000x64 .f32) (acc : Vec Ideal S1x64 .f32) (j : Fin 64) :
    k0_pay4 (F := Ideal) x acc (ix2 (0 : Fin 1) j) = acc (ix2 0 j) + ∑ r : Fin 5000, x (ix2 r j) * x (ix2 r j) := by
  unfold k0_pay4
  dsimp only
  refine (addf_apply _ _ _).trans ?_
  refine congrArg₂ (· + ·) (congrFun (shapeCast_self acc _) _) ?_
  refine (shapeCast_addUnit_apply ![64] _ _ (ix2 (0 : Fin 1) j)).trans ?_
  rw [tail_ix]
  refine (rowsum_apply (mulf x x) _ _ j).trans ?_
  exact Finset.sum_congr rfl fun r _ => mulf_apply x x (ix2 r j)

/-- The zero row the first point stores. -/
theorem zeroRow1 (y : S1x64.Idx) : k0_pay1 (F := Ideal) y = 0 := by
  unfold k0_pay1
  exact Ideal.ofBits_zero_f32
theorem zeroRow2 (y : S1x64.Idx) : k0_pay2 (F := Ideal) y = 0 := by
  unfold k0_pay2
  exact Ideal.ofBits_zero_f32

section Sums

variable (V : (c : Dev nD) → (b : Ref sig .tc) → Buf (Elt Ideal) ((c : Thread nD τ).loc b))

/-- The feature array as the region finds it. -/
abbrev feat (c : Dev nD) : S50000x64.Idx → EReal := V c main_arg1

/-- Column `j` of the feature array by row number (zero past the last row). -/
def entry (c : Dev nD) (j : Fin 64) (i : ℕ) : EReal := if h : i < 50000 then feat V c (ix2 ⟨i, h⟩ j) else 0

/-- Block `t` of the feature array, as a [5000, 64] vector. -/
abbrev blk (c : Dev nD) (t : Fin cfg0.N) : Vec Ideal S5000x64 .f32 := iblk0 V c 0 t

theorem idx_facts : ∀ t : Fin cfg0.N, win0_0.index t (0 : Fin 2) = t.val ∧ win0_0.index t (1 : Fin 2) = 0 :=
  (by decide +kernel : ∀ t : Fin grid0.N, _)

/-- Row `r` of block `t` is row 5000·t + r of the array. -/
theorem iblk_apply (c : Dev nD) (t : Fin cfg0.N) (r : Fin 5000) (j : Fin 64) :
    blk V c t (ix2 r j) = entry V c j (5000 * t.val + r.val) := by
  have hN : cfg0.N = 10 := N_0
  have ht := t.isLt
  have hr := r.isLt
  have hlt : 5000 * t.val + r.val < 50000 := by omega
  have hi := idx_facts t
  unfold entry
  rw [dif_pos hlt]
  unfold blk iblk0
  rw [View.read_apply]
  show V c main_arg1 _ = V c main_arg1 _
  congr 1
  funext a
  apply Fin.ext
  match a with
  | ⟨0, _⟩ => show win0_0.index t 0 * 5000 + 1 * r.val = 5000 * t.val + r.val; rw [hi.1]; omega
  | ⟨1, _⟩ => show win0_0.index t 1 * 64 + 1 * j.val = j.val; rw [hi.2]; omega

/-- A block's column sum is the sum of 5000 consecutive entries of the array's column. -/
theorem blockSum (c : Dev nD) (t : Fin cfg0.N) (j : Fin 64) :
    ∑ r : Fin 5000, blk V c t (ix2 r j) = ∑ r ∈ Finset.range 5000, entry V c j (5000 * t.val + r) := by
  rw [Finset.sum_range]
  exact Finset.sum_congr rfl fun r _ => iblk_apply V c t r j

theorem blockSq (c : Dev nD) (t : Fin cfg0.N) (j : Fin 64) :
    ∑ r : Fin 5000, blk V c t (ix2 r j) * blk V c t (ix2 r j)
      = ∑ r ∈ Finset.range 5000, entry V c j (5000 * t.val + r) * entry V c j (5000 * t.val + r) := by
  rw [Finset.sum_range]
  exact Finset.sum_congr rfl fun r _ => by rw [iblk_apply V c t r j]

/-- After point `n` the first buffer holds, in column `j`, the sum of the first 5000·(n+1) entries of the column. -/
theorem running_sum (c : Dev nD) : ∀ (n : ℕ) (h : n < cfg0.N) (j : Fin 64),
    (running V c n h).1 (ix2 (0 : Fin 1) j) = ∑ i ∈ Finset.range (5000 * (n + 1)), entry V c j i
  | 0, h, j => by
    show k0_pay3 (F := Ideal) (blk V c ⟨0, h⟩) (k0_pay1 (F := Ideal)) (ix2 (0 : Fin 1) j) = _
    rw [sumPay_apply, zeroRow1, zero_add, blockSum]
    simp only [Nat.mul_zero, Nat.zero_add, Nat.mul_one]
  | n + 1, h, j => by
    show k0_pay3 (F := Ideal) (blk V c ⟨n + 1, h⟩) (running V c n (Nat.lt_of_succ_lt h)).1 (ix2 (0 : Fin 1) j) = _
    rw [sumPay_apply, running_sum c n, blockSum, show 5000 * (n + 1 + 1) = 5000 * (n + 1) + 5000 from by ring, Finset.sum_range_add]

/-- After point `n` the second buffer holds, in column `j`, the sum of the squares of those entries. -/
theorem running_sq (c : Dev nD) : ∀ (n : ℕ) (h : n < cfg0.N) (j : Fin 64),
    (running V c n h).2 (ix2 (0 : Fin 1) j) = ∑ i ∈ Finset.range (5000 * (n + 1)), entry V c j i * entry V c j i
  | 0, h, j => by
    show k0_pay4 (F := Ideal) (blk V c ⟨0, h⟩) (k0_pay2 (F := Ideal)) (ix2 (0 : Fin 1) j) = _
    rw [sqPay_apply, zeroRow2, zero_add, blockSq]
    simp only [Nat.mul_zero, Nat.zero_add, Nat.mul_one]
  | n + 1, h, j => by
    show k0_pay4 (F := Ideal) (blk V c ⟨n + 1, h⟩) (running V c n (Nat.lt_of_succ_lt h)).2 (ix2 (0 : Fin 1) j) = _
    rw [sqPay_apply, running_sq c n, blockSq, show 5000 * (n + 1 + 1) = 5000 * (n + 1) + 5000 from by ring, Finset.sum_range_add]

theorem sum_entry (c : Dev nD) (j : Fin 64) (g : EReal → EReal) (hg : g 0 = 0) :
    ∑ i ∈ Finset.range 50000, g (entry V c j i) = ∑ i : Fin 50000, g (feat V c (ix2 i j)) := by
  rw [Finset.sum_range]
  exact Finset.sum_congr rfl fun i _ => by unfold entry; rw [dif_pos i.isLt]

/-- THE FIRST RESULT ARRAY: in column `j`, the sum of the feature array's column over all 50000 rows. -/
theorem colSum (c : Dev nD) (j : Fin 64) :
    (dat0 V c).arrAt 1 cfg0.N (ix2 (0 : Fin 1) j) = ∑ i : Fin 50000, feat V c (ix2 i j) := by
  rw [final1 V c]
  show (running V c 9 lt9).1 (ix2 (0 : Fin 1) j) = _
  rw [running_sum V c 9 lt9 j]
  exact sum_entry V c j id rfl

/-- THE SECOND RESULT ARRAY: in column `j`, the sum of the squares of the feature array's column. -/
theorem colSq (c : Dev nD) (j : Fin 64) :
    (dat0 V c).arrAt 2 cfg0.N (ix2 (0 : Fin 1) j) = ∑ i : Fin 50000, feat V c (ix2 i j) * feat V c (ix2 i j) := by
  rw [final2 V c]
  show (running V c 9 lt9).2 (ix2 (0 : Fin 1) j) = _
  rw [running_sq V c 9 lt9 j]
  exact sum_entry V c j (fun x => x * x) (by simp)

end Sums

end Cert.KernelIdeal.Stats0

end
-- ==== Proof.LowStats.lean ====
/-
  The low-dimensional branch's batch statistics, as the kernel computes them.

  After the first statistics region the host divides the column sums and the column sums of squares by the number of
  rows, and subtracts the square of the first quotient from the second: the mean of each column, and the mean of its
  squares minus the squared mean.
-/
import proofs.«160607_j85856396247988_1_alg».proof.Proof.Stats0Ideal
import Idealize.ShloMosaic.Lib.StableHlo.Run
import Idealize.ShloMosaic.Lib.IdealHost

set_option maxRecDepth 16384

noncomputable section

namespace Cert.KernelIdeal.LowStats

open Cert.KernelIdeal Cert.KernelIdeal.Gen
open Idealize.ShloMosaic Idealize.ShloMosaic.TcCoe Idealize.SL.Sem Idealize.ShloMosaic.Tactic Idealize.ShloMosaic.StableHlo
open Idealize.ShloMosaic.ValueIdx

variable (m : (ℓ : Loc nD τ sig) → Buf (Elt Ideal) ℓ) (ρ : Dev nD → PrngReg)

/-- The low-dimensional features as launched. -/
abbrev x (c : Dev nD) : S50000x64.Idx → EReal := m ((c : Thread nD τ).loc main_arg1)

/-- The number of rows, as the programs spell it. -/
abbrev rows : EReal := Ideal.ofBits .f32 0x47435000#32

/-- The row count broadcast along a [1, 64] row. -/
abbrev rowsRow : FVec Ideal S1x64 .f32 := broadcastInDim S1x64 ![] bcast_S_S1x64 (constant (F := Ideal) S_ .f32 0x47435000#32)

/-- After the first host stretch the mean buffer holds the first result array divided by the row count. -/
theorem mean_buf (c : Dev nD) : V2 m ρ c main_v2 = Host.divf (F := Ideal) (V1 m ρ c main_v0_0) rowsRow := by
  show StableHlo.after hostOps1 (W1 m ρ c) (Proc.devRef .tc main_v2) = _
  after_results

/-- … and the variance buffer the second result array divided by the row count, minus the squared mean. -/
theorem var_buf (c : Dev nD) :
    V2 m ρ c main_v6 = subf (Host.divf (F := Ideal) (V1 m ρ c main_v0_1) rowsRow)
      (mulf (Host.divf (F := Ideal) (V1 m ρ c main_v0_0) rowsRow) (Host.divf (F := Ideal) (V1 m ρ c main_v0_0) rowsRow)) := by
  show StableHlo.after hostOps1 (W1 m ρ c) (Proc.devRef .tc main_v6) = _
  after_results

theorem rowsRow_apply (y : S1x64.Idx) : rowsRow y = rows := (broadcastInDim_scalar_apply _ _ _).trans rfl

/-- The first result array of the first region, in column `j`: the column's sum. -/
theorem sum_apply (c : Dev nD) (j : Fin 64) :
    V1 m ρ c main_v0_0 (ix2 (0 : Fin 1) j) = ∑ i : Fin 50000, x m c (ix2 i j) :=
  (congrFun (hF0 m ρ c 1).symm (ix2 (0 : Fin 1) j)).trans (Stats0.colSum (V0 m ρ) c j)

/-- The second result array, in column `j`: the sum of the column's squares. -/
theorem sq_apply (c : Dev nD) (j : Fin 64) :
    V1 m ρ c main_v0_1 (ix2 (0 : Fin 1) j) = ∑ i : Fin 50000, x m c (ix2 i j) * x m c (ix2 i j) :=
  (congrFun (hF0 m ρ c 2).symm (ix2 (0 : Fin 1) j)).trans (Stats0.colSq (V0 m ρ) c j)

/-- The kernel's mean of column `j`. -/
theorem mean_apply (c : Dev nD) (j : Fin 64) :
    V2 m ρ c main_v2 (ix2 (0 : Fin 1) j) = Ideal.div (∑ i : Fin 50000, x m c (ix2 i j)) rows := by
  rw [mean_buf m ρ c]
  refine (hostDivf_apply _ _ _).trans ?_
  rw [sum_apply, rowsRow_apply]

/-- The kernel's variance of column `j`: the mean of the squares minus the squared mean. -/
theorem var_apply (c : Dev nD) (j : Fin 64) :
    V2 m ρ c main_v6 (ix2 (0 : Fin 1) j)
      = Ideal.div (∑ i : Fin 50000, x m c (ix2 i j) * x m c (ix2 i j)) rows
        - Ideal.div (∑ i : Fin 50000, x m c (ix2 i j)) rows * Ideal.div (∑ i : Fin 50000, x m c (ix2 i j)) rows := by
  rw [var_buf m ρ c]
  refine (subf_apply _ _ _).trans ?_
  refine congrArg₂ (· - ·) ?_ ?_
  · refine (hostDivf_apply _ _ _).trans ?_
    rw [sq_apply, rowsRow_apply]
  · refine (mulf_apply _ _ _).trans ?_
    rw [hostDivf_apply, sum_apply, rowsRow_apply]

end Cert.KernelIdeal.LowStats

end
-- ==== Proof.VarLaw.lean ====
/-
  The law that joins the two variances.

  The kernel computes a column's variance as the mean of the squares minus the square of the mean; the reference as
  the mean of the squared deviations from the mean.  Over the reals these agree for every finite family: with
  S = ∑ xᵢ and n terms, ∑ (xᵢ − S/n)² = ∑ xᵢ² − 2·(S/n)·S + n·(S/n)² = ∑ xᵢ² − S²/n.  Over the extended reals the law
  fails at an infinite entry (the kernel's side is then ∞ − ∞), so it is stated for families of reals, which is what
  the precondition gives; the division by the count is the product with its reciprocal on every extended real.
-/
import Idealize.ShloMosaic.PureOps.Ideal

noncomputable section

namespace Cert.VarLaw

open Idealize.ShloMosaic

/-- The pattern of `50000.0` denotes the real 50000. -/
theorem ofBits_50000 : Ideal.ofBits .f32 0x47435000#32 = ((50000 : ℝ) : EReal) := by
  simp [Ideal.ofBits, Ideal.ieee, -EReal.coe_mul]; norm_num

/-- A finite sum of reals, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The identity over the reals: mean of squares minus squared mean is the mean squared deviation. -/
theorem var_real {n : ℕ} (hn : 0 < n) (x : Fin n → ℝ) :
    (∑ i, x i * x i) * (1 / (n : ℝ)) - ((∑ i, x i) * (1 / (n : ℝ))) * ((∑ i, x i) * (1 / (n : ℝ)))
      = (∑ i, (x i - (∑ i, x i) * (1 / (n : ℝ))) * (x i - (∑ i, x i) * (1 / (n : ℝ)))) * (1 / (n : ℝ)) := by
  have hn' : (n : ℝ) ≠ 0 := by positivity
  generalize hS : ∑ i, x i = S
  generalize hμ : S * (1 / (n : ℝ)) = μ
  have e : ∑ i, (x i - μ) * (x i - μ) = (∑ i, x i * x i) - 2 * μ * S + n * μ * μ := by
    have h1 : ∀ i, (x i - μ) * (x i - μ) = x i * x i - 2 * μ * x i + μ * μ := fun i => by ring
    simp only [h1, Finset.sum_add_distrib, Finset.sum_sub_distrib, ← Finset.mul_sum, Finset.sum_const, Finset.card_univ,
      Fintype.card_fin, nsmul_eq_mul, hS]
    ring
  rw [e, ← hμ]
  field_simp
  ring

/-- The identity over the extended reals, for a family of reals and the divisions by the literal count as the
    programs spell them. -/
theorem var_ereal (x : Fin 50000 → ℝ) :
    Ideal.div (∑ i, ((x i : ℝ) : EReal) * ((x i : ℝ) : EReal)) ((50000 : ℝ) : EReal)
        - Ideal.div (∑ i, ((x i : ℝ) : EReal)) ((50000 : ℝ) : EReal) * Ideal.div (∑ i, ((x i : ℝ) : EReal)) ((50000 : ℝ) : EReal)
      = Ideal.div (∑ i, (((x i : ℝ) : EReal) - Ideal.div (∑ i, ((x i : ℝ) : EReal)) ((50000 : ℝ) : EReal))
          * (((x i : ℝ) : EReal) - Ideal.div (∑ i, ((x i : ℝ) : EReal)) ((50000 : ℝ) : EReal))) ((50000 : ℝ) : EReal) := by
  have h5 : (50000 : ℝ) ≠ 0 := by norm_num
  have hm : Ideal.div (∑ i, ((x i : ℝ) : EReal)) ((50000 : ℝ) : EReal) = (((∑ i, x i) * (1 / (50000 : ℝ)) : ℝ) : EReal) := by
    rw [Ideal.div_coe h5, coe_sum, ← EReal.coe_mul]
  rw [hm]
  have hsq : (∑ i, ((x i : ℝ) : EReal) * ((x i : ℝ) : EReal)) = ((∑ i, x i * x i : ℝ) : EReal) := by
    rw [← coe_sum]; exact Finset.sum_congr rfl fun i _ => (EReal.coe_mul _ _).symm
  have hdev : (∑ i, (((x i : ℝ) : EReal) - (((∑ i, x i) * (1 / (50000 : ℝ)) : ℝ) : EReal))
        * (((x i : ℝ) : EReal) - (((∑ i, x i) * (1 / (50000 : ℝ)) : ℝ) : EReal)))
      = ((∑ i, (x i - (∑ i, x i) * (1 / (50000 : ℝ))) * (x i - (∑ i, x i) * (1 / (50000 : ℝ))) : ℝ) : EReal) := by
    rw [← coe_sum]
    exact Finset.sum_congr rfl fun i _ => by rw [← EReal.coe_sub, ← EReal.coe_mul]
  rw [hsq, hdev, Ideal.div_coe h5, Ideal.div_coe h5, ← EReal.coe_mul, ← EReal.coe_mul, ← EReal.coe_mul, ← EReal.coe_sub]
  exact congrArg _ (by have := var_real (n := 50000) (by norm_num) x; simpa using this)

end Cert.VarLaw

end
-- ==== Proof.RefStats.lean ====
/-
  The low-dimensional branch's batch statistics, as the reference computes them.

  The reference takes each column's mean as the column's sum divided by the number of rows.  Its variance is jax's
  outlined function: the same mean again, the deviations from it, the sum of their squares divided by the number of
  rows minus the degrees-of-freedom correction (zero here), guarded by a select that answers a NaN pattern when that
  divisor is not positive — which it is, so the guard always takes the quotient.
-/
import proofs.«160607_j85856396247988_1_alg».proof.Proof.RefEntry
import proofs.«160607_j85856396247988_1_alg».proof.Proof.VarLaw
import Idealize.ShloMosaic.Lib.IdealHost

set_option maxRecDepth 16384

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

/-- The column sums of a [50000, 64] array as the host takes them. -/
def lowSum (x : FVec Ideal S50000x64 .f32) : FVec Ideal S64 .f32 :=
  Host.reduceAdd (F := Ideal) x (constant (F := Ideal) S_ .f32 0x00000000#32) reducesTo_S50000x64_S64_d0 h_S_

/-- The column means. -/
def lowMean (x : FVec Ideal S50000x64 .f32) : FVec Ideal S64 .f32 :=
  Host.divf (F := Ideal) (lowSum x) (broadcastInDim S64 ![] bcast_S_S64 (constant (F := Ideal) S_ .f32 0x47435000#32))

/-- The divisor of the variance: the row count minus the correction. -/
def lowCount : FVec Ideal S_ .f32 :=
  subf (constant (F := Ideal) S_ .f32 0x47435000#32) (sitofp (F := Ideal) .f32 (constantI S_ 32 0#32))

/-- The deviations from the column means, the means recomputed inside the outlined function. -/
def lowDev (x : FVec Ideal S50000x64 .f32) : FVec Ideal S50000x64 .f32 :=
  subf x (broadcastInDim S50000x64 ![0, 1] bcast_S1x64_S50000x64_0_1
    (Host.divf (F := Ideal) (broadcastInDim S1x64 ![1] bcast_S64_S1x64_1 (lowSum x))
      (broadcastInDim S1x64 ![] bcast_S_S1x64 (constant (F := Ideal) S_ .f32 0x47435000#32))))

/-- The column variances, with the guard. -/
def lowVar (x : FVec Ideal S50000x64 .f32) : FVec Ideal S64 .f32 :=
  select (broadcastInDim S64 ![] bcast_S_S64 (cmpf .ogt lowCount (constant (F := Ideal) S_ .f32 0x00000000#32)))
    (Host.divf (F := Ideal)
      (Host.reduceAdd (F := Ideal) (mulf (lowDev x) (lowDev x)) (constant (F := Ideal) S_ .f32 0x00000000#32) reducesTo_S50000x64_S64_d0 h_S_)
      (broadcastInDim S64 ![] bcast_S_S64 lowCount))
    (broadcastInDim S64 ![] bcast_S_S64 (id (constant (F := Ideal) S_ .f32 0x7FC00000#32)))

set_option maxHeartbeats 1600000 in
/-- The reference's mean buffer holds the column means of the low-dimensional features. -/
theorem mean_buf (V : Valuation τ sig (Elt Ideal)) :
    after (opsA0 (F := Ideal)) V (Proc.devRef .tc main_v2) = lowMean (V (Proc.devRef .tc main_arg1)) := by
  after_results
  rfl

attribute [local irreducible] Host.reduceAdd Host.divf in
set_option maxHeartbeats 3200000 in
/-- The reference's variance buffer holds their column variances. -/
theorem var_buf (V : Valuation τ sig (Elt Ideal)) :
    after (opsA0 (F := Ideal)) V (Proc.devRef .tc main_v3) = lowVar (V (Proc.devRef .tc main_arg1)) := by
  after_results
  rfl

end Cert.ReferenceIdeal.Straight

end
-- ==== Proof.RefStatsIdeal.lean ====
/-
  The reference's batch statistics of the low-dimensional features, column by column.

  In column j the mean is the sum of the column's 50000 entries (added to the zero the host's reduction starts from)
  divided by the row count; the variance is the sum of the squared deviations from that same quotient, divided by the
  row count, the guard of jax's variance function being open because the divisor is 50000 − 0 > 0.
-/
import proofs.«160607_j85856396247988_1_alg».proof.Proof.RefStats
import Idealize.ShloMosaic.Lib.Pipeline.Value

set_option maxRecDepth 16384

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

/-- The number of rows, as the programs spell it. -/
abbrev rows : EReal := Ideal.ofBits .f32 0x47435000#32

theorem reduces_rows : S50000x64.Reduces [0] S64 := by decide

/-- The host's column sum in column `j`: zero plus the sum of the column's entries. -/
theorem lowSum_apply (x : FVec Ideal S50000x64 .f32) (j : Fin 64) :
    lowSum x (ix1 j) = 0 + ∑ i : Fin 50000, x (ix2 i j) := by
  unfold lowSum
  refine (hostReduceAdd_apply _ _ _ _ _).trans ?_
  refine (Ideal.hostReduceAdd_single reducesTo_S50000x64_S64_d0 reduces_rows x _ (ix1 j)).trans ?_
  refine congrArg₂ (· + ·) Ideal.ofBits_zero_f32 ?_
  refine Finset.sum_congr rfl fun i _ => congrArg x (funext fun a => ?_)
  match a with
  | ⟨0, _⟩ => rfl
  | ⟨1, _⟩ => rfl

/-- The reference's mean of column `j`. -/
theorem lowMean_apply (x : FVec Ideal S50000x64 .f32) (j : Fin 64) :
    lowMean x (ix1 j) = Ideal.div (0 + ∑ i : Fin 50000, x (ix2 i j)) rows := by
  unfold lowMean
  refine (hostDivf_apply _ _ _).trans ?_
  rw [lowSum_apply]
  exact congrArg _ ((broadcastInDim_scalar_apply _ _ _).trans rfl)

/-- The variance's divisor is the real 50000. -/
theorem lowCount_apply : lowCount ix0 = ((50000 : ℝ) : EReal) := by
  show Ideal.ofBits .f32 0x47435000#32 - (((0#32 : BitVec 32).toInt : ℝ) : EReal) = _
  rw [Cert.VarLaw.ofBits_50000]
  simp

/-- The deviation of entry (i, j) from the mean of column `j`. -/
theorem lowDev_apply (x : FVec Ideal S50000x64 .f32) (i : Fin 50000) (j : Fin 64) :
    lowDev x (ix2 i j) = x (ix2 i j) - Ideal.div (0 + ∑ i : Fin 50000, x (ix2 i j)) rows := by
  unfold lowDev
  refine (subf_apply _ _ _).trans ?_
  refine congrArg (x (ix2 i j) - ·) ?_
  refine (broadcastInDim_apply _ _ _ (ix2 i j) (ix2 (0 : Fin 1) j) (fun a => ?_)).trans ?_
  · match a with
    | ⟨0, _⟩ => rfl
    | ⟨1, _⟩ => rfl
  refine (hostDivf_apply _ _ _).trans ?_
  refine congrArg₂ Ideal.div ?_ ((broadcastInDim_scalar_apply _ _ _).trans rfl)
  refine (broadcastInDim_apply _ _ _ (ix2 (0 : Fin 1) j) (ix1 j) (fun a => ?_)).trans (lowSum_apply x j)
  match a with
  | ⟨0, _⟩ => rfl

/-- The guard of the variance function is open. -/
theorem guard_open : FloatOps.cmpf (F := Ideal) .ogt (lowCount ix0) (Ideal.ofBits .f32 0x00000000#32) = 1#1 := by
  rw [lowCount_apply, Ideal.ofBits_zero_f32, Ideal.cmpf_def]
  unfold Ideal.cmp
  have h : (0 : EReal) < ((50000 : ℝ) : EReal) := by exact_mod_cast (by norm_num : (0 : ℝ) < 50000)
  simp [h]

/-- The reference's variance of column `j`: the mean squared deviation. -/
theorem lowVar_apply (x : FVec Ideal S50000x64 .f32) (j : Fin 64) :
    lowVar x (ix1 j) = Ideal.div (0 + ∑ i : Fin 50000,
        (x (ix2 i j) - Ideal.div (0 + ∑ i : Fin 50000, x (ix2 i j)) rows) * (x (ix2 i j) - Ideal.div (0 + ∑ i : Fin 50000, x (ix2 i j)) rows))
      ((50000 : ℝ) : EReal) := by
  unfold lowVar
  refine (select_apply _ _ _ _).trans ?_
  have hg : (broadcastInDim S64 ![] bcast_S_S64 (cmpf .ogt lowCount (constant (F := Ideal) S_ .f32 0x00000000#32))) (ix1 j) = 1#1 :=
    (broadcastInDim_scalar_apply _ _ _).trans ((cmpf_apply _ _ _ _).trans guard_open)
  rw [hg, select_one]
  refine (hostDivf_apply _ _ _).trans ?_
  refine congrArg₂ Ideal.div ?_ ((broadcastInDim_scalar_apply _ _ _).trans lowCount_apply)
  refine (hostReduceAdd_apply _ _ _ _ _).trans ?_
  refine (Ideal.hostReduceAdd_single reducesTo_S50000x64_S64_d0 reduces_rows _ _ (ix1 j)).trans ?_
  refine congrArg₂ (· + ·) Ideal.ofBits_zero_f32 ?_
  refine Finset.sum_congr rfl fun i _ => ?_
  have e : reduces_rows.lift (ix1 j) i = ix2 i j := funext fun a => match a with | ⟨0, _⟩ => rfl | ⟨1, _⟩ => rfl
  rw [e]
  exact (mulf_apply _ _ _).trans (congrArg₂ (· * ·) (lowDev_apply x i j) (lowDev_apply x i j))

end Cert.ReferenceIdeal.Straight

end
-- ==== Proof.FiniteIn.lean ====
/-
  What the precondition says of the low-dimensional features.

  The precondition is the conjunction, over the float arguments, of "every entry's absolute value is below +∞".  Each
  conjunct is a reduction by `and` over all the entries of an array of comparisons, so it holds exactly when every
  comparison does; and an extended real whose absolute value is below +∞ is a real number.
-/
import proofs.«160607_j85856396247988_1_alg».proof.Defs
import proofs.«160607_j85856396247988_1_alg».proof.Proof.Gen.Pre_finite_inputs
import Idealize.ShloMosaic.Lib.ReduceAll
import Idealize.ShloMosaic.Lib.ValueIdx
import Idealize.ShloMosaic.Lib.IdealHost

set_option maxRecDepth 16384

noncomputable section

namespace Cert.Finite

open Idealize.ShloMosaic Idealize.SL.Sem Idealize.ShloMosaic.ValueIdx

instance : Subsingleton (Cert.Pre_finite_inputs.S_).Idx := ⟨fun a b => funext fun d => d.elim0⟩

theorem and_left {a b : IVec Cert.Pre_finite_inputs.S_ 1} (h : andi a b ix0 = 1#1) : a ix0 = 1#1 :=
  (IntOp.andi_eq_one.mp h).1
theorem and_right {a b : IVec Cert.Pre_finite_inputs.S_ 1} (h : andi a b ix0 = 1#1) : b ix0 = 1#1 :=
  (IntOp.andi_eq_one.mp h).2

/-- An extended real whose absolute value compares below the pattern of +∞ is a real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have hinf : Ideal.ofBits .f32 0x7F800000#32 = ⊤ := by simp [Ideal.ofBits, Ideal.ieee]
  rw [hinf, Ideal.cmpf_def] at h
  unfold Ideal.cmp at h
  have hb : ∀ b : Bool, BitVec.ofBool b = 1#1 → b = true := fun b => by cases b <;> decide
  have hlt : max x (-x) < ⊤ := of_decide_eq_true (hb _ h)
  induction x using EReal.rec with
  | bot => simp at hlt
  | coe r => exact ⟨r, rfl⟩
  | top => simp at hlt

/-- Under the precondition every entry of the low-dimensional features is a real number. -/
theorem low_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S50000x64.Idx) :
    ∃ r : ℝ, m ((c.tc : Thread Cert.KernelIdeal.nD Cert.KernelIdeal.τ).loc Cert.KernelIdeal.main_arg1) i = (r : EReal) := by
  have h0 := congrFun (hpre c) ix0
  unfold Cert.Pre_finite_inputs.fn Cert.Pre_finite_inputs.fn_part1 Cert.Pre_finite_inputs.fn_part2 Cert.Pre_finite_inputs.fn_part3
    Cert.Pre_finite_inputs.fn_part4 Cert.Pre_finite_inputs.fn_part5 at h0
  dsimp only at h0
  have h1 := and_right (and_left (and_left (and_left (and_left (and_left (and_left (and_left (and_left (and_left (and_left (and_left (and_left (and_left (and_left (and_left (and_left (and_left (h0))))))))))))))))))
  have h2 := Host.reduce_andi_all _ _ _ _ ix0 h1 i
  rw [cmpf_apply, broadcastInDim_scalar_apply] at h2
  exact real_of_abs_lt _ h2

end Cert.Finite

end
-- ==== Proof.LowBridge.lean ====
/-
  The low-dimensional branch's batch statistics agree.

  From memories that agree on the low-dimensional features, whose entries the precondition makes real numbers: the
  mean the kernel's first statistics region and host stretch leave for the normalization is the reference's mean, and
  the kernel's "mean of squares minus squared mean" is the reference's mean squared deviation — the one place where
  the two programs are different formulas, and the one place where finiteness is used.
-/
import proofs.«160607_j85856396247988_1_alg».proof.Proof.LowStats
import proofs.«160607_j85856396247988_1_alg».proof.Proof.RefStatsIdeal
import proofs.«160607_j85856396247988_1_alg».proof.Proof.FiniteIn
import proofs.«160607_j85856396247988_1_alg».proof.Proof.VarLaw

set_option maxRecDepth 16384

noncomputable section

namespace Cert.Bridge.Low

open Idealize.ShloMosaic Idealize.ShloMosaic.TcCoe Idealize.SL.Sem Idealize.ShloMosaic.StableHlo
open Idealize.ShloMosaic.ValueIdx

/-- The law, column by column: for a column of reals the kernel's variance formula is the reference's. -/
theorem var_agree (x : Cert.KernelIdeal.S50000x64.Idx → EReal) (hx : ∀ i, ∃ r : ℝ, x i = (r : EReal)) (j : Fin 64) :
    Ideal.div (∑ i : Fin 50000, x (ix2 i j) * x (ix2 i j)) (Ideal.ofBits .f32 0x47435000#32)
        - Ideal.div (∑ i : Fin 50000, x (ix2 i j)) (Ideal.ofBits .f32 0x47435000#32)
          * Ideal.div (∑ i : Fin 50000, x (ix2 i j)) (Ideal.ofBits .f32 0x47435000#32)
      = Ideal.div (0 + ∑ i : Fin 50000,
          (x (ix2 i j) - Ideal.div (0 + ∑ i : Fin 50000, x (ix2 i j)) (Ideal.ofBits .f32 0x47435000#32))
            * (x (ix2 i j) - Ideal.div (0 + ∑ i : Fin 50000, x (ix2 i j)) (Ideal.ofBits .f32 0x47435000#32)))
        ((50000 : ℝ) : EReal) := by
  choose r hr using hx
  simp only [hr, zero_add, Cert.VarLaw.ofBits_50000]
  exact Cert.VarLaw.var_ereal (fun i => r (ix2 i j))

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The means agree, column by column. -/
theorem mean_eq (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) (j : Fin 64) :
    after (Cert.ReferenceIdeal.Straight.ops (F := Ideal)) (launchContents m' c) (Proc.devRef .tc Cert.ReferenceIdeal.main_v2) (ix1 j)
      = Cert.KernelIdeal.Gen.V2 m ρ c Cert.KernelIdeal.main_v2 (ix2 (0 : Fin 1) j) := by
  have hx : launchContents m' c (Proc.devRef .tc Cert.ReferenceIdeal.main_arg1)
      = m ((c.tc : Thread Cert.KernelIdeal.nD Cert.KernelIdeal.τ).loc Cert.KernelIdeal.main_arg1) := h1
  rw [Cert.ReferenceIdeal.Straight.read_A0 Cert.ReferenceIdeal.main_v2 (by decide) (by decide) (by decide) (by decide) (by decide) (by decide) (by decide),
    Cert.ReferenceIdeal.Straight.mean_buf, hx, Cert.ReferenceIdeal.Straight.lowMean_apply,
    Cert.KernelIdeal.LowStats.mean_apply, zero_add]

/-- The variances agree, column by column, under the precondition. -/
theorem var_eq [hP : Cert.Pre_finite_inputs.Facts] (hpre : Cert.Pre_KernelIdeal m) (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) (j : Fin 64) :
    after (Cert.ReferenceIdeal.Straight.ops (F := Ideal)) (launchContents m' c) (Proc.devRef .tc Cert.ReferenceIdeal.main_v3) (ix1 j)
      = Cert.KernelIdeal.Gen.V2 m ρ c Cert.KernelIdeal.main_v6 (ix2 (0 : Fin 1) j) := by
  have hx : launchContents m' c (Proc.devRef .tc Cert.ReferenceIdeal.main_arg1)
      = m ((c.tc : Thread Cert.KernelIdeal.nD Cert.KernelIdeal.τ).loc Cert.KernelIdeal.main_arg1) := h1
  rw [Cert.ReferenceIdeal.Straight.read_A0 Cert.ReferenceIdeal.main_v3 (by decide) (by decide) (by decide) (by decide) (by decide) (by decide) (by decide),
    Cert.ReferenceIdeal.Straight.var_buf, hx, Cert.ReferenceIdeal.Straight.lowVar_apply,
    Cert.KernelIdeal.LowStats.var_apply]
  exact (var_agree _ (Cert.Finite.low_real m hpre c) j).symm

end Cert.Bridge.Low

end
-- ==== Proof.LowLayer.lean ====
/-
  What the low branch's linear-layer region finds in its windows.

  The features are the launch contents (the first statistics region only read them); the mean and variance are what the
  first host stretch left; the scale, shift and bias are the arguments reshaped to one row; the weights are the
  argument under a format change, which over the extended reals is the identity.
-/
import proofs.«160607_j85856396247988_1_alg».proof.Proof.LowStats
import proofs.«160607_j85856396247988_1_alg».proof.Proof.Lin2Array

set_option maxRecDepth 16384

noncomputable section

namespace Cert.KernelIdeal.LowLayer

open Cert.KernelIdeal Cert.KernelIdeal.Gen
open Idealize.ShloMosaic Idealize.ShloMosaic.TcCoe Idealize.SL.Sem Idealize.ShloMosaic.Tactic Idealize.ShloMosaic.StableHlo
open Idealize.ShloMosaic.ValueIdx

/-- A buffer no operation of a host stretch writes keeps its contents across the stretch. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg)

/-- Argument 4 is as launched when the second host stretch begins. -/
theorem arg4_at3 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := by host_keeps hostOps1
    _ = W0 m ρ c (Proc.devRef .tc main_arg4) := W1_of_ne m ρ c main_arg4 (by decide)
    _ = m ((c : Thread nD τ).loc main_arg4) := rfl

/-- Argument 5 is as launched when the second host stretch begins. -/
theorem arg5_at3 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := by host_keeps hostOps1
    _ = W0 m ρ c (Proc.devRef .tc main_arg5) := W1_of_ne m ρ c main_arg5 (by decide)
    _ = m ((c : Thread nD τ).loc main_arg5) := rfl

/-- Argument 8 is as launched when the second host stretch begins. -/
theorem arg8_at3 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := by host_keeps hostOps1
    _ = W0 m ρ c (Proc.devRef .tc main_arg8) := W1_of_ne m ρ c main_arg8 (by decide)
    _ = m ((c : Thread nD τ).loc main_arg8) := rfl

/-- Argument 9 is as launched when the second host stretch begins. -/
theorem arg9_at3 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := by host_keeps hostOps1
    _ = W0 m ρ c (Proc.devRef .tc main_arg9) := W1_of_ne m ρ c main_arg9 (by decide)
    _ = m ((c : Thread nD τ).loc main_arg9) := rfl

/-- The features, at the region's entry, are the launch contents. -/
theorem feat_eq (c : Dev nD) : V4 m ρ c main_arg1 = m ((c : Thread nD τ).loc main_arg1) :=
  calc W4 m ρ c (Proc.devRef .tc main_arg1)
    _ = W3 m ρ c (Proc.devRef .tc main_arg1) := by host_keeps hostOps2
    _ = W2 m ρ c (Proc.devRef .tc main_arg1) := W3_of_ne m ρ c main_arg1 (by decide)
    _ = W1 m ρ c (Proc.devRef .tc main_arg1) := by host_keeps hostOps1
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- The mean and the variance are what the first host stretch left. -/
theorem mean_eq (c : Dev nD) : V4 m ρ c main_v2 = V2 m ρ c main_v2 :=
  calc W4 m ρ c (Proc.devRef .tc main_v2)
    _ = W3 m ρ c (Proc.devRef .tc main_v2) := by host_keeps hostOps2
    _ = W2 m ρ c (Proc.devRef .tc main_v2) := W3_of_ne m ρ c main_v2 (by decide)
theorem var_eq (c : Dev nD) : V4 m ρ c main_v6 = V2 m ρ c main_v6 :=
  calc W4 m ρ c (Proc.devRef .tc main_v6)
    _ = W3 m ρ c (Proc.devRef .tc main_v6) := by host_keeps hostOps2
    _ = W2 m ρ c (Proc.devRef .tc main_v6) := W3_of_ne m ρ c main_v6 (by decide)

/-- The scale: argument 4 as one row. -/
theorem scale_eq (c : Dev nD) : V4 m ρ c main_v14 = shapeCast S1x64 (m ((c : Thread nD τ).loc main_arg4)) shapeCasts_S64_S1x64 := by
  show StableHlo.after hostOps2 (W3 m ρ c) (Proc.devRef .tc main_v14) = _
  after_results
  rw [arg4_at3]
  rfl
/-- The shift: argument 5 as one row. -/
theorem shift_eq (c : Dev nD) : V4 m ρ c main_v15 = shapeCast S1x64 (m ((c : Thread nD τ).loc main_arg5)) shapeCasts_S64_S1x64 := by
  show StableHlo.after hostOps2 (W3 m ρ c) (Proc.devRef .tc main_v15) = _
  after_results
  rw [arg5_at3]
  rfl
/-- The weights: argument 8 under the format change. -/
theorem weights_eq (c : Dev nD) :
    V4 m ρ c main_v18 = (truncf .bf16 (m ((c : Thread nD τ).loc main_arg8) : FVec Ideal S64x128 .f32) bitsLt_bf16_f32 : FVec Ideal S64x128 .bf16) := by
  show StableHlo.after hostOps2 (W3 m ρ c) (Proc.devRef .tc main_v18) = _
  after_results
  rw [arg8_at3]
  try rfl
/-- The bias: argument 9 as one row. -/
theorem bias_eq (c : Dev nD) : V4 m ρ c main_v20 = shapeCast S1x128 (m ((c : Thread nD τ).loc main_arg9)) shapeCasts_S128_S1x128 := by
  show StableHlo.after hostOps2 (W3 m ρ c) (Proc.devRef .tc main_v20) = _
  after_results
  rw [arg9_at3]
  rfl

end Cert.KernelIdeal.LowLayer

end
-- ==== Proof.RefLin.lean ====
/-
  The low-dimensional branch's linear layer, as the reference computes it.

  The reference normalizes the whole [50000, 64] array at once — subtract the column means, multiply by the reciprocal
  square roots of the column variances plus epsilon, scale and shift, each row vector broadcast down the rows —, takes
  the product with the [64, 128] weights, adds the bias broadcast down the rows, and clamps at zero.
-/
import proofs.«160607_j85856396247988_1_alg».proof.Proof.RefStats

set_option maxRecDepth 16384

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

/-- A vector of 64 column values broadcast down the 50000 rows. -/
def downRows (v : FVec Ideal S64 .f32) : FVec Ideal S50000x64 .f32 :=
  broadcastInDim S50000x64 ![0, 1] bcast_S1x64_S50000x64_0_1 (broadcastInDim S1x64 ![1] bcast_S64_S1x64_1 v)

/-- The normalized features. -/
def lowNormed (x : FVec Ideal S50000x64 .f32) (g b : FVec Ideal S64 .f32) : FVec Ideal S50000x64 .f32 :=
  addf (mulf (mulf (subf x (downRows (lowMean x)))
      (downRows (Host.rsqrt (F := Ideal) (addf (lowVar x) (broadcastInDim S64 ![] bcast_S_S64 (constant (F := Ideal) S_ .f32 0x3727C5AC#32))))))
    (downRows g)) (downRows b)

/-- The linear layer with its relu. -/
def lowPre (x : FVec Ideal S50000x64 .f32) (g b : FVec Ideal S64 .f32) (W : FVec Ideal S64x128 .f32) (lb : FVec Ideal S128 .f32) :
    FVec Ideal S50000x128 .f32 :=
  maximumf (addf (Host.dotGeneral (F := Ideal) dot_S50000x64_S64x128_S50000x128_1_0_0_1_n_n none (lowNormed x g b) W)
      (broadcastInDim S50000x128 ![0, 1] bcast_S1x128_S50000x128_0_1 (broadcastInDim S1x128 ![1] bcast_S128_S1x128_1 lb)))
    (broadcastInDim S50000x128 ![] bcast_S_S50000x128 (constant (F := Ideal) S_ .f32 0x00000000#32))

attribute [local irreducible] Host.reduceAdd Host.divf in
set_option maxHeartbeats 6400000 in
/-- The reference's buffer after the low branch's relu holds the layer's output. -/
theorem lowPre_buf (V : Valuation τ sig (Elt Ideal)) :
    after (opsA0 (F := Ideal)) V (Proc.devRef .tc main_v23)
      = lowPre (V (Proc.devRef .tc main_arg1)) (V (Proc.devRef .tc main_arg4)) (V (Proc.devRef .tc main_arg5))
          (V (Proc.devRef .tc main_arg8)) (V (Proc.devRef .tc main_arg9)) := by
  after_results
  rfl

end Cert.ReferenceIdeal.Straight

end
-- ==== Proof.RefLinIdeal.lean ====
/-
  The reference's low-branch linear layer, entry by entry.

  Entry (i, n) of the layer's output is the clamp at zero of the bias at n plus the sum, over the 64 feature columns k,
  of the normalized entry (i, k) — the entry minus the column mean, times the reciprocal square root of the column
  variance plus epsilon, times the scale, plus the shift — times the weight at (k, n).
-/
import proofs.«160607_j85856396247988_1_alg».proof.Proof.RefLin
import proofs.«160607_j85856396247988_1_alg».proof.Proof.RefStatsIdeal
import Idealize.ShloMosaic.Lib.Pipeline.Value

set_option maxRecDepth 16384

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

/-- The normalization's epsilon, as both programs spell it. -/
abbrev eps : EReal := Ideal.ofBits .f32 0x3727C5AC#32

/-- A column vector broadcast down the rows reads, at (i, k), the vector at k. -/
theorem downRows_apply (v : FVec Ideal S64 .f32) (i : Fin 50000) (k : Fin 64) : downRows v (ix2 i k) = v (ix1 k) := by
  unfold downRows
  refine (broadcastInDim_apply _ _ _ (ix2 i k) (ix2 (0 : Fin 1) k) (fun a => ?_)).trans ?_
  · match a with
    | ⟨0, _⟩ => rfl
    | ⟨1, _⟩ => rfl
  refine broadcastInDim_apply _ _ _ (ix2 (0 : Fin 1) k) (ix1 k) (fun a => ?_)
  match a with
  | ⟨0, _⟩ => rfl

/-- The host's product of a [50000, 64] by a [64, 128] matrix at (a, b): the sum over the 64 contracted coordinates. -/
theorem dot_apply (A : FVec Ideal S50000x64 .f32) (B : FVec Ideal S64x128 .f32) (a : Fin 50000) (b : Fin 128) :
    Host.dotGeneral (F := Ideal) dot_S50000x64_S64x128_S50000x128_1_0_0_1_n_n none A B (ix2 a b) = ∑ k : Fin 64, A (ix2 a k) * B (ix2 k b) := by
  show FloatOps.dotGeneral dot_S50000x64_S64x128_S50000x128_1_0_0_1_n_n none _ A B (ix2 a b) = _
  rw [Ideal.dotGeneral_apply, ← Equiv.sum_comp (contrEquiv1 dot_S50000x64_S64x128_S50000x128_1_0_0_1_n_n 64 rfl rfl).symm]
  refine Finset.sum_congr rfl fun k _ => ?_
  have c2 := contrEquiv1_symm_val dot_S50000x64_S64x128_S50000x128_1_0_0_1_n_n 64 rfl rfl k
  have l2 : (dot_S50000x64_S64x128_S50000x128_1_0_0_1_n_n).lhsIdx (ix2 a b) ((contrEquiv1 _ 64 rfl rfl).symm k) = ix2 a k := by
    funext ax; apply Fin.ext
    match ax with
    | ⟨0, _⟩ => simp [DotDims.lhsIdx, dot_S50000x64_S64x128_S50000x128_1_0_0_1_n_n]; rfl
    | ⟨1, _⟩ => simp [DotDims.lhsIdx, dot_S50000x64_S64x128_S50000x128_1_0_0_1_n_n]; exact c2
  have r2 : (dot_S50000x64_S64x128_S50000x128_1_0_0_1_n_n).rhsIdx (ix2 a b) ((contrEquiv1 _ 64 rfl rfl).symm k) = ix2 k b := by
    funext ax; apply Fin.ext
    match ax with
    | ⟨0, _⟩ => simp [DotDims.rhsIdx, dot_S50000x64_S64x128_S50000x128_1_0_0_1_n_n]; exact c2
    | ⟨1, _⟩ => simp [DotDims.rhsIdx, dot_S50000x64_S64x128_S50000x128_1_0_0_1_n_n]; rfl
  rw [l2, r2]

/-- A normalized entry. -/
theorem lowNormed_apply (x : FVec Ideal S50000x64 .f32) (g b : FVec Ideal S64 .f32) (i : Fin 50000) (k : Fin 64) :
    lowNormed x g b (ix2 i k)
      = (x (ix2 i k) - lowMean x (ix1 k)) * Ideal.rsqrt (lowVar x (ix1 k) + eps) * g (ix1 k) + b (ix1 k) := by
  unfold lowNormed
  refine (addf_apply _ _ _).trans ?_
  refine congrArg₂ (· + ·) ?_ (downRows_apply b i k)
  refine (mulf_apply _ _ _).trans ?_
  refine congrArg₂ (· * ·) ?_ (downRows_apply g i k)
  refine (mulf_apply _ _ _).trans ?_
  refine congrArg₂ (· * ·) ?_ ?_
  · refine (subf_apply _ _ _).trans ?_
    exact congrArg (x (ix2 i k) - ·) (downRows_apply _ i k)
  · refine (downRows_apply _ i k).trans ?_
    show Ideal.rsqrt (lowVar x (ix1 k) + (broadcastInDim S64 ![] bcast_S_S64 (constant (F := Ideal) S_ .f32 0x3727C5AC#32)) (ix1 k)) = _
    exact congrArg Ideal.rsqrt (congrArg (lowVar x (ix1 k) + ·) ((broadcastInDim_scalar_apply _ _ _).trans rfl))

/-- An entry of the layer's output. -/
theorem lowPre_apply (x : FVec Ideal S50000x64 .f32) (g b : FVec Ideal S64 .f32) (W : FVec Ideal S64x128 .f32)
    (lb : FVec Ideal S128 .f32) (i : Fin 50000) (n : Fin 128) :
    lowPre x g b W lb (ix2 i n)
      = max ((∑ k : Fin 64, ((x (ix2 i k) - lowMean x (ix1 k)) * Ideal.rsqrt (lowVar x (ix1 k) + eps) * g (ix1 k) + b (ix1 k))
          * W (ix2 k n)) + lb (ix1 n)) 0 := by
  unfold lowPre
  refine (maximumf_apply _ _ _).trans ?_
  refine congrArg₂ max ?_ ((broadcastInDim_scalar_apply _ _ _).trans Ideal.ofBits_zero_f32)
  refine (addf_apply _ _ _).trans ?_
  refine congrArg₂ (· + ·) ?_ ?_
  · refine (dot_apply _ _ i n).trans ?_
    exact Finset.sum_congr rfl fun k _ => congrArg (· * W (ix2 k n)) (lowNormed_apply x g b i k)
  · refine (broadcastInDim_apply _ _ _ (ix2 i n) (ix2 (0 : Fin 1) n) (fun a => ?_)).trans ?_
    · match a with
      | ⟨0, _⟩ => rfl
      | ⟨1, _⟩ => rfl
    refine broadcastInDim_apply _ _ _ (ix2 (0 : Fin 1) n) (ix1 n) (fun a => ?_)
    match a with
    | ⟨0, _⟩ => rfl

end Cert.ReferenceIdeal.Straight

end
-- ==== Proof.LowLayerBridge.lean ====
/-
  The low-dimensional branch's linear layer agrees.

  Under the precondition, the array the kernel's third region leaves — the clamped affine image, row by row, of the
  features normalized with the kernel's statistics — is the reference's linear-layer function of the same launch
  arrays: the statistics agree (the variance by the law of Proof/VarLaw.lean), the reshaped scale, shift and bias read
  the arguments, the format change of the weights is the identity, and the two matrix products are the same sums.
-/
import proofs.«160607_j85856396247988_1_alg».proof.Proof.LowBridge
import proofs.«160607_j85856396247988_1_alg».proof.Proof.LowLayer
import proofs.«160607_j85856396247988_1_alg».proof.Proof.RefLinIdeal
import Idealize.ShloMosaic.Lib.ValueLayout

set_option maxRecDepth 16384

noncomputable section

namespace Cert.Bridge.Low

open Idealize.ShloMosaic Idealize.ShloMosaic.TcCoe Idealize.SL.Sem Idealize.ShloMosaic.StableHlo
open Idealize.ShloMosaic.ValueIdx

variable (m : (ℓ : Loc Cert.KernelIdeal.nD Cert.KernelIdeal.τ Cert.KernelIdeal.sig) → Buf (Elt Ideal) ℓ) (ρ : Dev Cert.KernelIdeal.nD → PrngReg)

/-- The launch arrays the low branch reads, at the reference's types. -/
abbrev ax (c : Dev Cert.KernelIdeal.nD) : FVec Ideal Cert.ReferenceIdeal.S50000x64 .f32 := m ((c.tc : Thread Cert.KernelIdeal.nD Cert.KernelIdeal.τ).loc Cert.KernelIdeal.main_arg1)
abbrev ag (c : Dev Cert.KernelIdeal.nD) : FVec Ideal Cert.ReferenceIdeal.S64 .f32 := m ((c.tc : Thread Cert.KernelIdeal.nD Cert.KernelIdeal.τ).loc Cert.KernelIdeal.main_arg4)
abbrev ab (c : Dev Cert.KernelIdeal.nD) : FVec Ideal Cert.ReferenceIdeal.S64 .f32 := m ((c.tc : Thread Cert.KernelIdeal.nD Cert.KernelIdeal.τ).loc Cert.KernelIdeal.main_arg5)
abbrev aW (c : Dev Cert.KernelIdeal.nD) : FVec Ideal Cert.ReferenceIdeal.S64x128 .f32 := m ((c.tc : Thread Cert.KernelIdeal.nD Cert.KernelIdeal.τ).loc Cert.KernelIdeal.main_arg8)
abbrev al (c : Dev Cert.KernelIdeal.nD) : FVec Ideal Cert.ReferenceIdeal.S128 .f32 := m ((c.tc : Thread Cert.KernelIdeal.nD Cert.KernelIdeal.τ).loc Cert.KernelIdeal.main_arg9)

/-- The kernel's mean is the reference's mean function of the launch features. -/
theorem kmean (c : Dev Cert.KernelIdeal.nD) (j : Fin 64) :
    Cert.KernelIdeal.Gen.V2 m ρ c Cert.KernelIdeal.main_v2 (ix2 (0 : Fin 1) j) = Cert.ReferenceIdeal.Straight.lowMean (ax m c) (ix1 j) := by
  rw [Cert.KernelIdeal.LowStats.mean_apply, Cert.ReferenceIdeal.Straight.lowMean_apply, zero_add]

/-- The kernel's variance is the reference's variance function of the launch features, under the precondition. -/
theorem kvar [hP : Cert.Pre_finite_inputs.Facts] (hpre : Cert.Pre_KernelIdeal m) (c : Dev Cert.KernelIdeal.nD) (j : Fin 64) :
    Cert.KernelIdeal.Gen.V2 m ρ c Cert.KernelIdeal.main_v6 (ix2 (0 : Fin 1) j) = Cert.ReferenceIdeal.Straight.lowVar (ax m c) (ix1 j) := by
  rw [Cert.KernelIdeal.LowStats.var_apply, Cert.ReferenceIdeal.Straight.lowVar_apply]
  exact var_agree _ (Cert.Finite.low_real m hpre c) j

/-- The kernel's linear-layer array is the reference's linear-layer function of the launch arrays. -/
theorem klayer [hP : Cert.Pre_finite_inputs.Facts] (hpre : Cert.Pre_KernelIdeal m) (c : Dev Cert.KernelIdeal.nD) (i : Fin 50000) (n : Fin 128) :
    Cert.KernelIdeal.Gen.V5 m ρ c Cert.KernelIdeal.main_v22 (ix2 i n)
      = Cert.ReferenceIdeal.Straight.lowPre (ax m c) (ag m c) (ab m c) (aW m c) (al m c) (ix2 i n) := by
  have hV : Cert.KernelIdeal.Gen.V5 m ρ c Cert.KernelIdeal.main_v22 = Cert.KernelIdeal.Lin2.G (Cert.KernelIdeal.Gen.V4 m ρ) c :=
    (Cert.KernelIdeal.Gen.hF2 m ρ c 7).symm.trans (Cert.KernelIdeal.Lin2.final (Cert.KernelIdeal.Gen.V4 m ρ) c)
  rw [hV, Cert.ReferenceIdeal.Straight.lowPre_apply]
  show Cert.KernelIdeal.Lin2.rowOut (fun k => Cert.KernelIdeal.Lin2.X (Cert.KernelIdeal.Gen.V4 m ρ) c (ix2 i k)) (Cert.KernelIdeal.Lin2.mu (Cert.KernelIdeal.Gen.V4 m ρ) c) (Cert.KernelIdeal.Lin2.sg (Cert.KernelIdeal.Gen.V4 m ρ) c)
    (Cert.KernelIdeal.Lin2.gm (Cert.KernelIdeal.Gen.V4 m ρ) c) (Cert.KernelIdeal.Lin2.bt (Cert.KernelIdeal.Gen.V4 m ρ) c) (Cert.KernelIdeal.Lin2.Wt (Cert.KernelIdeal.Gen.V4 m ρ) c) (Cert.KernelIdeal.Lin2.lb (Cert.KernelIdeal.Gen.V4 m ρ) c) n = _
  unfold Cert.KernelIdeal.Lin2.rowOut Cert.KernelIdeal.Lin2.normed
  have e1 : ∀ k : Fin 64, Cert.KernelIdeal.Lin2.X (Cert.KernelIdeal.Gen.V4 m ρ) c (ix2 i k) = ax m c (ix2 i k) := fun k =>
    congrFun (Cert.KernelIdeal.LowLayer.feat_eq m ρ c) (ix2 i k)
  have e2 : ∀ k : Fin 64, Cert.KernelIdeal.Lin2.mu (Cert.KernelIdeal.Gen.V4 m ρ) c (ix2 (0 : Fin 1) k) = Cert.ReferenceIdeal.Straight.lowMean (ax m c) (ix1 k) := fun k =>
    (congrFun (Cert.KernelIdeal.LowLayer.mean_eq m ρ c) (ix2 (0 : Fin 1) k)).trans (kmean m ρ c k)
  have e3 : ∀ k : Fin 64, Cert.KernelIdeal.Lin2.sg (Cert.KernelIdeal.Gen.V4 m ρ) c (ix2 (0 : Fin 1) k) = Cert.ReferenceIdeal.Straight.lowVar (ax m c) (ix1 k) := fun k =>
    (congrFun (Cert.KernelIdeal.LowLayer.var_eq m ρ c) (ix2 (0 : Fin 1) k)).trans (kvar m ρ hpre c k)
  have e4 : ∀ k : Fin 64, Cert.KernelIdeal.Lin2.gm (Cert.KernelIdeal.Gen.V4 m ρ) c (ix2 (0 : Fin 1) k) = ag m c (ix1 k) := fun k =>
    (congrFun (Cert.KernelIdeal.LowLayer.scale_eq m ρ c) (ix2 (0 : Fin 1) k)).trans (shapeCast_a_1a_apply _ _ (0 : Fin 1) k)
  have e5 : ∀ k : Fin 64, Cert.KernelIdeal.Lin2.bt (Cert.KernelIdeal.Gen.V4 m ρ) c (ix2 (0 : Fin 1) k) = ab m c (ix1 k) := fun k =>
    (congrFun (Cert.KernelIdeal.LowLayer.shift_eq m ρ c) (ix2 (0 : Fin 1) k)).trans (shapeCast_a_1a_apply _ _ (0 : Fin 1) k)
  have e6 : ∀ k : Fin 64, Cert.KernelIdeal.Lin2.Wt (Cert.KernelIdeal.Gen.V4 m ρ) c (ix2 k n) = aW m c (ix2 k n) := fun k =>
    congrFun (Cert.KernelIdeal.LowLayer.weights_eq m ρ c) (ix2 k n)
  have e7 : Cert.KernelIdeal.Lin2.lb (Cert.KernelIdeal.Gen.V4 m ρ) c (ix2 (0 : Fin 1) n) = al m c (ix1 n) :=
    (congrFun (Cert.KernelIdeal.LowLayer.bias_eq m ρ c) (ix2 (0 : Fin 1) n)).trans (shapeCast_a_1a_apply _ _ (0 : Fin 1) n)
  simp only [e1, e2, e3, e4, e5, e6, e7]

end Cert.Bridge.Low

end
-- ==== Proof.Stats4.lean ====
/-
  The third statistics region, read as values.

  The region walks the 10 row blocks of the [50000, 128] array the low-dimensional branch's linear layer and relu produced.  Its two outputs are
  single [1, 128] blocks whose index never moves, so each stays in its staging buffer across the grid and is
  written back once, after the last point.  At the first point the body stores a zero row, reads it back, and adds
  the block's column sums (for the second output: the column sums of the squared block); at every later point it
  adds the block's column sums to what the point before left.  So after point n the two buffers hold the running
  sums of the column sums (of the squares) of blocks 0 … n, and the two result arrays end holding the running sums
  after the last point.
-/
import proofs.«160607_j85856396247988_1_alg».proof.Proof.Gen.KernelIdeal.Frame
import Idealize.ShloMosaic.Lib.Pipeline.Value
import Idealize.ShloMosaic.Lib.Tactic

set_option maxRecDepth 16384

noncomputable section

namespace Cert.KernelIdeal.Stats4

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]

theorem hz : (![0, 0] : Fin 2 → Nat) = fun _ => 0 := funext fun a => by fin_cases a <;> rfl

/-- A later point leaves, in the first output's buffer holding `xo1`, `xo1` plus the block's column sums. -/
theorem laterSum (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero hz]
  simp only [View.readAt_eq_ld, h1.read_unread, h2.read_unread, h3.read_unread, View.ld_unit_zero (S := S5000x128) hz,
    View.ld_unit_zero (S := S1x128) hz]

/-- A later point leaves, in the second output's buffer holding `xo2`, `xo2` plus the column sums of the squared block. -/
theorem laterSq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero hz]
  simp only [View.readAt_eq_ld, h1.read_unread, h2.read_unread, h3.read_unread, View.ld_unit_zero (S := S5000x128) hz,
    View.ld_unit_zero (S := S1x128) hz]

/-- The first point stores the zero row, reads it back, and leaves it plus the block's column sums. -/
theorem firstSum (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_1 c i a1 h1 a2 h2 a3 h3 hc x = k4_pay4 x k4_pay2 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S5000x128) hz, View.ld_unit_zero (S := S1x128) hz]

/-- The first point leaves, in the second output's buffer, the zero row plus the column sums of the squared block. -/
theorem firstSq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_2 c i a1 h1 a2 h2 a3 h3 hc x = k4_pay5 x k4_pay3 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S5000x128) hz, View.ld_unit_zero (S := S1x128) hz]

section Running

variable (V : (c : Dev nD) → (b : Ref sig .tc) → Buf (Elt F) ((c : Thread nD τ).loc b))

/-- The running pair after point `n`: (sum of the blocks' column sums, sum of the squared blocks' column sums). -/
def running (c : Dev nD) : (n : ℕ) → n < cfg4.N → Vec F S1x128 .f32 × Vec F S1x128 .f32
  | 0, h => (k4_pay4 (iblk4 V c 0 ⟨0, h⟩) k4_pay2, k4_pay5 (iblk4 V c 0 ⟨0, h⟩) k4_pay3)
  | n + 1, h => (k4_pay4 (iblk4 V c 0 ⟨n + 1, h⟩) (running c n (Nat.lt_of_succ_lt h)).1,
      k4_pay5 (iblk4 V c 0 ⟨n + 1, h⟩) (running c n (Nat.lt_of_succ_lt h)).2)

/-- What the two staging buffers hold after point `n` is the running pair: by induction on the point. -/
theorem outsAt_eq (c : Dev nD) : ∀ (n : ℕ) (h : n < cfg4.N), outsAt4 V c n h = running V c n h
  | 0, h => by
    rw [outsAt4_A V c ⟨0, h⟩ rfl, firstSum, firstSq]
    rfl
  | n + 1, h => by
    have hN : cfg4.N = 10 := N_4
    have hB : ¬(⟨n + 1, h⟩ : Fin cfg4.N).val % 10 = 0 := by dsimp only; omega
    rw [outsAt4_B V c ⟨n + 1, h⟩ hB, laterSum, laterSq]
    show (k4_pay4 _ (outsAt4 V c n _).1, k4_pay5 _ (outsAt4 V c n _).2) = _
    rw [outsAt_eq c n]
    rfl

end Running

end Cert.KernelIdeal.Stats4

end
-- ==== Proof.Stats4Final.lean ====
/-
  The third statistics region: its two result arrays.

  Each output of the region is one [1, 128] block, written back once, after the last of the 10 points.  That block is
  the whole array, so each result array ends holding what its staging buffer held after the last point: the running
  sum of the blocks' column sums, and the running sum of the squared blocks' column sums.
-/
import proofs.«160607_j85856396247988_1_alg».proof.Proof.Stats4

set_option maxRecDepth 16384

noncomputable section

namespace Cert.KernelIdeal.Stats4

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]
variable (V : (c : Dev nD) → (b : Ref sig .tc) → Buf (Elt F) ((c : Thread nD τ).loc b))

theorem ltLast : 9 < cfg4.N := by rw [show cfg4.N = 10 from N_4]; decide

/-- The last grid point. -/
abbrev last : Fin cfg4.N := ⟨9, ltLast⟩

/-- The running sum of column sums after the last point, as contents of the first result array. -/
abbrev res1 (c : Dev nD) : Buf (Elt F) ((c : Thread nD τ).loc main_v24_0) := (running V c 9 ltLast).1
/-- The running sum of the squares' column sums after the last point, as contents of the second result array. -/
abbrev res2 (c : Dev nD) : Buf (Elt F) ((c : Thread nD τ).loc main_v24_1) := (running V c 9 ltLast).2

/-- The one write-back of output 1, after the last point, writes the running sum: block (0, 0) of the [1, 128] array is the array. -/
theorem flushed1 (c : Dev nD) (t : Fin cfg4.N) (hf : (cfg4.win 1).flush t = true) :
    (dat4 V c).flushed 1 t = ((cfg4.win 1).blk t).view.read (Elt F) (res1 V c) := by
  have hN : cfg4.N = 10 := N_4
  have hl : t.val = 9 := by have := (flush4_1 t).mp hf; have := t.isLt; omega
  obtain rfl : t = last := Fin.ext hl
  show (cfg4.win 1).cut (grid4.coords last) ((dat4 V c).after 1 last) = _
  rw [after4_1, Stats4.outsAt_eq]
  have hz' : (fun a => win4_1.index last a * main_v24_0.ty.shape.size a) = fun _ => 0 := funext fun a => by fin_cases a <;> decide
  exact (Memref.read_access_unit_zero (Elt F) main_v24_0 hz' (fun a => by rw [congrFun hz' a]; simp) (res1 V c)).symm

/-- So result array 1 ends holding the running sum after the last point. -/
theorem final1 (c : Dev nD) : (dat4 V c).arrAt 1 cfg4.N = res1 V c :=
  (dat4 V c).arrAt_eq_of_cover 1 (res1 V c) (flushed1 V c) fun i =>
    ⟨last, (flush4_1 last).mpr rfl, by
      show i ∈ ((View.whole main_v24_0).slice (win4_1.rect last)).set
      rw [View.set_slice_whole, Rect.mem_set_unit]
      intro a
      have h0 : (i 0 : Nat) < 1 := (i 0).isLt
      have h1 : (i 1 : Nat) < 128 := (i 1).isLt
      match a with
      | ⟨0, _⟩ => show win4_1.index last 0 * win4_1.size 0 ≤ (i 0 : Nat) ∧ (i 0 : Nat) < win4_1.index last 0 * win4_1.size 0 + win4_1.xsize (grid4.coords last) 0
                  rw [show win4_1.index last 0 * win4_1.size 0 = 0 from by decide +kernel, show win4_1.xsize (grid4.coords last) 0 = 1 from by decide +kernel]; omega
      | ⟨1, _⟩ => show win4_1.index last 1 * win4_1.size 1 ≤ (i 1 : Nat) ∧ (i 1 : Nat) < win4_1.index last 1 * win4_1.size 1 + win4_1.xsize (grid4.coords last) 1
                  rw [show win4_1.index last 1 * win4_1.size 1 = 0 from by decide +kernel, show win4_1.xsize (grid4.coords last) 1 = 128 from by decide +kernel]; omega⟩

/-- The one write-back of output 2, after the last point, writes the running sum of squares: block (0, 0) of the [1, 128] array is the array. -/
theorem flushed2 (c : Dev nD) (t : Fin cfg4.N) (hf : (cfg4.win 2).flush t = true) :
    (dat4 V c).flushed 2 t = ((cfg4.win 2).blk t).view.read (Elt F) (res2 V c) := by
  have hN : cfg4.N = 10 := N_4
  have hl : t.val = 9 := by have := (flush4_2 t).mp hf; have := t.isLt; omega
  obtain rfl : t = last := Fin.ext hl
  show (cfg4.win 2).cut (grid4.coords last) ((dat4 V c).after 2 last) = _
  rw [after4_2, Stats4.outsAt_eq]
  have hz' : (fun a => win4_2.index last a * main_v24_1.ty.shape.size a) = fun _ => 0 := funext fun a => by fin_cases a <;> decide
  exact (Memref.read_access_unit_zero (Elt F) main_v24_1 hz' (fun a => by rw [congrFun hz' a]; simp) (res2 V c)).symm

/-- So result array 2 ends holding the running sum of squares after the last point. -/
theorem final2 (c : Dev nD) : (dat4 V c).arrAt 2 cfg4.N = res2 V c :=
  (dat4 V c).arrAt_eq_of_cover 2 (res2 V c) (flushed2 V c) fun i =>
    ⟨last, (flush4_2 last).mpr rfl, by
      show i ∈ ((View.whole main_v24_1).slice (win4_2.rect last)).set
      rw [View.set_slice_whole, Rect.mem_set_unit]
      intro a
      have h0 : (i 0 : Nat) < 1 := (i 0).isLt
      have h1 : (i 1 : Nat) < 128 := (i 1).isLt
      match a with
      | ⟨0, _⟩ => show win4_2.index last 0 * win4_2.size 0 ≤ (i 0 : Nat) ∧ (i 0 : Nat) < win4_2.index last 0 * win4_2.size 0 + win4_2.xsize (grid4.coords last) 0
                  rw [show win4_2.index last 0 * win4_2.size 0 = 0 from by decide +kernel, show win4_2.xsize (grid4.coords last) 0 = 1 from by decide +kernel]; omega
      | ⟨1, _⟩ => show win4_2.index last 1 * win4_2.size 1 ≤ (i 1 : Nat) ∧ (i 1 : Nat) < win4_2.index last 1 * win4_2.size 1 + win4_2.xsize (grid4.coords last) 1
                  rw [show win4_2.index last 1 * win4_2.size 1 = 0 from by decide +kernel, show win4_2.xsize (grid4.coords last) 1 = 128 from by decide +kernel]; omega⟩

end Cert.KernelIdeal.Stats4

end
-- ==== Proof.Stats4Ideal.lean ====
/-
  The third statistics region over the extended reals: its result arrays are the column sums.

  Over the extended reals a lane sum over the rows of a block is the plain sum of the block's entries in a column, and
  the body adds it to what the buffer held.  Row r of block t is row 5000·t + r of the array, so after point n the
  first buffer holds, in column j, the sum of the array's entries in rows 0 … 5000·(n+1) − 1 of that column, and the
  second the sum of their squares; after the last point that is the whole column.  Addition on the extended reals is
  associative and commutative with neutral element zero, so the order in which the blocks were added does not matter,
  and nothing here needs the entries to be finite.
-/
import proofs.«160607_j85856396247988_1_alg».proof.Proof.Stats4Final
import Idealize.ShloMosaic.PureOps.Ideal.Laws
import Idealize.ShloMosaic.Lib.ValueIdx

set_option maxRecDepth 16384

noncomputable section

namespace Cert.KernelIdeal.Stats4

open Cert.KernelIdeal Cert.KernelIdeal.Gen
open Idealize.ShloMosaic Idealize.ShloMosaic.TcCoe Idealize.SL.Sem Idealize.ShloMosaic.Tactic
open Idealize.ShloMosaic.ValueIdx

/-- The body first reshapes the block to its own shape: the identity. -/
theorem pre_eq (x : Vec Ideal S5000x128 .f32) : k4_pay1 (F := Ideal) x = x := by
  unfold k4_pay1
  exact shapeCast_self x _

/-- A lane sum over the 5000 rows of a block, in column `j`, is the sum of the column's entries. -/
theorem rowsum_apply (x : FVec Ideal S5000x128 .f32) (hφ : FKind.Formats .f32)
    (hacc : (0x00000000#32 : BitVec 32) = FKind.add.neutral .f32 hφ) (j : Fin 128) :
    multiReduction .add [0] S128 x 0x00000000#32 reduces_S5000x128_S128 hφ hacc (ix1 j) = ∑ r : Fin 5000, x (ix2 r j) := by
  refine (Ideal.multiReduction_add_single x 0x00000000#32 reduces_S5000x128_S128 hφ hacc (ix1 j)).trans ?_
  refine Finset.sum_congr rfl fun r _ => congrArg x (funext fun a => ?_)
  match a with
  | ⟨0, _⟩ => rfl
  | ⟨1, _⟩ => rfl

theorem tail_ix (j : Fin 128) : (fun a : Fin 1 => (ix2 (0 : Fin 1) j) a.succ) = ix1 j :=
  funext fun a => match a with | ⟨0, _⟩ => rfl

/-- The sum payload in column `j`: what the buffer held plus the block's column sum. -/
theorem sumPay_apply (x : Vec Ideal S5000x128 .f32) (acc : Vec Ideal S1x128 .f32) (j : Fin 128) :
    k4_pay4 (F := Ideal) x acc (ix2 (0 : Fin 1) j) = acc (ix2 0 j) + ∑ r : Fin 5000, x (ix2 r j) := by
  unfold k4_pay4
  dsimp only
  refine (addf_apply _ _ _).trans ?_
  refine congrArg₂ (· + ·) (congrFun (shapeCast_self acc _) _) ?_
  refine (shapeCast_addUnit_apply ![128] _ _ (ix2 (0 : Fin 1) j)).trans ?_
  rw [tail_ix, pre_eq]
  exact rowsum_apply x _ _ j

/-- The square payload in column `j`: what the buffer held plus the sum of the squares of the block's column. -/
theorem sqPay_apply (x : Vec Ideal S5000x128 .f32) (acc : Vec Ideal S1x128 .f32) (j : Fin 128) :
    k4_pay5 (F := Ideal) x acc (ix2 (0 : Fin 1) j) = acc (ix2 0 j) + ∑ r : Fin 5000, x (ix2 r j) * x (ix2 r j) := by
  unfold k4_pay5
  dsimp only
  refine (addf_apply _ _ _).trans ?_
  refine congrArg₂ (· + ·) (congrFun (shapeCast_self acc _) _) ?_
  refine (shapeCast_addUnit_apply ![128] _ _ (ix2 (0 : Fin 1) j)).trans ?_
  rw [tail_ix, pre_eq]
  refine (rowsum_apply (mulf x x) _ _ j).trans ?_
  exact Finset.sum_congr rfl fun r _ => mulf_apply x x (ix2 r j)

/-- The zero row the first point stores. -/
theorem zeroRow1 (y : S1x128.Idx) : k4_pay2 (F := Ideal) y = 0 := by
  unfold k4_pay2
  exact Ideal.ofBits_zero_f32
theorem zeroRow2 (y : S1x128.Idx) : k4_pay3 (F := Ideal) y = 0 := by
  unfold k4_pay3
  exact Ideal.ofBits_zero_f32

section Sums

variable (V : (c : Dev nD) → (b : Ref sig .tc) → Buf (Elt Ideal) ((c : Thread nD τ).loc b))

/-- The region's input array as it finds it. -/
abbrev feat (c : Dev nD) : S50000x128.Idx → EReal := V c main_v22

/-- Column `j` of the input array by row number (zero past the last row). -/
def entry (c : Dev nD) (j : Fin 128) (i : ℕ) : EReal := if h : i < 50000 then feat V c (ix2 ⟨i, h⟩ j) else 0

/-- Block `t` of the input array, as a [5000, 128] vector. -/
abbrev blk (c : Dev nD) (t : Fin cfg4.N) : Vec Ideal S5000x128 .f32 := iblk4 V c 0 t

theorem idx_facts : ∀ t : Fin cfg4.N, win4_0.index t (0 : Fin 2) = t.val ∧ win4_0.index t (1 : Fin 2) = 0 :=
  (by decide +kernel : ∀ t : Fin grid4.N, _)

/-- Row `r` of block `t` is row 5000·t + r of the array. -/
theorem iblk_apply (c : Dev nD) (t : Fin cfg4.N) (r : Fin 5000) (j : Fin 128) :
    blk V c t (ix2 r j) = entry V c j (5000 * t.val + r.val) := by
  have hN : cfg4.N = 10 := N_4
  have ht := t.isLt
  have hr := r.isLt
  have hlt : 5000 * t.val + r.val < 50000 := by omega
  have hi := idx_facts t
  unfold entry
  rw [dif_pos hlt]
  unfold blk iblk4
  rw [View.read_apply]
  show V c main_v22 _ = V c main_v22 _
  congr 1
  funext a
  apply Fin.ext
  match a with
  | ⟨0, _⟩ => show win4_0.index t 0 * 5000 + 1 * r.val = 5000 * t.val + r.val; rw [hi.1]; omega
  | ⟨1, _⟩ => show win4_0.index t 1 * 128 + 1 * j.val = j.val; rw [hi.2]; omega

/-- A block's column sum is the sum of 5000 consecutive entries of the array's column. -/
theorem blockSum (c : Dev nD) (t : Fin cfg4.N) (j : Fin 128) :
    ∑ r : Fin 5000, blk V c t (ix2 r j) = ∑ r ∈ Finset.range 5000, entry V c j (5000 * t.val + r) := by
  rw [Finset.sum_range]
  exact Finset.sum_congr rfl fun r _ => iblk_apply V c t r j

theorem blockSq (c : Dev nD) (t : Fin cfg4.N) (j : Fin 128) :
    ∑ r : Fin 5000, blk V c t (ix2 r j) * blk V c t (ix2 r j)
      = ∑ r ∈ Finset.range 5000, entry V c j (5000 * t.val + r) * entry V c j (5000 * t.val + r) := by
  rw [Finset.sum_range]
  exact Finset.sum_congr rfl fun r _ => by rw [iblk_apply V c t r j]

/-- After point `n` the first buffer holds, in column `j`, the sum of the first 5000·(n+1) entries of the column. -/
theorem running_sum (c : Dev nD) : ∀ (n : ℕ) (h : n < cfg4.N) (j : Fin 128),
    (running V c n h).1 (ix2 (0 : Fin 1) j) = ∑ i ∈ Finset.range (5000 * (n + 1)), entry V c j i
  | 0, h, j => by
    show k4_pay4 (F := Ideal) (blk V c ⟨0, h⟩) (k4_pay2 (F := Ideal)) (ix2 (0 : Fin 1) j) = _
    rw [sumPay_apply, zeroRow1, zero_add, blockSum]
    simp only [Nat.mul_zero, Nat.zero_add, Nat.mul_one]
  | n + 1, h, j => by
    show k4_pay4 (F := Ideal) (blk V c ⟨n + 1, h⟩) (running V c n (Nat.lt_of_succ_lt h)).1 (ix2 (0 : Fin 1) j) = _
    rw [sumPay_apply, running_sum c n, blockSum, show 5000 * (n + 1 + 1) = 5000 * (n + 1) + 5000 from by ring, Finset.sum_range_add]

/-- After point `n` the second buffer holds, in column `j`, the sum of the squares of those entries. -/
theorem running_sq (c : Dev nD) : ∀ (n : ℕ) (h : n < cfg4.N) (j : Fin 128),
    (running V c n h).2 (ix2 (0 : Fin 1) j) = ∑ i ∈ Finset.range (5000 * (n + 1)), entry V c j i * entry V c j i
  | 0, h, j => by
    show k4_pay5 (F := Ideal) (blk V c ⟨0, h⟩) (k4_pay3 (F := Ideal)) (ix2 (0 : Fin 1) j) = _
    rw [sqPay_apply, zeroRow2, zero_add, blockSq]
    simp only [Nat.mul_zero, Nat.zero_add, Nat.mul_one]
  | n + 1, h, j => by
    show k4_pay5 (F := Ideal) (blk V c ⟨n + 1, h⟩) (running V c n (Nat.lt_of_succ_lt h)).2 (ix2 (0 : Fin 1) j) = _
    rw [sqPay_apply, running_sq c n, blockSq, show 5000 * (n + 1 + 1) = 5000 * (n + 1) + 5000 from by ring, Finset.sum_range_add]

theorem sum_entry (c : Dev nD) (j : Fin 128) (g : EReal → EReal) (hg : g 0 = 0) :
    ∑ i ∈ Finset.range 50000, g (entry V c j i) = ∑ i : Fin 50000, g (feat V c (ix2 i j)) := by
  rw [Finset.sum_range]
  exact Finset.sum_congr rfl fun i _ => by unfold entry; rw [dif_pos i.isLt]

/-- THE FIRST RESULT ARRAY: in column `j`, the sum of the input array's column over all 50000 rows. -/
theorem colSum (c : Dev nD) (j : Fin 128) :
    (dat4 V c).arrAt 1 cfg4.N (ix2 (0 : Fin 1) j) = ∑ i : Fin 50000, feat V c (ix2 i j) := by
  rw [final1 V c]
  show (running V c 9 ltLast).1 (ix2 (0 : Fin 1) j) = _
  rw [running_sum V c 9 ltLast j]
  exact sum_entry V c j id rfl

/-- THE SECOND RESULT ARRAY: in column `j`, the sum of the squares of the input array's column. -/
theorem colSq (c : Dev nD) (j : Fin 128) :
    (dat4 V c).arrAt 2 cfg4.N (ix2 (0 : Fin 1) j) = ∑ i : Fin 50000, feat V c (ix2 i j) * feat V c (ix2 i j) := by
  rw [final2 V c]
  show (running V c 9 ltLast).2 (ix2 (0 : Fin 1) j) = _
  rw [running_sq V c 9 ltLast j]
  exact sum_entry V c j (fun x => x * x) (by simp)

end Sums

end Cert.KernelIdeal.Stats4

end
-- ==== Proof.LowStats2.lean ====
/-
  The low-dimensional branch's second batch statistics, as the kernel computes them.

  After the third statistics region, which reads the linear layer's output, the host divides the column sums and the column sums of squares by the number of
  rows, and subtracts the square of the first quotient from the second: the mean of each column, and the mean of its
  squares minus the squared mean.
-/
import proofs.«160607_j85856396247988_1_alg».proof.Proof.Stats4Ideal
import Idealize.ShloMosaic.Lib.StableHlo.Run
import Idealize.ShloMosaic.Lib.IdealHost

set_option maxRecDepth 16384

noncomputable section

namespace Cert.KernelIdeal.LowStats2

open Cert.KernelIdeal Cert.KernelIdeal.Gen
open Idealize.ShloMosaic Idealize.ShloMosaic.TcCoe Idealize.SL.Sem Idealize.ShloMosaic.Tactic Idealize.ShloMosaic.StableHlo
open Idealize.ShloMosaic.ValueIdx

variable (m : (ℓ : Loc nD τ sig) → Buf (Elt Ideal) ℓ) (ρ : Dev nD → PrngReg)

/-- The linear layer's output array, as the third region left it. -/
abbrev x (c : Dev nD) : S50000x128.Idx → EReal := V5 m ρ c main_v22

/-- The number of rows, as the programs spell it. -/
abbrev rows : EReal := Ideal.ofBits .f32 0x47435000#32

/-- The row count broadcast along a [1, 128] row. -/
abbrev rowsRow : FVec Ideal S1x128 .f32 := broadcastInDim S1x128 ![] bcast_S_S1x128 (constant (F := Ideal) S_ .f32 0x47435000#32)

/-- After the third host stretch the mean buffer holds the first result array divided by the row count. -/
theorem mean_buf (c : Dev nD) : V8 m ρ c main_v26 = Host.divf (F := Ideal) (V7 m ρ c main_v24_0) rowsRow := by
  show StableHlo.after hostOps5 (W7 m ρ c) (Proc.devRef .tc main_v26) = _
  after_results

/-- … and the variance buffer the second result array divided by the row count, minus the squared mean. -/
theorem var_buf (c : Dev nD) :
    V8 m ρ c main_v30 = subf (Host.divf (F := Ideal) (V7 m ρ c main_v24_1) rowsRow)
      (mulf (Host.divf (F := Ideal) (V7 m ρ c main_v24_0) rowsRow) (Host.divf (F := Ideal) (V7 m ρ c main_v24_0) rowsRow)) := by
  show StableHlo.after hostOps5 (W7 m ρ c) (Proc.devRef .tc main_v30) = _
  after_results

/-- The third statistics region finds the layer's output as the third region left it: the fourth region does not own it. -/
theorem kept (c : Dev nD) : V6 m ρ c main_v22 = V5 m ρ c main_v22 := W6_of_ne m ρ c main_v22 (by decide)

theorem rowsRow_apply (y : S1x128.Idx) : rowsRow y = rows := (broadcastInDim_scalar_apply _ _ _).trans rfl

/-- The first result array of the third statistics region, in column `j`: the column's sum. -/
theorem sum_apply (c : Dev nD) (j : Fin 128) :
    V7 m ρ c main_v24_0 (ix2 (0 : Fin 1) j) = ∑ i : Fin 50000, x m ρ c (ix2 i j) :=
  (congrFun (hF4 m ρ c 1).symm (ix2 (0 : Fin 1) j)).trans ((Stats4.colSum (V6 m ρ) c j).trans (by
    have e : Stats4.feat (V6 m ρ) c = x m ρ c := kept m ρ c
    rw [e]))

/-- The second result array, in column `j`: the sum of the column's squares. -/
theorem sq_apply (c : Dev nD) (j : Fin 128) :
    V7 m ρ c main_v24_1 (ix2 (0 : Fin 1) j) = ∑ i : Fin 50000, x m ρ c (ix2 i j) * x m ρ c (ix2 i j) :=
  (congrFun (hF4 m ρ c 2).symm (ix2 (0 : Fin 1) j)).trans ((Stats4.colSq (V6 m ρ) c j).trans (by
    have e : Stats4.feat (V6 m ρ) c = x m ρ c := kept m ρ c
    rw [e]))

/-- The kernel's mean of column `j`. -/
theorem mean_apply (c : Dev nD) (j : Fin 128) :
    V8 m ρ c main_v26 (ix2 (0 : Fin 1) j) = Ideal.div (∑ i : Fin 50000, x m ρ c (ix2 i j)) rows := by
  rw [mean_buf m ρ c]
  refine (hostDivf_apply _ _ _).trans ?_
  rw [sum_apply, rowsRow_apply]

/-- The kernel's variance of column `j`: the mean of the squares minus the squared mean. -/
theorem var_apply (c : Dev nD) (j : Fin 128) :
    V8 m ρ c main_v30 (ix2 (0 : Fin 1) j)
      = Ideal.div (∑ i : Fin 50000, x m ρ c (ix2 i j) * x m ρ c (ix2 i j)) rows
        - Ideal.div (∑ i : Fin 50000, x m ρ c (ix2 i j)) rows * Ideal.div (∑ i : Fin 50000, x m ρ c (ix2 i j)) rows := by
  rw [var_buf m ρ c]
  refine (subf_apply _ _ _).trans ?_
  refine congrArg₂ (· - ·) ?_ ?_
  · refine (hostDivf_apply _ _ _).trans ?_
    rw [sq_apply, rowsRow_apply]
  · refine (mulf_apply _ _ _).trans ?_
    rw [hostDivf_apply, sum_apply, rowsRow_apply]

end Cert.KernelIdeal.LowStats2

end
-- ==== Proof.RefStats2.lean ====
/-
  The low-dimensional branch's second batch statistics, as the reference computes them.

  The reference takes each column's mean as the column's sum divided by the number of rows.  Its variance is jax's
  outlined function: the same mean again, the deviations from it, the sum of their squares divided by the number of
  rows minus the degrees-of-freedom correction (zero here), guarded by a select that answers a NaN pattern when that
  divisor is not positive — which it is, so the guard always takes the quotient.
-/
import proofs.«160607_j85856396247988_1_alg».proof.Proof.RefStats
import Idealize.ShloMosaic.Lib.IdealHost

set_option maxRecDepth 16384

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

/-- The column sums of a [50000, 128] array as the host takes them. -/
def lowSum2 (x : FVec Ideal S50000x128 .f32) : FVec Ideal S128 .f32 :=
  Host.reduceAdd (F := Ideal) x (constant (F := Ideal) S_ .f32 0x00000000#32) reducesTo_S50000x128_S128_d0 h_S_

/-- The column means. -/
def lowMean2 (x : FVec Ideal S50000x128 .f32) : FVec Ideal S128 .f32 :=
  Host.divf (F := Ideal) (lowSum2 x) (broadcastInDim S128 ![] bcast_S_S128 (constant (F := Ideal) S_ .f32 0x47435000#32))

/-- The divisor of the variance: the row count minus the correction. -/
def lowCount2 : FVec Ideal S_ .f32 :=
  subf (constant (F := Ideal) S_ .f32 0x47435000#32) (sitofp (F := Ideal) .f32 (constantI S_ 32 0#32))

/-- The deviations from the column means, the means recomputed inside the outlined function. -/
def lowDev2 (x : FVec Ideal S50000x128 .f32) : FVec Ideal S50000x128 .f32 :=
  subf x (broadcastInDim S50000x128 ![0, 1] bcast_S1x128_S50000x128_0_1
    (Host.divf (F := Ideal) (broadcastInDim S1x128 ![1] bcast_S128_S1x128_1 (lowSum2 x))
      (broadcastInDim S1x128 ![] bcast_S_S1x128 (constant (F := Ideal) S_ .f32 0x47435000#32))))

/-- The column variances, with the guard. -/
def lowVar2 (x : FVec Ideal S50000x128 .f32) : FVec Ideal S128 .f32 :=
  select (broadcastInDim S128 ![] bcast_S_S128 (cmpf .ogt lowCount2 (constant (F := Ideal) S_ .f32 0x00000000#32)))
    (Host.divf (F := Ideal)
      (Host.reduceAdd (F := Ideal) (mulf (lowDev2 x) (lowDev2 x)) (constant (F := Ideal) S_ .f32 0x00000000#32) reducesTo_S50000x128_S128_d0 h_S_)
      (broadcastInDim S128 ![] bcast_S_S128 lowCount2))
    (broadcastInDim S128 ![] bcast_S_S128 (id (constant (F := Ideal) S_ .f32 0x7FC00000#32)))

set_option maxHeartbeats 1600000 in
/-- The reference's mean buffer holds the column means of the linear layer's output. -/
theorem mean_buf2 (V : Valuation τ sig (Elt Ideal)) :
    after (opsA1 (F := Ideal)) V (Proc.devRef .tc main_v26) = lowMean2 (V (Proc.devRef .tc main_v23)) := by
  after_results
  rfl

attribute [local irreducible] Host.reduceAdd Host.divf in
set_option maxHeartbeats 3200000 in
/-- The reference's variance buffer holds their column variances. -/
theorem var_buf2 (V : Valuation τ sig (Elt Ideal)) :
    after (opsA1 (F := Ideal)) V (Proc.devRef .tc main_v27) = lowVar2 (V (Proc.devRef .tc main_v23)) := by
  after_results
  rfl

end Cert.ReferenceIdeal.Straight

end
-- ==== Proof.RefStats2Ideal.lean ====
/-
  The reference's batch statistics of the linear layer's output, column by column.

  In column j the mean is the sum of the column's 50000 entries (added to the zero the host's reduction starts from)
  divided by the row count; the variance is the sum of the squared deviations from that same quotient, divided by the
  row count, the guard of jax's variance function being open because the divisor is 50000 − 0 > 0.
-/
import proofs.«160607_j85856396247988_1_alg».proof.Proof.RefStats2
import proofs.«160607_j85856396247988_1_alg».proof.Proof.RefStatsIdeal
import Idealize.ShloMosaic.Lib.Pipeline.Value

set_option maxRecDepth 16384

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

theorem reduces_rows2 : S50000x128.Reduces [0] S128 := by decide

/-- The host's column sum in column `j`: zero plus the sum of the column's entries. -/
theorem lowSum2_apply (x : FVec Ideal S50000x128 .f32) (j : Fin 128) :
    lowSum2 x (ix1 j) = 0 + ∑ i : Fin 50000, x (ix2 i j) := by
  unfold lowSum2
  refine (hostReduceAdd_apply _ _ _ _ _).trans ?_
  refine (Ideal.hostReduceAdd_single reducesTo_S50000x128_S128_d0 reduces_rows2 x _ (ix1 j)).trans ?_
  refine congrArg₂ (· + ·) Ideal.ofBits_zero_f32 ?_
  refine Finset.sum_congr rfl fun i _ => congrArg x (funext fun a => ?_)
  match a with
  | ⟨0, _⟩ => rfl
  | ⟨1, _⟩ => rfl

/-- The reference's mean of column `j`. -/
theorem lowMean2_apply (x : FVec Ideal S50000x128 .f32) (j : Fin 128) :
    lowMean2 x (ix1 j) = Ideal.div (0 + ∑ i : Fin 50000, x (ix2 i j)) rows := by
  unfold lowMean2
  refine (hostDivf_apply _ _ _).trans ?_
  rw [lowSum2_apply]
  exact congrArg _ ((broadcastInDim_scalar_apply _ _ _).trans rfl)

/-- The variance's divisor is the real 50000. -/
theorem lowCount2_apply : lowCount2 ix0 = ((50000 : ℝ) : EReal) := by
  show Ideal.ofBits .f32 0x47435000#32 - (((0#32 : BitVec 32).toInt : ℝ) : EReal) = _
  rw [Cert.VarLaw.ofBits_50000]
  simp

/-- The deviation of entry (i, j) from the mean of column `j`. -/
theorem lowDev2_apply (x : FVec Ideal S50000x128 .f32) (i : Fin 50000) (j : Fin 128) :
    lowDev2 x (ix2 i j) = x (ix2 i j) - Ideal.div (0 + ∑ i : Fin 50000, x (ix2 i j)) rows := by
  unfold lowDev2
  refine (subf_apply _ _ _).trans ?_
  refine congrArg (x (ix2 i j) - ·) ?_
  refine (broadcastInDim_apply _ _ _ (ix2 i j) (ix2 (0 : Fin 1) j) (fun a => ?_)).trans ?_
  · match a with
    | ⟨0, _⟩ => rfl
    | ⟨1, _⟩ => rfl
  refine (hostDivf_apply _ _ _).trans ?_
  refine congrArg₂ Ideal.div ?_ ((broadcastInDim_scalar_apply _ _ _).trans rfl)
  refine (broadcastInDim_apply _ _ _ (ix2 (0 : Fin 1) j) (ix1 j) (fun a => ?_)).trans (lowSum2_apply x j)
  match a with
  | ⟨0, _⟩ => rfl

/-- The guard of the variance function is open. -/
theorem guard_open2 : FloatOps.cmpf (F := Ideal) .ogt (lowCount2 ix0) (Ideal.ofBits .f32 0x00000000#32) = 1#1 := by
  rw [lowCount2_apply, Ideal.ofBits_zero_f32, Ideal.cmpf_def]
  unfold Ideal.cmp
  have h : (0 : EReal) < ((50000 : ℝ) : EReal) := by exact_mod_cast (by norm_num : (0 : ℝ) < 50000)
  simp [h]

/-- The reference's variance of column `j`: the mean squared deviation. -/
theorem lowVar2_apply (x : FVec Ideal S50000x128 .f32) (j : Fin 128) :
    lowVar2 x (ix1 j) = Ideal.div (0 + ∑ i : Fin 50000,
        (x (ix2 i j) - Ideal.div (0 + ∑ i : Fin 50000, x (ix2 i j)) rows) * (x (ix2 i j) - Ideal.div (0 + ∑ i : Fin 50000, x (ix2 i j)) rows))
      ((50000 : ℝ) : EReal) := by
  unfold lowVar2
  refine (select_apply _ _ _ _).trans ?_
  have hg : (broadcastInDim S128 ![] bcast_S_S128 (cmpf .ogt lowCount2 (constant (F := Ideal) S_ .f32 0x00000000#32))) (ix1 j) = 1#1 :=
    (broadcastInDim_scalar_apply _ _ _).trans ((cmpf_apply _ _ _ _).trans guard_open2)
  rw [hg, select_one]
  refine (hostDivf_apply _ _ _).trans ?_
  refine congrArg₂ Ideal.div ?_ ((broadcastInDim_scalar_apply _ _ _).trans lowCount2_apply)
  refine (hostReduceAdd_apply _ _ _ _ _).trans ?_
  refine (Ideal.hostReduceAdd_single reducesTo_S50000x128_S128_d0 reduces_rows2 _ _ (ix1 j)).trans ?_
  refine congrArg₂ (· + ·) Ideal.ofBits_zero_f32 ?_
  refine Finset.sum_congr rfl fun i _ => ?_
  have e : reduces_rows2.lift (ix1 j) i = ix2 i j := funext fun a => match a with | ⟨0, _⟩ => rfl | ⟨1, _⟩ => rfl
  rw [e]
  exact (mulf_apply _ _ _).trans (congrArg₂ (· * ·) (lowDev2_apply x i j) (lowDev2_apply x i j))

end Cert.ReferenceIdeal.Straight

end
-- ==== Proof.RealClosure.lean ====
/-
  Real numbers stay real through the normalization.

  The quotient of a real by the row count, the reciprocal square root of a positive real, the maximum of two reals,
  and finite sums, products and differences of reals are reals; the normalization's epsilon is a positive real.  With
  these a normalized and linearly mapped array of reals is an array of reals, which is what the second normalization's
  variance law needs of its input.
-/
import proofs.«160607_j85856396247988_1_alg».proof.Proof.VarLaw

noncomputable section

namespace Cert.RealClosure

open Idealize.ShloMosaic

/-- The pattern of the normalization's epsilon denotes a positive real. -/
theorem eps_eq : Ideal.ofBits .f32 0x3727C5AC#32 = ((10995116 / 1099511627776 : ℝ) : EReal) := by
  simp [Ideal.ofBits, Ideal.ieee, -EReal.coe_mul]; norm_num

theorem eps_pos : (0 : ℝ) < 10995116 / 1099511627776 := by norm_num

/-- The reciprocal square root of a positive real is the real reciprocal square root. -/
theorem rsqrt_pos (r : ℝ) (h : 0 < r) : Ideal.rsqrt (r : EReal) = (((√r)⁻¹ : ℝ) : EReal) := by
  show (if r < 0 then (⊥ : EReal) else if r = 0 then ⊤ else (((√r)⁻¹ : ℝ) : EReal)) = _
  rw [if_neg (not_lt.mpr h.le), if_neg h.ne']

/-- A real divided by the row count is a real. -/
theorem div_rows (a : ℝ) : Ideal.div (a : EReal) (Ideal.ofBits .f32 0x47435000#32) = ((a * (1 / 50000) : ℝ) : EReal) := by
  rw [Cert.VarLaw.ofBits_50000, Ideal.div_coe (by norm_num : (50000 : ℝ) ≠ 0), ← EReal.coe_mul]

theorem div_count (a : ℝ) : Ideal.div (a : EReal) ((50000 : ℝ) : EReal) = ((a * (1 / 50000) : ℝ) : EReal) := by
  rw [Ideal.div_coe (by norm_num : (50000 : ℝ) ≠ 0), ← EReal.coe_mul]

/-- The mean of a column of reals is a real. -/
theorem mean_real {n : ℕ} (x : Fin n → ℝ) :
    Ideal.div (0 + ∑ i, ((x i : ℝ) : EReal)) (Ideal.ofBits .f32 0x47435000#32) = (((∑ i, x i) * (1 / 50000) : ℝ) : EReal) := by
  rw [zero_add, Cert.VarLaw.coe_sum, div_rows]

/-- The mean squared deviation of a column of reals from a real is a real that is not negative. -/
theorem var_real {n : ℕ} (x : Fin n → ℝ) (μ : ℝ) :
    ∃ v : ℝ, 0 ≤ v ∧ Ideal.div (0 + ∑ i, (((x i : ℝ) : EReal) - (μ : EReal)) * (((x i : ℝ) : EReal) - (μ : EReal))) ((50000 : ℝ) : EReal) = (v : EReal) := by
  refine ⟨(∑ i, (x i - μ) * (x i - μ)) * (1 / 50000), ?_, ?_⟩
  · exact mul_nonneg (Finset.sum_nonneg fun i _ => mul_self_nonneg _) (by norm_num)
  · rw [zero_add, ← div_count, ← Cert.VarLaw.coe_sum]
    exact congrArg (Ideal.div · _) (Finset.sum_congr rfl fun i _ => by rw [← EReal.coe_sub, ← EReal.coe_mul])

/-- One normalized entry of reals, with a variance that is not negative, is a real. -/
theorem normed_real (x μ v g b : ℝ) (hv : 0 ≤ v) :
    ((x : EReal) - (μ : EReal)) * Ideal.rsqrt ((v : EReal) + Ideal.ofBits .f32 0x3727C5AC#32) * (g : EReal) + (b : EReal)
      = (((x - μ) * (√(v + 10995116 / 1099511627776))⁻¹ * g + b : ℝ) : EReal) := by
  rw [eps_eq, ← EReal.coe_add, rsqrt_pos _ (by have := eps_pos; linarith), ← EReal.coe_sub, ← EReal.coe_mul, ← EReal.coe_mul,
    ← EReal.coe_add]

end Cert.RealClosure

end
-- ==== Proof.LowReal.lean ====
/-
  The low branch's linear layer of real arrays is a real array.

  If the features, the scale, the shift, the weights and the bias hold real numbers, then so does every entry of the
  reference's linear-layer function of them: the column means are reals, the column variances are reals that are not
  negative, so the reciprocal square roots of the variances plus epsilon are reals, and sums, products and maxima of
  reals are reals.
-/
import proofs.«160607_j85856396247988_1_alg».proof.Proof.RefLinIdeal
import proofs.«160607_j85856396247988_1_alg».proof.Proof.RealClosure

set_option maxRecDepth 16384

noncomputable section

namespace Cert.ReferenceIdeal.Straight

open Cert.ReferenceIdeal Cert.ReferenceIdeal.Gen Idealize.ShloMosaic Idealize.ShloMosaic.TcCoe Idealize.SL.Sem
open Idealize.ShloMosaic.ValueIdx

theorem lowPre_real (X : FVec Ideal S50000x64 .f32) (g b : FVec Ideal S64 .f32) (W : FVec Ideal S64x128 .f32) (lb : FVec Ideal S128 .f32)
    (hX : ∀ i, ∃ r : ℝ, X i = (r : EReal)) (hg : ∀ i, ∃ r : ℝ, g i = (r : EReal)) (hb : ∀ i, ∃ r : ℝ, b i = (r : EReal))
    (hW : ∀ i, ∃ r : ℝ, W i = (r : EReal)) (hl : ∀ i, ∃ r : ℝ, lb i = (r : EReal)) (i : Fin 50000) (n : Fin 128) :
    ∃ r : ℝ, lowPre X g b W lb (ix2 i n) = (r : EReal) := by
  choose xr hxr using hX
  choose gr hgr using hg
  choose br hbr using hb
  choose Wr hWr using hW
  choose lr hlr using hl
  have hmean : ∀ k : Fin 64, lowMean X (ix1 k) = (((∑ i : Fin 50000, xr (ix2 i k)) * (1 / 50000) : ℝ) : EReal) := fun k => by
    rw [lowMean_apply]
    simp only [hxr]
    exact Cert.RealClosure.mean_real (fun i : Fin 50000 => xr (ix2 i k))
  have hvar : ∀ k : Fin 64, ∃ v : ℝ, 0 ≤ v ∧ lowVar X (ix1 k) = (v : EReal) := fun k => by
    rw [lowVar_apply]
    simp only [hxr]
    rw [Cert.RealClosure.mean_real (fun i : Fin 50000 => xr (ix2 i k))]
    exact Cert.RealClosure.var_real (fun i : Fin 50000 => xr (ix2 i k)) _
  choose v hv0 hv using hvar
  rw [lowPre_apply]
  have hterm : ∀ k : Fin 64, ∃ t : ℝ,
      ((X (ix2 i k) - lowMean X (ix1 k)) * Ideal.rsqrt (lowVar X (ix1 k) + eps) * g (ix1 k) + b (ix1 k)) * W (ix2 k n) = (t : EReal) := fun k => by
    rw [hmean k, hv k, hxr, hgr, hbr, hWr, Cert.RealClosure.normed_real _ _ _ _ _ (hv0 k), ← EReal.coe_mul]
    exact ⟨_, rfl⟩
  choose t ht using hterm
  simp only [ht]
  rw [Cert.VarLaw.coe_sum, hlr, ← EReal.coe_add]
  generalize (∑ i, t i + lr (ix1 n)) = a
  rcases le_total a 0 with h | h
  · exact ⟨0, by rw [max_eq_right (show ((a : ℝ) : EReal) ≤ 0 from by exact_mod_cast h)]; rfl⟩
  · exact ⟨a, max_eq_left (show (0 : EReal) ≤ ((a : ℝ) : EReal) from by exact_mod_cast h)⟩

end Cert.ReferenceIdeal.Straight

end
-- ==== Proof.FiniteLow.lean ====
/-
  What the precondition says of the low branch's parameters: every entry is a real number.
-/
import proofs.«160607_j85856396247988_1_alg».proof.Proof.FiniteIn

set_option maxRecDepth 16384

noncomputable section

namespace Cert.Finite

open Idealize.ShloMosaic Idealize.SL.Sem Idealize.ShloMosaic.ValueIdx

/-- Under the precondition every entry of the first normalization's scale on the low branch is a real number. -/
theorem scale_low_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S64.Idx) :
    ∃ r : ℝ, m ((c.tc : Thread Cert.KernelIdeal.nD Cert.KernelIdeal.τ).loc Cert.KernelIdeal.main_arg4) i = (r : EReal) := by
  have h0 := congrFun (hpre c) ix0
  unfold Cert.Pre_finite_inputs.fn Cert.Pre_finite_inputs.fn_part1 Cert.Pre_finite_inputs.fn_part2 Cert.Pre_finite_inputs.fn_part3
    Cert.Pre_finite_inputs.fn_part4 Cert.Pre_finite_inputs.fn_part5 at h0
  dsimp only at h0
  have h1 := and_right (and_left (and_left (and_left (and_left (and_left (and_left (and_left (and_left (and_left (and_left (and_left (and_left (and_left (and_left (and_left (h0))))))))))))))))
  have h2 := Host.reduce_andi_all _ _ _ _ ix0 h1 i
  rw [cmpf_apply, broadcastInDim_scalar_apply] at h2
  exact real_of_abs_lt _ h2

/-- Under the precondition every entry of the first normalization's shift on the low branch is a real number. -/
theorem shift_low_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S64.Idx) :
    ∃ r : ℝ, m ((c.tc : Thread Cert.KernelIdeal.nD Cert.KernelIdeal.τ).loc Cert.KernelIdeal.main_arg5) i = (r : EReal) := by
  have h0 := congrFun (hpre c) ix0
  unfold Cert.Pre_finite_inputs.fn Cert.Pre_finite_inputs.fn_part1 Cert.Pre_finite_inputs.fn_part2 Cert.Pre_finite_inputs.fn_part3
    Cert.Pre_finite_inputs.fn_part4 Cert.Pre_finite_inputs.fn_part5 at h0
  dsimp only at h0
  have h1 := and_right (and_left (and_left (and_left (and_left (and_left (and_left (and_left (and_left (and_left (and_left (and_left (and_left (and_left (and_left (h0)))))))))))))))
  have h2 := Host.reduce_andi_all _ _ _ _ ix0 h1 i
  rw [cmpf_apply, broadcastInDim_scalar_apply] at h2
  exact real_of_abs_lt _ h2

/-- Under the precondition every entry of the low branch's weights is a real number. -/
theorem weights_low_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S64x128.Idx) :
    ∃ r : ℝ, m ((c.tc : Thread Cert.KernelIdeal.nD Cert.KernelIdeal.τ).loc Cert.KernelIdeal.main_arg8) i = (r : EReal) := by
  have h0 := congrFun (hpre c) ix0
  unfold Cert.Pre_finite_inputs.fn Cert.Pre_finite_inputs.fn_part1 Cert.Pre_finite_inputs.fn_part2 Cert.Pre_finite_inputs.fn_part3
    Cert.Pre_finite_inputs.fn_part4 Cert.Pre_finite_inputs.fn_part5 at h0
  dsimp only at h0
  have h1 := and_right (and_left (and_left (and_left (and_left (and_left (and_left (and_left (and_left (and_left (and_left (and_left (h0))))))))))))
  have h2 := Host.reduce_andi_all _ _ _ _ ix0 h1 i
  rw [cmpf_apply, broadcastInDim_scalar_apply] at h2
  exact real_of_abs_lt _ h2

/-- Under the precondition every entry of the low branch's bias is a real number. -/
theorem bias_low_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S128.Idx) :
    ∃ r : ℝ, m ((c.tc : Thread Cert.KernelIdeal.nD Cert.KernelIdeal.τ).loc Cert.KernelIdeal.main_arg9) i = (r : EReal) := by
  have h0 := congrFun (hpre c) ix0
  unfold Cert.Pre_finite_inputs.fn Cert.Pre_finite_inputs.fn_part1 Cert.Pre_finite_inputs.fn_part2 Cert.Pre_finite_inputs.fn_part3
    Cert.Pre_finite_inputs.fn_part4 Cert.Pre_finite_inputs.fn_part5 at h0
  dsimp only at h0
  have h1 := and_right (and_left (and_left (and_left (and_left (and_left (and_left (and_left (and_left (and_left (and_left (h0)))))))))))
  have h2 := Host.reduce_andi_all _ _ _ _ ix0 h1 i
  rw [cmpf_apply, broadcastInDim_scalar_apply] at h2
  exact real_of_abs_lt _ h2

end Cert.Finite

end
-- ==== Proof.VarCol.lean ====
/-
  The variance law for one column, as the two programs spell its two sides.
-/
import proofs.«160607_j85856396247988_1_alg».proof.Proof.VarLaw

noncomputable section

namespace Cert.VarLaw

open Idealize.ShloMosaic

/-- For a column of 50000 reals, the mean of the squares minus the squared mean (divisions by the row-count pattern) is
    the mean squared deviation (the host's sums starting from zero, the last division by the real count). -/
theorem var_col (y : Fin 50000 → EReal) (hy : ∀ i, ∃ r : ℝ, y i = (r : EReal)) :
    Ideal.div (∑ i, y i * y i) (Ideal.ofBits .f32 0x47435000#32)
        - Ideal.div (∑ i, y i) (Ideal.ofBits .f32 0x47435000#32) * Ideal.div (∑ i, y i) (Ideal.ofBits .f32 0x47435000#32)
      = Ideal.div (0 + ∑ i, (y i - Ideal.div (0 + ∑ i, y i) (Ideal.ofBits .f32 0x47435000#32))
          * (y i - Ideal.div (0 + ∑ i, y i) (Ideal.ofBits .f32 0x47435000#32))) ((50000 : ℝ) : EReal) := by
  choose r hr using hy
  simp only [hr, zero_add, ofBits_50000]
  exact var_ereal r

end Cert.VarLaw

end
-- ==== Proof.LowBridge2.lean ====
/-
  The low-dimensional branch's second batch statistics agree.

  The kernel's third statistics region and host stretch compute the column means and "mean of squares minus squared
  mean" of the array its linear-layer region left.  That array is the reference's linear-layer function of the launch
  arrays, whose entries are reals under the precondition, so the variance law applies column by column.
-/
import proofs.«160607_j85856396247988_1_alg».proof.Proof.LowLayerBridge
import proofs.«160607_j85856396247988_1_alg».proof.Proof.LowStats2
import proofs.«160607_j85856396247988_1_alg».proof.Proof.RefStats2Ideal
import proofs.«160607_j85856396247988_1_alg».proof.Proof.LowReal
import proofs.«160607_j85856396247988_1_alg».proof.Proof.FiniteLow
import proofs.«160607_j85856396247988_1_alg».proof.Proof.VarCol

set_option maxRecDepth 65536

noncomputable section

namespace Cert.Bridge.Low

open Idealize.ShloMosaic Idealize.ShloMosaic.TcCoe Idealize.SL.Sem Idealize.ShloMosaic.StableHlo
open Idealize.ShloMosaic.ValueIdx

variable (m : (ℓ : Loc Cert.KernelIdeal.nD Cert.KernelIdeal.τ Cert.KernelIdeal.sig) → Buf (Elt Ideal) ℓ) (ρ : Dev Cert.KernelIdeal.nD → PrngReg)

/-- The linear layer's output as the reference's function of the launch arrays. -/
abbrev layerOut (c : Dev Cert.KernelIdeal.nD) : FVec Ideal Cert.ReferenceIdeal.S50000x128 .f32 :=
  Cert.ReferenceIdeal.Straight.lowPre (ax m c) (ag m c) (ab m c) (aW m c) (al m c)

/-- Under the precondition its entries are reals. -/
theorem layerOut_real [hP : Cert.Pre_finite_inputs.Facts] (hpre : Cert.Pre_KernelIdeal m) (c : Dev Cert.KernelIdeal.nD) (i : Fin 50000) (n : Fin 128) :
    ∃ r : ℝ, layerOut m c (ix2 i n) = (r : EReal) :=
  Cert.ReferenceIdeal.Straight.lowPre_real (ax m c) (ag m c) (ab m c) (aW m c) (al m c)
    (fun i => Cert.Finite.low_real m hpre c i) (fun i => Cert.Finite.scale_low_real m hpre c i)
    (fun i => Cert.Finite.shift_low_real m hpre c i) (fun i => Cert.Finite.weights_low_real m hpre c i)
    (fun i => Cert.Finite.bias_low_real m hpre c i) i n

/-- The kernel's second mean is the reference's mean function of the layer's output. -/
theorem kmean2 [hP : Cert.Pre_finite_inputs.Facts] (hpre : Cert.Pre_KernelIdeal m) (c : Dev Cert.KernelIdeal.nD) (j : Fin 128) :
    Cert.KernelIdeal.Gen.V8 m ρ c Cert.KernelIdeal.main_v26 (ix2 (0 : Fin 1) j) = Cert.ReferenceIdeal.Straight.lowMean2 (layerOut m c) (ix1 j) := by
  rw [Cert.KernelIdeal.LowStats2.mean_apply, Cert.ReferenceIdeal.Straight.lowMean2_apply, zero_add]
  exact congrArg (Ideal.div · _) (Finset.sum_congr rfl fun i _ => klayer m ρ hpre c i j)

/-- The kernel's second variance is the reference's variance function of the layer's output. -/
theorem kvar2 [hP : Cert.Pre_finite_inputs.Facts] (hpre : Cert.Pre_KernelIdeal m) (c : Dev Cert.KernelIdeal.nD) (j : Fin 128) :
    Cert.KernelIdeal.Gen.V8 m ρ c Cert.KernelIdeal.main_v30 (ix2 (0 : Fin 1) j) = Cert.ReferenceIdeal.Straight.lowVar2 (layerOut m c) (ix1 j) := by
  rw [Cert.KernelIdeal.LowStats2.var_apply, Cert.ReferenceIdeal.Straight.lowVar2_apply]
  have e : ∀ i : Fin 50000, Cert.KernelIdeal.LowStats2.x m ρ c (ix2 i j) = layerOut m c (ix2 i j) := fun i => klayer m ρ hpre c i j
  simp only [e]
  exact Cert.VarLaw.var_col (fun i => layerOut m c (ix2 i j)) (fun i => layerOut_real m hpre c i j)

end Cert.Bridge.Low

end
-- ==== Proof.Stats1.lean ====
/-
  The second statistics region, read as values.

  The region walks the 50 row blocks of the [50000, 4096] array of flattened covariance features.  Its two outputs are
  single [1, 4096] blocks whose index never moves, so each stays in its staging buffer across the grid and is
  written back once, after the last point.  At the first point the body stores a zero row, reads it back, and adds
  the block's column sums (for the second output: the column sums of the squared block); at every later point it
  adds the block's column sums to what the point before left.  So after point n the two buffers hold the running
  sums of the column sums (of the squares) of blocks 0 … n, and the two result arrays end holding the running sums
  after the last point.
-/
import proofs.«160607_j85856396247988_1_alg».proof.Proof.Gen.KernelIdeal.Frame
import Idealize.ShloMosaic.Lib.Pipeline.Value
import Idealize.ShloMosaic.Lib.Tactic

set_option maxRecDepth 16384

noncomputable section

namespace Cert.KernelIdeal.Stats1

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]

theorem hz : (![0, 0] : Fin 2 → Nat) = fun _ => 0 := funext fun a => by fin_cases a <;> rfl

/-- A later point leaves, in the first output's buffer holding `xo1`, `xo1` plus the block's column sums. -/
theorem laterSum (c : Dev nD) (i : grid1.Coords) (a1 : Memref sig .tc .vmem S1000x4096 .f32) (h1 : a1.IsWhole)
    (a2 : Memref sig .tc .vmem S1x4096 .f32) (h2 : a2.IsWhole) (a3 : Memref sig .tc .vmem S1x4096 .f32) (h3 : a3.IsWhole)
    (hc : ¬cond1_0 i) (x : Vec F S1000x4096 .f32) (xo1 xo2 : Vec F S1x4096 .f32) :
    out1_B_1 c i a1 h1 a2 h2 a3 h3 hc x xo1 xo2 = k1_pay3 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, h3.read_unread, View.ld_unit_zero (S := S1000x4096) hz,
    View.ld_unit_zero (S := S1x4096) hz]

/-- A later point leaves, in the second output's buffer holding `xo2`, `xo2` plus the column sums of the squared block. -/
theorem laterSq (c : Dev nD) (i : grid1.Coords) (a1 : Memref sig .tc .vmem S1000x4096 .f32) (h1 : a1.IsWhole)
    (a2 : Memref sig .tc .vmem S1x4096 .f32) (h2 : a2.IsWhole) (a3 : Memref sig .tc .vmem S1x4096 .f32) (h3 : a3.IsWhole)
    (hc : ¬cond1_0 i) (x : Vec F S1000x4096 .f32) (xo1 xo2 : Vec F S1x4096 .f32) :
    out1_B_2 c i a1 h1 a2 h2 a3 h3 hc x xo1 xo2 = k1_pay4 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h2.read_unread, h3.read_unread, View.ld_unit_zero (S := S1000x4096) hz,
    View.ld_unit_zero (S := S1x4096) hz]

/-- The first point stores the zero row, reads it back, and leaves it plus the block's column sums. -/
theorem firstSum (c : Dev nD) (i : grid1.Coords) (a1 : Memref sig .tc .vmem S1000x4096 .f32) (h1 : a1.IsWhole)
    (a2 : Memref sig .tc .vmem S1x4096 .f32) (h2 : a2.IsWhole) (a3 : Memref sig .tc .vmem S1x4096 .f32) (h3 : a3.IsWhole)
    (hc : cond1_0 i) (x : Vec F S1000x4096 .f32) :
    out1_A_1 c i a1 h1 a2 h2 a3 h3 hc x = k1_pay3 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x4096) hz, View.readCov_unit_zero (S := S1x4096) _ hz]
  simp only [View.readAt_eq_ld, h1.read_unread, View.ld_unit_zero (S := S1000x4096) hz, View.ld_unit_zero (S := S1x4096) hz]

/-- The first point leaves, in the second output's buffer, the zero row plus the column sums of the squared block. -/
theorem firstSq (c : Dev nD) (i : grid1.Coords) (a1 : Memref sig .tc .vmem S1000x4096 .f32) (h1 : a1.IsWhole)
    (a2 : Memref sig .tc .vmem S1x4096 .f32) (h2 : a2.IsWhole) (a3 : Memref sig .tc .vmem S1x4096 .f32) (h3 : a3.IsWhole)
    (hc : cond1_0 i) (x : Vec F S1000x4096 .f32) :
    out1_A_2 c i a1 h1 a2 h2 a3 h3 hc x = k1_pay4 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x4096) hz, View.readCov_unit_zero (S := S1x4096) _ hz]
  simp only [View.readAt_eq_ld, h1.read_unread, View.ld_unit_zero (S := S1000x4096) hz, View.ld_unit_zero (S := S1x4096) hz]

section Running

variable (V : (c : Dev nD) → (b : Ref sig .tc) → Buf (Elt F) ((c : Thread nD τ).loc b))

/-- The running pair after point `n`: (sum of the blocks' column sums, sum of the squared blocks' column sums). -/
def running (c : Dev nD) : (n : ℕ) → n < cfg1.N → Vec F S1x4096 .f32 × Vec F S1x4096 .f32
  | 0, h => (k1_pay3 (iblk1 V c 0 ⟨0, h⟩) k1_pay1, k1_pay4 (iblk1 V c 0 ⟨0, h⟩) k1_pay2)
  | n + 1, h => (k1_pay3 (iblk1 V c 0 ⟨n + 1, h⟩) (running c n (Nat.lt_of_succ_lt h)).1,
      k1_pay4 (iblk1 V c 0 ⟨n + 1, h⟩) (running c n (Nat.lt_of_succ_lt h)).2)

/-- What the two staging buffers hold after point `n` is the running pair: by induction on the point. -/
theorem outsAt_eq (c : Dev nD) : ∀ (n : ℕ) (h : n < cfg1.N), outsAt1 V c n h = running V c n h
  | 0, h => by
    rw [outsAt1_A V c ⟨0, h⟩ rfl, firstSum, firstSq]
    rfl
  | n + 1, h => by
    have hN : cfg1.N = 50 := N_1
    have hB : ¬(⟨n + 1, h⟩ : Fin cfg1.N).val % 50 = 0 := by dsimp only; omega
    rw [outsAt1_B V c ⟨n + 1, h⟩ hB, laterSum, laterSq]
    show (k1_pay3 _ (outsAt1 V c n _).1, k1_pay4 _ (outsAt1 V c n _).2) = _
    rw [outsAt_eq c n]
    rfl

end Running

end Cert.KernelIdeal.Stats1

end
-- ==== Proof.Stats1Final.lean ====
/-
  The second statistics region: its two result arrays.

  Each output of the region is one [1, 4096] block, written back once, after the last of the 50 points.  That block is
  the whole array, so each result array ends holding what its staging buffer held after the last point: the running
  sum of the blocks' column sums, and the running sum of the squared blocks' column sums.
-/
import proofs.«160607_j85856396247988_1_alg».proof.Proof.Stats1

set_option maxRecDepth 16384

noncomputable section

namespace Cert.KernelIdeal.Stats1

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]
variable (V : (c : Dev nD) → (b : Ref sig .tc) → Buf (Elt F) ((c : Thread nD τ).loc b))

theorem ltLast : 49 < cfg1.N := by rw [show cfg1.N = 50 from N_1]; decide

/-- The last grid point. -/
abbrev last : Fin cfg1.N := ⟨49, ltLast⟩

/-- The running sum of column sums after the last point, as contents of the first result array. -/
abbrev res1 (c : Dev nD) : Buf (Elt F) ((c : Thread nD τ).loc main_v7_0) := (running V c 49 ltLast).1
/-- The running sum of the squares' column sums after the last point, as contents of the second result array. -/
abbrev res2 (c : Dev nD) : Buf (Elt F) ((c : Thread nD τ).loc main_v7_1) := (running V c 49 ltLast).2

/-- The one write-back of output 1, after the last point, writes the running sum: block (0, 0) of the [1, 4096] array is the array. -/
theorem flushed1 (c : Dev nD) (t : Fin cfg1.N) (hf : (cfg1.win 1).flush t = true) :
    (dat1 V c).flushed 1 t = ((cfg1.win 1).blk t).view.read (Elt F) (res1 V c) := by
  have hN : cfg1.N = 50 := N_1
  have hl : t.val = 49 := by have := (flush1_1 t).mp hf; have := t.isLt; omega
  obtain rfl : t = last := Fin.ext hl
  show (cfg1.win 1).cut (grid1.coords last) ((dat1 V c).after 1 last) = _
  rw [after1_1, Stats1.outsAt_eq]
  have hz' : (fun a => win1_1.index last a * main_v7_0.ty.shape.size a) = fun _ => 0 := funext fun a => by fin_cases a <;> decide
  exact (Memref.read_access_unit_zero (Elt F) main_v7_0 hz' (fun a => by rw [congrFun hz' a]; simp) (res1 V c)).symm

/-- So result array 1 ends holding the running sum after the last point. -/
theorem final1 (c : Dev nD) : (dat1 V c).arrAt 1 cfg1.N = res1 V c :=
  (dat1 V c).arrAt_eq_of_cover 1 (res1 V c) (flushed1 V c) fun i =>
    ⟨last, (flush1_1 last).mpr rfl, by
      show i ∈ ((View.whole main_v7_0).slice (win1_1.rect last)).set
      rw [View.set_slice_whole, Rect.mem_set_unit]
      intro a
      have h0 : (i 0 : Nat) < 1 := (i 0).isLt
      have h1 : (i 1 : Nat) < 4096 := (i 1).isLt
      match a with
      | ⟨0, _⟩ => show win1_1.index last 0 * win1_1.size 0 ≤ (i 0 : Nat) ∧ (i 0 : Nat) < win1_1.index last 0 * win1_1.size 0 + win1_1.xsize (grid1.coords last) 0
                  rw [show win1_1.index last 0 * win1_1.size 0 = 0 from by decide +kernel, show win1_1.xsize (grid1.coords last) 0 = 1 from by decide +kernel]; omega
      | ⟨1, _⟩ => show win1_1.index last 1 * win1_1.size 1 ≤ (i 1 : Nat) ∧ (i 1 : Nat) < win1_1.index last 1 * win1_1.size 1 + win1_1.xsize (grid1.coords last) 1
                  rw [show win1_1.index last 1 * win1_1.size 1 = 0 from by decide +kernel, show win1_1.xsize (grid1.coords last) 1 = 4096 from by decide +kernel]; omega⟩

/-- The one write-back of output 2, after the last point, writes the running sum of squares: block (0, 0) of the [1, 4096] array is the array. -/
theorem flushed2 (c : Dev nD) (t : Fin cfg1.N) (hf : (cfg1.win 2).flush t = true) :
    (dat1 V c).flushed 2 t = ((cfg1.win 2).blk t).view.read (Elt F) (res2 V c) := by
  have hN : cfg1.N = 50 := N_1
  have hl : t.val = 49 := by have := (flush1_2 t).mp hf; have := t.isLt; omega
  obtain rfl : t = last := Fin.ext hl
  show (cfg1.win 2).cut (grid1.coords last) ((dat1 V c).after 2 last) = _
  rw [after1_2, Stats1.outsAt_eq]
  have hz' : (fun a => win1_2.index last a * main_v7_1.ty.shape.size a) = fun _ => 0 := funext fun a => by fin_cases a <;> decide
  exact (Memref.read_access_unit_zero (Elt F) main_v7_1 hz' (fun a => by rw [congrFun hz' a]; simp) (res2 V c)).symm

/-- So result array 2 ends holding the running sum of squares after the last point. -/
theorem final2 (c : Dev nD) : (dat1 V c).arrAt 2 cfg1.N = res2 V c :=
  (dat1 V c).arrAt_eq_of_cover 2 (res2 V c) (flushed2 V c) fun i =>
    ⟨last, (flush1_2 last).mpr rfl, by
      show i ∈ ((View.whole main_v7_1).slice (win1_2.rect last)).set
      rw [View.set_slice_whole, Rect.mem_set_unit]
      intro a
      have h0 : (i 0 : Nat) < 1 := (i 0).isLt
      have h1 : (i 1 : Nat) < 4096 := (i 1).isLt
      match a with
      | ⟨0, _⟩ => show win1_2.index last 0 * win1_2.size 0 ≤ (i 0 : Nat) ∧ (i 0 : Nat) < win1_2.index last 0 * win1_2.size 0 + win1_2.xsize (grid1.coords last) 0
                  rw [show win1_2.index last 0 * win1_2.size 0 = 0 from by decide +kernel, show win1_2.xsize (grid1.coords last) 0 = 1 from by decide +kernel]; omega
      | ⟨1, _⟩ => show win1_2.index last 1 * win1_2.size 1 ≤ (i 1 : Nat) ∧ (i 1 : Nat) < win1_2.index last 1 * win1_2.size 1 + win1_2.xsize (grid1.coords last) 1
                  rw [show win1_2.index last 1 * win1_2.size 1 = 0 from by decide +kernel, show win1_2.xsize (grid1.coords last) 1 = 4096 from by decide +kernel]; omega⟩

end Cert.KernelIdeal.Stats1

end
-- ==== Proof.Stats1Ideal.lean ====
/-
  The second statistics region over the extended reals: its result arrays are the column sums.

  Over the extended reals a lane sum over the rows of a block is the plain sum of the block's entries in a column, and
  the body adds it to what the buffer held.  Row r of block t is row 1000·t + r of the array, so after point n the
  first buffer holds, in column j, the sum of the array's entries in rows 0 … 1000·(n+1) − 1 of that column, and the
  second the sum of their squares; after the last point that is the whole column.  Addition on the extended reals is
  associative and commutative with neutral element zero, so the order in which the blocks were added does not matter,
  and nothing here needs the entries to be finite.
-/
import proofs.«160607_j85856396247988_1_alg».proof.Proof.Stats1Final
import Idealize.ShloMosaic.PureOps.Ideal.Laws
import Idealize.ShloMosaic.Lib.ValueIdx

set_option maxRecDepth 16384

noncomputable section

namespace Cert.KernelIdeal.Stats1

open Cert.KernelIdeal Cert.KernelIdeal.Gen
open Idealize.ShloMosaic Idealize.ShloMosaic.TcCoe Idealize.SL.Sem Idealize.ShloMosaic.Tactic
open Idealize.ShloMosaic.ValueIdx

/-- A lane sum over the 1000 rows of a block, in column `j`, is the sum of the column's entries. -/
theorem rowsum_apply (x : FVec Ideal S1000x4096 .f32) (hφ : FKind.Formats .f32)
    (hacc : (0x00000000#32 : BitVec 32) = FKind.add.neutral .f32 hφ) (j : Fin 4096) :
    multiReduction .add [0] S4096 x 0x00000000#32 reduces_S1000x4096_S4096 hφ hacc (ix1 j) = ∑ r : Fin 1000, x (ix2 r j) := by
  refine (Ideal.multiReduction_add_single x 0x00000000#32 reduces_S1000x4096_S4096 hφ hacc (ix1 j)).trans ?_
  refine Finset.sum_congr rfl fun r _ => congrArg x (funext fun a => ?_)
  match a with
  | ⟨0, _⟩ => rfl
  | ⟨1, _⟩ => rfl

theorem tail_ix (j : Fin 4096) : (fun a : Fin 1 => (ix2 (0 : Fin 1) j) a.succ) = ix1 j :=
  funext fun a => match a with | ⟨0, _⟩ => rfl

/-- The sum payload in column `j`: what the buffer held plus the block's column sum. -/
theorem sumPay_apply (x : Vec Ideal S1000x4096 .f32) (acc : Vec Ideal S1x4096 .f32) (j : Fin 4096) :
    k1_pay3 (F := Ideal) x acc (ix2 (0 : Fin 1) j) = acc (ix2 0 j) + ∑ r : Fin 1000, x (ix2 r j) := by
  unfold k1_pay3
  dsimp only
  refine (addf_apply _ _ _).trans ?_
  refine congrArg₂ (· + ·) (congrFun (shapeCast_self acc _) _) ?_
  refine (shapeCast_addUnit_apply ![4096] _ _ (ix2 (0 : Fin 1) j)).trans ?_
  rw [tail_ix]
  exact rowsum_apply x _ _ j

/-- The square payload in column `j`: what the buffer held plus the sum of the squares of the block's column. -/
theorem sqPay_apply (x : Vec Ideal S1000x4096 .f32) (acc : Vec Ideal S1x4096 .f32) (j : Fin 4096) :
    k1_pay4 (F := Ideal) x acc (ix2 (0 : Fin 1) j) = acc (ix2 0 j) + ∑ r : Fin 1000, x (ix2 r j) * x (ix2 r j) := by
  unfold k1_pay4
  dsimp only
  refine (addf_apply _ _ _).trans ?_
  refine congrArg₂ (· + ·) (congrFun (shapeCast_self acc _) _) ?_
  refine (shapeCast_addUnit_apply ![4096] _ _ (ix2 (0 : Fin 1) j)).trans ?_
  rw [tail_ix]
  refine (rowsum_apply (mulf x x) _ _ j).trans ?_
  exact Finset.sum_congr rfl fun r _ => mulf_apply x x (ix2 r j)

/-- The zero row the first point stores. -/
theorem zeroRow1 (y : S1x4096.Idx) : k1_pay1 (F := Ideal) y = 0 := by
  unfold k1_pay1
  exact Ideal.ofBits_zero_f32
theorem zeroRow2 (y : S1x4096.Idx) : k1_pay2 (F := Ideal) y = 0 := by
  unfold k1_pay2
  exact Ideal.ofBits_zero_f32

section Sums

variable (V : (c : Dev nD) → (b : Ref sig .tc) → Buf (Elt Ideal) ((c : Thread nD τ).loc b))

/-- The feature array as the region finds it. -/
abbrev feat (c : Dev nD) : S50000x4096.Idx → EReal := V c main_arg2

/-- Column `j` of the feature array by row number (zero past the last row). -/
def entry (c : Dev nD) (j : Fin 4096) (i : ℕ) : EReal := if h : i < 50000 then feat V c (ix2 ⟨i, h⟩ j) else 0

/-- Block `t` of the feature array, as a [1000, 4096] vector. -/
abbrev blk (c : Dev nD) (t : Fin cfg1.N) : Vec Ideal S1000x4096 .f32 := iblk1 V c 0 t

theorem idx_facts : ∀ t : Fin cfg1.N, win1_0.index t (0 : Fin 2) = t.val ∧ win1_0.index t (1 : Fin 2) = 0 :=
  (by decide +kernel : ∀ t : Fin grid1.N, _)

/-- Row `r` of block `t` is row 1000·t + r of the array. -/
theorem iblk_apply (c : Dev nD) (t : Fin cfg1.N) (r : Fin 1000) (j : Fin 4096) :
    blk V c t (ix2 r j) = entry V c j (1000 * t.val + r.val) := by
  have hN : cfg1.N = 50 := N_1
  have ht := t.isLt
  have hr := r.isLt
  have hlt : 1000 * t.val + r.val < 50000 := by omega
  have hi := idx_facts t
  unfold entry
  rw [dif_pos hlt]
  unfold blk iblk1
  rw [View.read_apply]
  show V c main_arg2 _ = V c main_arg2 _
  congr 1
  funext a
  apply Fin.ext
  match a with
  | ⟨0, _⟩ => show win1_0.index t 0 * 1000 + 1 * r.val = 1000 * t.val + r.val; rw [hi.1]; omega
  | ⟨1, _⟩ => show win1_0.index t 1 * 4096 + 1 * j.val = j.val; rw [hi.2]; omega

/-- A block's column sum is the sum of 1000 consecutive entries of the array's column. -/
theorem blockSum (c : Dev nD) (t : Fin cfg1.N) (j : Fin 4096) :
    ∑ r : Fin 1000, blk V c t (ix2 r j) = ∑ r ∈ Finset.range 1000, entry V c j (1000 * t.val + r) := by
  rw [Finset.sum_range]
  exact Finset.sum_congr rfl fun r _ => iblk_apply V c t r j

theorem blockSq (c : Dev nD) (t : Fin cfg1.N) (j : Fin 4096) :
    ∑ r : Fin 1000, blk V c t (ix2 r j) * blk V c t (ix2 r j)
      = ∑ r ∈ Finset.range 1000, entry V c j (1000 * t.val + r) * entry V c j (1000 * t.val + r) := by
  rw [Finset.sum_range]
  exact Finset.sum_congr rfl fun r _ => by rw [iblk_apply V c t r j]

/-- After point `n` the first buffer holds, in column `j`, the sum of the first 1000·(n+1) entries of the column. -/
theorem running_sum (c : Dev nD) : ∀ (n : ℕ) (h : n < cfg1.N) (j : Fin 4096),
    (running V c n h).1 (ix2 (0 : Fin 1) j) = ∑ i ∈ Finset.range (1000 * (n + 1)), entry V c j i
  | 0, h, j => by
    show k1_pay3 (F := Ideal) (blk V c ⟨0, h⟩) (k1_pay1 (F := Ideal)) (ix2 (0 : Fin 1) j) = _
    rw [sumPay_apply, zeroRow1, zero_add, blockSum]
    simp only [Nat.mul_zero, Nat.zero_add, Nat.mul_one]
  | n + 1, h, j => by
    show k1_pay3 (F := Ideal) (blk V c ⟨n + 1, h⟩) (running V c n (Nat.lt_of_succ_lt h)).1 (ix2 (0 : Fin 1) j) = _
    rw [sumPay_apply, running_sum c n, blockSum, show 1000 * (n + 1 + 1) = 1000 * (n + 1) + 1000 from by ring, Finset.sum_range_add]

/-- After point `n` the second buffer holds, in column `j`, the sum of the squares of those entries. -/
theorem running_sq (c : Dev nD) : ∀ (n : ℕ) (h : n < cfg1.N) (j : Fin 4096),
    (running V c n h).2 (ix2 (0 : Fin 1) j) = ∑ i ∈ Finset.range (1000 * (n + 1)), entry V c j i * entry V c j i
  | 0, h, j => by
    show k1_pay4 (F := Ideal) (blk V c ⟨0, h⟩) (k1_pay2 (F := Ideal)) (ix2 (0 : Fin 1) j) = _
    rw [sqPay_apply, zeroRow2, zero_add, blockSq]
    simp only [Nat.mul_zero, Nat.zero_add, Nat.mul_one]
  | n + 1, h, j => by
    show k1_pay4 (F := Ideal) (blk V c ⟨n + 1, h⟩) (running V c n (Nat.lt_of_succ_lt h)).2 (ix2 (0 : Fin 1) j) = _
    rw [sqPay_apply, running_sq c n, blockSq, show 1000 * (n + 1 + 1) = 1000 * (n + 1) + 1000 from by ring, Finset.sum_range_add]

theorem sum_entry (c : Dev nD) (j : Fin 4096) (g : EReal → EReal) (hg : g 0 = 0) :
    ∑ i ∈ Finset.range 50000, g (entry V c j i) = ∑ i : Fin 50000, g (feat V c (ix2 i j)) := by
  rw [Finset.sum_range]
  exact Finset.sum_congr rfl fun i _ => by unfold entry; rw [dif_pos i.isLt]

/-- THE FIRST RESULT ARRAY: in column `j`, the sum of the feature array's column over all 50000 rows. -/
theorem colSum (c : Dev nD) (j : Fin 4096) :
    (dat1 V c).arrAt 1 cfg1.N (ix2 (0 : Fin 1) j) = ∑ i : Fin 50000, feat V c (ix2 i j) := by
  rw [final1 V c]
  show (running V c 49 ltLast).1 (ix2 (0 : Fin 1) j) = _
  rw [running_sum V c 49 ltLast j]
  exact sum_entry V c j id rfl

/-- THE SECOND RESULT ARRAY: in column `j`, the sum of the squares of the feature array's column. -/
theorem colSq (c : Dev nD) (j : Fin 4096) :
    (dat1 V c).arrAt 2 cfg1.N (ix2 (0 : Fin 1) j) = ∑ i : Fin 50000, feat V c (ix2 i j) * feat V c (ix2 i j) := by
  rw [final2 V c]
  show (running V c 49 ltLast).2 (ix2 (0 : Fin 1) j) = _
  rw [running_sq V c 49 ltLast j]
  exact sum_entry V c j (fun x => x * x) (by simp)

end Sums

end Cert.KernelIdeal.Stats1

end
-- ==== Proof.HighStats.lean ====
/-
  The high-dimensional branch's batch statistics, as the kernel computes them.

  After the second statistics region the host divides the column sums and the column sums of squares by the number of
  rows, and subtracts the square of the first quotient from the second: the mean of each column, and the mean of its
  squares minus the squared mean.
-/
import proofs.«160607_j85856396247988_1_alg».proof.Proof.Stats1Ideal
import Idealize.ShloMosaic.Lib.StableHlo.Run
import Idealize.ShloMosaic.Lib.IdealHost

set_option maxRecDepth 16384

noncomputable section

namespace Cert.KernelIdeal.HighStats

open Cert.KernelIdeal Cert.KernelIdeal.Gen
open Idealize.ShloMosaic Idealize.ShloMosaic.TcCoe Idealize.SL.Sem Idealize.ShloMosaic.Tactic Idealize.ShloMosaic.StableHlo
open Idealize.ShloMosaic.ValueIdx

variable (m : (ℓ : Loc nD τ sig) → Buf (Elt Ideal) ℓ) (ρ : Dev nD → PrngReg)

/-- The flattened covariance features as launched. -/
abbrev x (c : Dev nD) : S50000x4096.Idx → EReal := m ((c : Thread nD τ).loc main_arg2)

/-- The number of rows, as the programs spell it. -/
abbrev rows : EReal := Ideal.ofBits .f32 0x47435000#32

/-- The row count broadcast along a [1, 4096] row. -/
abbrev rowsRow : FVec Ideal S1x4096 .f32 := broadcastInDim S1x4096 ![] bcast_S_S1x4096 (constant (F := Ideal) S_ .f32 0x47435000#32)

/-- After the second host stretch the mean buffer holds the first result array divided by the row count. -/
theorem mean_buf (c : Dev nD) : V4 m ρ c main_v9 = Host.divf (F := Ideal) (V3 m ρ c main_v7_0) rowsRow := by
  show StableHlo.after hostOps2 (W3 m ρ c) (Proc.devRef .tc main_v9) = _
  after_results

/-- … and the variance buffer the second result array divided by the row count, minus the squared mean. -/
theorem var_buf (c : Dev nD) :
    V4 m ρ c main_v13 = subf (Host.divf (F := Ideal) (V3 m ρ c main_v7_1) rowsRow)
      (mulf (Host.divf (F := Ideal) (V3 m ρ c main_v7_0) rowsRow) (Host.divf (F := Ideal) (V3 m ρ c main_v7_0) rowsRow)) := by
  show StableHlo.after hostOps2 (W3 m ρ c) (Proc.devRef .tc main_v13) = _
  after_results

/-- Region 1 finds the covariance features as launched: the first region does not own them and the first host
    stretch does not write them. -/
theorem kept (c : Dev nD) : V2 m ρ c main_arg2 = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

theorem rowsRow_apply (y : S1x4096.Idx) : rowsRow y = rows := (broadcastInDim_scalar_apply _ _ _).trans rfl

/-- The first result array of the second statistics region, in column `j`: the column's sum. -/
theorem sum_apply (c : Dev nD) (j : Fin 4096) :
    V3 m ρ c main_v7_0 (ix2 (0 : Fin 1) j) = ∑ i : Fin 50000, x m c (ix2 i j) :=
  (congrFun (hF1 m ρ c 1).symm (ix2 (0 : Fin 1) j)).trans ((Stats1.colSum (V2 m ρ) c j).trans (by
    have e : Stats1.feat (V2 m ρ) c = x m c := kept m ρ c
    rw [e]))

/-- The second result array, in column `j`: the sum of the column's squares. -/
theorem sq_apply (c : Dev nD) (j : Fin 4096) :
    V3 m ρ c main_v7_1 (ix2 (0 : Fin 1) j) = ∑ i : Fin 50000, x m c (ix2 i j) * x m c (ix2 i j) :=
  (congrFun (hF1 m ρ c 2).symm (ix2 (0 : Fin 1) j)).trans ((Stats1.colSq (V2 m ρ) c j).trans (by
    have e : Stats1.feat (V2 m ρ) c = x m c := kept m ρ c
    rw [e]))

/-- The kernel's mean of column `j`. -/
theorem mean_apply (c : Dev nD) (j : Fin 4096) :
    V4 m ρ c main_v9 (ix2 (0 : Fin 1) j) = Ideal.div (∑ i : Fin 50000, x m c (ix2 i j)) rows := by
  rw [mean_buf m ρ c]
  refine (hostDivf_apply _ _ _).trans ?_
  rw [sum_apply, rowsRow_apply]

/-- The kernel's variance of column `j`: the mean of the squares minus the squared mean. -/
theorem var_apply (c : Dev nD) (j : Fin 4096) :
    V4 m ρ c main_v13 (ix2 (0 : Fin 1) j)
      = Ideal.div (∑ i : Fin 50000, x m c (ix2 i j) * x m c (ix2 i j)) rows
        - Ideal.div (∑ i : Fin 50000, x m c (ix2 i j)) rows * Ideal.div (∑ i : Fin 50000, x m c (ix2 i j)) rows := by
  rw [var_buf m ρ c]
  refine (subf_apply _ _ _).trans ?_
  refine congrArg₂ (· - ·) ?_ ?_
  · refine (hostDivf_apply _ _ _).trans ?_
    rw [sq_apply, rowsRow_apply]
  · refine (mulf_apply _ _ _).trans ?_
    rw [hostDivf_apply, sum_apply, rowsRow_apply]

end Cert.KernelIdeal.HighStats

end
-- ==== Proof.RefStatsHigh.lean ====
/-
  The high-dimensional branch's batch statistics, as the reference computes them.

  The reference takes each column's mean as the column's sum divided by the number of rows.  Its variance is jax's
  outlined function: the same mean again, the deviations from it, the sum of their squares divided by the number of
  rows minus the degrees-of-freedom correction (zero here), guarded by a select that answers a NaN pattern when that
  divisor is not positive — which it is, so the guard always takes the quotient.
-/
import proofs.«160607_j85856396247988_1_alg».proof.Proof.RefStats
import Idealize.ShloMosaic.Lib.IdealHost

set_option maxRecDepth 16384

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

/-- The column sums of a [50000, 4096] array as the host takes them. -/
def highSum (x : FVec Ideal S50000x4096 .f32) : FVec Ideal S4096 .f32 :=
  Host.reduceAdd (F := Ideal) x (constant (F := Ideal) S_ .f32 0x00000000#32) reducesTo_S50000x4096_S4096_d0 h_S_

/-- The column means. -/
def highMean (x : FVec Ideal S50000x4096 .f32) : FVec Ideal S4096 .f32 :=
  Host.divf (F := Ideal) (highSum x) (broadcastInDim S4096 ![] bcast_S_S4096 (constant (F := Ideal) S_ .f32 0x47435000#32))

/-- The divisor of the variance: the row count minus the correction. -/
def highCount : FVec Ideal S_ .f32 :=
  subf (constant (F := Ideal) S_ .f32 0x47435000#32) (sitofp (F := Ideal) .f32 (constantI S_ 32 0#32))

/-- The deviations from the column means, the means recomputed inside the outlined function. -/
def highDev (x : FVec Ideal S50000x4096 .f32) : FVec Ideal S50000x4096 .f32 :=
  subf x (broadcastInDim S50000x4096 ![0, 1] bcast_S1x4096_S50000x4096_0_1
    (Host.divf (F := Ideal) (broadcastInDim S1x4096 ![1] bcast_S4096_S1x4096_1 (highSum x))
      (broadcastInDim S1x4096 ![] bcast_S_S1x4096 (constant (F := Ideal) S_ .f32 0x47435000#32))))

/-- The column variances, with the guard. -/
def highVar (x : FVec Ideal S50000x4096 .f32) : FVec Ideal S4096 .f32 :=
  select (broadcastInDim S4096 ![] bcast_S_S4096 (cmpf .ogt highCount (constant (F := Ideal) S_ .f32 0x00000000#32)))
    (Host.divf (F := Ideal)
      (Host.reduceAdd (F := Ideal) (mulf (highDev x) (highDev x)) (constant (F := Ideal) S_ .f32 0x00000000#32) reducesTo_S50000x4096_S4096_d0 h_S_)
      (broadcastInDim S4096 ![] bcast_S_S4096 highCount))
    (broadcastInDim S4096 ![] bcast_S_S4096 (id (constant (F := Ideal) S_ .f32 0x7FC00000#32)))

set_option maxHeartbeats 1600000 in
/-- The reference's mean buffer holds the column means of the flattened covariance features. -/
theorem mean_buf_high (V : Valuation τ sig (Elt Ideal)) :
    after (opsA2 (F := Ideal)) V (Proc.devRef .tc main_v45) = highMean (V (Proc.devRef .tc main_arg2)) := by
  after_results
  rfl

attribute [local irreducible] Host.reduceAdd Host.divf in
set_option maxHeartbeats 3200000 in
/-- The reference's variance buffer holds their column variances. -/
theorem var_buf_high (V : Valuation τ sig (Elt Ideal)) :
    after (opsA2 (F := Ideal)) V (Proc.devRef .tc main_v46) = highVar (V (Proc.devRef .tc main_arg2)) := by
  after_results
  rfl

end Cert.ReferenceIdeal.Straight

end
-- ==== Proof.RefStatsHighIdeal.lean ====
/-
  The reference's batch statistics of the flattened covariance features, column by column.

  In column j the mean is the sum of the column's 50000 entries (added to the zero the host's reduction starts from)
  divided by the row count; the variance is the sum of the squared deviations from that same quotient, divided by the
  row count, the guard of jax's variance function being open because the divisor is 50000 − 0 > 0.
-/
import proofs.«160607_j85856396247988_1_alg».proof.Proof.RefStatsHigh
import proofs.«160607_j85856396247988_1_alg».proof.Proof.RefStatsIdeal
import Idealize.ShloMosaic.Lib.Pipeline.Value

set_option maxRecDepth 16384

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

theorem reduces_rows_high : S50000x4096.Reduces [0] S4096 := by decide

/-- The host's column sum in column `j`: zero plus the sum of the column's entries. -/
theorem highSum_apply (x : FVec Ideal S50000x4096 .f32) (j : Fin 4096) :
    highSum x (ix1 j) = 0 + ∑ i : Fin 50000, x (ix2 i j) := by
  unfold highSum
  refine (hostReduceAdd_apply _ _ _ _ _).trans ?_
  refine (Ideal.hostReduceAdd_single reducesTo_S50000x4096_S4096_d0 reduces_rows_high x _ (ix1 j)).trans ?_
  refine congrArg₂ (· + ·) Ideal.ofBits_zero_f32 ?_
  refine Finset.sum_congr rfl fun i _ => congrArg x (funext fun a => ?_)
  match a with
  | ⟨0, _⟩ => rfl
  | ⟨1, _⟩ => rfl

/-- The reference's mean of column `j`. -/
theorem highMean_apply (x : FVec Ideal S50000x4096 .f32) (j : Fin 4096) :
    highMean x (ix1 j) = Ideal.div (0 + ∑ i : Fin 50000, x (ix2 i j)) rows := by
  unfold highMean
  refine (hostDivf_apply _ _ _).trans ?_
  rw [highSum_apply]
  exact congrArg _ ((broadcastInDim_scalar_apply _ _ _).trans rfl)

/-- The variance's divisor is the real 50000. -/
theorem highCount_apply : highCount ix0 = ((50000 : ℝ) : EReal) := by
  show Ideal.ofBits .f32 0x47435000#32 - (((0#32 : BitVec 32).toInt : ℝ) : EReal) = _
  rw [Cert.VarLaw.ofBits_50000]
  simp

/-- The deviation of entry (i, j) from the mean of column `j`. -/
theorem highDev_apply (x : FVec Ideal S50000x4096 .f32) (i : Fin 50000) (j : Fin 4096) :
    highDev x (ix2 i j) = x (ix2 i j) - Ideal.div (0 + ∑ i : Fin 50000, x (ix2 i j)) rows := by
  unfold highDev
  refine (subf_apply _ _ _).trans ?_
  refine congrArg (x (ix2 i j) - ·) ?_
  refine (broadcastInDim_apply _ _ _ (ix2 i j) (ix2 (0 : Fin 1) j) (fun a => ?_)).trans ?_
  · match a with
    | ⟨0, _⟩ => rfl
    | ⟨1, _⟩ => rfl
  refine (hostDivf_apply _ _ _).trans ?_
  refine congrArg₂ Ideal.div ?_ ((broadcastInDim_scalar_apply _ _ _).trans rfl)
  refine (broadcastInDim_apply _ _ _ (ix2 (0 : Fin 1) j) (ix1 j) (fun a => ?_)).trans (highSum_apply x j)
  match a with
  | ⟨0, _⟩ => rfl

/-- The guard of the variance function is open. -/
theorem guard_open_high : FloatOps.cmpf (F := Ideal) .ogt (highCount ix0) (Ideal.ofBits .f32 0x00000000#32) = 1#1 := by
  rw [highCount_apply, Ideal.ofBits_zero_f32, Ideal.cmpf_def]
  unfold Ideal.cmp
  have h : (0 : EReal) < ((50000 : ℝ) : EReal) := by exact_mod_cast (by norm_num : (0 : ℝ) < 50000)
  simp [h]

/-- The reference's variance of column `j`: the mean squared deviation. -/
theorem highVar_apply (x : FVec Ideal S50000x4096 .f32) (j : Fin 4096) :
    highVar x (ix1 j) = Ideal.div (0 + ∑ i : Fin 50000,
        (x (ix2 i j) - Ideal.div (0 + ∑ i : Fin 50000, x (ix2 i j)) rows) * (x (ix2 i j) - Ideal.div (0 + ∑ i : Fin 50000, x (ix2 i j)) rows))
      ((50000 : ℝ) : EReal) := by
  unfold highVar
  refine (select_apply _ _ _ _).trans ?_
  have hg : (broadcastInDim S4096 ![] bcast_S_S4096 (cmpf .ogt highCount (constant (F := Ideal) S_ .f32 0x00000000#32))) (ix1 j) = 1#1 :=
    (broadcastInDim_scalar_apply _ _ _).trans ((cmpf_apply _ _ _ _).trans guard_open_high)
  rw [hg, select_one]
  refine (hostDivf_apply _ _ _).trans ?_
  refine congrArg₂ Ideal.div ?_ ((broadcastInDim_scalar_apply _ _ _).trans highCount_apply)
  refine (hostReduceAdd_apply _ _ _ _ _).trans ?_
  refine (Ideal.hostReduceAdd_single reducesTo_S50000x4096_S4096_d0 reduces_rows_high _ _ (ix1 j)).trans ?_
  refine congrArg₂ (· + ·) Ideal.ofBits_zero_f32 ?_
  refine Finset.sum_congr rfl fun i _ => ?_
  have e : reduces_rows_high.lift (ix1 j) i = ix2 i j := funext fun a => match a with | ⟨0, _⟩ => rfl | ⟨1, _⟩ => rfl
  rw [e]
  exact (mulf_apply _ _ _).trans (congrArg₂ (· * ·) (highDev_apply x i j) (highDev_apply x i j))

end Cert.ReferenceIdeal.Straight

end
-- ==== Proof.FiniteHigh.lean ====
/-
  What the precondition says of the flattened covariance features: every entry is a real number.
-/
import proofs.«160607_j85856396247988_1_alg».proof.Proof.FiniteIn

set_option maxRecDepth 16384

noncomputable section

namespace Cert.Finite

open Idealize.ShloMosaic Idealize.SL.Sem Idealize.ShloMosaic.ValueIdx

/-- Under the precondition every entry of the flattened covariance features is a real number. -/
theorem high_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S50000x4096.Idx) :
    ∃ r : ℝ, m ((c.tc : Thread Cert.KernelIdeal.nD Cert.KernelIdeal.τ).loc Cert.KernelIdeal.main_arg2) i = (r : EReal) := by
  have h0 := congrFun (hpre c) ix0
  unfold Cert.Pre_finite_inputs.fn Cert.Pre_finite_inputs.fn_part1 Cert.Pre_finite_inputs.fn_part2 Cert.Pre_finite_inputs.fn_part3
    Cert.Pre_finite_inputs.fn_part4 Cert.Pre_finite_inputs.fn_part5 at h0
  dsimp only at h0
  have h1 := and_right (and_left (and_left (and_left (and_left (and_left (and_left (and_left (and_left (and_left (and_left (and_left (and_left (and_left (and_left (and_left (and_left (h0)))))))))))))))))
  have h2 := Host.reduce_andi_all _ _ _ _ ix0 h1 i
  rw [cmpf_apply, broadcastInDim_scalar_apply] at h2
  exact real_of_abs_lt _ h2

end Cert.Finite

end
-- ==== Proof.HighBridge.lean ====
/-
  The high-dimensional branch's batch statistics agree.

  From memories that agree on the flattened covariance features, whose entries the precondition makes real numbers: the
  mean the kernel's second statistics region and host stretch leave for the normalization is the reference's mean, and
  the kernel's "mean of squares minus squared mean" is the reference's mean squared deviation — the one place where
  the two programs are different formulas, and the one place where finiteness is used.
-/
import proofs.«160607_j85856396247988_1_alg».proof.Proof.HighStats
import proofs.«160607_j85856396247988_1_alg».proof.Proof.RefStatsHighIdeal
import proofs.«160607_j85856396247988_1_alg».proof.Proof.FiniteHigh
import proofs.«160607_j85856396247988_1_alg».proof.Proof.VarLaw

set_option maxRecDepth 16384

noncomputable section

namespace Cert.Bridge.High

open Idealize.ShloMosaic Idealize.ShloMosaic.TcCoe Idealize.SL.Sem Idealize.ShloMosaic.StableHlo
open Idealize.ShloMosaic.ValueIdx

/-- The law, column by column: for a column of reals the kernel's variance formula is the reference's. -/
theorem var_agree (x : Cert.KernelIdeal.S50000x4096.Idx → EReal) (hx : ∀ i, ∃ r : ℝ, x i = (r : EReal)) (j : Fin 4096) :
    Ideal.div (∑ i : Fin 50000, x (ix2 i j) * x (ix2 i j)) (Ideal.ofBits .f32 0x47435000#32)
        - Ideal.div (∑ i : Fin 50000, x (ix2 i j)) (Ideal.ofBits .f32 0x47435000#32)
          * Ideal.div (∑ i : Fin 50000, x (ix2 i j)) (Ideal.ofBits .f32 0x47435000#32)
      = Ideal.div (0 + ∑ i : Fin 50000,
          (x (ix2 i j) - Ideal.div (0 + ∑ i : Fin 50000, x (ix2 i j)) (Ideal.ofBits .f32 0x47435000#32))
            * (x (ix2 i j) - Ideal.div (0 + ∑ i : Fin 50000, x (ix2 i j)) (Ideal.ofBits .f32 0x47435000#32)))
        ((50000 : ℝ) : EReal) := by
  choose r hr using hx
  simp only [hr, zero_add, Cert.VarLaw.ofBits_50000]
  exact Cert.VarLaw.var_ereal (fun i => r (ix2 i j))

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The means agree, column by column. -/
theorem mean_eq (c : Dev Cert.KernelIdeal.nD)
    (h1 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) (j : Fin 4096) :
    after (Cert.ReferenceIdeal.Straight.ops (F := Ideal)) (launchContents m' c) (Proc.devRef .tc Cert.ReferenceIdeal.main_v45) (ix1 j)
      = Cert.KernelIdeal.Gen.V4 m ρ c Cert.KernelIdeal.main_v9 (ix2 (0 : Fin 1) j) := by
  have hx : (after Cert.ReferenceIdeal.Straight.opsA1 (after Cert.ReferenceIdeal.Straight.opsA0 (launchContents m' c))) (Proc.devRef .tc Cert.ReferenceIdeal.main_arg2)
      = m ((c.tc : Thread Cert.KernelIdeal.nD Cert.KernelIdeal.τ).loc Cert.KernelIdeal.main_arg2) :=
    (Cert.ReferenceIdeal.Straight.entry_A2 Cert.ReferenceIdeal.main_arg2 (by decide) (by decide) _).trans h1
  rw [Cert.ReferenceIdeal.Straight.read_A2 Cert.ReferenceIdeal.main_v45 (by decide) (by decide) (by decide) (by decide) (by decide),
    Cert.ReferenceIdeal.Straight.mean_buf_high, hx, Cert.ReferenceIdeal.Straight.highMean_apply,
    Cert.KernelIdeal.HighStats.mean_apply, zero_add]

/-- The variances agree, column by column, under the precondition. -/
theorem var_eq [hP : Cert.Pre_finite_inputs.Facts] (hpre : Cert.Pre_KernelIdeal m) (c : Dev Cert.KernelIdeal.nD)
    (h1 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) (j : Fin 4096) :
    after (Cert.ReferenceIdeal.Straight.ops (F := Ideal)) (launchContents m' c) (Proc.devRef .tc Cert.ReferenceIdeal.main_v46) (ix1 j)
      = Cert.KernelIdeal.Gen.V4 m ρ c Cert.KernelIdeal.main_v13 (ix2 (0 : Fin 1) j) := by
  have hx : (after Cert.ReferenceIdeal.Straight.opsA1 (after Cert.ReferenceIdeal.Straight.opsA0 (launchContents m' c))) (Proc.devRef .tc Cert.ReferenceIdeal.main_arg2)
      = m ((c.tc : Thread Cert.KernelIdeal.nD Cert.KernelIdeal.τ).loc Cert.KernelIdeal.main_arg2) :=
    (Cert.ReferenceIdeal.Straight.entry_A2 Cert.ReferenceIdeal.main_arg2 (by decide) (by decide) _).trans h1
  rw [Cert.ReferenceIdeal.Straight.read_A2 Cert.ReferenceIdeal.main_v46 (by decide) (by decide) (by decide) (by decide) (by decide),
    Cert.ReferenceIdeal.Straight.var_buf_high, hx, Cert.ReferenceIdeal.Straight.highVar_apply,
    Cert.KernelIdeal.HighStats.var_apply]
  exact (var_agree _ (Cert.Finite.high_real m hpre c) j).symm

end Cert.Bridge.High

end
-- ==== Proof.HighLayer.lean ====
/-
  What the high branch's linear-layer region finds in its windows.

  The covariance features are the launch contents (the second statistics region only read them); the mean and variance
  are what the second host stretch left; the scale, shift and bias are the arguments reshaped to one row; the weights
  are the argument under a format change, which over the extended reals is the identity.  The third region, which runs
  in between, owns none of these arrays.
-/
import proofs.«160607_j85856396247988_1_alg».proof.Proof.HighStats
import proofs.«160607_j85856396247988_1_alg».proof.Proof.Lin3Array

set_option maxRecDepth 16384

noncomputable section

namespace Cert.KernelIdeal.HighLayer

open Cert.KernelIdeal Cert.KernelIdeal.Gen
open Idealize.ShloMosaic Idealize.ShloMosaic.TcCoe Idealize.SL.Sem Idealize.ShloMosaic.Tactic Idealize.ShloMosaic.StableHlo
open Idealize.ShloMosaic.ValueIdx

/-- A buffer no operation of a host stretch writes keeps its contents across the stretch. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg)

/-- Argument 6 is as launched when the second host stretch begins. -/
theorem arg6_at3 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := by host_keeps hostOps1
    _ = W0 m ρ c (Proc.devRef .tc main_arg6) := W1_of_ne m ρ c main_arg6 (by decide)
    _ = m ((c : Thread nD τ).loc main_arg6) := rfl

/-- Argument 7 is as launched when the second host stretch begins. -/
theorem arg7_at3 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := by host_keeps hostOps1
    _ = W0 m ρ c (Proc.devRef .tc main_arg7) := W1_of_ne m ρ c main_arg7 (by decide)
    _ = m ((c : Thread nD τ).loc main_arg7) := rfl

/-- Argument 12 is as launched when the second host stretch begins. -/
theorem arg12_at3 (c : Dev nD) : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := by host_keeps hostOps1
    _ = W0 m ρ c (Proc.devRef .tc main_arg12) := W1_of_ne m ρ c main_arg12 (by decide)
    _ = m ((c : Thread nD τ).loc main_arg12) := rfl

/-- Argument 13 is as launched when the second host stretch begins. -/
theorem arg13_at3 (c : Dev nD) : W3 m ρ c (Proc.devRef .tc main_arg13) = m ((c : Thread nD τ).loc main_arg13) :=
  calc W3 m ρ c (Proc.devRef .tc main_arg13)
    _ = W2 m ρ c (Proc.devRef .tc main_arg13) := W3_of_ne m ρ c main_arg13 (by decide)
    _ = W1 m ρ c (Proc.devRef .tc main_arg13) := by host_keeps hostOps1
    _ = W0 m ρ c (Proc.devRef .tc main_arg13) := W1_of_ne m ρ c main_arg13 (by decide)
    _ = m ((c : Thread nD τ).loc main_arg13) := rfl

/-- The covariance features, at the region's entry, are the launch contents. -/
theorem feat_eq (c : Dev nD) : V5 m ρ c main_arg2 = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := by host_keeps hostOps2
    _ = W2 m ρ c (Proc.devRef .tc main_arg2) := (W3_arr m ρ c 0).trans (((dat1 (V2 m ρ) c).arrAt_in 0 rfl _).trans (A_eq1 (V2 m ρ) c 0))
    _ = W1 m ρ c (Proc.devRef .tc main_arg2) := by host_keeps hostOps1
    _ = W0 m ρ c (Proc.devRef .tc main_arg2) := W1_of_ne m ρ c main_arg2 (by decide)
    _ = m ((c : Thread nD τ).loc main_arg2) := rfl

/-- The mean and the variance are what the second host stretch left. -/
theorem mean_eq (c : Dev nD) : V5 m ρ c main_v9 = V4 m ρ c main_v9 := W5_of_ne m ρ c main_v9 (by decide)
theorem var_eq (c : Dev nD) : V5 m ρ c main_v13 = V4 m ρ c main_v13 := W5_of_ne m ρ c main_v13 (by decide)

/-- The scale: argument 6 as one row. -/
theorem scale_eq (c : Dev nD) : V5 m ρ c main_v16 = shapeCast S1x4096 (m ((c : Thread nD τ).loc main_arg6)) shapeCasts_S4096_S1x4096 := by
  refine (W5_of_ne m ρ c main_v16 (by decide)).trans ?_
  show StableHlo.after hostOps2 (W3 m ρ c) (Proc.devRef .tc main_v16) = _
  after_results
  rw [arg6_at3]
  rfl
/-- The shift: argument 7 as one row. -/
theorem shift_eq (c : Dev nD) : V5 m ρ c main_v17 = shapeCast S1x4096 (m ((c : Thread nD τ).loc main_arg7)) shapeCasts_S4096_S1x4096 := by
  refine (W5_of_ne m ρ c main_v17 (by decide)).trans ?_
  show StableHlo.after hostOps2 (W3 m ρ c) (Proc.devRef .tc main_v17) = _
  after_results
  rw [arg7_at3]
  rfl
/-- The weights: argument 12 under the format change. -/
theorem weights_eq (c : Dev nD) :
    V5 m ρ c main_v19 = (truncf .bf16 (m ((c : Thread nD τ).loc main_arg12) : FVec Ideal S4096x128 .f32) bitsLt_bf16_f32 : FVec Ideal S4096x128 .bf16) := by
  refine (W5_of_ne m ρ c main_v19 (by decide)).trans ?_
  show StableHlo.after hostOps2 (W3 m ρ c) (Proc.devRef .tc main_v19) = _
  after_results
  rw [arg12_at3]
  try rfl
/-- The bias: argument 13 as one row. -/
theorem bias_eq (c : Dev nD) : V5 m ρ c main_v21 = shapeCast S1x128 (m ((c : Thread nD τ).loc main_arg13)) shapeCasts_S128_S1x128 := by
  refine (W5_of_ne m ρ c main_v21 (by decide)).trans ?_
  show StableHlo.after hostOps2 (W3 m ρ c) (Proc.devRef .tc main_v21) = _
  after_results
  rw [arg13_at3]
  rfl

end Cert.KernelIdeal.HighLayer

end
-- ==== Proof.RefLinHigh.lean ====
/-
  The high-dimensional branch's linear layer, as the reference computes it.

  The reference broadcasts the column means down the rows at the end of its statistics stage, and in the next stage
  subtracts them from the [50000, 4096] array, multiplies by the reciprocal square roots of the column variances plus
  epsilon, scales and shifts, takes the product with the [4096, 128] weights, adds the bias and clamps at zero.
-/
import proofs.«160607_j85856396247988_1_alg».proof.Proof.RefStatsHigh

set_option maxRecDepth 16384

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

/-- A vector of 4096 column values broadcast down the 50000 rows. -/
def downRowsH (v : FVec Ideal S4096 .f32) : FVec Ideal S50000x4096 .f32 :=
  broadcastInDim S50000x4096 ![0, 1] bcast_S1x4096_S50000x4096_0_1 (broadcastInDim S1x4096 ![1] bcast_S4096_S1x4096_1 v)

/-- The normalized features, from the means already broadcast down the rows. -/
def highNormed (x mb : FVec Ideal S50000x4096 .f32) (var g b : FVec Ideal S4096 .f32) : FVec Ideal S50000x4096 .f32 :=
  addf (mulf (mulf (subf x mb)
      (downRowsH (Host.rsqrt (F := Ideal) (addf var (broadcastInDim S4096 ![] bcast_S_S4096 (constant (F := Ideal) S_ .f32 0x3727C5AC#32))))))
    (downRowsH g)) (downRowsH b)

/-- The linear layer with its relu. -/
def highPre (x mb : FVec Ideal S50000x4096 .f32) (var g b : FVec Ideal S4096 .f32) (W : FVec Ideal S4096x128 .f32) (lb : FVec Ideal S128 .f32) :
    FVec Ideal S50000x128 .f32 :=
  maximumf (addf (Host.dotGeneral (F := Ideal) dot_S50000x4096_S4096x128_S50000x128_1_0_0_1_n_n none (highNormed x mb var g b) W)
      (broadcastInDim S50000x128 ![0, 1] bcast_S1x128_S50000x128_0_1 (broadcastInDim S1x128 ![1] bcast_S128_S1x128_1 lb)))
    (broadcastInDim S50000x128 ![] bcast_S_S50000x128 (constant (F := Ideal) S_ .f32 0x00000000#32))

attribute [local irreducible] Host.reduceAdd Host.divf in
set_option maxHeartbeats 6400000 in
/-- The statistics stage leaves the column means broadcast down the rows. -/
theorem meanRows_buf (V : Valuation τ sig (Elt Ideal)) :
    after (opsA2 (F := Ideal)) V (Proc.devRef .tc main_v48) = downRowsH (highMean (V (Proc.devRef .tc main_arg2))) := by
  after_results
  rfl

set_option maxHeartbeats 6400000 in
/-- The reference's buffer after the high branch's relu holds the layer's output of what the stage found. -/
theorem highPre_buf (V : Valuation τ sig (Elt Ideal)) :
    after (opsB0 (F := Ideal)) V (Proc.devRef .tc main_v66)
      = highPre (V (Proc.devRef .tc main_arg2)) (V (Proc.devRef .tc main_v48)) (V (Proc.devRef .tc main_v46))
          (V (Proc.devRef .tc main_arg6)) (V (Proc.devRef .tc main_arg7)) (V (Proc.devRef .tc main_arg12)) (V (Proc.devRef .tc main_arg13)) := by
  after_results
  rfl

end Cert.ReferenceIdeal.Straight

end
-- ==== Proof.RefLinHighIdeal.lean ====
/-
  The reference's high-branch linear layer, entry by entry.
-/
import proofs.«160607_j85856396247988_1_alg».proof.Proof.RefLinHigh
import proofs.«160607_j85856396247988_1_alg».proof.Proof.RefStatsHighIdeal
import proofs.«160607_j85856396247988_1_alg».proof.Proof.RefLinIdeal
import Idealize.ShloMosaic.Lib.Pipeline.Value

set_option maxRecDepth 16384

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

/-- A column vector broadcast down the rows reads, at (i, k), the vector at k. -/
theorem downRowsH_apply (v : FVec Ideal S4096 .f32) (i : Fin 50000) (k : Fin 4096) : downRowsH v (ix2 i k) = v (ix1 k) := by
  unfold downRowsH
  refine (broadcastInDim_apply _ _ _ (ix2 i k) (ix2 (0 : Fin 1) k) (fun a => ?_)).trans ?_
  · match a with
    | ⟨0, _⟩ => rfl
    | ⟨1, _⟩ => rfl
  refine broadcastInDim_apply _ _ _ (ix2 (0 : Fin 1) k) (ix1 k) (fun a => ?_)
  match a with
  | ⟨0, _⟩ => rfl

/-- The host's product of a [50000, 4096] by a [4096, 128] matrix at (a, b): the sum over the 4096 contracted coordinates. -/
theorem dotH_apply (A : FVec Ideal S50000x4096 .f32) (B : FVec Ideal S4096x128 .f32) (a : Fin 50000) (b : Fin 128) :
    Host.dotGeneral (F := Ideal) dot_S50000x4096_S4096x128_S50000x128_1_0_0_1_n_n none A B (ix2 a b) = ∑ k : Fin 4096, A (ix2 a k) * B (ix2 k b) := by
  show FloatOps.dotGeneral dot_S50000x4096_S4096x128_S50000x128_1_0_0_1_n_n none _ A B (ix2 a b) = _
  rw [Ideal.dotGeneral_apply, ← Equiv.sum_comp (contrEquiv1 dot_S50000x4096_S4096x128_S50000x128_1_0_0_1_n_n 4096 rfl rfl).symm]
  refine Finset.sum_congr rfl fun k _ => ?_
  have c2 := contrEquiv1_symm_val dot_S50000x4096_S4096x128_S50000x128_1_0_0_1_n_n 4096 rfl rfl k
  have l2 : (dot_S50000x4096_S4096x128_S50000x128_1_0_0_1_n_n).lhsIdx (ix2 a b) ((contrEquiv1 _ 4096 rfl rfl).symm k) = ix2 a k := by
    funext ax; apply Fin.ext
    match ax with
    | ⟨0, _⟩ => simp [DotDims.lhsIdx, dot_S50000x4096_S4096x128_S50000x128_1_0_0_1_n_n]; rfl
    | ⟨1, _⟩ => simp [DotDims.lhsIdx, dot_S50000x4096_S4096x128_S50000x128_1_0_0_1_n_n]; exact c2
  have r2 : (dot_S50000x4096_S4096x128_S50000x128_1_0_0_1_n_n).rhsIdx (ix2 a b) ((contrEquiv1 _ 4096 rfl rfl).symm k) = ix2 k b := by
    funext ax; apply Fin.ext
    match ax with
    | ⟨0, _⟩ => simp [DotDims.rhsIdx, dot_S50000x4096_S4096x128_S50000x128_1_0_0_1_n_n]; exact c2
    | ⟨1, _⟩ => simp [DotDims.rhsIdx, dot_S50000x4096_S4096x128_S50000x128_1_0_0_1_n_n]; rfl
  rw [l2, r2]

/-- A normalized entry. -/
theorem highNormed_apply (x mb : FVec Ideal S50000x4096 .f32) (var g b : FVec Ideal S4096 .f32) (i : Fin 50000) (k : Fin 4096) :
    highNormed x mb var g b (ix2 i k)
      = (x (ix2 i k) - mb (ix2 i k)) * Ideal.rsqrt (var (ix1 k) + eps) * g (ix1 k) + b (ix1 k) := by
  unfold highNormed
  refine (addf_apply _ _ _).trans ?_
  refine congrArg₂ (· + ·) ?_ (downRowsH_apply b i k)
  refine (mulf_apply _ _ _).trans ?_
  refine congrArg₂ (· * ·) ?_ (downRowsH_apply g i k)
  refine (mulf_apply _ _ _).trans ?_
  refine congrArg₂ (· * ·) (subf_apply _ _ _) ?_
  refine (downRowsH_apply _ i k).trans ?_
  show Ideal.rsqrt (var (ix1 k) + (broadcastInDim S4096 ![] bcast_S_S4096 (constant (F := Ideal) S_ .f32 0x3727C5AC#32)) (ix1 k)) = _
  exact congrArg Ideal.rsqrt (congrArg (var (ix1 k) + ·) ((broadcastInDim_scalar_apply _ _ _).trans rfl))

/-- An entry of the layer's output. -/
theorem highPre_apply (x mb : FVec Ideal S50000x4096 .f32) (var g b : FVec Ideal S4096 .f32) (W : FVec Ideal S4096x128 .f32)
    (lb : FVec Ideal S128 .f32) (i : Fin 50000) (n : Fin 128) :
    highPre x mb var g b W lb (ix2 i n)
      = max ((∑ k : Fin 4096, ((x (ix2 i k) - mb (ix2 i k)) * Ideal.rsqrt (var (ix1 k) + eps) * g (ix1 k) + b (ix1 k))
          * W (ix2 k n)) + lb (ix1 n)) 0 := by
  unfold highPre
  refine (maximumf_apply _ _ _).trans ?_
  refine congrArg₂ max ?_ ((broadcastInDim_scalar_apply _ _ _).trans Ideal.ofBits_zero_f32)
  refine (addf_apply _ _ _).trans ?_
  refine congrArg₂ (· + ·) ?_ ?_
  · refine (dotH_apply _ _ i n).trans ?_
    exact Finset.sum_congr rfl fun k _ => congrArg (· * W (ix2 k n)) (highNormed_apply x mb var g b i k)
  · refine (broadcastInDim_apply _ _ _ (ix2 i n) (ix2 (0 : Fin 1) n) (fun a => ?_)).trans ?_
    · match a with
      | ⟨0, _⟩ => rfl
      | ⟨1, _⟩ => rfl
    refine broadcastInDim_apply _ _ _ (ix2 (0 : Fin 1) n) (ix1 n) (fun a => ?_)
    match a with
    | ⟨0, _⟩ => rfl

end Cert.ReferenceIdeal.Straight

end
-- ==== Proof.HighLayerBridge.lean ====
/-
  The high-dimensional branch's linear layer agrees.

  Under the precondition, the array the kernel's fourth region leaves is the reference's linear-layer function of the
  same launch arrays, with the reference's own column means (broadcast down the rows) and variances: the statistics
  agree (the variance by the law of Proof/VarLaw.lean), the reshaped scale, shift and bias read the arguments, the
  format change of the weights is the identity, and the two matrix products are the same sums.
-/
import proofs.«160607_j85856396247988_1_alg».proof.Proof.HighBridge
import proofs.«160607_j85856396247988_1_alg».proof.Proof.HighLayer
import proofs.«160607_j85856396247988_1_alg».proof.Proof.RefLinHighIdeal
import Idealize.ShloMosaic.Lib.ValueLayout

set_option maxRecDepth 16384

noncomputable section

namespace Cert.Bridge.High

open Idealize.ShloMosaic Idealize.ShloMosaic.TcCoe Idealize.SL.Sem Idealize.ShloMosaic.StableHlo
open Idealize.ShloMosaic.ValueIdx

variable (m : (ℓ : Loc Cert.KernelIdeal.nD Cert.KernelIdeal.τ Cert.KernelIdeal.sig) → Buf (Elt Ideal) ℓ) (ρ : Dev Cert.KernelIdeal.nD → PrngReg)

/-- The launch arrays the high branch reads, at the reference's types. -/
abbrev ax (c : Dev Cert.KernelIdeal.nD) : FVec Ideal Cert.ReferenceIdeal.S50000x4096 .f32 := m ((c.tc : Thread Cert.KernelIdeal.nD Cert.KernelIdeal.τ).loc Cert.KernelIdeal.main_arg2)
abbrev ag (c : Dev Cert.KernelIdeal.nD) : FVec Ideal Cert.ReferenceIdeal.S4096 .f32 := m ((c.tc : Thread Cert.KernelIdeal.nD Cert.KernelIdeal.τ).loc Cert.KernelIdeal.main_arg6)
abbrev ab (c : Dev Cert.KernelIdeal.nD) : FVec Ideal Cert.ReferenceIdeal.S4096 .f32 := m ((c.tc : Thread Cert.KernelIdeal.nD Cert.KernelIdeal.τ).loc Cert.KernelIdeal.main_arg7)
abbrev aW (c : Dev Cert.KernelIdeal.nD) : FVec Ideal Cert.ReferenceIdeal.S4096x128 .f32 := m ((c.tc : Thread Cert.KernelIdeal.nD Cert.KernelIdeal.τ).loc Cert.KernelIdeal.main_arg12)
abbrev al (c : Dev Cert.KernelIdeal.nD) : FVec Ideal Cert.ReferenceIdeal.S128 .f32 := m ((c.tc : Thread Cert.KernelIdeal.nD Cert.KernelIdeal.τ).loc Cert.KernelIdeal.main_arg13)

/-- The kernel's mean is the reference's mean function of the launch features. -/
theorem kmean (c : Dev Cert.KernelIdeal.nD) (j : Fin 4096) :
    Cert.KernelIdeal.Gen.V4 m ρ c Cert.KernelIdeal.main_v9 (ix2 (0 : Fin 1) j) = Cert.ReferenceIdeal.Straight.highMean (ax m c) (ix1 j) := by
  rw [Cert.KernelIdeal.HighStats.mean_apply, Cert.ReferenceIdeal.Straight.highMean_apply, zero_add]

/-- The kernel's variance is the reference's variance function of the launch features, under the precondition. -/
theorem kvar [hP : Cert.Pre_finite_inputs.Facts] (hpre : Cert.Pre_KernelIdeal m) (c : Dev Cert.KernelIdeal.nD) (j : Fin 4096) :
    Cert.KernelIdeal.Gen.V4 m ρ c Cert.KernelIdeal.main_v13 (ix2 (0 : Fin 1) j) = Cert.ReferenceIdeal.Straight.highVar (ax m c) (ix1 j) := by
  rw [Cert.KernelIdeal.HighStats.var_apply, Cert.ReferenceIdeal.Straight.highVar_apply]
  exact var_agree _ (Cert.Finite.high_real m hpre c) j

/-- The kernel's linear-layer array is the reference's linear-layer function of the launch arrays. -/
theorem klayer [hP : Cert.Pre_finite_inputs.Facts] (hpre : Cert.Pre_KernelIdeal m) (c : Dev Cert.KernelIdeal.nD) (i : Fin 50000) (n : Fin 128) :
    Cert.KernelIdeal.Gen.V6 m ρ c Cert.KernelIdeal.main_v23 (ix2 i n)
      = Cert.ReferenceIdeal.Straight.highPre (ax m c) (Cert.ReferenceIdeal.Straight.downRowsH (Cert.ReferenceIdeal.Straight.highMean (ax m c))) (Cert.ReferenceIdeal.Straight.highVar (ax m c))
          (ag m c) (ab m c) (aW m c) (al m c) (ix2 i n) := by
  have hV : Cert.KernelIdeal.Gen.V6 m ρ c Cert.KernelIdeal.main_v23 = Cert.KernelIdeal.Lin3.G (Cert.KernelIdeal.Gen.V5 m ρ) c :=
    (Cert.KernelIdeal.Gen.hF3 m ρ c 7).symm.trans (Cert.KernelIdeal.Lin3.final (Cert.KernelIdeal.Gen.V5 m ρ) c)
  rw [hV, Cert.ReferenceIdeal.Straight.highPre_apply]
  show Cert.KernelIdeal.Lin3.rowOut (fun k => Cert.KernelIdeal.Lin3.X (Cert.KernelIdeal.Gen.V5 m ρ) c (ix2 i k)) (Cert.KernelIdeal.Lin3.mu (Cert.KernelIdeal.Gen.V5 m ρ) c) (Cert.KernelIdeal.Lin3.sg (Cert.KernelIdeal.Gen.V5 m ρ) c)
    (Cert.KernelIdeal.Lin3.gm (Cert.KernelIdeal.Gen.V5 m ρ) c) (Cert.KernelIdeal.Lin3.bt (Cert.KernelIdeal.Gen.V5 m ρ) c) (Cert.KernelIdeal.Lin3.Wt (Cert.KernelIdeal.Gen.V5 m ρ) c) (Cert.KernelIdeal.Lin3.lb (Cert.KernelIdeal.Gen.V5 m ρ) c) n = _
  unfold Cert.KernelIdeal.Lin3.rowOut Cert.KernelIdeal.Lin3.normed
  have e1 : ∀ k : Fin 4096, Cert.KernelIdeal.Lin3.X (Cert.KernelIdeal.Gen.V5 m ρ) c (ix2 i k) = ax m c (ix2 i k) := fun k =>
    congrFun (Cert.KernelIdeal.HighLayer.feat_eq m ρ c) (ix2 i k)
  have e2 : ∀ k : Fin 4096, Cert.KernelIdeal.Lin3.mu (Cert.KernelIdeal.Gen.V5 m ρ) c (ix2 (0 : Fin 1) k) = Cert.ReferenceIdeal.Straight.highMean (ax m c) (ix1 k) := fun k =>
    (congrFun (Cert.KernelIdeal.HighLayer.mean_eq m ρ c) (ix2 (0 : Fin 1) k)).trans (kmean m ρ c k)
  have e3 : ∀ k : Fin 4096, Cert.KernelIdeal.Lin3.sg (Cert.KernelIdeal.Gen.V5 m ρ) c (ix2 (0 : Fin 1) k) = Cert.ReferenceIdeal.Straight.highVar (ax m c) (ix1 k) := fun k =>
    (congrFun (Cert.KernelIdeal.HighLayer.var_eq m ρ c) (ix2 (0 : Fin 1) k)).trans (kvar m ρ hpre c k)
  have e4 : ∀ k : Fin 4096, Cert.KernelIdeal.Lin3.gm (Cert.KernelIdeal.Gen.V5 m ρ) c (ix2 (0 : Fin 1) k) = ag m c (ix1 k) := fun k =>
    (congrFun (Cert.KernelIdeal.HighLayer.scale_eq m ρ c) (ix2 (0 : Fin 1) k)).trans (shapeCast_a_1a_apply _ _ (0 : Fin 1) k)
  have e5 : ∀ k : Fin 4096, Cert.KernelIdeal.Lin3.bt (Cert.KernelIdeal.Gen.V5 m ρ) c (ix2 (0 : Fin 1) k) = ab m c (ix1 k) := fun k =>
    (congrFun (Cert.KernelIdeal.HighLayer.shift_eq m ρ c) (ix2 (0 : Fin 1) k)).trans (shapeCast_a_1a_apply _ _ (0 : Fin 1) k)
  have e6 : ∀ k : Fin 4096, Cert.KernelIdeal.Lin3.Wt (Cert.KernelIdeal.Gen.V5 m ρ) c (ix2 k n) = aW m c (ix2 k n) := fun k =>
    congrFun (Cert.KernelIdeal.HighLayer.weights_eq m ρ c) (ix2 k n)
  have e7 : Cert.KernelIdeal.Lin3.lb (Cert.KernelIdeal.Gen.V5 m ρ) c (ix2 (0 : Fin 1) n) = al m c (ix1 n) :=
    (congrFun (Cert.KernelIdeal.HighLayer.bias_eq m ρ c) (ix2 (0 : Fin 1) n)).trans (shapeCast_a_1a_apply _ _ (0 : Fin 1) n)
  simp only [e1, e2, e3, e4, e5, e6, e7, Cert.ReferenceIdeal.Straight.downRowsH_apply]

end Cert.Bridge.High

end
-- ==== Proof.Stats5.lean ====
/-
  The fourth statistics region, read as values.

  The region walks the 10 row blocks of the [50000, 128] array the high-dimensional branch's linear layer and relu produced.  Its two outputs are
  single [1, 128] blocks whose index never moves, so each stays in its staging buffer across the grid and is
  written back once, after the last point.  At the first point the body stores a zero row, reads it back, and adds
  the block's column sums (for the second output: the column sums of the squared block); at every later point it
  adds the block's column sums to what the point before left.  So after point n the two buffers hold the running
  sums of the column sums (of the squares) of blocks 0 … n, and the two result arrays end holding the running sums
  after the last point.
-/
import proofs.«160607_j85856396247988_1_alg».proof.Proof.Gen.KernelIdeal.Frame
import Idealize.ShloMosaic.Lib.Pipeline.Value
import Idealize.ShloMosaic.Lib.Tactic

set_option maxRecDepth 16384

noncomputable section

namespace Cert.KernelIdeal.Stats5

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]

theorem hz : (![0, 0] : Fin 2 → Nat) = fun _ => 0 := funext fun a => by fin_cases a <;> rfl

/-- A later point leaves, in the first output's buffer holding `xo1`, `xo1` plus the block's column sums. -/
theorem laterSum (c : Dev nD) (i : grid5.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond5_0 i) (x : Vec F S5000x128 .f32) (xo1 xo2 : Vec F S1x128 .f32) :
    out5_B_1 c i a1 h1 a2 h2 a3 h3 hc x xo1 xo2 = k5_pay4 x xo1 := by
  unfold out5_B_1
  rw [View.read_writes_eq_canon _ _ _ (cover5_B_1 c i a1 h1 a2 h2 a3 h3 hc x xo1 xo2)]
  unfold kernelRun5_B
  dsimp only
  rw [View.canon_unit_zero hz]
  simp only [View.readAt_eq_ld, h1.read_unread, h2.read_unread, h3.read_unread, View.ld_unit_zero (S := S5000x128) hz,
    View.ld_unit_zero (S := S1x128) hz]

/-- A later point leaves, in the second output's buffer holding `xo2`, `xo2` plus the column sums of the squared block. -/
theorem laterSq (c : Dev nD) (i : grid5.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond5_0 i) (x : Vec F S5000x128 .f32) (xo1 xo2 : Vec F S1x128 .f32) :
    out5_B_2 c i a1 h1 a2 h2 a3 h3 hc x xo1 xo2 = k5_pay5 x xo2 := by
  unfold out5_B_2
  rw [View.read_writes_eq_canon _ _ _ (cover5_B_2 c i a1 h1 a2 h2 a3 h3 hc x xo1 xo2)]
  unfold kernelRun5_B
  dsimp only
  rw [View.canon_unit_zero hz]
  simp only [View.readAt_eq_ld, h1.read_unread, h2.read_unread, h3.read_unread, View.ld_unit_zero (S := S5000x128) hz,
    View.ld_unit_zero (S := S1x128) hz]

/-- The first point stores the zero row, reads it back, and leaves it plus the block's column sums. -/
theorem firstSum (c : Dev nD) (i : grid5.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond5_0 i) (x : Vec F S5000x128 .f32) :
    out5_A_1 c i a1 h1 a2 h2 a3 h3 hc x = k5_pay4 x k5_pay2 := by
  unfold out5_A_1
  rw [View.read_writes_eq_canon _ _ _ (cover5_A_1 c i a1 h1 a2 h2 a3 h3 hc x)]
  unfold kernelRun5_A
  dsimp only
  sl_unfold_words
  rw [View.canon_cons_unit_zero (S := S1x128) hz, View.readCov_unit_zero (S := S1x128) _ hz]
  simp only [View.readAt_eq_ld, h1.read_unread, View.ld_unit_zero (S := S5000x128) hz, View.ld_unit_zero (S := S1x128) hz]

/-- The first point leaves, in the second output's buffer, the zero row plus the column sums of the squared block. -/
theorem firstSq (c : Dev nD) (i : grid5.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond5_0 i) (x : Vec F S5000x128 .f32) :
    out5_A_2 c i a1 h1 a2 h2 a3 h3 hc x = k5_pay5 x k5_pay3 := by
  unfold out5_A_2
  rw [View.read_writes_eq_canon _ _ _ (cover5_A_2 c i a1 h1 a2 h2 a3 h3 hc x)]
  unfold kernelRun5_A
  dsimp only
  sl_unfold_words
  rw [View.canon_cons_unit_zero (S := S1x128) hz, View.readCov_unit_zero (S := S1x128) _ hz]
  simp only [View.readAt_eq_ld, h1.read_unread, View.ld_unit_zero (S := S5000x128) hz, View.ld_unit_zero (S := S1x128) hz]

section Running

variable (V : (c : Dev nD) → (b : Ref sig .tc) → Buf (Elt F) ((c : Thread nD τ).loc b))

/-- The running pair after point `n`: (sum of the blocks' column sums, sum of the squared blocks' column sums). -/
def running (c : Dev nD) : (n : ℕ) → n < cfg5.N → Vec F S1x128 .f32 × Vec F S1x128 .f32
  | 0, h => (k5_pay4 (iblk5 V c 0 ⟨0, h⟩) k5_pay2, k5_pay5 (iblk5 V c 0 ⟨0, h⟩) k5_pay3)
  | n + 1, h => (k5_pay4 (iblk5 V c 0 ⟨n + 1, h⟩) (running c n (Nat.lt_of_succ_lt h)).1,
      k5_pay5 (iblk5 V c 0 ⟨n + 1, h⟩) (running c n (Nat.lt_of_succ_lt h)).2)

/-- What the two staging buffers hold after point `n` is the running pair: by induction on the point. -/
theorem outsAt_eq (c : Dev nD) : ∀ (n : ℕ) (h : n < cfg5.N), outsAt5 V c n h = running V c n h
  | 0, h => by
    rw [outsAt5_A V c ⟨0, h⟩ rfl, firstSum, firstSq]
    rfl
  | n + 1, h => by
    have hN : cfg5.N = 10 := N_5
    have hB : ¬(⟨n + 1, h⟩ : Fin cfg5.N).val % 10 = 0 := by dsimp only; omega
    rw [outsAt5_B V c ⟨n + 1, h⟩ hB, laterSum, laterSq]
    show (k5_pay4 _ (outsAt5 V c n _).1, k5_pay5 _ (outsAt5 V c n _).2) = _
    rw [outsAt_eq c n]
    rfl

end Running

end Cert.KernelIdeal.Stats5

end
-- ==== Proof.Stats5Final.lean ====
/-
  The fourth statistics region: its two result arrays.

  Each output of the region is one [1, 128] block, written back once, after the last of the 10 points.  That block is
  the whole array, so each result array ends holding what its staging buffer held after the last point: the running
  sum of the blocks' column sums, and the running sum of the squared blocks' column sums.
-/
import proofs.«160607_j85856396247988_1_alg».proof.Proof.Stats5

set_option maxRecDepth 16384

noncomputable section

namespace Cert.KernelIdeal.Stats5

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]
variable (V : (c : Dev nD) → (b : Ref sig .tc) → Buf (Elt F) ((c : Thread nD τ).loc b))

theorem ltLast : 9 < cfg5.N := by rw [show cfg5.N = 10 from N_5]; decide

/-- The last grid point. -/
abbrev last : Fin cfg5.N := ⟨9, ltLast⟩

/-- The running sum of column sums after the last point, as contents of the first result array. -/
abbrev res1 (c : Dev nD) : Buf (Elt F) ((c : Thread nD τ).loc main_v31_0) := (running V c 9 ltLast).1
/-- The running sum of the squares' column sums after the last point, as contents of the second result array. -/
abbrev res2 (c : Dev nD) : Buf (Elt F) ((c : Thread nD τ).loc main_v31_1) := (running V c 9 ltLast).2

/-- The one write-back of output 1, after the last point, writes the running sum: block (0, 0) of the [1, 128] array is the array. -/
theorem flushed1 (c : Dev nD) (t : Fin cfg5.N) (hf : (cfg5.win 1).flush t = true) :
    (dat5 V c).flushed 1 t = ((cfg5.win 1).blk t).view.read (Elt F) (res1 V c) := by
  have hN : cfg5.N = 10 := N_5
  have hl : t.val = 9 := by have := (flush5_1 t).mp hf; have := t.isLt; omega
  obtain rfl : t = last := Fin.ext hl
  show (cfg5.win 1).cut (grid5.coords last) ((dat5 V c).after 1 last) = _
  rw [after5_1, Stats5.outsAt_eq]
  have hz' : (fun a => win5_1.index last a * main_v31_0.ty.shape.size a) = fun _ => 0 := funext fun a => by fin_cases a <;> decide
  exact (Memref.read_access_unit_zero (Elt F) main_v31_0 hz' (fun a => by rw [congrFun hz' a]; simp) (res1 V c)).symm

/-- So result array 1 ends holding the running sum after the last point. -/
theorem final1 (c : Dev nD) : (dat5 V c).arrAt 1 cfg5.N = res1 V c :=
  (dat5 V c).arrAt_eq_of_cover 1 (res1 V c) (flushed1 V c) fun i =>
    ⟨last, (flush5_1 last).mpr rfl, by
      show i ∈ ((View.whole main_v31_0).slice (win5_1.rect last)).set
      rw [View.set_slice_whole, Rect.mem_set_unit]
      intro a
      have h0 : (i 0 : Nat) < 1 := (i 0).isLt
      have h1 : (i 1 : Nat) < 128 := (i 1).isLt
      match a with
      | ⟨0, _⟩ => show win5_1.index last 0 * win5_1.size 0 ≤ (i 0 : Nat) ∧ (i 0 : Nat) < win5_1.index last 0 * win5_1.size 0 + win5_1.xsize (grid5.coords last) 0
                  rw [show win5_1.index last 0 * win5_1.size 0 = 0 from by decide +kernel, show win5_1.xsize (grid5.coords last) 0 = 1 from by decide +kernel]; omega
      | ⟨1, _⟩ => show win5_1.index last 1 * win5_1.size 1 ≤ (i 1 : Nat) ∧ (i 1 : Nat) < win5_1.index last 1 * win5_1.size 1 + win5_1.xsize (grid5.coords last) 1
                  rw [show win5_1.index last 1 * win5_1.size 1 = 0 from by decide +kernel, show win5_1.xsize (grid5.coords last) 1 = 128 from by decide +kernel]; omega⟩

/-- The one write-back of output 2, after the last point, writes the running sum of squares: block (0, 0) of the [1, 128] array is the array. -/
theorem flushed2 (c : Dev nD) (t : Fin cfg5.N) (hf : (cfg5.win 2).flush t = true) :
    (dat5 V c).flushed 2 t = ((cfg5.win 2).blk t).view.read (Elt F) (res2 V c) := by
  have hN : cfg5.N = 10 := N_5
  have hl : t.val = 9 := by have := (flush5_2 t).mp hf; have := t.isLt; omega
  obtain rfl : t = last := Fin.ext hl
  show (cfg5.win 2).cut (grid5.coords last) ((dat5 V c).after 2 last) = _
  rw [after5_2, Stats5.outsAt_eq]
  have hz' : (fun a => win5_2.index last a * main_v31_1.ty.shape.size a) = fun _ => 0 := funext fun a => by fin_cases a <;> decide
  exact (Memref.read_access_unit_zero (Elt F) main_v31_1 hz' (fun a => by rw [congrFun hz' a]; simp) (res2 V c)).symm

/-- So result array 2 ends holding the running sum of squares after the last point. -/
theorem final2 (c : Dev nD) : (dat5 V c).arrAt 2 cfg5.N = res2 V c :=
  (dat5 V c).arrAt_eq_of_cover 2 (res2 V c) (flushed2 V c) fun i =>
    ⟨last, (flush5_2 last).mpr rfl, by
      show i ∈ ((View.whole main_v31_1).slice (win5_2.rect last)).set
      rw [View.set_slice_whole, Rect.mem_set_unit]
      intro a
      have h0 : (i 0 : Nat) < 1 := (i 0).isLt
      have h1 : (i 1 : Nat) < 128 := (i 1).isLt
      match a with
      | ⟨0, _⟩ => show win5_2.index last 0 * win5_2.size 0 ≤ (i 0 : Nat) ∧ (i 0 : Nat) < win5_2.index last 0 * win5_2.size 0 + win5_2.xsize (grid5.coords last) 0
                  rw [show win5_2.index last 0 * win5_2.size 0 = 0 from by decide +kernel, show win5_2.xsize (grid5.coords last) 0 = 1 from by decide +kernel]; omega
      | ⟨1, _⟩ => show win5_2.index last 1 * win5_2.size 1 ≤ (i 1 : Nat) ∧ (i 1 : Nat) < win5_2.index last 1 * win5_2.size 1 + win5_2.xsize (grid5.coords last) 1
                  rw [show win5_2.index last 1 * win5_2.size 1 = 0 from by decide +kernel, show win5_2.xsize (grid5.coords last) 1 = 128 from by decide +kernel]; omega⟩

end Cert.KernelIdeal.Stats5

end
-- ==== Proof.Stats5Ideal.lean ====
/-
  The fourth statistics region over the extended reals: its result arrays are the column sums.

  Over the extended reals a lane sum over the rows of a block is the plain sum of the block's entries in a column, and
  the body adds it to what the buffer held.  Row r of block t is row 5000·t + r of the array, so after point n the
  first buffer holds, in column j, the sum of the array's entries in rows 0 … 5000·(n+1) − 1 of that column, and the
  second the sum of their squares; after the last point that is the whole column.  Addition on the extended reals is
  associative and commutative with neutral element zero, so the order in which the blocks were added does not matter,
  and nothing here needs the entries to be finite.
-/
import proofs.«160607_j85856396247988_1_alg».proof.Proof.Stats5Final
import Idealize.ShloMosaic.PureOps.Ideal.Laws
import Idealize.ShloMosaic.Lib.ValueIdx

set_option maxRecDepth 16384

noncomputable section

namespace Cert.KernelIdeal.Stats5

open Cert.KernelIdeal Cert.KernelIdeal.Gen
open Idealize.ShloMosaic Idealize.ShloMosaic.TcCoe Idealize.SL.Sem Idealize.ShloMosaic.Tactic
open Idealize.ShloMosaic.ValueIdx

/-- The body first reshapes the block to its own shape: the identity. -/
theorem pre_eq (x : Vec Ideal S5000x128 .f32) : k5_pay1 (F := Ideal) x = x := by
  unfold k5_pay1
  exact shapeCast_self x _

/-- A lane sum over the 5000 rows of a block, in column `j`, is the sum of the column's entries. -/
theorem rowsum_apply (x : FVec Ideal S5000x128 .f32) (hφ : FKind.Formats .f32)
    (hacc : (0x00000000#32 : BitVec 32) = FKind.add.neutral .f32 hφ) (j : Fin 128) :
    multiReduction .add [0] S128 x 0x00000000#32 reduces_S5000x128_S128 hφ hacc (ix1 j) = ∑ r : Fin 5000, x (ix2 r j) := by
  refine (Ideal.multiReduction_add_single x 0x00000000#32 reduces_S5000x128_S128 hφ hacc (ix1 j)).trans ?_
  refine Finset.sum_congr rfl fun r _ => congrArg x (funext fun a => ?_)
  match a with
  | ⟨0, _⟩ => rfl
  | ⟨1, _⟩ => rfl

theorem tail_ix (j : Fin 128) : (fun a : Fin 1 => (ix2 (0 : Fin 1) j) a.succ) = ix1 j :=
  funext fun a => match a with | ⟨0, _⟩ => rfl

/-- The sum payload in column `j`: what the buffer held plus the block's column sum. -/
theorem sumPay_apply (x : Vec Ideal S5000x128 .f32) (acc : Vec Ideal S1x128 .f32) (j : Fin 128) :
    k5_pay4 (F := Ideal) x acc (ix2 (0 : Fin 1) j) = acc (ix2 0 j) + ∑ r : Fin 5000, x (ix2 r j) := by
  unfold k5_pay4
  dsimp only
  refine (addf_apply _ _ _).trans ?_
  refine congrArg₂ (· + ·) (congrFun (shapeCast_self acc _) _) ?_
  refine (shapeCast_addUnit_apply ![128] _ _ (ix2 (0 : Fin 1) j)).trans ?_
  rw [tail_ix, pre_eq]
  exact rowsum_apply x _ _ j

/-- The square payload in column `j`: what the buffer held plus the sum of the squares of the block's column. -/
theorem sqPay_apply (x : Vec Ideal S5000x128 .f32) (acc : Vec Ideal S1x128 .f32) (j : Fin 128) :
    k5_pay5 (F := Ideal) x acc (ix2 (0 : Fin 1) j) = acc (ix2 0 j) + ∑ r : Fin 5000, x (ix2 r j) * x (ix2 r j) := by
  unfold k5_pay5
  dsimp only
  refine (addf_apply _ _ _).trans ?_
  refine congrArg₂ (· + ·) (congrFun (shapeCast_self acc _) _) ?_
  refine (shapeCast_addUnit_apply ![128] _ _ (ix2 (0 : Fin 1) j)).trans ?_
  rw [tail_ix, pre_eq]
  refine (rowsum_apply (mulf x x) _ _ j).trans ?_
  exact Finset.sum_congr rfl fun r _ => mulf_apply x x (ix2 r j)

/-- The zero row the first point stores. -/
theorem zeroRow1 (y : S1x128.Idx) : k5_pay2 (F := Ideal) y = 0 := by
  unfold k5_pay2
  exact Ideal.ofBits_zero_f32
theorem zeroRow2 (y : S1x128.Idx) : k5_pay3 (F := Ideal) y = 0 := by
  unfold k5_pay3
  exact Ideal.ofBits_zero_f32

section Sums

variable (V : (c : Dev nD) → (b : Ref sig .tc) → Buf (Elt Ideal) ((c : Thread nD τ).loc b))

/-- The region's input array as it finds it. -/
abbrev feat (c : Dev nD) : S50000x128.Idx → EReal := V c main_v23

/-- Column `j` of the input array by row number (zero past the last row). -/
def entry (c : Dev nD) (j : Fin 128) (i : ℕ) : EReal := if h : i < 50000 then feat V c (ix2 ⟨i, h⟩ j) else 0

/-- Block `t` of the input array, as a [5000, 128] vector. -/
abbrev blk (c : Dev nD) (t : Fin cfg5.N) : Vec Ideal S5000x128 .f32 := iblk5 V c 0 t

theorem idx_facts : ∀ t : Fin cfg5.N, win5_0.index t (0 : Fin 2) = t.val ∧ win5_0.index t (1 : Fin 2) = 0 :=
  (by decide +kernel : ∀ t : Fin grid5.N, _)

/-- Row `r` of block `t` is row 5000·t + r of the array. -/
theorem iblk_apply (c : Dev nD) (t : Fin cfg5.N) (r : Fin 5000) (j : Fin 128) :
    blk V c t (ix2 r j) = entry V c j (5000 * t.val + r.val) := by
  have hN : cfg5.N = 10 := N_5
  have ht := t.isLt
  have hr := r.isLt
  have hlt : 5000 * t.val + r.val < 50000 := by omega
  have hi := idx_facts t
  unfold entry
  rw [dif_pos hlt]
  unfold blk iblk5
  rw [View.read_apply]
  show V c main_v23 _ = V c main_v23 _
  congr 1
  funext a
  apply Fin.ext
  match a with
  | ⟨0, _⟩ => show win5_0.index t 0 * 5000 + 1 * r.val = 5000 * t.val + r.val; rw [hi.1]; omega
  | ⟨1, _⟩ => show win5_0.index t 1 * 128 + 1 * j.val = j.val; rw [hi.2]; omega

/-- A block's column sum is the sum of 5000 consecutive entries of the array's column. -/
theorem blockSum (c : Dev nD) (t : Fin cfg5.N) (j : Fin 128) :
    ∑ r : Fin 5000, blk V c t (ix2 r j) = ∑ r ∈ Finset.range 5000, entry V c j (5000 * t.val + r) := by
  rw [Finset.sum_range]
  exact Finset.sum_congr rfl fun r _ => iblk_apply V c t r j

theorem blockSq (c : Dev nD) (t : Fin cfg5.N) (j : Fin 128) :
    ∑ r : Fin 5000, blk V c t (ix2 r j) * blk V c t (ix2 r j)
      = ∑ r ∈ Finset.range 5000, entry V c j (5000 * t.val + r) * entry V c j (5000 * t.val + r) := by
  rw [Finset.sum_range]
  exact Finset.sum_congr rfl fun r _ => by rw [iblk_apply V c t r j]

/-- After point `n` the first buffer holds, in column `j`, the sum of the first 5000·(n+1) entries of the column. -/
theorem running_sum (c : Dev nD) : ∀ (n : ℕ) (h : n < cfg5.N) (j : Fin 128),
    (running V c n h).1 (ix2 (0 : Fin 1) j) = ∑ i ∈ Finset.range (5000 * (n + 1)), entry V c j i
  | 0, h, j => by
    show k5_pay4 (F := Ideal) (blk V c ⟨0, h⟩) (k5_pay2 (F := Ideal)) (ix2 (0 : Fin 1) j) = _
    rw [sumPay_apply, zeroRow1, zero_add, blockSum]
    simp only [Nat.mul_zero, Nat.zero_add, Nat.mul_one]
  | n + 1, h, j => by
    show k5_pay4 (F := Ideal) (blk V c ⟨n + 1, h⟩) (running V c n (Nat.lt_of_succ_lt h)).1 (ix2 (0 : Fin 1) j) = _
    rw [sumPay_apply, running_sum c n, blockSum, show 5000 * (n + 1 + 1) = 5000 * (n + 1) + 5000 from by ring, Finset.sum_range_add]

/-- After point `n` the second buffer holds, in column `j`, the sum of the squares of those entries. -/
theorem running_sq (c : Dev nD) : ∀ (n : ℕ) (h : n < cfg5.N) (j : Fin 128),
    (running V c n h).2 (ix2 (0 : Fin 1) j) = ∑ i ∈ Finset.range (5000 * (n + 1)), entry V c j i * entry V c j i
  | 0, h, j => by
    show k5_pay5 (F := Ideal) (blk V c ⟨0, h⟩) (k5_pay3 (F := Ideal)) (ix2 (0 : Fin 1) j) = _
    rw [sqPay_apply, zeroRow2, zero_add, blockSq]
    simp only [Nat.mul_zero, Nat.zero_add, Nat.mul_one]
  | n + 1, h, j => by
    show k5_pay5 (F := Ideal) (blk V c ⟨n + 1, h⟩) (running V c n (Nat.lt_of_succ_lt h)).2 (ix2 (0 : Fin 1) j) = _
    rw [sqPay_apply, running_sq c n, blockSq, show 5000 * (n + 1 + 1) = 5000 * (n + 1) + 5000 from by ring, Finset.sum_range_add]

theorem sum_entry (c : Dev nD) (j : Fin 128) (g : EReal → EReal) (hg : g 0 = 0) :
    ∑ i ∈ Finset.range 50000, g (entry V c j i) = ∑ i : Fin 50000, g (feat V c (ix2 i j)) := by
  rw [Finset.sum_range]
  exact Finset.sum_congr rfl fun i _ => by unfold entry; rw [dif_pos i.isLt]

/-- THE FIRST RESULT ARRAY: in column `j`, the sum of the input array's column over all 50000 rows. -/
theorem colSum (c : Dev nD) (j : Fin 128) :
    (dat5 V c).arrAt 1 cfg5.N (ix2 (0 : Fin 1) j) = ∑ i : Fin 50000, feat V c (ix2 i j) := by
  rw [final1 V c]
  show (running V c 9 ltLast).1 (ix2 (0 : Fin 1) j) = _
  rw [running_sum V c 9 ltLast j]
  exact sum_entry V c j id rfl

/-- THE SECOND RESULT ARRAY: in column `j`, the sum of the squares of the input array's column. -/
theorem colSq (c : Dev nD) (j : Fin 128) :
    (dat5 V c).arrAt 2 cfg5.N (ix2 (0 : Fin 1) j) = ∑ i : Fin 50000, feat V c (ix2 i j) * feat V c (ix2 i j) := by
  rw [final2 V c]
  show (running V c 9 ltLast).2 (ix2 (0 : Fin 1) j) = _
  rw [running_sq V c 9 ltLast j]
  exact sum_entry V c j (fun x => x * x) (by simp)

end Sums

end Cert.KernelIdeal.Stats5

end
-- ==== Proof.HighStats2.lean ====
/-
  The high-dimensional branch's second batch statistics, as the kernel computes them.

  After the fourth statistics region, which reads the high branch's linear-layer output, the host divides the column sums and the column sums of squares by the number of
  rows, and subtracts the square of the first quotient from the second: the mean of each column, and the mean of its
  squares minus the squared mean.
-/
import proofs.«160607_j85856396247988_1_alg».proof.Proof.Stats5Ideal
import Idealize.ShloMosaic.Lib.StableHlo.Run
import Idealize.ShloMosaic.Lib.IdealHost

set_option maxRecDepth 16384

noncomputable section

namespace Cert.KernelIdeal.HighStats2

open Cert.KernelIdeal Cert.KernelIdeal.Gen
open Idealize.ShloMosaic Idealize.ShloMosaic.TcCoe Idealize.SL.Sem Idealize.ShloMosaic.Tactic Idealize.ShloMosaic.StableHlo
open Idealize.ShloMosaic.ValueIdx

variable (m : (ℓ : Loc nD τ sig) → Buf (Elt Ideal) ℓ) (ρ : Dev nD → PrngReg)

/-- The high branch's linear-layer output array, as the fourth region left it. -/
abbrev x (c : Dev nD) : S50000x128.Idx → EReal := V6 m ρ c main_v23

/-- The number of rows, as the programs spell it. -/
abbrev rows : EReal := Ideal.ofBits .f32 0x47435000#32

/-- The row count broadcast along a [1, 128] row. -/
abbrev rowsRow : FVec Ideal S1x128 .f32 := broadcastInDim S1x128 ![] bcast_S_S1x128 (constant (F := Ideal) S_ .f32 0x47435000#32)

/-- After the fourth host stretch the mean buffer holds the first result array divided by the row count. -/
theorem mean_buf (c : Dev nD) : V10 m ρ c main_v33 = Host.divf (F := Ideal) (V9 m ρ c main_v31_0) rowsRow := by
  show StableHlo.after hostOps6 (W9 m ρ c) (Proc.devRef .tc main_v33) = _
  after_results

/-- … and the variance buffer the second result array divided by the row count, minus the squared mean. -/
theorem var_buf (c : Dev nD) :
    V10 m ρ c main_v37 = subf (Host.divf (F := Ideal) (V9 m ρ c main_v31_1) rowsRow)
      (mulf (Host.divf (F := Ideal) (V9 m ρ c main_v31_0) rowsRow) (Host.divf (F := Ideal) (V9 m ρ c main_v31_0) rowsRow)) := by
  show StableHlo.after hostOps6 (W9 m ρ c) (Proc.devRef .tc main_v37) = _
  after_results

/-- A buffer no operation of a host stretch writes keeps its contents across the stretch. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The fourth statistics region finds the high branch's layer output as the fourth region left it: the third
    statistics region does not own it and the third host stretch does not write it. -/
theorem kept (c : Dev nD) : V8 m ρ c main_v23 = V6 m ρ c main_v23 :=
  calc W8 m ρ c (Proc.devRef .tc main_v23)
    _ = W7 m ρ c (Proc.devRef .tc main_v23) := by host_keeps hostOps5
    _ = W6 m ρ c (Proc.devRef .tc main_v23) := W7_of_ne m ρ c main_v23 (by decide)

theorem rowsRow_apply (y : S1x128.Idx) : rowsRow y = rows := (broadcastInDim_scalar_apply _ _ _).trans rfl

/-- The first result array of the fourth statistics region, in column `j`: the column's sum. -/
theorem sum_apply (c : Dev nD) (j : Fin 128) :
    V9 m ρ c main_v31_0 (ix2 (0 : Fin 1) j) = ∑ i : Fin 50000, x m ρ c (ix2 i j) :=
  (congrFun (hF5 m ρ c 1).symm (ix2 (0 : Fin 1) j)).trans ((Stats5.colSum (V8 m ρ) c j).trans (by
    have e : Stats5.feat (V8 m ρ) c = x m ρ c := kept m ρ c
    rw [e]))

/-- The second result array, in column `j`: the sum of the column's squares. -/
theorem sq_apply (c : Dev nD) (j : Fin 128) :
    V9 m ρ c main_v31_1 (ix2 (0 : Fin 1) j) = ∑ i : Fin 50000, x m ρ c (ix2 i j) * x m ρ c (ix2 i j) :=
  (congrFun (hF5 m ρ c 2).symm (ix2 (0 : Fin 1) j)).trans ((Stats5.colSq (V8 m ρ) c j).trans (by
    have e : Stats5.feat (V8 m ρ) c = x m ρ c := kept m ρ c
    rw [e]))

/-- The kernel's mean of column `j`. -/
theorem mean_apply (c : Dev nD) (j : Fin 128) :
    V10 m ρ c main_v33 (ix2 (0 : Fin 1) j) = Ideal.div (∑ i : Fin 50000, x m ρ c (ix2 i j)) rows := by
  rw [mean_buf m ρ c]
  refine (hostDivf_apply _ _ _).trans ?_
  rw [sum_apply, rowsRow_apply]

/-- The kernel's variance of column `j`: the mean of the squares minus the squared mean. -/
theorem var_apply (c : Dev nD) (j : Fin 128) :
    V10 m ρ c main_v37 (ix2 (0 : Fin 1) j)
      = Ideal.div (∑ i : Fin 50000, x m ρ c (ix2 i j) * x m ρ c (ix2 i j)) rows
        - Ideal.div (∑ i : Fin 50000, x m ρ c (ix2 i j)) rows * Ideal.div (∑ i : Fin 50000, x m ρ c (ix2 i j)) rows := by
  rw [var_buf m ρ c]
  refine (subf_apply _ _ _).trans ?_
  refine congrArg₂ (· - ·) ?_ ?_
  · refine (hostDivf_apply _ _ _).trans ?_
    rw [sq_apply, rowsRow_apply]
  · refine (mulf_apply _ _ _).trans ?_
    rw [hostDivf_apply, sum_apply, rowsRow_apply]

end Cert.KernelIdeal.HighStats2

end
-- ==== Proof.RefStats2High.lean ====
/-
  The high-dimensional branch's second batch statistics, as the reference computes them.

  The reference takes each column's mean as the column's sum divided by the number of rows.  Its variance is jax's
  outlined function: the same mean again, the deviations from it, the sum of their squares divided by the number of
  rows minus the degrees-of-freedom correction (zero here), guarded by a select that answers a NaN pattern when that
  divisor is not positive — which it is, so the guard always takes the quotient.
-/
import proofs.«160607_j85856396247988_1_alg».proof.Proof.RefStats
import Idealize.ShloMosaic.Lib.IdealHost

set_option maxRecDepth 16384

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

/-- The column sums of a [50000, 128] array as the host takes them. -/
def highSum2 (x : FVec Ideal S50000x128 .f32) : FVec Ideal S128 .f32 :=
  Host.reduceAdd (F := Ideal) x (constant (F := Ideal) S_ .f32 0x00000000#32) reducesTo_S50000x128_S128_d0 h_S_

/-- The column means. -/
def highMean2 (x : FVec Ideal S50000x128 .f32) : FVec Ideal S128 .f32 :=
  Host.divf (F := Ideal) (highSum2 x) (broadcastInDim S128 ![] bcast_S_S128 (constant (F := Ideal) S_ .f32 0x47435000#32))

/-- The divisor of the variance: the row count minus the correction. -/
def highCount2 : FVec Ideal S_ .f32 :=
  subf (constant (F := Ideal) S_ .f32 0x47435000#32) (sitofp (F := Ideal) .f32 (constantI S_ 32 0#32))

/-- The deviations from the column means, the means recomputed inside the outlined function. -/
def highDev2 (x : FVec Ideal S50000x128 .f32) : FVec Ideal S50000x128 .f32 :=
  subf x (broadcastInDim S50000x128 ![0, 1] bcast_S1x128_S50000x128_0_1
    (Host.divf (F := Ideal) (broadcastInDim S1x128 ![1] bcast_S128_S1x128_1 (highSum2 x))
      (broadcastInDim S1x128 ![] bcast_S_S1x128 (constant (F := Ideal) S_ .f32 0x47435000#32))))

/-- The column variances, with the guard. -/
def highVar2 (x : FVec Ideal S50000x128 .f32) : FVec Ideal S128 .f32 :=
  select (broadcastInDim S128 ![] bcast_S_S128 (cmpf .ogt highCount2 (constant (F := Ideal) S_ .f32 0x00000000#32)))
    (Host.divf (F := Ideal)
      (Host.reduceAdd (F := Ideal) (mulf (highDev2 x) (highDev2 x)) (constant (F := Ideal) S_ .f32 0x00000000#32) reducesTo_S50000x128_S128_d0 h_S_)
      (broadcastInDim S128 ![] bcast_S_S128 highCount2))
    (broadcastInDim S128 ![] bcast_S_S128 (id (constant (F := Ideal) S_ .f32 0x7FC00000#32)))

set_option maxHeartbeats 1600000 in
/-- The reference's mean buffer holds the column means of the high branch's linear-layer output. -/
theorem mean_buf2H (V : Valuation τ sig (Elt Ideal)) :
    after (opsB1 (F := Ideal)) V (Proc.devRef .tc main_v69) = highMean2 (V (Proc.devRef .tc main_v66)) := by
  after_results
  rfl

attribute [local irreducible] Host.reduceAdd Host.divf in
set_option maxHeartbeats 3200000 in
/-- The reference's variance buffer holds their column variances. -/
theorem var_buf2H (V : Valuation τ sig (Elt Ideal)) :
    after (opsB1 (F := Ideal)) V (Proc.devRef .tc main_v70) = highVar2 (V (Proc.devRef .tc main_v66)) := by
  after_results
  rfl

end Cert.ReferenceIdeal.Straight

end
-- ==== Proof.RefStats2HighIdeal.lean ====
/-
  The reference's batch statistics of the high branch's linear-layer output, column by column.

  In column j the mean is the sum of the column's 50000 entries (added to the zero the host's reduction starts from)
  divided by the row count; the variance is the sum of the squared deviations from that same quotient, divided by the
  row count, the guard of jax's variance function being open because the divisor is 50000 − 0 > 0.
-/
import proofs.«160607_j85856396247988_1_alg».proof.Proof.RefStats2High
import proofs.«160607_j85856396247988_1_alg».proof.Proof.RefStatsIdeal
import Idealize.ShloMosaic.Lib.Pipeline.Value

set_option maxRecDepth 16384

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

theorem reduces_rows2H : S50000x128.Reduces [0] S128 := by decide

/-- The host's column sum in column `j`: zero plus the sum of the column's entries. -/
theorem highSum2_apply (x : FVec Ideal S50000x128 .f32) (j : Fin 128) :
    highSum2 x (ix1 j) = 0 + ∑ i : Fin 50000, x (ix2 i j) := by
  unfold highSum2
  refine (hostReduceAdd_apply _ _ _ _ _).trans ?_
  refine (Ideal.hostReduceAdd_single reducesTo_S50000x128_S128_d0 reduces_rows2H x _ (ix1 j)).trans ?_
  refine congrArg₂ (· + ·) Ideal.ofBits_zero_f32 ?_
  refine Finset.sum_congr rfl fun i _ => congrArg x (funext fun a => ?_)
  match a with
  | ⟨0, _⟩ => rfl
  | ⟨1, _⟩ => rfl

/-- The reference's mean of column `j`. -/
theorem highMean2_apply (x : FVec Ideal S50000x128 .f32) (j : Fin 128) :
    highMean2 x (ix1 j) = Ideal.div (0 + ∑ i : Fin 50000, x (ix2 i j)) rows := by
  unfold highMean2
  refine (hostDivf_apply _ _ _).trans ?_
  rw [highSum2_apply]
  exact congrArg _ ((broadcastInDim_scalar_apply _ _ _).trans rfl)

/-- The variance's divisor is the real 50000. -/
theorem highCount2_apply : highCount2 ix0 = ((50000 : ℝ) : EReal) := by
  show Ideal.ofBits .f32 0x47435000#32 - (((0#32 : BitVec 32).toInt : ℝ) : EReal) = _
  rw [Cert.VarLaw.ofBits_50000]
  simp

/-- The deviation of entry (i, j) from the mean of column `j`. -/
theorem highDev2_apply (x : FVec Ideal S50000x128 .f32) (i : Fin 50000) (j : Fin 128) :
    highDev2 x (ix2 i j) = x (ix2 i j) - Ideal.div (0 + ∑ i : Fin 50000, x (ix2 i j)) rows := by
  unfold highDev2
  refine (subf_apply _ _ _).trans ?_
  refine congrArg (x (ix2 i j) - ·) ?_
  refine (broadcastInDim_apply _ _ _ (ix2 i j) (ix2 (0 : Fin 1) j) (fun a => ?_)).trans ?_
  · match a with
    | ⟨0, _⟩ => rfl
    | ⟨1, _⟩ => rfl
  refine (hostDivf_apply _ _ _).trans ?_
  refine congrArg₂ Ideal.div ?_ ((broadcastInDim_scalar_apply _ _ _).trans rfl)
  refine (broadcastInDim_apply _ _ _ (ix2 (0 : Fin 1) j) (ix1 j) (fun a => ?_)).trans (highSum2_apply x j)
  match a with
  | ⟨0, _⟩ => rfl

/-- The guard of the variance function is open. -/
theorem guard_open2H : FloatOps.cmpf (F := Ideal) .ogt (highCount2 ix0) (Ideal.ofBits .f32 0x00000000#32) = 1#1 := by
  rw [highCount2_apply, Ideal.ofBits_zero_f32, Ideal.cmpf_def]
  unfold Ideal.cmp
  have h : (0 : EReal) < ((50000 : ℝ) : EReal) := by exact_mod_cast (by norm_num : (0 : ℝ) < 50000)
  simp [h]

/-- The reference's variance of column `j`: the mean squared deviation. -/
theorem highVar2_apply (x : FVec Ideal S50000x128 .f32) (j : Fin 128) :
    highVar2 x (ix1 j) = Ideal.div (0 + ∑ i : Fin 50000,
        (x (ix2 i j) - Ideal.div (0 + ∑ i : Fin 50000, x (ix2 i j)) rows) * (x (ix2 i j) - Ideal.div (0 + ∑ i : Fin 50000, x (ix2 i j)) rows))
      ((50000 : ℝ) : EReal) := by
  unfold highVar2
  refine (select_apply _ _ _ _).trans ?_
  have hg : (broadcastInDim S128 ![] bcast_S_S128 (cmpf .ogt highCount2 (constant (F := Ideal) S_ .f32 0x00000000#32))) (ix1 j) = 1#1 :=
    (broadcastInDim_scalar_apply _ _ _).trans ((cmpf_apply _ _ _ _).trans guard_open2H)
  rw [hg, select_one]
  refine (hostDivf_apply _ _ _).trans ?_
  refine congrArg₂ Ideal.div ?_ ((broadcastInDim_scalar_apply _ _ _).trans highCount2_apply)
  refine (hostReduceAdd_apply _ _ _ _ _).trans ?_
  refine (Ideal.hostReduceAdd_single reducesTo_S50000x128_S128_d0 reduces_rows2H _ _ (ix1 j)).trans ?_
  refine congrArg₂ (· + ·) Ideal.ofBits_zero_f32 ?_
  refine Finset.sum_congr rfl fun i _ => ?_
  have e : reduces_rows2H.lift (ix1 j) i = ix2 i j := funext fun a => match a with | ⟨0, _⟩ => rfl | ⟨1, _⟩ => rfl
  rw [e]
  exact (mulf_apply _ _ _).trans (congrArg₂ (· * ·) (highDev2_apply x i j) (highDev2_apply x i j))

end Cert.ReferenceIdeal.Straight

end
-- ==== Proof.HighReal.lean ====
/-
  The high branch's linear layer of real arrays is a real array.

  If the features, the scale, the shift, the weights and the bias hold real numbers, then so does every entry of the
  reference's linear-layer function of them: the column means are reals, the column variances are reals that are not
  negative, so the reciprocal square roots of the variances plus epsilon are reals, and sums, products and maxima of
  reals are reals.
-/
import proofs.«160607_j85856396247988_1_alg».proof.Proof.RefLinHighIdeal
import proofs.«160607_j85856396247988_1_alg».proof.Proof.RealClosure

set_option maxRecDepth 16384

noncomputable section

namespace Cert.ReferenceIdeal.Straight

open Cert.ReferenceIdeal Cert.ReferenceIdeal.Gen Idealize.ShloMosaic Idealize.ShloMosaic.TcCoe Idealize.SL.Sem
open Idealize.ShloMosaic.ValueIdx

theorem highPre_real (X : FVec Ideal S50000x4096 .f32) (g b : FVec Ideal S4096 .f32) (W : FVec Ideal S4096x128 .f32) (lb : FVec Ideal S128 .f32)
    (hX : ∀ i, ∃ r : ℝ, X i = (r : EReal)) (hg : ∀ i, ∃ r : ℝ, g i = (r : EReal)) (hb : ∀ i, ∃ r : ℝ, b i = (r : EReal))
    (hW : ∀ i, ∃ r : ℝ, W i = (r : EReal)) (hl : ∀ i, ∃ r : ℝ, lb i = (r : EReal)) (i : Fin 50000) (n : Fin 128) :
    ∃ r : ℝ, highPre X (downRowsH (highMean X)) (highVar X) g b W lb (ix2 i n) = (r : EReal) := by
  choose xr hxr using hX
  choose gr hgr using hg
  choose br hbr using hb
  choose Wr hWr using hW
  choose lr hlr using hl
  have hmean : ∀ k : Fin 4096, highMean X (ix1 k) = (((∑ i : Fin 50000, xr (ix2 i k)) * (1 / 50000) : ℝ) : EReal) := fun k => by
    rw [highMean_apply]
    simp only [hxr]
    exact Cert.RealClosure.mean_real (fun i : Fin 50000 => xr (ix2 i k))
  have hvar : ∀ k : Fin 4096, ∃ v : ℝ, 0 ≤ v ∧ highVar X (ix1 k) = (v : EReal) := fun k => by
    rw [highVar_apply]
    simp only [hxr]
    rw [Cert.RealClosure.mean_real (fun i : Fin 50000 => xr (ix2 i k))]
    exact Cert.RealClosure.var_real (fun i : Fin 50000 => xr (ix2 i k)) _
  choose v hv0 hv using hvar
  rw [highPre_apply]
  simp only [downRowsH_apply]
  have hterm : ∀ k : Fin 4096, ∃ t : ℝ,
      ((X (ix2 i k) - highMean X (ix1 k)) * Ideal.rsqrt (highVar X (ix1 k) + eps) * g (ix1 k) + b (ix1 k)) * W (ix2 k n) = (t : EReal) := fun k => by
    rw [hmean k, hv k, hxr, hgr, hbr, hWr, Cert.RealClosure.normed_real _ _ _ _ _ (hv0 k), ← EReal.coe_mul]
    exact ⟨_, rfl⟩
  choose t ht using hterm
  simp only [ht]
  rw [Cert.VarLaw.coe_sum, hlr, ← EReal.coe_add]
  generalize (∑ i, t i + lr (ix1 n)) = a
  rcases le_total a 0 with h | h
  · exact ⟨0, by rw [max_eq_right (show ((a : ℝ) : EReal) ≤ 0 from by exact_mod_cast h)]; rfl⟩
  · exact ⟨a, max_eq_left (show (0 : EReal) ≤ ((a : ℝ) : EReal) from by exact_mod_cast h)⟩

end Cert.ReferenceIdeal.Straight

end
-- ==== Proof.FiniteHighParams.lean ====
/-
  What the precondition says of the high branch's parameters: every entry is a real number.
-/
import proofs.«160607_j85856396247988_1_alg».proof.Proof.FiniteIn

set_option maxRecDepth 16384

noncomputable section

namespace Cert.Finite

open Idealize.ShloMosaic Idealize.SL.Sem Idealize.ShloMosaic.ValueIdx

/-- Under the precondition every entry of the first normalization's scale on the high branch is a real number. -/
theorem scale_high_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S4096.Idx) :
    ∃ r : ℝ, m ((c.tc : Thread Cert.KernelIdeal.nD Cert.KernelIdeal.τ).loc Cert.KernelIdeal.main_arg6) i = (r : EReal) := by
  have h0 := congrFun (hpre c) ix0
  unfold Cert.Pre_finite_inputs.fn Cert.Pre_finite_inputs.fn_part1 Cert.Pre_finite_inputs.fn_part2 Cert.Pre_finite_inputs.fn_part3
    Cert.Pre_finite_inputs.fn_part4 Cert.Pre_finite_inputs.fn_part5 at h0
  dsimp only at h0
  have h1 := and_right (and_left (and_left (and_left (and_left (and_left (and_left (and_left (and_left (and_left (and_left (and_left (and_left (and_left (h0))))))))))))))
  have h2 := Host.reduce_andi_all _ _ _ _ ix0 h1 i
  rw [cmpf_apply, broadcastInDim_scalar_apply] at h2
  exact real_of_abs_lt _ h2

/-- Under the precondition every entry of the first normalization's shift on the high branch is a real number. -/
theorem shift_high_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S4096.Idx) :
    ∃ r : ℝ, m ((c.tc : Thread Cert.KernelIdeal.nD Cert.KernelIdeal.τ).loc Cert.KernelIdeal.main_arg7) i = (r : EReal) := by
  have h0 := congrFun (hpre c) ix0
  unfold Cert.Pre_finite_inputs.fn Cert.Pre_finite_inputs.fn_part1 Cert.Pre_finite_inputs.fn_part2 Cert.Pre_finite_inputs.fn_part3
    Cert.Pre_finite_inputs.fn_part4 Cert.Pre_finite_inputs.fn_part5 at h0
  dsimp only at h0
  have h1 := and_right (and_left (and_left (and_left (and_left (and_left (and_left (and_left (and_left (and_left (and_left (and_left (and_left (h0)))))))))))))
  have h2 := Host.reduce_andi_all _ _ _ _ ix0 h1 i
  rw [cmpf_apply, broadcastInDim_scalar_apply] at h2
  exact real_of_abs_lt _ h2

/-- Under the precondition every entry of the high branch's weights is a real number. -/
theorem weights_high_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S4096x128.Idx) :
    ∃ r : ℝ, m ((c.tc : Thread Cert.KernelIdeal.nD Cert.KernelIdeal.τ).loc Cert.KernelIdeal.main_arg12) i = (r : EReal) := by
  have h0 := congrFun (hpre c) ix0
  unfold Cert.Pre_finite_inputs.fn Cert.Pre_finite_inputs.fn_part1 Cert.Pre_finite_inputs.fn_part2 Cert.Pre_finite_inputs.fn_part3
    Cert.Pre_finite_inputs.fn_part4 Cert.Pre_finite_inputs.fn_part5 at h0
  dsimp only at h0
  have h1 := and_right (and_left (and_left (and_left (and_left (and_left (and_left (and_left (h0))))))))
  have h2 := Host.reduce_andi_all _ _ _ _ ix0 h1 i
  rw [cmpf_apply, broadcastInDim_scalar_apply] at h2
  exact real_of_abs_lt _ h2

/-- Under the precondition every entry of the high branch's bias is a real number. -/
theorem bias_high_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S128.Idx) :
    ∃ r : ℝ, m ((c.tc : Thread Cert.KernelIdeal.nD Cert.KernelIdeal.τ).loc Cert.KernelIdeal.main_arg13) i = (r : EReal) := by
  have h0 := congrFun (hpre c) ix0
  unfold Cert.Pre_finite_inputs.fn Cert.Pre_finite_inputs.fn_part1 Cert.Pre_finite_inputs.fn_part2 Cert.Pre_finite_inputs.fn_part3
    Cert.Pre_finite_inputs.fn_part4 Cert.Pre_finite_inputs.fn_part5 at h0
  dsimp only at h0
  have h1 := and_right (and_left (and_left (and_left (and_left (and_left (and_left (h0)))))))
  have h2 := Host.reduce_andi_all _ _ _ _ ix0 h1 i
  rw [cmpf_apply, broadcastInDim_scalar_apply] at h2
  exact real_of_abs_lt _ h2

end Cert.Finite

end
-- ==== Proof.HighBridge2.lean ====
/-
  The high-dimensional branch's second batch statistics agree.

  The kernel's fourth statistics region and host stretch compute the column means and "mean of squares minus squared
  mean" of the array its linear-layer region left.  That array is the reference's linear-layer function of the launch
  arrays, whose entries are reals under the precondition, so the variance law applies column by column.
-/
import proofs.«160607_j85856396247988_1_alg».proof.Proof.HighLayerBridge
import proofs.«160607_j85856396247988_1_alg».proof.Proof.HighStats2
import proofs.«160607_j85856396247988_1_alg».proof.Proof.RefStats2HighIdeal
import proofs.«160607_j85856396247988_1_alg».proof.Proof.HighReal
import proofs.«160607_j85856396247988_1_alg».proof.Proof.FiniteHighParams
import proofs.«160607_j85856396247988_1_alg».proof.Proof.FiniteHigh
import proofs.«160607_j85856396247988_1_alg».proof.Proof.VarCol

set_option maxRecDepth 65536

noncomputable section

namespace Cert.Bridge.High

open Idealize.ShloMosaic Idealize.ShloMosaic.TcCoe Idealize.SL.Sem Idealize.ShloMosaic.StableHlo
open Idealize.ShloMosaic.ValueIdx

variable (m : (ℓ : Loc Cert.KernelIdeal.nD Cert.KernelIdeal.τ Cert.KernelIdeal.sig) → Buf (Elt Ideal) ℓ) (ρ : Dev Cert.KernelIdeal.nD → PrngReg)

/-- The linear layer's output as the reference's function of the launch arrays. -/
abbrev layerOut (c : Dev Cert.KernelIdeal.nD) : FVec Ideal Cert.ReferenceIdeal.S50000x128 .f32 :=
  Cert.ReferenceIdeal.Straight.highPre (ax m c) (Cert.ReferenceIdeal.Straight.downRowsH (Cert.ReferenceIdeal.Straight.highMean (ax m c))) (Cert.ReferenceIdeal.Straight.highVar (ax m c)) (ag m c) (ab m c) (aW m c) (al m c)

/-- Under the precondition its entries are reals. -/
theorem layerOut_real [hP : Cert.Pre_finite_inputs.Facts] (hpre : Cert.Pre_KernelIdeal m) (c : Dev Cert.KernelIdeal.nD) (i : Fin 50000) (n : Fin 128) :
    ∃ r : ℝ, layerOut m c (ix2 i n) = (r : EReal) :=
  Cert.ReferenceIdeal.Straight.highPre_real (ax m c) (ag m c) (ab m c) (aW m c) (al m c)
    (fun i => Cert.Finite.high_real m hpre c i) (fun i => Cert.Finite.scale_high_real m hpre c i)
    (fun i => Cert.Finite.shift_high_real m hpre c i) (fun i => Cert.Finite.weights_high_real m hpre c i)
    (fun i => Cert.Finite.bias_high_real m hpre c i) i n

/-- The kernel's second mean is the reference's mean function of the layer's output. -/
theorem kmean2 [hP : Cert.Pre_finite_inputs.Facts] (hpre : Cert.Pre_KernelIdeal m) (c : Dev Cert.KernelIdeal.nD) (j : Fin 128) :
    Cert.KernelIdeal.Gen.V10 m ρ c Cert.KernelIdeal.main_v33 (ix2 (0 : Fin 1) j) = Cert.ReferenceIdeal.Straight.highMean2 (layerOut m c) (ix1 j) := by
  rw [Cert.KernelIdeal.HighStats2.mean_apply, Cert.ReferenceIdeal.Straight.highMean2_apply, zero_add]
  exact congrArg (Ideal.div · _) (Finset.sum_congr rfl fun i _ => klayer m ρ hpre c i j)

/-- The kernel's second variance is the reference's variance function of the layer's output. -/
theorem kvar2 [hP : Cert.Pre_finite_inputs.Facts] (hpre : Cert.Pre_KernelIdeal m) (c : Dev Cert.KernelIdeal.nD) (j : Fin 128) :
    Cert.KernelIdeal.Gen.V10 m ρ c Cert.KernelIdeal.main_v37 (ix2 (0 : Fin 1) j) = Cert.ReferenceIdeal.Straight.highVar2 (layerOut m c) (ix1 j) := by
  rw [Cert.KernelIdeal.HighStats2.var_apply, Cert.ReferenceIdeal.Straight.highVar2_apply]
  have e : ∀ i : Fin 50000, Cert.KernelIdeal.HighStats2.x m ρ c (ix2 i j) = layerOut m c (ix2 i j) := fun i => klayer m ρ hpre c i j
  simp only [e]
  exact Cert.VarLaw.var_col (fun i => layerOut m c (ix2 i j)) (fun i => layerOut_real m hpre c i j)

end Cert.Bridge.High

end
-- ==== Proof.RefNorm2.lean ====
/-
  The two second normalizations, as the reference computes them.

  Each branch's linear-layer output is normalized with its own column statistics (jax's outlined variance again), scale
  and shift, every row vector broadcast down the rows.
-/
import proofs.«160607_j85856396247988_1_alg».proof.Proof.RefStats2
import proofs.«160607_j85856396247988_1_alg».proof.Proof.RefStats2High

set_option maxRecDepth 16384

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

/-- A vector of 128 column values broadcast down the 50000 rows. -/
def downRows128 (v : FVec Ideal S128 .f32) : FVec Ideal S50000x128 .f32 :=
  broadcastInDim S50000x128 ![0, 1] bcast_S1x128_S50000x128_0_1 (broadcastInDim S1x128 ![1] bcast_S128_S1x128_1 v)

/-- The low branch's second normalization. -/
def lowNormed2 (y : FVec Ideal S50000x128 .f32) (g b : FVec Ideal S128 .f32) : FVec Ideal S50000x128 .f32 :=
  addf (mulf (mulf (subf y (downRows128 (lowMean2 y)))
      (downRows128 (Host.rsqrt (F := Ideal) (addf (lowVar2 y) (broadcastInDim S128 ![] bcast_S_S128 (constant (F := Ideal) S_ .f32 0x3727C5AC#32))))))
    (downRows128 g)) (downRows128 b)

/-- The high branch's second normalization. -/
def highNormed2 (y : FVec Ideal S50000x128 .f32) (g b : FVec Ideal S128 .f32) : FVec Ideal S50000x128 .f32 :=
  addf (mulf (mulf (subf y (downRows128 (highMean2 y)))
      (downRows128 (Host.rsqrt (F := Ideal) (addf (highVar2 y) (broadcastInDim S128 ![] bcast_S_S128 (constant (F := Ideal) S_ .f32 0x3727C5AC#32))))))
    (downRows128 g)) (downRows128 b)

attribute [local irreducible] Host.reduceAdd Host.divf in
set_option maxHeartbeats 6400000 in
/-- The low branch's normalized buffer holds the second normalization of the layer output the stage found. -/
theorem low2_buf (V : Valuation τ sig (Elt Ideal)) :
    after (opsA1 (F := Ideal)) V (Proc.devRef .tc main_v42)
      = lowNormed2 (V (Proc.devRef .tc main_v23)) (V (Proc.devRef .tc main_arg10)) (V (Proc.devRef .tc main_arg11)) := by
  after_results
  rfl

attribute [local irreducible] Host.reduceAdd Host.divf in
set_option maxHeartbeats 6400000 in
/-- The high branch's normalized buffer holds the second normalization of the layer output the stage found. -/
theorem high2_buf (V : Valuation τ sig (Elt Ideal)) :
    after (opsB1 (F := Ideal)) V (Proc.devRef .tc main_v85)
      = highNormed2 (V (Proc.devRef .tc main_v66)) (V (Proc.devRef .tc main_arg14)) (V (Proc.devRef .tc main_arg15)) := by
  after_results
  rfl

end Cert.ReferenceIdeal.Straight

end
-- ==== Proof.RefNorm2Ideal.lean ====
/-
  The reference's second normalizations and the concatenated product, entry by entry.
-/
import proofs.«160607_j85856396247988_1_alg».proof.Proof.RefNorm2
import proofs.«160607_j85856396247988_1_alg».proof.Proof.RefStats2Ideal
import proofs.«160607_j85856396247988_1_alg».proof.Proof.RefStats2HighIdeal
import proofs.«160607_j85856396247988_1_alg».proof.Proof.RefLinIdeal
import proofs.«160607_j85856396247988_1_alg».proof.Proof.GcnRef
import Idealize.ShloMosaic.Lib.Pipeline.Value

set_option maxRecDepth 16384

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

/-- A column vector broadcast down the rows reads, at (i, k), the vector at k. -/
theorem downRows128_apply (v : FVec Ideal S128 .f32) (i : Fin 50000) (k : Fin 128) : downRows128 v (ix2 i k) = v (ix1 k) := by
  unfold downRows128
  refine (broadcastInDim_apply _ _ _ (ix2 i k) (ix2 (0 : Fin 1) k) (fun a => ?_)).trans ?_
  · match a with
    | ⟨0, _⟩ => rfl
    | ⟨1, _⟩ => rfl
  refine broadcastInDim_apply _ _ _ (ix2 (0 : Fin 1) k) (ix1 k) (fun a => ?_)
  match a with
  | ⟨0, _⟩ => rfl

/-- A twice-normalized entry of the low branch. -/
theorem lowNormed2_apply (y : FVec Ideal S50000x128 .f32) (g b : FVec Ideal S128 .f32) (i : Fin 50000) (k : Fin 128) :
    lowNormed2 y g b (ix2 i k)
      = (y (ix2 i k) - lowMean2 y (ix1 k)) * Ideal.rsqrt (lowVar2 y (ix1 k) + eps) * g (ix1 k) + b (ix1 k) := by
  unfold lowNormed2
  refine (addf_apply _ _ _).trans ?_
  refine congrArg₂ (· + ·) ?_ (downRows128_apply b i k)
  refine (mulf_apply _ _ _).trans ?_
  refine congrArg₂ (· * ·) ?_ (downRows128_apply g i k)
  refine (mulf_apply _ _ _).trans ?_
  refine congrArg₂ (· * ·) ?_ ?_
  · refine (subf_apply _ _ _).trans ?_
    exact congrArg (y (ix2 i k) - ·) (downRows128_apply _ i k)
  · refine (downRows128_apply _ i k).trans ?_
    show Ideal.rsqrt (lowVar2 y (ix1 k) + (broadcastInDim S128 ![] bcast_S_S128 (constant (F := Ideal) S_ .f32 0x3727C5AC#32)) (ix1 k)) = _
    exact congrArg Ideal.rsqrt (congrArg (lowVar2 y (ix1 k) + ·) ((broadcastInDim_scalar_apply _ _ _).trans rfl))

/-- A twice-normalized entry of the high branch. -/
theorem highNormed2_apply (y : FVec Ideal S50000x128 .f32) (g b : FVec Ideal S128 .f32) (i : Fin 50000) (k : Fin 128) :
    highNormed2 y g b (ix2 i k)
      = (y (ix2 i k) - highMean2 y (ix1 k)) * Ideal.rsqrt (highVar2 y (ix1 k) + eps) * g (ix1 k) + b (ix1 k) := by
  unfold highNormed2
  refine (addf_apply _ _ _).trans ?_
  refine congrArg₂ (· + ·) ?_ (downRows128_apply b i k)
  refine (mulf_apply _ _ _).trans ?_
  refine congrArg₂ (· * ·) ?_ (downRows128_apply g i k)
  refine (mulf_apply _ _ _).trans ?_
  refine congrArg₂ (· * ·) ?_ ?_
  · refine (subf_apply _ _ _).trans ?_
    exact congrArg (y (ix2 i k) - ·) (downRows128_apply _ i k)
  · refine (downRows128_apply _ i k).trans ?_
    show Ideal.rsqrt (highVar2 y (ix1 k) + (broadcastInDim S128 ![] bcast_S_S128 (constant (F := Ideal) S_ .f32 0x3727C5AC#32)) (ix1 k)) = _
    exact congrArg Ideal.rsqrt (congrArg (highVar2 y (ix1 k) + ·) ((broadcastInDim_scalar_apply _ _ _).trans rfl))

/-- The host's product of a [50000, 256] by a [256, 128] matrix at (a, b): the sum over the 256 contracted coordinates. -/
theorem dot256_apply (A : FVec Ideal S50000x256 .f32) (B : FVec Ideal S256x128 .f32) (a : Fin 50000) (b : Fin 128) :
    Host.dotGeneral (F := Ideal) dot_S50000x256_S256x128_S50000x128_1_0_0_1_n_n none A B (ix2 a b) = ∑ k : Fin 256, A (ix2 a k) * B (ix2 k b) := by
  show FloatOps.dotGeneral dot_S50000x256_S256x128_S50000x128_1_0_0_1_n_n none _ A B (ix2 a b) = _
  rw [Ideal.dotGeneral_apply, ← Equiv.sum_comp (contrEquiv1 dot_S50000x256_S256x128_S50000x128_1_0_0_1_n_n 256 rfl rfl).symm]
  refine Finset.sum_congr rfl fun k _ => ?_
  have c2 := contrEquiv1_symm_val dot_S50000x256_S256x128_S50000x128_1_0_0_1_n_n 256 rfl rfl k
  have l2 : (dot_S50000x256_S256x128_S50000x128_1_0_0_1_n_n).lhsIdx (ix2 a b) ((contrEquiv1 _ 256 rfl rfl).symm k) = ix2 a k := by
    funext ax; apply Fin.ext
    match ax with
    | ⟨0, _⟩ => simp [DotDims.lhsIdx, dot_S50000x256_S256x128_S50000x128_1_0_0_1_n_n]; rfl
    | ⟨1, _⟩ => simp [DotDims.lhsIdx, dot_S50000x256_S256x128_S50000x128_1_0_0_1_n_n]; exact c2
  have r2 : (dot_S50000x256_S256x128_S50000x128_1_0_0_1_n_n).rhsIdx (ix2 a b) ((contrEquiv1 _ 256 rfl rfl).symm k) = ix2 k b := by
    funext ax; apply Fin.ext
    match ax with
    | ⟨0, _⟩ => simp [DotDims.rhsIdx, dot_S50000x256_S256x128_S50000x128_1_0_0_1_n_n]; exact c2
    | ⟨1, _⟩ => simp [DotDims.rhsIdx, dot_S50000x256_S256x128_S50000x128_1_0_0_1_n_n]; rfl
  rw [l2, r2]

/-- The concatenation along the columns reads its first piece on columns 0 … 127 and its second on 128 … 255. -/
theorem concat_left (hi lo : FVec Ideal S50000x128 .f32) (i : Fin 50000) (k : Fin 128) (k' : Fin 256) (hk : k'.val = k.val) :
    concatenate S50000x256 1 [⟨S50000x128, hi⟩, ⟨S50000x128, lo⟩] concatenates_S50000x128_S50000x128_S50000x256_d1 (ix2 i k') = hi (ix2 i k) :=
  concatenate_pair_apply_left 1 hi lo _ (ix2 i k') rfl (ix2 i k) (fun b => by
    match b with
    | ⟨0, _⟩ => rfl
    | ⟨1, _⟩ => exact hk.symm)
theorem concat_right (hi lo : FVec Ideal S50000x128 .f32) (i : Fin 50000) (k : Fin 128) (k' : Fin 256) (hk : k'.val = 128 + k.val) :
    concatenate S50000x256 1 [⟨S50000x128, hi⟩, ⟨S50000x128, lo⟩] concatenates_S50000x128_S50000x128_S50000x256_d1 (ix2 i k') = lo (ix2 i k) :=
  concatenate_pair_apply_right 1 hi lo _ (ix2 i k') rfl rfl (ix2 i k) (fun b hb => by
    match b with
    | ⟨0, _⟩ => rfl
    | ⟨1, _⟩ => exact absurd rfl hb) (by
    show k.val + 128 = k'.val
    omega)

/-- The product of the concatenation with the weights at (i, n): the first branch against the upper half of the weights
    plus the second against the lower half. -/
theorem product_apply (hi lo : FVec Ideal S50000x128 .f32) (w : FVec Ideal S256x128 .f32) (i : Fin 50000) (n : Fin 128) :
    Cert.ReferenceIdeal.Gcn.product hi lo w (ix2 i n)
      = (∑ k : Fin 128, hi (ix2 i k) * w (ix2 (⟨k.val, by omega⟩ : Fin 256) n))
        + ∑ k : Fin 128, lo (ix2 i k) * w (ix2 (⟨128 + k.val, by omega⟩ : Fin 256) n) := by
  unfold Cert.ReferenceIdeal.Gcn.product
  rw [dot256_apply]
  refine (Fin.sum_univ_add (a := 128) (b := 128)
    (fun k' : Fin (128 + 128) => concatenate S50000x256 1 [⟨S50000x128, hi⟩, ⟨S50000x128, lo⟩] concatenates_S50000x128_S50000x128_S50000x256_d1 (ix2 i (k' : Fin 256)) * w (ix2 (k' : Fin 256) n))).trans ?_
  refine congrArg₂ (· + ·) ?_ ?_
  · refine Finset.sum_congr rfl fun k _ => ?_
    exact congrArg₂ (· * ·) (concat_left hi lo i k _ rfl) rfl
  · refine Finset.sum_congr rfl fun k _ => ?_
    exact congrArg₂ (· * ·) (concat_right hi lo i k _ rfl) rfl

end Cert.ReferenceIdeal.Straight

end
-- ==== Proof.ProductBridge.lean ====
/-
  The convolution's product agrees.

  The array the kernel's seventh region leaves is, entry by entry, the reference's product of the concatenated
  normalized branches with the convolution weights: each branch's linear-layer output and its second statistics agree
  (Proof/LowBridge2.lean, Proof/HighBridge2.lean), the reshaped scales and shifts read the arguments, the two halves of
  the weights are the two row ranges of the argument, and the sum over the 256 concatenated columns splits at 128 into
  the kernel's two sums.
-/
import proofs.«160607_j85856396247988_1_alg».proof.Proof.Mix6In
import proofs.«160607_j85856396247988_1_alg».proof.Proof.KernelChain
import proofs.«160607_j85856396247988_1_alg».proof.Proof.LowBridge2
import proofs.«160607_j85856396247988_1_alg».proof.Proof.HighBridge2
import proofs.«160607_j85856396247988_1_alg».proof.Proof.RefNorm2Ideal
import proofs.«160607_j85856396247988_1_alg».proof.Proof.GcnBridge
import Idealize.ShloMosaic.Lib.ValueLayout

set_option maxRecDepth 65536

noncomputable section

namespace Cert.Bridge.Product

open Idealize.ShloMosaic Idealize.ShloMosaic.TcCoe Idealize.SL.Sem Idealize.ShloMosaic.StableHlo
open Idealize.ShloMosaic.ValueIdx

variable (m : (ℓ : Loc Cert.KernelIdeal.nD Cert.KernelIdeal.τ Cert.KernelIdeal.sig) → Buf (Elt Ideal) ℓ) (ρ : Dev Cert.KernelIdeal.nD → PrngReg)

/-- The second scales and shifts and the convolution weights as launched, at the reference's types. -/
abbrev a10 (c : Dev Cert.KernelIdeal.nD) : FVec Ideal Cert.ReferenceIdeal.S128 .f32 := m ((c.tc : Thread Cert.KernelIdeal.nD Cert.KernelIdeal.τ).loc Cert.KernelIdeal.main_arg10)
abbrev a11 (c : Dev Cert.KernelIdeal.nD) : FVec Ideal Cert.ReferenceIdeal.S128 .f32 := m ((c.tc : Thread Cert.KernelIdeal.nD Cert.KernelIdeal.τ).loc Cert.KernelIdeal.main_arg11)
abbrev a14 (c : Dev Cert.KernelIdeal.nD) : FVec Ideal Cert.ReferenceIdeal.S128 .f32 := m ((c.tc : Thread Cert.KernelIdeal.nD Cert.KernelIdeal.τ).loc Cert.KernelIdeal.main_arg14)
abbrev a15 (c : Dev Cert.KernelIdeal.nD) : FVec Ideal Cert.ReferenceIdeal.S128 .f32 := m ((c.tc : Thread Cert.KernelIdeal.nD Cert.KernelIdeal.τ).loc Cert.KernelIdeal.main_arg15)
abbrev a16 (c : Dev Cert.KernelIdeal.nD) : FVec Ideal Cert.ReferenceIdeal.S256x128 .f32 := m ((c.tc : Thread Cert.KernelIdeal.nD Cert.KernelIdeal.τ).loc Cert.KernelIdeal.main_arg16)

/-- The two normalized branches as the reference's functions of the launch arrays. -/
abbrev hiN (c : Dev Cert.KernelIdeal.nD) : FVec Ideal Cert.ReferenceIdeal.S50000x128 .f32 := Cert.ReferenceIdeal.Straight.highNormed2 (Cert.Bridge.High.layerOut m c) (a14 m c) (a15 m c)
abbrev loN (c : Dev Cert.KernelIdeal.nD) : FVec Ideal Cert.ReferenceIdeal.S50000x128 .f32 := Cert.ReferenceIdeal.Straight.lowNormed2 (Cert.Bridge.Low.layerOut m c) (a10 m c) (a11 m c)

/-- The kernel's seventh region leaves the reference's product of those. -/
theorem kproduct [hP : Cert.Pre_finite_inputs.Facts] (hpre : Cert.Pre_KernelIdeal m) (c : Dev Cert.KernelIdeal.nD) :
    Cert.ReferenceIdeal.Gcn.product (hiN m c) (loN m c) (a16 m c) = Cert.KernelIdeal.Gen.V11 m ρ c Cert.KernelIdeal.main_v45 := by
  rw [Cert.KernelIdeal.Chain.product m ρ c]
  funext y
  obtain ⟨i, n, rfl⟩ : ∃ (i : Fin 50000) (n : Fin 128), y = ix2 i n := ⟨y 0, y 1, eq_ix2 y⟩
  rw [Cert.ReferenceIdeal.Straight.product_apply]
  show _ = Cert.KernelIdeal.Mix6.rowOut (fun k => Cert.KernelIdeal.Mix6.Hi (Cert.KernelIdeal.Gen.V10 m ρ) c (ix2 i k)) (fun k => Cert.KernelIdeal.Mix6.Lo (Cert.KernelIdeal.Gen.V10 m ρ) c (ix2 i k))
    (Cert.KernelIdeal.Mix6.hm (Cert.KernelIdeal.Gen.V10 m ρ) c) (Cert.KernelIdeal.Mix6.hv (Cert.KernelIdeal.Gen.V10 m ρ) c) (Cert.KernelIdeal.Mix6.hg (Cert.KernelIdeal.Gen.V10 m ρ) c) (Cert.KernelIdeal.Mix6.hb (Cert.KernelIdeal.Gen.V10 m ρ) c)
    (Cert.KernelIdeal.Mix6.lm (Cert.KernelIdeal.Gen.V10 m ρ) c) (Cert.KernelIdeal.Mix6.lv (Cert.KernelIdeal.Gen.V10 m ρ) c) (Cert.KernelIdeal.Mix6.lg (Cert.KernelIdeal.Gen.V10 m ρ) c) (Cert.KernelIdeal.Mix6.lb (Cert.KernelIdeal.Gen.V10 m ρ) c)
    (Cert.KernelIdeal.Mix6.wh (Cert.KernelIdeal.Gen.V10 m ρ) c) (Cert.KernelIdeal.Mix6.wl (Cert.KernelIdeal.Gen.V10 m ρ) c) n
  unfold Cert.KernelIdeal.Mix6.rowOut Cert.KernelIdeal.Lin2.normed
  have eHi : ∀ k : Fin 128, Cert.KernelIdeal.Mix6.Hi (Cert.KernelIdeal.Gen.V10 m ρ) c (ix2 i k) = Cert.Bridge.High.layerOut m c (ix2 i k) := fun k =>
    (congrFun (Cert.KernelIdeal.Mix6In.hi_eq m ρ c) (ix2 i k)).trans (Cert.Bridge.High.klayer m ρ hpre c i k)
  have eLo : ∀ k : Fin 128, Cert.KernelIdeal.Mix6.Lo (Cert.KernelIdeal.Gen.V10 m ρ) c (ix2 i k) = Cert.Bridge.Low.layerOut m c (ix2 i k) := fun k =>
    (congrFun (Cert.KernelIdeal.Mix6In.lo_eq m ρ c) (ix2 i k)).trans (Cert.Bridge.Low.klayer m ρ hpre c i k)
  have ehm : ∀ k : Fin 128, Cert.KernelIdeal.Mix6.hm (Cert.KernelIdeal.Gen.V10 m ρ) c (ix2 (0 : Fin 1) k) = Cert.ReferenceIdeal.Straight.highMean2 (Cert.Bridge.High.layerOut m c) (ix1 k) := fun k =>
    Cert.Bridge.High.kmean2 m ρ hpre c k
  have ehv : ∀ k : Fin 128, Cert.KernelIdeal.Mix6.hv (Cert.KernelIdeal.Gen.V10 m ρ) c (ix2 (0 : Fin 1) k) = Cert.ReferenceIdeal.Straight.highVar2 (Cert.Bridge.High.layerOut m c) (ix1 k) := fun k =>
    Cert.Bridge.High.kvar2 m ρ hpre c k
  have elm : ∀ k : Fin 128, Cert.KernelIdeal.Mix6.lm (Cert.KernelIdeal.Gen.V10 m ρ) c (ix2 (0 : Fin 1) k) = Cert.ReferenceIdeal.Straight.lowMean2 (Cert.Bridge.Low.layerOut m c) (ix1 k) := fun k =>
    (congrFun (Cert.KernelIdeal.Mix6In.lm_eq m ρ c) (ix2 (0 : Fin 1) k)).trans (Cert.Bridge.Low.kmean2 m ρ hpre c k)
  have elv : ∀ k : Fin 128, Cert.KernelIdeal.Mix6.lv (Cert.KernelIdeal.Gen.V10 m ρ) c (ix2 (0 : Fin 1) k) = Cert.ReferenceIdeal.Straight.lowVar2 (Cert.Bridge.Low.layerOut m c) (ix1 k) := fun k =>
    (congrFun (Cert.KernelIdeal.Mix6In.lv_eq m ρ c) (ix2 (0 : Fin 1) k)).trans (Cert.Bridge.Low.kvar2 m ρ hpre c k)
  have ehg : ∀ k : Fin 128, Cert.KernelIdeal.Mix6.hg (Cert.KernelIdeal.Gen.V10 m ρ) c (ix2 (0 : Fin 1) k) = a14 m c (ix1 k) := fun k =>
    (congrFun (Cert.KernelIdeal.Mix6In.hg_eq m ρ c) (ix2 (0 : Fin 1) k)).trans (shapeCast_a_1a_apply _ _ (0 : Fin 1) k)
  have ehb : ∀ k : Fin 128, Cert.KernelIdeal.Mix6.hb (Cert.KernelIdeal.Gen.V10 m ρ) c (ix2 (0 : Fin 1) k) = a15 m c (ix1 k) := fun k =>
    (congrFun (Cert.KernelIdeal.Mix6In.hb_eq m ρ c) (ix2 (0 : Fin 1) k)).trans (shapeCast_a_1a_apply _ _ (0 : Fin 1) k)
  have elg : ∀ k : Fin 128, Cert.KernelIdeal.Mix6.lg (Cert.KernelIdeal.Gen.V10 m ρ) c (ix2 (0 : Fin 1) k) = a10 m c (ix1 k) := fun k =>
    (congrFun (Cert.KernelIdeal.Mix6In.lg_eq m ρ c) (ix2 (0 : Fin 1) k)).trans (shapeCast_a_1a_apply _ _ (0 : Fin 1) k)
  have elb : ∀ k : Fin 128, Cert.KernelIdeal.Mix6.lb (Cert.KernelIdeal.Gen.V10 m ρ) c (ix2 (0 : Fin 1) k) = a11 m c (ix1 k) := fun k =>
    (congrFun (Cert.KernelIdeal.Mix6In.lb_eq m ρ c) (ix2 (0 : Fin 1) k)).trans (shapeCast_a_1a_apply _ _ (0 : Fin 1) k)
  have ewh : ∀ k : Fin 128, Cert.KernelIdeal.Mix6.wh (Cert.KernelIdeal.Gen.V10 m ρ) c (ix2 k n) = a16 m c (ix2 (⟨k.val, by omega⟩ : Fin 256) n) := fun k =>
    (congrFun (Cert.KernelIdeal.Mix6In.wh_eq m ρ c) (ix2 k n)).trans (slice2_axis0_apply 0 _ _ k n ⟨k.val, by omega⟩ (by simp))
  have ewl : ∀ k : Fin 128, Cert.KernelIdeal.Mix6.wl (Cert.KernelIdeal.Gen.V10 m ρ) c (ix2 k n) = a16 m c (ix2 (⟨128 + k.val, by omega⟩ : Fin 256) n) := fun k =>
    (congrFun (Cert.KernelIdeal.Mix6In.wl_eq m ρ c) (ix2 k n)).trans (slice2_axis0_apply 128 _ _ k n ⟨128 + k.val, by omega⟩ rfl)
  simp only [eHi, eLo, ehm, ehv, elm, elv, ehg, ehb, elg, elb, ewh, ewl, Cert.ReferenceIdeal.Straight.highNormed2_apply, Cert.ReferenceIdeal.Straight.lowNormed2_apply]

end Cert.Bridge.Product

end
-- ==== Proof.Value0.lean ====
/-
  The agreement of the two programs' argument memories, as the certificate's claim states it.
-/
import proofs.«160607_j85856396247988_1_alg».proof.Defs

noncomputable section

namespace Cert.Bridge

open Idealize.ShloMosaic Idealize.ShloMosaic.TcCoe Idealize.SL.Sem

/-- The two programs' arguments agree, device by device. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)

end Cert.Bridge

end
-- ==== Proof.ProductRef.lean ====
/-
  The reference's product, from the launch arrays.

  When the reference's concatenation stage begins, its two normalized buffers hold the second normalizations of the two
  branches' linear-layer functions of the launch arrays, and argument 16 is as launched: each buffer is what the stage
  that writes it left, over what that stage found, back to the launch contents.
-/
import proofs.«160607_j85856396247988_1_alg».proof.Proof.ProductBridge
import proofs.«160607_j85856396247988_1_alg».proof.Proof.Value0

set_option maxRecDepth 65536

noncomputable section

namespace Cert.Bridge.Product

open Idealize.ShloMosaic Idealize.ShloMosaic.TcCoe Idealize.SL.Sem Idealize.ShloMosaic.StableHlo
open Idealize.ShloMosaic.ValueIdx

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

theorem hi_buf (hagree : Cert.Bridge.Agree m m') (c : Dev Cert.KernelIdeal.nD) :
    Cert.Bridge.Gcn.atConcat (launchContents m' c) (Proc.devRef .tc Cert.ReferenceIdeal.main_v85) = hiN m c := by
  have e2 : launchContents m' c (Proc.devRef .tc Cert.ReferenceIdeal.main_arg2) = m ((c.tc : Thread Cert.KernelIdeal.nD Cert.KernelIdeal.τ).loc Cert.KernelIdeal.main_arg2) := (hagree c).2.2.1
  have e6 : launchContents m' c (Proc.devRef .tc Cert.ReferenceIdeal.main_arg6) = m ((c.tc : Thread Cert.KernelIdeal.nD Cert.KernelIdeal.τ).loc Cert.KernelIdeal.main_arg6) := (hagree c).2.2.2.2.2.2.1
  have e7 : launchContents m' c (Proc.devRef .tc Cert.ReferenceIdeal.main_arg7) = m ((c.tc : Thread Cert.KernelIdeal.nD Cert.KernelIdeal.τ).loc Cert.KernelIdeal.main_arg7) := (hagree c).2.2.2.2.2.2.2.1
  have e12 : launchContents m' c (Proc.devRef .tc Cert.ReferenceIdeal.main_arg12) = m ((c.tc : Thread Cert.KernelIdeal.nD Cert.KernelIdeal.τ).loc Cert.KernelIdeal.main_arg12) := (hagree c).2.2.2.2.2.2.2.2.2.2.2.2.1
  have e13 : launchContents m' c (Proc.devRef .tc Cert.ReferenceIdeal.main_arg13) = m ((c.tc : Thread Cert.KernelIdeal.nD Cert.KernelIdeal.τ).loc Cert.KernelIdeal.main_arg13) := (hagree c).2.2.2.2.2.2.2.2.2.2.2.2.2.1
  have e14 : launchContents m' c (Proc.devRef .tc Cert.ReferenceIdeal.main_arg14) = m ((c.tc : Thread Cert.KernelIdeal.nD Cert.KernelIdeal.τ).loc Cert.KernelIdeal.main_arg14) := (hagree c).2.2.2.2.2.2.2.2.2.2.2.2.2.2.1
  have e15 : launchContents m' c (Proc.devRef .tc Cert.ReferenceIdeal.main_arg15) = m ((c.tc : Thread Cert.KernelIdeal.nD Cert.KernelIdeal.τ).loc Cert.KernelIdeal.main_arg15) := (hagree c).2.2.2.2.2.2.2.2.2.2.2.2.2.2.2.1
  show after (Cert.ReferenceIdeal.Straight.opsB1 (F := Ideal)) (after (Cert.ReferenceIdeal.Straight.opsB0 (F := Ideal)) (after (Cert.ReferenceIdeal.Straight.opsA2 (F := Ideal)) (after (Cert.ReferenceIdeal.Straight.opsA1 (F := Ideal)) (after (Cert.ReferenceIdeal.Straight.opsA0 (F := Ideal)) (launchContents m' c)))))
    (Proc.devRef .tc Cert.ReferenceIdeal.main_v85) = _
  rw [Cert.ReferenceIdeal.Straight.high2_buf, Cert.ReferenceIdeal.Straight.entry_B1 Cert.ReferenceIdeal.main_arg14 (by decide) (by decide) (by decide) (by decide), Cert.ReferenceIdeal.Straight.entry_B1 Cert.ReferenceIdeal.main_arg15 (by decide) (by decide) (by decide) (by decide), Cert.ReferenceIdeal.Straight.highPre_buf,
    Cert.ReferenceIdeal.Straight.entry_B0 Cert.ReferenceIdeal.main_arg2 (by decide) (by decide) (by decide), Cert.ReferenceIdeal.Straight.entry_B0 Cert.ReferenceIdeal.main_arg6 (by decide) (by decide) (by decide), Cert.ReferenceIdeal.Straight.entry_B0 Cert.ReferenceIdeal.main_arg7 (by decide) (by decide) (by decide),
    Cert.ReferenceIdeal.Straight.entry_B0 Cert.ReferenceIdeal.main_arg12 (by decide) (by decide) (by decide), Cert.ReferenceIdeal.Straight.entry_B0 Cert.ReferenceIdeal.main_arg13 (by decide) (by decide) (by decide), Cert.ReferenceIdeal.Straight.meanRows_buf, Cert.ReferenceIdeal.Straight.var_buf_high,
    Cert.ReferenceIdeal.Straight.entry_A2 Cert.ReferenceIdeal.main_arg2 (by decide) (by decide), e2, e6, e7, e12, e13, e14, e15]

theorem lo_buf (hagree : Cert.Bridge.Agree m m') (c : Dev Cert.KernelIdeal.nD) :
    Cert.Bridge.Gcn.atConcat (launchContents m' c) (Proc.devRef .tc Cert.ReferenceIdeal.main_v42) = loN m c := by
  have e1 : launchContents m' c (Proc.devRef .tc Cert.ReferenceIdeal.main_arg1) = m ((c.tc : Thread Cert.KernelIdeal.nD Cert.KernelIdeal.τ).loc Cert.KernelIdeal.main_arg1) := (hagree c).2.1
  have e4 : launchContents m' c (Proc.devRef .tc Cert.ReferenceIdeal.main_arg4) = m ((c.tc : Thread Cert.KernelIdeal.nD Cert.KernelIdeal.τ).loc Cert.KernelIdeal.main_arg4) := (hagree c).2.2.2.2.1
  have e5 : launchContents m' c (Proc.devRef .tc Cert.ReferenceIdeal.main_arg5) = m ((c.tc : Thread Cert.KernelIdeal.nD Cert.KernelIdeal.τ).loc Cert.KernelIdeal.main_arg5) := (hagree c).2.2.2.2.2.1
  have e8 : launchContents m' c (Proc.devRef .tc Cert.ReferenceIdeal.main_arg8) = m ((c.tc : Thread Cert.KernelIdeal.nD Cert.KernelIdeal.τ).loc Cert.KernelIdeal.main_arg8) := (hagree c).2.2.2.2.2.2.2.2.1
  have e9 : launchContents m' c (Proc.devRef .tc Cert.ReferenceIdeal.main_arg9) = m ((c.tc : Thread Cert.KernelIdeal.nD Cert.KernelIdeal.τ).loc Cert.KernelIdeal.main_arg9) := (hagree c).2.2.2.2.2.2.2.2.2.1
  have e10 : launchContents m' c (Proc.devRef .tc Cert.ReferenceIdeal.main_arg10) = m ((c.tc : Thread Cert.KernelIdeal.nD Cert.KernelIdeal.τ).loc Cert.KernelIdeal.main_arg10) := (hagree c).2.2.2.2.2.2.2.2.2.2.1
  have e11 : launchContents m' c (Proc.devRef .tc Cert.ReferenceIdeal.main_arg11) = m ((c.tc : Thread Cert.KernelIdeal.nD Cert.KernelIdeal.τ).loc Cert.KernelIdeal.main_arg11) := (hagree c).2.2.2.2.2.2.2.2.2.2.2.1
  show after (Cert.ReferenceIdeal.Straight.opsB1 (F := Ideal)) (after (Cert.ReferenceIdeal.Straight.opsB0 (F := Ideal)) (after (Cert.ReferenceIdeal.Straight.opsA2 (F := Ideal)) (after (Cert.ReferenceIdeal.Straight.opsA1 (F := Ideal)) (after (Cert.ReferenceIdeal.Straight.opsA0 (F := Ideal)) (launchContents m' c)))))
    (Proc.devRef .tc Cert.ReferenceIdeal.main_v42) = _
  rw [after_of_writes_sub Cert.ReferenceIdeal.Straight.opsB1 _ Cert.ReferenceIdeal.Straight.opsB1_writes (by decide), after_of_writes_sub Cert.ReferenceIdeal.Straight.opsB0 _ Cert.ReferenceIdeal.Straight.opsB0_writes (by decide),
    after_of_writes_sub Cert.ReferenceIdeal.Straight.opsA2 _ Cert.ReferenceIdeal.Straight.opsA2_writes (by decide), Cert.ReferenceIdeal.Straight.low2_buf,
    Cert.ReferenceIdeal.Straight.entry_A1 Cert.ReferenceIdeal.main_arg10 (by decide), Cert.ReferenceIdeal.Straight.entry_A1 Cert.ReferenceIdeal.main_arg11 (by decide), Cert.ReferenceIdeal.Straight.lowPre_buf, e1, e4, e5, e8, e9, e10, e11]

theorem w_buf (hagree : Cert.Bridge.Agree m m') (c : Dev Cert.KernelIdeal.nD) :
    Cert.Bridge.Gcn.atConcat (launchContents m' c) (Proc.devRef .tc Cert.ReferenceIdeal.main_arg16) = a16 m c :=
  (Cert.ReferenceIdeal.Straight.entry_B2 Cert.ReferenceIdeal.main_arg16 (by decide) (by decide) (by decide) (by decide) (by decide) _).trans (hagree c).2.2.2.2.2.2.2.2.2.2.2.2.2.2.2.2.1

/-- The convolution's product: what the reference forms is the array the kernel's seventh region leaves. -/
theorem product_eq [hP : Cert.Pre_finite_inputs.Facts] (hpre : Cert.Pre_KernelIdeal m) (hagree : Cert.Bridge.Agree m m') (c : Dev Cert.KernelIdeal.nD) :
    Cert.ReferenceIdeal.Gcn.product (Cert.Bridge.Gcn.atConcat (launchContents m' c) (Proc.devRef .tc Cert.ReferenceIdeal.main_v85))
        (Cert.Bridge.Gcn.atConcat (launchContents m' c) (Proc.devRef .tc Cert.ReferenceIdeal.main_v42))
        (Cert.Bridge.Gcn.atConcat (launchContents m' c) (Proc.devRef .tc Cert.ReferenceIdeal.main_arg16))
      = Cert.KernelIdeal.Gen.V11 m ρ c Cert.KernelIdeal.main_v45 := by
  rw [hi_buf m m' hagree c, lo_buf m m' hagree c, w_buf m m' hagree c]
  exact kproduct m ρ hpre c

end Cert.Bridge.Product

end
-- ==== Proof.Value.lean ====
/-
  The value equation.

  From memories that agree on the arguments, the contents the kernel's last boundary assigns to its result array are
  the fold of the reference's operations at its result buffer.  The last stage — bias, tanh, classifier, log-softmax —
  is proved to agree (Proof/FinalBridge.lean), and so is the graph convolution's aggregation, the same host operations
  on both sides (Proof/GcnBridge.lean); that reduces the equation to the product of the two normalized branches with the
  convolution weights, the array the kernel's seventh region leaves against the reference's product of the
  concatenation, which agrees too (Proof/ProductBridge.lean, Proof/ProductRef.lean).
-/
import proofs.«160607_j85856396247988_1_alg».proof.Defs
import proofs.«160607_j85856396247988_1_alg».proof.Proof.Gen.Pre_finite_inputs
import proofs.«160607_j85856396247988_1_alg».proof.Proof.KernelRun
import proofs.«160607_j85856396247988_1_alg».proof.Proof.RefRun
import proofs.«160607_j85856396247988_1_alg».proof.Proof.FinalBridge
import proofs.«160607_j85856396247988_1_alg».proof.Proof.GcnBridge
import proofs.«160607_j85856396247988_1_alg».proof.Proof.ProductRef
import proofs.«160607_j85856396247988_1_alg».proof.Proof.LowBridge2
import proofs.«160607_j85856396247988_1_alg».proof.Proof.HighBridge2
import proofs.«160607_j85856396247988_1_alg».proof.Proof.KernelChain
import proofs.«160607_j85856396247988_1_alg».proof.Proof.Lin3Array
import proofs.«160607_j85856396247988_1_alg».proof.Proof.Mix6Array
import proofs.«160607_j85856396247988_1_alg».proof.Proof.Stats5Ideal

noncomputable section

namespace Cert.Bridge

open Idealize.ShloMosaic Idealize.ShloMosaic.TcCoe Idealize.SL.Sem Idealize.ShloMosaic.StableHlo

/-- The convolution's product: what the reference forms from its two normalized branches and the convolution weights
    is the array the kernel's seventh region leaves. -/
theorem product_eq [hPre : Cert.Pre_finite_inputs.Facts]
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (hagree : Agree m m') (c : Dev Cert.KernelIdeal.nD) :
    Cert.ReferenceIdeal.Gcn.product
        (Cert.Bridge.Gcn.atConcat (launchContents m' c) (Proc.devRef .tc Cert.ReferenceIdeal.main_v85))
        (Cert.Bridge.Gcn.atConcat (launchContents m' c) (Proc.devRef .tc Cert.ReferenceIdeal.main_v42))
        (Cert.Bridge.Gcn.atConcat (launchContents m' c) (Proc.devRef .tc Cert.ReferenceIdeal.main_arg16))
      = Cert.KernelIdeal.Gen.V11 m ρ c Cert.KernelIdeal.main_v45 :=
  Cert.Bridge.Product.product_eq m ρ m' hpre hagree c

/-- The aggregated messages: what the reference's last stage finds in the scatter-add's buffer is what the kernel's
    last region finds in its first window. -/
theorem agg_eq [hPre : Cert.Pre_finite_inputs.Facts]
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (hagree : Agree m m') (c : Dev Cert.KernelIdeal.nD) :
    Cert.Bridge.Final.atLast (launchContents m' c) (Proc.devRef .tc Cert.ReferenceIdeal.main_v132)
      = Cert.KernelIdeal.Gen.V14 m ρ c Cert.KernelIdeal.main_v90 :=
  Cert.Bridge.Gcn.agg_of_product m ρ m' c (hagree c).2.2.2.1 (product_eq m ρ m' hpre hagree c)

/-- The kernel's result array, at the last boundary, holds what the reference's fold leaves in its result buffer. -/
theorem value_eq [hPre : Cert.Pre_finite_inputs.Facts]
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (hagree : Agree m m') (c : Dev Cert.KernelIdeal.nD) :
    after (Cert.ReferenceIdeal.Straight.ops (F := Ideal)) (launchContents m' c) (Proc.devRef .tc Cert.ReferenceIdeal.main_v141)
      = Cert.KernelIdeal.Gen.W15 m ρ c (Proc.devRef .tc Cert.KernelIdeal.main_v94) :=
  Cert.Bridge.Final.final_agree m ρ m' c (agg_eq m ρ m' hpre hagree c) (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2

end Cert.Bridge

end
-- ==== Proof.lean ====
/-
  The certificate: the Pallas implementation of the two-branch embedding network with one graph convolution against
  its jnp reference, over the extended reals.

  Both programs compute, for 50000 nodes: a batch normalization of the low-dimensional features and of the flattened
  covariance features (batch statistics over the nodes), a linear layer with relu and a second batch normalization on
  each branch, the concatenation of the two embeddings multiplied by the convolution weights, a symmetric-normalized
  aggregation over the edges with self loops, a bias, tanh, a linear classifier and a log-softmax.  The kernel splits
  this into eight pipelined regions: four that accumulate column sums and column sums of squares block by block, two
  that normalize, multiply and clamp, one that normalizes both branches and multiplies each by its half of the
  weights, and one that finishes from the aggregated messages.

  Frames: the two kernel programs' frames are the generated ones; the reference is a straight line of host
  operations (Proof/RefLine.lean, Proof/RefRun.lean) none of which writes an argument.  The idealization rewrote
  nothing, so `preserves` is trivial.  The value claim is read off the kernel's run at every buffer
  (Proof/KernelRun.lean).
-/
import proofs.«160607_j85856396247988_1_alg».proof.Defs
import proofs.«160607_j85856396247988_1_alg».proof.Proof.Gen.Kernel
import proofs.«160607_j85856396247988_1_alg».proof.Proof.Gen.Kernel.Frame
import proofs.«160607_j85856396247988_1_alg».proof.Proof.Gen.KernelIdeal
import proofs.«160607_j85856396247988_1_alg».proof.Proof.Gen.KernelIdeal.Frame
import proofs.«160607_j85856396247988_1_alg».proof.Proof.Gen.ReferenceIdeal
import proofs.«160607_j85856396247988_1_alg».proof.Proof.Gen.Pre_finite_inputs
import proofs.«160607_j85856396247988_1_alg».proof.Proof.KernelRun
import proofs.«160607_j85856396247988_1_alg».proof.Proof.RefRun
import proofs.«160607_j85856396247988_1_alg».proof.Proof.Value
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Straight.frame (F := Ideal) m ρ
theorem preserves : Cert.preserves_Kernel_KernelIdeal := trivial

/-- Both programs run; the kernel's result array ends at the last boundary's contents, the reference's result buffer
    at its fold, and the two are equal (`Cert.Bridge.value_eq`); neither writes an argument. -/
theorem algebraic : Cert.algebraic_KernelIdeal_ReferenceIdeal := by
  intro m ρ m' ρ' hpre hagree
  refine ⟨fun c => Cert.KernelIdeal.Gen.W15 m ρ c (Proc.devRef .tc Cert.KernelIdeal.main_v94), ?_, ?_⟩
  · refine (θ_run Cert.KernelIdeal.defs _ _).mono (fun r h c => ?_) (Cert.KernelIdeal.Whole.run_all (F := Ideal) m ρ)
    exact ⟨h c _ Cert.KernelIdeal.Whole.mem_result,
      (h c _ (Cert.KernelIdeal.Gen.mem_uc Cert.KernelIdeal.main_arg0 (by decide))).trans (Cert.KernelIdeal.Gen.W15_main_arg0 m ρ c),
      (h c _ (Cert.KernelIdeal.Gen.mem_uc Cert.KernelIdeal.main_arg1 (by decide))).trans (Cert.KernelIdeal.Gen.W15_main_arg1 m ρ c),
      (h c _ (Cert.KernelIdeal.Gen.mem_uc Cert.KernelIdeal.main_arg2 (by decide))).trans (Cert.KernelIdeal.Gen.W15_main_arg2 m ρ c),
      (h c _ (Cert.KernelIdeal.Gen.mem_uc Cert.KernelIdeal.main_arg3 (by decide))).trans (Cert.KernelIdeal.Gen.W15_main_arg3 m ρ c),
      (h c _ (Cert.KernelIdeal.Gen.mem_uc Cert.KernelIdeal.main_arg4 (by decide))).trans (Cert.KernelIdeal.Gen.W15_main_arg4 m ρ c),
      (h c _ (Cert.KernelIdeal.Gen.mem_uc Cert.KernelIdeal.main_arg5 (by decide))).trans (Cert.KernelIdeal.Gen.W15_main_arg5 m ρ c),
      (h c _ (Cert.KernelIdeal.Gen.mem_uc Cert.KernelIdeal.main_arg6 (by decide))).trans (Cert.KernelIdeal.Gen.W15_main_arg6 m ρ c),
      (h c _ (Cert.KernelIdeal.Gen.mem_uc Cert.KernelIdeal.main_arg7 (by decide))).trans (Cert.KernelIdeal.Gen.W15_main_arg7 m ρ c),
      (h c _ (Cert.KernelIdeal.Gen.mem_uc Cert.KernelIdeal.main_arg8 (by decide))).trans (Cert.KernelIdeal.Gen.W15_main_arg8 m ρ c),
      (h c _ (Cert.KernelIdeal.Gen.mem_uc Cert.KernelIdeal.main_arg9 (by decide))).trans (Cert.KernelIdeal.Gen.W15_main_arg9 m ρ c),
      (h c _ (Cert.KernelIdeal.Gen.mem_uc Cert.KernelIdeal.main_arg10 (by decide))).trans (Cert.KernelIdeal.Gen.W15_main_arg10 m ρ c),
      (h c _ (Cert.KernelIdeal.Gen.mem_uc Cert.KernelIdeal.main_arg11 (by decide))).trans (Cert.KernelIdeal.Gen.W15_main_arg11 m ρ c),
      (h c _ (Cert.KernelIdeal.Gen.mem_uc Cert.KernelIdeal.main_arg12 (by decide))).trans (Cert.KernelIdeal.Gen.W15_main_arg12 m ρ c),
      (h c _ (Cert.KernelIdeal.Gen.mem_uc Cert.KernelIdeal.main_arg13 (by decide))).trans (Cert.KernelIdeal.Gen.W15_main_arg13 m ρ c),
      (h c _ (Cert.KernelIdeal.Gen.mem_uc Cert.KernelIdeal.main_arg14 (by decide))).trans (Cert.KernelIdeal.Gen.W15_main_arg14 m ρ c),
      (h c _ (Cert.KernelIdeal.Gen.mem_uc Cert.KernelIdeal.main_arg15 (by decide))).trans (Cert.KernelIdeal.Gen.W15_main_arg15 m ρ c),
      (h c _ (Cert.KernelIdeal.Gen.mem_uc Cert.KernelIdeal.main_arg16 (by decide))).trans (Cert.KernelIdeal.Gen.W15_main_arg16 m ρ c),
      (h c _ (Cert.KernelIdeal.Gen.mem_uc Cert.KernelIdeal.main_arg17 (by decide))).trans (Cert.KernelIdeal.Gen.W15_main_arg17 m ρ c),
      (h c _ (Cert.KernelIdeal.Gen.mem_uc Cert.KernelIdeal.main_arg18 (by decide))).trans (Cert.KernelIdeal.Gen.W15_main_arg18 m ρ c),
      (h c _ (Cert.KernelIdeal.Gen.mem_uc Cert.KernelIdeal.main_arg19 (by decide))).trans (Cert.KernelIdeal.Gen.W15_main_arg19 m ρ c)⟩
  · refine (θ_run Cert.ReferenceIdeal.defs _ _).mono (fun r h c => ?_) (Cert.ReferenceIdeal.Straight.run_fold (F := Ideal) m' ρ')
    exact ⟨(h c Cert.ReferenceIdeal.main_v141).trans (Cert.Bridge.value_eq m ρ m' hpre hagree c),
      (h c Cert.ReferenceIdeal.main_arg0).trans (Cert.ReferenceIdeal.Straight.kept Cert.ReferenceIdeal.main_arg0 (by decide) (by decide) (by decide) (by decide) (by decide) (by decide) (by decide) (by decide) _),
      (h c Cert.ReferenceIdeal.main_arg1).trans (Cert.ReferenceIdeal.Straight.kept Cert.ReferenceIdeal.main_arg1 (by decide) (by decide) (by decide) (by decide) (by decide) (by decide) (by decide) (by decide) _),
      (h c Cert.ReferenceIdeal.main_arg2).trans (Cert.ReferenceIdeal.Straight.kept Cert.ReferenceIdeal.main_arg2 (by decide) (by decide) (by decide) (by decide) (by decide) (by decide) (by decide) (by decide) _),
      (h c Cert.ReferenceIdeal.main_arg3).trans (Cert.ReferenceIdeal.Straight.kept Cert.ReferenceIdeal.main_arg3 (by decide) (by decide) (by decide) (by decide) (by decide) (by decide) (by decide) (by decide) _),
      (h c Cert.ReferenceIdeal.main_arg4).trans (Cert.ReferenceIdeal.Straight.kept Cert.ReferenceIdeal.main_arg4 (by decide) (by decide) (by decide) (by decide) (by decide) (by decide) (by decide) (by decide) _),
      (h c Cert.ReferenceIdeal.main_arg5).trans (Cert.ReferenceIdeal.Straight.kept Cert.ReferenceIdeal.main_arg5 (by decide) (by decide) (by decide) (by decide) (by decide) (by decide) (by decide) (by decide) _),
      (h c Cert.ReferenceIdeal.main_arg6).trans (Cert.ReferenceIdeal.Straight.kept Cert.ReferenceIdeal.main_arg6 (by decide) (by decide) (by decide) (by decide) (by decide) (by decide) (by decide) (by decide) _),
      (h c Cert.ReferenceIdeal.main_arg7).trans (Cert.ReferenceIdeal.Straight.kept Cert.ReferenceIdeal.main_arg7 (by decide) (by decide) (by decide) (by decide) (by decide) (by decide) (by decide) (by decide) _),
      (h c Cert.ReferenceIdeal.main_arg8).trans (Cert.ReferenceIdeal.Straight.kept Cert.ReferenceIdeal.main_arg8 (by decide) (by decide) (by decide) (by decide) (by decide) (by decide) (by decide) (by decide) _),
      (h c Cert.ReferenceIdeal.main_arg9).trans (Cert.ReferenceIdeal.Straight.kept Cert.ReferenceIdeal.main_arg9 (by decide) (by decide) (by decide) (by decide) (by decide) (by decide) (by decide) (by decide) _),
      (h c Cert.ReferenceIdeal.main_arg10).trans (Cert.ReferenceIdeal.Straight.kept Cert.ReferenceIdeal.main_arg10 (by decide) (by decide) (by decide) (by decide) (by decide) (by decide) (by decide) (by decide) _),
      (h c Cert.ReferenceIdeal.main_arg11).trans (Cert.ReferenceIdeal.Straight.kept Cert.ReferenceIdeal.main_arg11 (by decide) (by decide) (by decide) (by decide) (by decide) (by decide) (by decide) (by decide) _),
      (h c Cert.ReferenceIdeal.main_arg12).trans (Cert.ReferenceIdeal.Straight.kept Cert.ReferenceIdeal.main_arg12 (by decide) (by decide) (by decide) (by decide) (by decide) (by decide) (by decide) (by decide) _),
      (h c Cert.ReferenceIdeal.main_arg13).trans (Cert.ReferenceIdeal.Straight.kept Cert.ReferenceIdeal.main_arg13 (by decide) (by decide) (by decide) (by decide) (by decide) (by decide) (by decide) (by decide) _),
      (h c Cert.ReferenceIdeal.main_arg14).trans (Cert.ReferenceIdeal.Straight.kept Cert.ReferenceIdeal.main_arg14 (by decide) (by decide) (by decide) (by decide) (by decide) (by decide) (by decide) (by decide) _),
      (h c Cert.ReferenceIdeal.main_arg15).trans (Cert.ReferenceIdeal.Straight.kept Cert.ReferenceIdeal.main_arg15 (by decide) (by decide) (by decide) (by decide) (by decide) (by decide) (by decide) (by decide) _),
      (h c Cert.ReferenceIdeal.main_arg16).trans (Cert.ReferenceIdeal.Straight.kept Cert.ReferenceIdeal.main_arg16 (by decide) (by decide) (by decide) (by decide) (by decide) (by decide) (by decide) (by decide) _),
      (h c Cert.ReferenceIdeal.main_arg17).trans (Cert.ReferenceIdeal.Straight.kept Cert.ReferenceIdeal.main_arg17 (by decide) (by decide) (by decide) (by decide) (by decide) (by decide) (by decide) (by decide) _),
      (h c Cert.ReferenceIdeal.main_arg18).trans (Cert.ReferenceIdeal.Straight.kept Cert.ReferenceIdeal.main_arg18 (by decide) (by decide) (by decide) (by decide) (by decide) (by decide) (by decide) (by decide) _),
      (h c Cert.ReferenceIdeal.main_arg19).trans (Cert.ReferenceIdeal.Straight.kept Cert.ReferenceIdeal.main_arg19 (by decide) (by decide) (by decide) (by decide) (by decide) (by decide) (by decide) (by decide) _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
